-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v85)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v85) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v107) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x9 : Shape := ⟨2, ![50000, 9]⟩
abbrev S2x800000 : Shape := ⟨2, ![2, 800000]⟩
abbrev S50000 : Shape := ⟨1, ![50000]⟩
abbrev S174x100 : Shape := ⟨2, ![174, 100]⟩
abbrev S100x100 : Shape := ⟨2, ![100, 100]⟩
abbrev S100 : Shape := ⟨1, ![100]⟩
abbrev S100x128 : Shape := ⟨2, ![100, 128]⟩
abbrev S128 : Shape := ⟨1, ![128]⟩
abbrev S_ : Shape := ⟨0, ![]⟩

class Facts : Prop where
  bcast_S_S174x100 : S_.BroadcastsInDim S174x100 (![] : Fin 0 → Fin S174x100.rank)
  reducesTo_S174x100_S_d0_1 : S174x100.ReducesTo [0, 1] S_
  h_S_ : 0 < S_.numel
  bcast_S_S100x100 : S_.BroadcastsInDim S100x100 (![] : Fin 0 → Fin S100x100.rank)
  reducesTo_S100x100_S_d0_1 : S100x100.ReducesTo [0, 1] S_
  bcast_S_S100 : S_.BroadcastsInDim S100 (![] : Fin 0 → Fin S100.rank)
  reducesTo_S100_S_d0 : S100.ReducesTo [0] S_
  bcast_S_S100x128 : S_.BroadcastsInDim S100x128 (![] : Fin 0 → Fin S100x128.rank)
  reducesTo_S100x128_S_d0_1 : S100x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_arg7 : FVec F S100 .f32) (main_arg8 : FVec F S100x128 .f32) (main_arg9 : FVec F S128 .f32) (main_v13 : IVec S_ 1) (main_v16 : IVec S100x100 1) : IVec S_ 1 :=
  let main_c_5 : IVec S_ 1 := constantI S_ 1 1#1
  let main_v17 : IVec S_ 1 := (fun x v => Host.reduce IntOp.andi x v reducesTo_S100x100_S_d0_1 h_S_) main_v16 main_c_5
  let main_v18 : IVec S_ 1 := andi main_v13 main_v17
  let main_v19 : FVec F S100 .f32 := Host.absf main_arg7
  let main_cst_6 : FVec F S_ .f32 := constant S_ .f32 0x7F800000#32
  let main_v20 : FVec F S100 .f32 := broadcastInDim S100 ![] bcast_S_S100 main_cst_6
  let main_v21 : IVec S100 1 := cmpf .olt main_v19 main_v20
  let main_c_7 : IVec S_ 1 := constantI S_ 1 1#1
  let main_v22 : IVec S_ 1 := (fun x v => Host.reduce IntOp.andi x v reducesTo_S100_S_d0 h_S_) main_v21 main_c_7
  let main_v23 : IVec S_ 1 := andi main_v18 main_v22
  let main_v24 : FVec F S100x128 .f32 := Host.absf main_arg8
  let main_cst_8 : FVec F S_ .f32 := constant S_ .f32 0x7F800000#32
  let main_v25 : FVec F S100x128 .f32 := broadcastInDim S100x128 ![] bcast_S_S100x128 main_cst_8
  let main_v26 : IVec S100x128 1 := cmpf .olt main_v24 main_v25
  let main_c_9 : IVec S_ 1 := constantI S_ 1 1#1
  let main_v27 : IVec S_ 1 := (fun x v => Host.reduce IntOp.andi x v reducesTo_S100x128_S_d0_1 h_S_) main_v26 main_c_9
  let main_v28 : IVec S_ 1 := andi main_v23 main_v27
  let main_v29 : FVec F S128 .f32 := Host.absf main_arg9
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  main_v33

def fn {F : FTy → Type} [FloatOps F] (main_arg0 : IVec S50000x9 32) (main_arg1 : IVec S2x800000 32) (main_arg2 : IVec S50000 32) (main_arg3 : FVec F S174x100 .f32) (main_arg4 : FVec F S100x100 .f32) (main_arg5 : FVec F S100 .f32) (main_arg6 : FVec F S100x100 .f32) (main_arg7 : FVec F S100 .f32) (main_arg8 : FVec F S100x128 .f32) (main_arg9 : FVec F S128 .f32) : IVec S_ 1 :=
  let main_v0 : FVec F S174x100 .f32 := Host.absf main_arg3
  let main_cst : FVec F S_ .f32 := constant S_ .f32 0x7F800000#32
  let main_v1 : FVec F S174x100 .f32 := broadcastInDim S174x100 ![] bcast_S_S174x100 main_cst
  let main_v2 : IVec S174x100 1 := cmpf .olt main_v0 main_v1
  let main_c : IVec S_ 1 := constantI S_ 1 1#1
  let main_v3 : IVec S_ 1 := (fun x v => Host.reduce IntOp.andi x v reducesTo_S174x100_S_d0_1 h_S_) main_v2 main_c
  let main_v4 : FVec F S100x100 .f32 := Host.absf main_arg4
  let main_cst_0 : FVec F S_ .f32 := constant S_ .f32 0x7F800000#32
  let main_v5 : FVec F S100x100 .f32 := broadcastInDim S100x100 ![] bcast_S_S100x100 main_cst_0
  let main_v6 : IVec S100x100 1 := cmpf .olt main_v4 main_v5
  let main_c_1 : IVec S_ 1 := constantI S_ 1 1#1
  let main_v7 : IVec S_ 1 := (fun x v => Host.reduce IntOp.andi x v reducesTo_S100x100_S_d0_1 h_S_) main_v6 main_c_1
  let main_v8 : IVec S_ 1 := andi main_v3 main_v7
  let main_v9 : FVec F S100 .f32 := Host.absf main_arg5
  let main_cst_2 : FVec F S_ .f32 := constant S_ .f32 0x7F800000#32
  let main_v10 : FVec F S100 .f32 := broadcastInDim S100 ![] bcast_S_S100 main_cst_2
  let main_v11 : IVec S100 1 := cmpf .olt main_v9 main_v10
  let main_c_3 : IVec S_ 1 := constantI S_ 1 1#1
  let main_v12 : IVec S_ 1 := (fun x v => Host.reduce IntOp.andi x v reducesTo_S100_S_d0 h_S_) main_v11 main_c_3
  let main_v13 : IVec S_ 1 := andi main_v8 main_v12
  let main_v14 : FVec F S100x100 .f32 := Host.absf main_arg6
  let main_cst_4 : FVec F S_ .f32 := constant S_ .f32 0x7F800000#32
  let main_v15 : FVec F S100x100 .f32 := broadcastInDim S100x100 ![] bcast_S_S100x100 main_cst_4
  let main_v16 : IVec S100x100 1 := cmpf .olt main_v14 main_v15
  fn_part1 (F := F) main_arg7 main_arg8 main_arg9 main_v13 main_v16
-- ==== Kernel.lean ====
abbrev S50000x9 : Shape := ⟨2, ![50000, 9]⟩
abbrev S2x800000 : Shape := ⟨2, ![2, 800000]⟩
abbrev S50000 : Shape := ⟨1, ![50000]⟩
abbrev S174x100 : Shape := ⟨2, ![174, 100]⟩
abbrev S100x100 : Shape := ⟨2, ![100, 100]⟩
abbrev S100 : Shape := ⟨1, ![100]⟩
abbrev S100x128 : Shape := ⟨2, ![100, 128]⟩
abbrev S128 : Shape := ⟨1, ![128]⟩
abbrev S9 : Shape := ⟨1, ![9]⟩
abbrev S1x9 : Shape := ⟨2, ![1, 9]⟩
abbrev S_ : Shape := ⟨0, ![]⟩
abbrev S50000x9x1 : Shape := ⟨3, ![50000, 9, 1]⟩
abbrev S1 : Shape := ⟨1, ![1]⟩
abbrev S1x1x1 : Shape := ⟨3, ![1, 1, 1]⟩
abbrev S50000x9x100 : Shape := ⟨3, ![50000, 9, 100]⟩
abbrev S50000x100 : Shape := ⟨2, ![50000, 100]⟩
abbrev S1x800000 : Shape := ⟨2, ![1, 800000]⟩
abbrev S800000 : Shape := ⟨1, ![800000]⟩
abbrev S850000 : Shape := ⟨1, ![850000]⟩
abbrev S850000x1 : Shape := ⟨2, ![850000, 1]⟩
abbrev S50000x1 : Shape := ⟨2, ![50000, 1]⟩
abbrev S1x100 : Shape := ⟨2, ![1, 100]⟩
abbrev S5000x100 : Shape := ⟨2, ![5000, 100]⟩
abbrev S850000x100 : Shape := ⟨2, ![850000, 100]⟩
abbrev S10000x100 : Shape := ⟨2, ![10000, 100]⟩
abbrev S10000x1 : Shape := ⟨2, ![10000, 1]⟩
abbrev S2000 : Shape := ⟨1, ![2000]⟩
abbrev S2000x1 : Shape := ⟨2, ![2000, 1]⟩
abbrev S2000x100 : Shape := ⟨2, ![2000, 100]⟩
abbrev S1x128 : Shape := ⟨2, ![1, 128]⟩
abbrev S2000x128 : Shape := ⟨2, ![2000, 128]⟩

abbrev nBuf : Space → Nat
  | .hbm => 144
  | .vmem => 42
  | .smem => 0
  | _ => 0

abbrev hbmTy0_0 (i : Nat) : BufTy := match i % 128 with
  | 0 => ⟨S50000x9, .i32⟩
  | 1 => ⟨S2x800000, .i32⟩
  | 2 => ⟨S50000, .i32⟩
  | 3 => ⟨S174x100, .f32⟩
  | 4 => ⟨S100x100, .f32⟩
  | 5 => ⟨S100, .f32⟩
  | 6 => ⟨S100x100, .f32⟩
  | 7 => ⟨S100, .f32⟩
  | 8 => ⟨S100x128, .f32⟩
  | 9 => ⟨S128, .f32⟩
  | 10 => ⟨S9, .i32⟩
  | 11 => ⟨S1x9, .i32⟩
  | 12 => ⟨S50000x9, .i32⟩
  | 13 => ⟨S50000x9, .i32⟩
  | 14 => ⟨S_, .i32⟩
  | 15 => ⟨S50000x9, .i32⟩
  | 16 => ⟨S50000x9, .i1⟩
  | 17 => ⟨S_, .i32⟩
  | 18 => ⟨S50000x9, .i32⟩
  | 19 => ⟨S50000x9, .i32⟩
  | 20 => ⟨S50000x9, .i32⟩
  | 21 => ⟨S50000x9x1, .i32⟩
  | 22 => ⟨S1, .i32⟩
  | 23 => ⟨S_, .i32⟩
  | 24 => ⟨S50000x9x1, .i32⟩
  | 25 => ⟨S50000x9x1, .i1⟩
  | 26 => ⟨S1x1x1, .i32⟩
  | 27 => ⟨S50000x9x1, .i32⟩
  | 28 => ⟨S50000x9x1, .i1⟩
  | 29 => ⟨S50000x9x1, .i1⟩
  | 30 => ⟨S_, .i1⟩
  | 31 => ⟨S50000x9, .i1⟩
  | 32 => ⟨S50000x9x100, .f32⟩
  | 33 => ⟨S50000x9x100, .i1⟩
  | 34 => ⟨S_, .f32⟩
  | 35 => ⟨S50000x9x100, .f32⟩
  | 36 => ⟨S50000x9x100, .f32⟩
  | 37 => ⟨S_, .f32⟩
  | 38 => ⟨S50000x100, .f32⟩
  | 39 => ⟨S50000, .i32⟩
  | 40 => ⟨S1x800000, .i32⟩
  | 41 => ⟨S800000, .i32⟩
  | 42 => ⟨S850000, .i32⟩
  | 43 => ⟨S1x800000, .i32⟩
  | 44 => ⟨S800000, .i32⟩
  | 45 => ⟨S850000, .i32⟩
  | 46 => ⟨S_, .f32⟩
  | 47 => ⟨S850000, .f32⟩
  | 48 => ⟨S_, .f32⟩
  | 49 => ⟨S50000, .f32⟩
  | 50 => ⟨S850000x1, .i32⟩
  | 51 => ⟨S50000, .f32⟩
  | 52 => ⟨S_, .f32⟩
  | 53 => ⟨S50000, .f32⟩
  | 54 => ⟨S50000, .i1⟩
  | 55 => ⟨S_, .f32⟩
  | 56 => ⟨S50000, .f32⟩
  | 57 => ⟨S50000, .f32⟩
  | 58 => ⟨S_, .f32⟩
  | 59 => ⟨S_, .f32⟩
  | 60 => ⟨S50000, .f32⟩
  | 61 => ⟨S50000, .f32⟩
  | 62 => ⟨S_, .i32⟩
  | 63 => ⟨S850000, .i32⟩
  | 64 => ⟨S850000, .i1⟩
  | 65 => ⟨S_, .i32⟩
  | 66 => ⟨S850000, .i32⟩
  | 67 => ⟨S850000, .i32⟩
  | 68 => ⟨S850000, .i32⟩
  | 69 => ⟨S850000x1, .i32⟩
  | 70 => ⟨S850000, .f32⟩
  | 71 => ⟨S_, .i32⟩
  | 72 => ⟨S850000, .i32⟩
  | 73 => ⟨S850000, .i1⟩
  | 74 => ⟨S_, .i32⟩
  | 75 => ⟨S850000, .i32⟩
  | 76 => ⟨S850000, .i32⟩
  | 77 => ⟨S850000, .i32⟩
  | 78 => ⟨S850000x1, .i32⟩
  | 79 => ⟨S850000, .f32⟩
  | 80 => ⟨S850000, .f32⟩
  | 81 => ⟨S850000x1, .f32⟩
  | 82 => ⟨S_, .f32⟩
  | 83 => ⟨S50000, .f32⟩
  | 84 => ⟨S50000, .f32⟩
  | 85 => ⟨S50000x1, .f32⟩
  | 86 => ⟨S_, .f32⟩
  | 87 => ⟨S100, .f32⟩
  | 88 => ⟨S1x100, .f32⟩
  | 89 => ⟨S50000x100, .f32⟩
  | 90 => ⟨S_, .i32⟩
  | 91 => ⟨S850000, .i32⟩
  | 92 => ⟨S850000, .i1⟩
  | 93 => ⟨S_, .i32⟩
  | 94 => ⟨S850000, .i32⟩
  | 95 => ⟨S850000, .i32⟩
  | 96 => ⟨S850000, .i32⟩
  | 97 => ⟨S850000x1, .i32⟩
  | 98 => ⟨S850000x100, .f32⟩
  | 99 => ⟨S850000x100, .f32⟩
  | 100 => ⟨S_, .f32⟩
  | 101 => ⟨S50000x100, .f32⟩
  | 102 => ⟨S850000x1, .i32⟩
  | 103 => ⟨S50000x100, .f32⟩
  | 104 => ⟨S1x100, .f32⟩
  | 105 => ⟨S50000x100, .f32⟩
  | 106 => ⟨S_, .f32⟩
  | 107 => ⟨S100, .f32⟩
  | 108 => ⟨S1x100, .f32⟩
  | 109 => ⟨S50000x100, .f32⟩
  | 110 => ⟨S_, .i32⟩
  | 111 => ⟨S850000, .i32⟩
  | 112 => ⟨S850000, .i1⟩
  | 113 => ⟨S_, .i32⟩
  | 114 => ⟨S850000, .i32⟩
  | 115 => ⟨S850000, .i32⟩
  | 116 => ⟨S850000, .i32⟩
  | 117 => ⟨S850000x1, .i32⟩
  | 118 => ⟨S850000x100, .f32⟩
  | 119 => ⟨S850000x100, .f32⟩
  | 120 => ⟨S_, .f32⟩
  | 121 => ⟨S50000x100, .f32⟩
  | 122 => ⟨S850000x1, .i32⟩
  | 123 => ⟨S50000x100, .f32⟩
  | 124 => ⟨S1x100, .f32⟩
  | 125 => ⟨S50000x100, .f32⟩
  | 126 => ⟨S_, .f32⟩
  | 127 => ⟨S50000, .f32⟩
  | _ => ⟨S50000x9, .i32⟩

abbrev hbmTy0_1 (i : Nat) : BufTy := match i % 128 with
  | 0 => ⟨S_, .f32⟩
  | 1 => ⟨S2000, .f32⟩
  | 2 => ⟨S50000x1, .i32⟩
  | 3 => ⟨S2000, .f32⟩
  | 4 => ⟨S2000x1, .f32⟩
  | 5 => ⟨S_, .f32⟩
  | 6 => ⟨S2000x100, .f32⟩
  | 7 => ⟨S50000x1, .i32⟩
  | 8 => ⟨S2000x100, .f32⟩
  | 9 => ⟨S_, .f32⟩
  | 10 => ⟨S2000x1, .f32⟩
  | 11 => ⟨S2000x1, .f32⟩
  | 12 => ⟨S2000x100, .f32⟩
  | 13 => ⟨S2000x100, .f32⟩
  | 14 => ⟨S1x128, .f32⟩
  | 15 => ⟨S2000x128, .f32⟩
  | _ => ⟨S50000x9, .i32⟩

abbrev hbmTy (i : Nat) : BufTy := match i / 128 with
  | 0 => hbmTy0_0 i
  | 1 => hbmTy0_1 i
  | _ => ⟨S50000x9, .i32⟩

abbrev bufTy : (tb : Table) → Fin (tcTables nBuf tb) → BufTy
  | .hbm, ⟨i, _⟩ => hbmTy i
  | .local _ .vmem, ⟨0, _⟩ => ⟨S5000x100, .f32⟩
  | .local _ .vmem, ⟨1, _⟩ => ⟨S5000x100, .f32⟩
  | .local _ .vmem, ⟨2, _⟩ => ⟨S100x100, .f32⟩
  | .local _ .vmem, ⟨3, _⟩ => ⟨S1x100, .f32⟩
  | .local _ .vmem, ⟨4, _⟩ => ⟨S5000x100, .f32⟩
  | .local _ .vmem, ⟨5, _⟩ => ⟨S5000x100, .f32⟩
  | .local _ .vmem, ⟨6, _⟩ => ⟨S10000x100, .f32⟩
  | .local _ .vmem, ⟨7, _⟩ => ⟨S10000x100, .f32⟩
  | .local _ .vmem, ⟨8, _⟩ => ⟨S10000x1, .f32⟩
  | .local _ .vmem, ⟨9, _⟩ => ⟨S10000x1, .f32⟩
  | .local _ .vmem, ⟨10, _⟩ => ⟨S10000x100, .f32⟩
  | .local _ .vmem, ⟨11, _⟩ => ⟨S10000x100, .f32⟩
  | .local _ .vmem, ⟨12, _⟩ => ⟨S10000x100, .f32⟩
  | .local _ .vmem, ⟨13, _⟩ => ⟨S10000x100, .f32⟩
  | .local _ .vmem, ⟨14, _⟩ => ⟨S10000x1, .f32⟩
  | .local _ .vmem, ⟨15, _⟩ => ⟨S10000x1, .f32⟩
  | .local _ .vmem, ⟨16, _⟩ => ⟨S1x100, .f32⟩
  | .local _ .vmem, ⟨17, _⟩ => ⟨S10000x100, .f32⟩
  | .local _ .vmem, ⟨18, _⟩ => ⟨S10000x100, .f32⟩
  | .local _ .vmem, ⟨19, _⟩ => ⟨S5000x100, .f32⟩
  | .local _ .vmem, ⟨20, _⟩ => ⟨S5000x100, .f32⟩
  | .local _ .vmem, ⟨21, _⟩ => ⟨S100x100, .f32⟩
  | .local _ .vmem, ⟨22, _⟩ => ⟨S1x100, .f32⟩
  | .local _ .vmem, ⟨23, _⟩ => ⟨S5000x100, .f32⟩
  | .local _ .vmem, ⟨24, _⟩ => ⟨S5000x100, .f32⟩
  | .local _ .vmem, ⟨25, _⟩ => ⟨S10000x100, .f32⟩
  | .local _ .vmem, ⟨26, _⟩ => ⟨S10000x100, .f32⟩
  | .local _ .vmem, ⟨27, _⟩ => ⟨S10000x1, .f32⟩
  | .local _ .vmem, ⟨28, _⟩ => ⟨S10000x1, .f32⟩
  | .local _ .vmem, ⟨29, _⟩ => ⟨S10000x100, .f32⟩
  | .local _ .vmem, ⟨30, _⟩ => ⟨S10000x100, .f32⟩
  | .local _ .vmem, ⟨31, _⟩ => ⟨S10000x100, .f32⟩
  | .local _ .vmem, ⟨32, _⟩ => ⟨S10000x100, .f32⟩
  | .local _ .vmem, ⟨33, _⟩ => ⟨S10000x1, .f32⟩
  | .local _ .vmem, ⟨34, _⟩ => ⟨S10000x1, .f32⟩
  | .local _ .vmem, ⟨35, _⟩ => ⟨S1x100, .f32⟩
  | .local _ .vmem, ⟨36, _⟩ => ⟨S10000x100, .f32⟩
  | .local _ .vmem, ⟨37, _⟩ => ⟨S10000x100, .f32⟩
  | .local _ .vmem, ⟨38, _⟩ => ⟨S2000x100, .f32⟩
  | .local _ .vmem, ⟨39, _⟩ => ⟨S100x128, .f32⟩
  | .local _ .vmem, ⟨40, _⟩ => ⟨S1x128, .f32⟩
  | .local _ .vmem, ⟨41, _⟩ => ⟨S2000x128, .f32⟩
  | _, _ => ⟨S50000x9, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | _, _ => false

abbrev semScoped : Fin 0 → Bool
  | ⟨_, h⟩ => absurd h (Nat.not_lt_zero _)

abbrev dmaSemScoped : Fin 42 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | _ => false

abbrev sig : RefSig :=
  ofTc nBuf bufTy 0 42 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_c : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_call0_c : Ref sig .tc := ⟨.hbm, 14, rfl⟩
abbrev main_call0_v0 : Ref sig .tc := ⟨.hbm, 15, rfl⟩
abbrev main_call0_v1 : Ref sig .tc := ⟨.hbm, 16, rfl⟩
abbrev main_call0_c_0 : Ref sig .tc := ⟨.hbm, 17, rfl⟩
abbrev main_call0_v2 : Ref sig .tc := ⟨.hbm, 18, rfl⟩
abbrev main_call0_v3 : Ref sig .tc := ⟨.hbm, 19, rfl⟩
abbrev main_call0_v4 : Ref sig .tc := ⟨.hbm, 20, rfl⟩
abbrev main_call0_v5 : Ref sig .tc := ⟨.hbm, 21, rfl⟩
abbrev main_call0_c_1 : Ref sig .tc := ⟨.hbm, 22, rfl⟩
abbrev main_call0_c_2 : Ref sig .tc := ⟨.hbm, 23, rfl⟩
abbrev main_call0_v6 : Ref sig .tc := ⟨.hbm, 24, rfl⟩
abbrev main_call0_v7 : Ref sig .tc := ⟨.hbm, 25, rfl⟩
abbrev main_call0_v8 : Ref sig .tc := ⟨.hbm, 26, rfl⟩
abbrev main_call0_v9 : Ref sig .tc := ⟨.hbm, 27, rfl⟩
abbrev main_call0_v10 : Ref sig .tc := ⟨.hbm, 28, rfl⟩
abbrev main_call0_v11 : Ref sig .tc := ⟨.hbm, 29, rfl⟩
abbrev main_call0_c_3 : Ref sig .tc := ⟨.hbm, 30, rfl⟩
abbrev main_call0_v12 : Ref sig .tc := ⟨.hbm, 31, rfl⟩
abbrev main_call0_v13 : Ref sig .tc := ⟨.hbm, 32, rfl⟩
abbrev main_call0_v14 : Ref sig .tc := ⟨.hbm, 33, rfl⟩
abbrev main_call0_cst : Ref sig .tc := ⟨.hbm, 34, rfl⟩
abbrev main_call0_v15 : Ref sig .tc := ⟨.hbm, 35, rfl⟩
abbrev main_v3 : Ref sig .tc := ⟨.hbm, 36, rfl⟩
abbrev main_cst : Ref sig .tc := ⟨.hbm, 37, rfl⟩
abbrev main_v4 : Ref sig .tc := ⟨.hbm, 38, rfl⟩
abbrev main_v5 : Ref sig .tc := ⟨.hbm, 39, rfl⟩
abbrev main_v6 : Ref sig .tc := ⟨.hbm, 40, rfl⟩
abbrev main_v7 : Ref sig .tc := ⟨.hbm, 41, rfl⟩
abbrev main_v8 : Ref sig .tc := ⟨.hbm, 42, rfl⟩
abbrev main_v9 : Ref sig .tc := ⟨.hbm, 43, rfl⟩
abbrev main_v10 : Ref sig .tc := ⟨.hbm, 44, rfl⟩
abbrev main_v11 : Ref sig .tc := ⟨.hbm, 45, rfl⟩
abbrev main_cst_0 : Ref sig .tc := ⟨.hbm, 46, rfl⟩
abbrev main_v12 : Ref sig .tc := ⟨.hbm, 47, rfl⟩
abbrev main_cst_1 : Ref sig .tc := ⟨.hbm, 48, rfl⟩
abbrev main_v13 : Ref sig .tc := ⟨.hbm, 49, rfl⟩
abbrev main_v14 : Ref sig .tc := ⟨.hbm, 50, rfl⟩
abbrev main_v15 : Ref sig .tc := ⟨.hbm, 51, rfl⟩
abbrev main_cst_2 : Ref sig .tc := ⟨.hbm, 52, rfl⟩
abbrev main_v16 : Ref sig .tc := ⟨.hbm, 53, rfl⟩
abbrev main_v17 : Ref sig .tc := ⟨.hbm, 54, rfl⟩
abbrev main_cst_3 : Ref sig .tc := ⟨.hbm, 55, rfl⟩
abbrev main_v18 : Ref sig .tc := ⟨.hbm, 56, rfl⟩
abbrev main_v19 : Ref sig .tc := ⟨.hbm, 57, rfl⟩
abbrev main_cst_4 : Ref sig .tc := ⟨.hbm, 58, rfl⟩
abbrev main_call1_v0 : Ref sig .tc := ⟨.hbm, 59, rfl⟩
abbrev main_call1_v1 : Ref sig .tc := ⟨.hbm, 60, rfl⟩
abbrev main_v20 : Ref sig .tc := ⟨.hbm, 61, rfl⟩
abbrev main_c_5 : Ref sig .tc := ⟨.hbm, 62, rfl⟩
abbrev main_v21 : Ref sig .tc := ⟨.hbm, 63, rfl⟩
abbrev main_v22 : Ref sig .tc := ⟨.hbm, 64, rfl⟩
abbrev main_c_6 : Ref sig .tc := ⟨.hbm, 65, rfl⟩
abbrev main_v23 : Ref sig .tc := ⟨.hbm, 66, rfl⟩
abbrev main_v24 : Ref sig .tc := ⟨.hbm, 67, rfl⟩
abbrev main_v25 : Ref sig .tc := ⟨.hbm, 68, rfl⟩
abbrev main_v26 : Ref sig .tc := ⟨.hbm, 69, rfl⟩
abbrev main_v27 : Ref sig .tc := ⟨.hbm, 70, rfl⟩
abbrev main_c_7 : Ref sig .tc := ⟨.hbm, 71, rfl⟩
abbrev main_v28 : Ref sig .tc := ⟨.hbm, 72, rfl⟩
abbrev main_v29 : Ref sig .tc := ⟨.hbm, 73, rfl⟩
abbrev main_c_8 : Ref sig .tc := ⟨.hbm, 74, rfl⟩
abbrev main_v30 : Ref sig .tc := ⟨.hbm, 75, rfl⟩
abbrev main_v31 : Ref sig .tc := ⟨.hbm, 76, rfl⟩
abbrev main_v32 : Ref sig .tc := ⟨.hbm, 77, rfl⟩
abbrev main_v33 : Ref sig .tc := ⟨.hbm, 78, rfl⟩
abbrev main_v34 : Ref sig .tc := ⟨.hbm, 79, rfl⟩
abbrev main_v35 : Ref sig .tc := ⟨.hbm, 80, rfl⟩
abbrev main_v36 : Ref sig .tc := ⟨.hbm, 81, rfl⟩
abbrev main_cst_9 : Ref sig .tc := ⟨.hbm, 82, rfl⟩
abbrev main_v37 : Ref sig .tc := ⟨.hbm, 83, rfl⟩
abbrev main_v38 : Ref sig .tc := ⟨.hbm, 84, rfl⟩
abbrev main_v39 : Ref sig .tc := ⟨.hbm, 85, rfl⟩
abbrev main_cst_10 : Ref sig .tc := ⟨.hbm, 86, rfl⟩
abbrev main_v40 : Ref sig .tc := ⟨.hbm, 87, rfl⟩
abbrev main_v41 : Ref sig .tc := ⟨.hbm, 88, rfl⟩
abbrev main_v42 : Ref sig .tc := ⟨.hbm, 89, rfl⟩
abbrev main_c_11 : Ref sig .tc := ⟨.hbm, 90, rfl⟩
abbrev main_v43 : Ref sig .tc := ⟨.hbm, 91, rfl⟩
abbrev main_v44 : Ref sig .tc := ⟨.hbm, 92, rfl⟩
abbrev main_c_12 : Ref sig .tc := ⟨.hbm, 93, rfl⟩
abbrev main_v45 : Ref sig .tc := ⟨.hbm, 94, rfl⟩
abbrev main_v46 : Ref sig .tc := ⟨.hbm, 95, rfl⟩
abbrev main_v47 : Ref sig .tc := ⟨.hbm, 96, rfl⟩
abbrev main_v48 : Ref sig .tc := ⟨.hbm, 97, rfl⟩
abbrev main_v49 : Ref sig .tc := ⟨.hbm, 98, rfl⟩
abbrev main_v50 : Ref sig .tc := ⟨.hbm, 99, rfl⟩
abbrev main_cst_13 : Ref sig .tc := ⟨.hbm, 100, rfl⟩
abbrev main_v51 : Ref sig .tc := ⟨.hbm, 101, rfl⟩
abbrev main_v52 : Ref sig .tc := ⟨.hbm, 102, rfl⟩
abbrev main_v53 : Ref sig .tc := ⟨.hbm, 103, rfl⟩
abbrev main_v54 : Ref sig .tc := ⟨.hbm, 104, rfl⟩
abbrev main_v55 : Ref sig .tc := ⟨.hbm, 105, rfl⟩
abbrev main_cst_14 : Ref sig .tc := ⟨.hbm, 106, rfl⟩
abbrev main_v56 : Ref sig .tc := ⟨.hbm, 107, rfl⟩
abbrev main_v57 : Ref sig .tc := ⟨.hbm, 108, rfl⟩
abbrev main_v58 : Ref sig .tc := ⟨.hbm, 109, rfl⟩
abbrev main_c_15 : Ref sig .tc := ⟨.hbm, 110, rfl⟩
abbrev main_v59 : Ref sig .tc := ⟨.hbm, 111, rfl⟩
abbrev main_v60 : Ref sig .tc := ⟨.hbm, 112, rfl⟩
abbrev main_c_16 : Ref sig .tc := ⟨.hbm, 113, rfl⟩
abbrev main_v61 : Ref sig .tc := ⟨.hbm, 114, rfl⟩
abbrev main_v62 : Ref sig .tc := ⟨.hbm, 115, rfl⟩
abbrev main_v63 : Ref sig .tc := ⟨.hbm, 116, rfl⟩
abbrev main_v64 : Ref sig .tc := ⟨.hbm, 117, rfl⟩
abbrev main_v65 : Ref sig .tc := ⟨.hbm, 118, rfl⟩
abbrev main_v66 : Ref sig .tc := ⟨.hbm, 119, rfl⟩
abbrev main_cst_17 : Ref sig .tc := ⟨.hbm, 120, rfl⟩
abbrev main_v67 : Ref sig .tc := ⟨.hbm, 121, rfl⟩
abbrev main_v68 : Ref sig .tc := ⟨.hbm, 122, rfl⟩
abbrev main_v69 : Ref sig .tc := ⟨.hbm, 123, rfl⟩
abbrev main_v70 : Ref sig .tc := ⟨.hbm, 124, rfl⟩
abbrev main_v71 : Ref sig .tc := ⟨.hbm, 125, rfl⟩
abbrev main_cst_18 : Ref sig .tc := ⟨.hbm, 126, rfl⟩
abbrev main_v72 : Ref sig .tc := ⟨.hbm, 127, rfl⟩
abbrev main_cst_19 : Ref sig .tc := ⟨.hbm, 128, rfl⟩
abbrev main_v73 : Ref sig .tc := ⟨.hbm, 129, rfl⟩
abbrev main_v74 : Ref sig .tc := ⟨.hbm, 130, rfl⟩
abbrev main_v75 : Ref sig .tc := ⟨.hbm, 131, rfl⟩
abbrev main_v76 : Ref sig .tc := ⟨.hbm, 132, rfl⟩
abbrev main_cst_20 : Ref sig .tc := ⟨.hbm, 133, rfl⟩
abbrev main_v77 : Ref sig .tc := ⟨.hbm, 134, rfl⟩
abbrev main_v78 : Ref sig .tc := ⟨.hbm, 135, rfl⟩
abbrev main_v79 : Ref sig .tc := ⟨.hbm, 136, rfl⟩
abbrev main_cst_21 : Ref sig .tc := ⟨.hbm, 137, rfl⟩
abbrev main_v80 : Ref sig .tc := ⟨.hbm, 138, rfl⟩
abbrev main_v81 : Ref sig .tc := ⟨.hbm, 139, rfl⟩
abbrev main_v82 : Ref sig .tc := ⟨.hbm, 140, rfl⟩
abbrev main_v83 : Ref sig .tc := ⟨.hbm, 141, rfl⟩
abbrev main_v84 : Ref sig .tc := ⟨.hbm, 142, rfl⟩
abbrev main_v85 : Ref sig .tc := ⟨.hbm, 143, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg2_1 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc2_stg1_1 : Ref sig .tc := ⟨.vmem, 15, rfl⟩
abbrev cc2_stg2_0 : Ref sig .tc := ⟨.vmem, 16, rfl⟩
abbrev cc2_stg3_0 : Ref sig .tc := ⟨.vmem, 17, rfl⟩
abbrev cc2_stg3_1 : Ref sig .tc := ⟨.vmem, 18, rfl⟩
abbrev cc3_stg0_0 : Ref sig .tc := ⟨.vmem, 19, rfl⟩
abbrev cc3_stg0_1 : Ref sig .tc := ⟨.vmem, 20, rfl⟩
abbrev cc3_stg1_0 : Ref sig .tc := ⟨.vmem, 21, rfl⟩
abbrev cc3_stg2_0 : Ref sig .tc := ⟨.vmem, 22, rfl⟩
abbrev cc3_stg3_0 : Ref sig .tc := ⟨.vmem, 23, rfl⟩
abbrev cc3_stg3_1 : Ref sig .tc := ⟨.vmem, 24, rfl⟩
abbrev cc4_stg0_0 : Ref sig .tc := ⟨.vmem, 25, rfl⟩
abbrev cc4_stg0_1 : Ref sig .tc := ⟨.vmem, 26, rfl⟩
abbrev cc4_stg1_0 : Ref sig .tc := ⟨.vmem, 27, rfl⟩
abbrev cc4_stg1_1 : Ref sig .tc := ⟨.vmem, 28, rfl⟩
abbrev cc4_stg2_0 : Ref sig .tc := ⟨.vmem, 29, rfl⟩
abbrev cc4_stg2_1 : Ref sig .tc := ⟨.vmem, 30, rfl⟩
abbrev cc5_stg0_0 : Ref sig .tc := ⟨.vmem, 31, rfl⟩
abbrev cc5_stg0_1 : Ref sig .tc := ⟨.vmem, 32, rfl⟩
abbrev cc5_stg1_0 : Ref sig .tc := ⟨.vmem, 33, rfl⟩
abbrev cc5_stg1_1 : Ref sig .tc := ⟨.vmem, 34, rfl⟩
abbrev cc5_stg2_0 : Ref sig .tc := ⟨.vmem, 35, rfl⟩
abbrev cc5_stg3_0 : Ref sig .tc := ⟨.vmem, 36, rfl⟩
abbrev cc5_stg3_1 : Ref sig .tc := ⟨.vmem, 37, rfl⟩
abbrev cc6_stg0_0 : Ref sig .tc := ⟨.vmem, 38, rfl⟩
abbrev cc6_stg1_0 : Ref sig .tc := ⟨.vmem, 39, rfl⟩
abbrev cc6_stg2_0 : Ref sig .tc := ⟨.vmem, 40, rfl⟩
abbrev cc6_stg3_0 : Ref sig .tc := ⟨.vmem, 41, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11
abbrev cc2_sem0_0 : DmaSem sig := 12
abbrev cc2_sem0_1 : DmaSem sig := 13
abbrev cc2_sem1_0 : DmaSem sig := 14
abbrev cc2_sem1_1 : DmaSem sig := 15
abbrev cc2_sem2_0 : DmaSem sig := 16
abbrev cc2_sem3_0 : DmaSem sig := 17
abbrev cc2_sem3_1 : DmaSem sig := 18
abbrev cc3_sem0_0 : DmaSem sig := 19
abbrev cc3_sem0_1 : DmaSem sig := 20
abbrev cc3_sem1_0 : DmaSem sig := 21
abbrev cc3_sem2_0 : DmaSem sig := 22
abbrev cc3_sem3_0 : DmaSem sig := 23
abbrev cc3_sem3_1 : DmaSem sig := 24
abbrev cc4_sem0_0 : DmaSem sig := 25
abbrev cc4_sem0_1 : DmaSem sig := 26
abbrev cc4_sem1_0 : DmaSem sig := 27
abbrev cc4_sem1_1 : DmaSem sig := 28
abbrev cc4_sem2_0 : DmaSem sig := 29
abbrev cc4_sem2_1 : DmaSem sig := 30
abbrev cc5_sem0_0 : DmaSem sig := 31
abbrev cc5_sem0_1 : DmaSem sig := 32
abbrev cc5_sem1_0 : DmaSem sig := 33
abbrev cc5_sem1_1 : DmaSem sig := 34
abbrev cc5_sem2_0 : DmaSem sig := 35
abbrev cc5_sem3_0 : DmaSem sig := 36
abbrev cc5_sem3_1 : DmaSem sig := 37
abbrev cc6_sem0_0 : DmaSem sig := 38
abbrev cc6_sem1_0 : DmaSem sig := 39
abbrev cc6_sem2_0 : DmaSem sig := 40
abbrev cc6_sem3_0 : DmaSem sig := 41

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x100 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S100x100 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x100 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S5000x100 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![85], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x100 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S10000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S10000x100 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![5], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S10000x100 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S10000x1 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S1x100 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S10000x100 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x100 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S100x100 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S1x100 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 2 → Memref sig .tc .vmem S5000x100 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

abbrev grid4 : Pipeline.Grid := ⟨1, ![85], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S10000x100 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S10000x1 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 2 → Memref sig .tc .vmem S10000x100 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev grid5 : Pipeline.Grid := ⟨1, ![5], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S10000x100 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 2 → Memref sig .tc .vmem S10000x1 .f32 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![true]

abbrev stage5_2 : Fin 1 → Memref sig .tc .vmem S1x100 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 2 → Memref sig .tc .vmem S10000x100 .f32 := fun | 0 => Memref.whole cc5_stg3_0 | 1 => Memref.whole cc5_stg3_1 | ⟨_ + 2, h⟩ => absurd h (Nat.not_lt.2 (Nat.le_add_left _ _))
abbrev sem5_3 : Fin 2 → DmaSem sig := fun | 0 => cc5_sem3_0 | 1 => cc5_sem3_1 | ⟨_ + 2, h⟩ => absurd h (Nat.not_lt.2 (Nat.le_add_left _ _))
abbrev reads5_3 : Fin grid5.rank → Bool := ![true]

abbrev grid6 : Pipeline.Grid := ⟨1, ![1], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_2 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_3 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 1 → Memref sig .tc .vmem S2000x100 .f32 := fun | 0 => Memref.whole cc6_stg0_0 | ⟨_ + 1, h⟩ => absurd h (Nat.not_lt.2 (Nat.le_add_left _ _))
abbrev sem6_0 : Fin 1 → DmaSem sig := fun | 0 => cc6_sem0_0 | ⟨_ + 1, h⟩ => absurd h (Nat.not_lt.2 (Nat.le_add_left _ _))
abbrev reads6_0 : Fin grid6.rank → Bool := ![true]

abbrev stage6_1 : Fin 1 → Memref sig .tc .vmem S100x128 .f32 := fun | 0 => Memref.whole cc6_stg1_0 | ⟨_ + 1, h⟩ => absurd h (Nat.not_lt.2 (Nat.le_add_left _ _))
abbrev sem6_1 : Fin 1 → DmaSem sig := fun | 0 => cc6_sem1_0 | ⟨_ + 1, h⟩ => absurd h (Nat.not_lt.2 (Nat.le_add_left _ _))
abbrev reads6_1 : Fin grid6.rank → Bool := ![false]

abbrev stage6_2 : Fin 1 → Memref sig .tc .vmem S1x128 .f32 := fun | 0 => Memref.whole cc6_stg2_0 | ⟨_ + 1, h⟩ => absurd h (Nat.not_lt.2 (Nat.le_add_left _ _))
abbrev sem6_2 : Fin 1 → DmaSem sig := fun | 0 => cc6_sem2_0 | ⟨_ + 1, h⟩ => absurd h (Nat.not_lt.2 (Nat.le_add_left _ _))
abbrev reads6_2 : Fin grid6.rank → Bool := ![false]

abbrev stage6_3 : Fin 1 → Memref sig .tc .vmem S2000x128 .f32 := fun | 0 => Memref.whole cc6_stg3_0 | ⟨_ + 1, h⟩ => absurd h (Nat.not_lt.2 (Nat.le_add_left _ _))
abbrev sem6_3 : Fin 1 → DmaSem sig := fun | 0 => cc6_sem3_0 | ⟨_ + 1, h⟩ => absurd h (Nat.not_lt.2 (Nat.le_add_left _ _))
abbrev reads6_3 : Fin grid6.rank → Bool := ![true]

class Facts₀ : Prop where
  bcast_S9_S1x9_1 : S9.BroadcastsInDim S1x9 (![1] : Fin 1 → Fin S1x9.rank)
  bcast_S1x9_S50000x9_0_1 : S1x9.BroadcastsInDim S50000x9 (![0, 1] : Fin 2 → Fin S50000x9.rank)
  bcast_S_S50000x9 : S_.BroadcastsInDim S50000x9 (![] : Fin 0 → Fin S50000x9.rank)
  bcast_S50000x9_S50000x9x1_0_1 : S50000x9.BroadcastsInDim S50000x9x1 (![0, 1] : Fin 2 → Fin S50000x9x1.rank)
  bcast_S_S50000x9x1 : S_.BroadcastsInDim S50000x9x1 (![] : Fin 0 → Fin S50000x9x1.rank)
  bcast_S1_S1x1x1_2 : S1.BroadcastsInDim S1x1x1 (![2] : Fin 1 → Fin S1x1x1.rank)
  bcast_S1x1x1_S50000x9x1_0_1_2 : S1x1x1.BroadcastsInDim S50000x9x1 (![0, 1, 2] : Fin 3 → Fin S50000x9x1.rank)
  reducesTo_S50000x9x1_S50000x9_d2 : S50000x9x1.ReducesTo [2] S50000x9
  h_S_ : 0 < S_.numel
  bcast_S50000x9_S50000x9x100_0_1 : S50000x9.BroadcastsInDim S50000x9x100 (![0, 1] : Fin 2 → Fin S50000x9x100.rank)
  bcast_S_S50000x9x100 : S_.BroadcastsInDim S50000x9x100 (![] : Fin 0 → Fin S50000x9x100.rank)
  reducesTo_S50000x9x100_S50000x100_d1 : S50000x9x100.ReducesTo [1] S50000x100
  slices_S2x800000_S1x800000_0_0 : S2x800000.Slices ![0, 0] S1x800000
  shapeCasts_S1x800000_S800000 : S1x800000.ShapeCasts S800000
  concatenates_S800000_S50000_S850000_d0 : Shape.Concatenates [S800000, S50000] S850000 0
  slices_S2x800000_S1x800000_1_0 : S2x800000.Slices ![1, 0] S1x800000
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  shapeCasts_S850000_S850000x1 : S850000.ShapeCasts S850000x1
  shapeCasts_S50000_S50000x1 : S50000.ShapeCasts S50000x1
  bcast_S_S100 : S_.BroadcastsInDim S100 (![] : Fin 0 → Fin S100.rank)
  shapeCasts_S100_S1x100 : S100.ShapeCasts S1x100
  inb_S5000x100_S5000x100_0_0 : ∀ a, (![0, 0] : Fin 2 → Nat) a + S5000x100.size a ≤ S5000x100.size a
  h_S5000x100 : 0 < S5000x100.numel
  shapeCasts_S5000x100_S5000x100 : S5000x100.ShapeCasts S5000x100
  bitsLt_bf16_f32 : FTy.bits .bf16 < FTy.bits .f32
  inb_S100x100_S100x100_0_0 : ∀ a, (![0, 0] : Fin 2 → Nat) a + S100x100.size a ≤ S100x100.size a
  h_S100x100 : 0 < S100x100.numel
  inb_S1x100_S1x100_0_0 : ∀ a, (![0, 0] : Fin 2 → Nat) a + S1x100.size a ≤ S1x100.size a
  h_S1x100 : 0 < S1x100.numel
  shapeCasts_S1x100_S1x100 : S1x100.ShapeCasts S1x100
  broadcasts_S1x100_S5000x100 : S1x100.Broadcasts S5000x100
  inb_S10000x1_S10000x1_0_0 : ∀ a, (![0, 0] : Fin 2 → Nat) a + S10000x1.size a ≤ S10000x1.size a
  h_S10000x1 : 0 < S10000x1.numel
  shapeCasts_S10000x1_S10000x1 : S10000x1.ShapeCasts S10000x1
  inb_S10000x100_S10000x100_0_0 : ∀ a, (![0, 0] : Fin 2 → Nat) a + S10000x100.size a ≤ S10000x100.size a
  h_S10000x100 : 0 < S10000x100.numel
  shapeCasts_S10000x100_S10000x100 : S10000x100.ShapeCasts S10000x100
  broadcasts_S10000x1_S10000x100 : S10000x1.Broadcasts S10000x100
  bcast_S_S50000x100 : S_.BroadcastsInDim S50000x100 (![] : Fin 0 → Fin S50000x100.rank)
  broadcasts_S1x100_S10000x100 : S1x100.Broadcasts S10000x100
  bcast_S_S2000 : S_.BroadcastsInDim S2000 (![] : Fin 0 → Fin S2000.rank)
  bcast_S50000_S50000x1_0 : S50000.BroadcastsInDim S50000x1 (![0] : Fin 1 → Fin S50000x1.rank)
  shapeCasts_S2000_S2000x1 : S2000.ShapeCasts S2000x1
  bcast_S_S2000x100 : S_.BroadcastsInDim S2000x100 (![] : Fin 0 → Fin S2000x100.rank)
  bcast_S_S2000x1 : S_.BroadcastsInDim S2000x1 (![] : Fin 0 → Fin S2000x1.rank)
  bcast_S2000x1_S2000x100_0_1 : S2000x1.BroadcastsInDim S2000x100 (![0, 1] : Fin 2 → Fin S2000x100.rank)
  shapeCasts_S128_S1x128 : S128.ShapeCasts S1x128
  inb_S2000x100_S2000x100_0_0 : ∀ a, (![0, 0] : Fin 2 → Nat) a + S2000x100.size a ≤ S2000x100.size a
  h_S2000x100 : 0 < S2000x100.numel
  shapeCasts_S2000x100_S2000x100 : S2000x100.ShapeCasts S2000x100
  inb_S100x128_S100x128_0_0 : ∀ a, (![0, 0] : Fin 2 → Nat) a + S100x128.size a ≤ S100x128.size a
  h_S100x128 : 0 < S100x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S2000x128 : S1x128.Broadcasts S2000x128
  inb_S2000x128_S2000x128_0_0 : ∀ a, (![0, 0] : Fin 2 → Nat) a + S2000x128.size a ≤ S2000x128.size a
  h_S2000x128 : 0 < S2000x128.numel
  gather_S174x100_S50000x9x1_S50000x9x100_2_0_n_n_0_2_1100_wf : GatherDims.WF S174x100 S50000x9x1 S50000x9x100 [2] [0] [] [0] [] 2 ![1, 100]
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  dot_S5000x100_S100x100_S5000x100_1_0_0_1_n_n_wf : DotDims.WF S5000x100 S100x100 S5000x100 [1] [0] [0] [1] [] []
  gather_S50000x100_S850000x1_S850000x100_1_0_n_n_0_1_1100_wf : GatherDims.WF S50000x100 S850000x1 S850000x100 [1] [0] [] [0] [] 1 ![1, 100]
  scatter_S50000x100_S850000x1_S850000x100_1_0_0_1_wf : ScatterDims.WF S50000x100 S850000x1 S850000x100 [1] [0] [0] 1
  scatter_S2000_S50000x1_S50000_n_0_0_1_wf : ScatterDims.WF S2000 S50000x1 S50000 [] [0] [0] 1
  scatter_S2000x100_S50000x1_S50000x100_1_0_0_1_wf : ScatterDims.WF S2000x100 S50000x1 S50000x100 [1] [0] [0] 1
  dot_S2000x100_S100x128_S2000x128_1_0_0_1_n_n_wf : DotDims.WF S2000x100 S100x128 S2000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x100.size a ≤ S50000x100.size a
  hwx0_0 : ∀ i : grid0.Coords, EltTy.bits .f32 = 32 ∨ (Rect.block (s := S50000x100) S5000x100.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S100x100.size a ≤ S100x100.size a
  hwx0_1 : ∀ i : grid0.Coords, EltTy.bits .f32 = 32 ∨ (Rect.block (s := S100x100) S100x100.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x100.size a ≤ S1x100.size a
  hwx0_2 : ∀ i : grid0.Coords, EltTy.bits .f32 = 32 ∨ (Rect.block (s := S1x100) S1x100.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x100.size a ≤ S50000x100.size a
  hwx0_3 : ∀ i : grid0.Coords, EltTy.bits .f32 = 32 ∨ (Rect.block (s := S50000x100) S5000x100.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x100.size a ≤ S850000x100.size a
  hwx1_0 : ∀ i : grid1.Coords, EltTy.bits .f32 = 32 ∨ (Rect.block (s := S850000x100) S10000x100.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S10000x1.size a ≤ S850000x1.size a
  hwx1_1 : ∀ i : grid1.Coords, EltTy.bits .f32 = 32 ∨ (Rect.block (s := S850000x1) S10000x1.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S10000x100.size a ≤ S850000x100.size a
  hwx1_2 : ∀ i : grid1.Coords, EltTy.bits .f32 = 32 ∨ (Rect.block (s := S850000x100) S10000x100.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S10000x100.size a ≤ S50000x100.size a
  hwx2_0 : ∀ i : grid2.Coords, EltTy.bits .f32 = 32 ∨ (Rect.block (s := S50000x100) S10000x100.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S10000x1.size a ≤ S50000x1.size a
  hwx2_1 : ∀ i : grid2.Coords, EltTy.bits .f32 = 32 ∨ (Rect.block (s := S50000x1) S10000x1.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x100.size a ≤ S1x100.size a
  hwx2_2 : ∀ i : grid2.Coords, EltTy.bits .f32 = 32 ∨ (Rect.block (s := S1x100) S1x100.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S10000x100.size a ≤ S50000x100.size a
  hwx2_3 : ∀ i : grid2.Coords, EltTy.bits .f32 = 32 ∨ (Rect.block (s := S50000x100) S10000x100.size (cc2_transform_3 i) (hinb2_3 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x100.size a ≤ S50000x100.size a
  hwx3_0 : ∀ i : grid3.Coords, EltTy.bits .f32 = 32 ∨ (Rect.block (s := S50000x100) S5000x100.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S100x100.size a ≤ S100x100.size a
  hwx3_1 : ∀ i : grid3.Coords, EltTy.bits .f32 = 32 ∨ (Rect.block (s := S100x100) S100x100.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x100.size a ≤ S1x100.size a
  hwx3_2 : ∀ i : grid3.Coords, EltTy.bits .f32 = 32 ∨ (Rect.block (s := S1x100) S1x100.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S5000x100.size a ≤ S50000x100.size a
  hwx3_3 : ∀ i : grid3.Coords, EltTy.bits .f32 = 32 ∨ (Rect.block (s := S50000x100) S5000x100.size (cc3_transform_3 i) (hinb3_3 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S10000x100.size a ≤ S850000x100.size a
  hwx4_0 : ∀ i : grid4.Coords, EltTy.bits .f32 = 32 ∨ (Rect.block (s := S850000x100) S10000x100.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S10000x1.size a ≤ S850000x1.size a
  hwx4_1 : ∀ i : grid4.Coords, EltTy.bits .f32 = 32 ∨ (Rect.block (s := S850000x1) S10000x1.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S10000x100.size a ≤ S850000x100.size a
  hwx4_2 : ∀ i : grid4.Coords, EltTy.bits .f32 = 32 ∨ (Rect.block (s := S850000x100) S10000x100.size (cc4_transform_2 i) (hinb4_2 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S10000x100.size a ≤ S50000x100.size a
  hwx5_0 : ∀ i : grid5.Coords, EltTy.bits .f32 = 32 ∨ (Rect.block (s := S50000x100) S10000x100.size (cc5_transform_0 i) (hinb5_0 i)).WholeWords (EltTy.packing .f32)
  hstage5_1 : ∀ j, (stage5_1 j).IsWhole
  nbuf5_1 : grid5.bufCount reads5_1 false = 2
  hreads5_1 : ∀ i i' : grid5.Coords, (∀ a, reads5_1 a = true → i a = i' a) → cc5_transform_1 i = cc5_transform_1 i'
  hinb5_1 : ∀ (i : grid5.Coords) a, (cc5_transform_1 i a + 1) * S10000x1.size a ≤ S50000x1.size a
  hwx5_1 : ∀ i : grid5.Coords, EltTy.bits .f32 = 32 ∨ (Rect.block (s := S50000x1) S10000x1.size (cc5_transform_1 i) (hinb5_1 i)).WholeWords (EltTy.packing .f32)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S1x100.size a ≤ S1x100.size a
  hwx5_2 : ∀ i : grid5.Coords, EltTy.bits .f32 = 32 ∨ (Rect.block (s := S1x100) S1x100.size (cc5_transform_2 i) (hinb5_2 i)).WholeWords (EltTy.packing .f32)
  hstage5_3 : ∀ j, (stage5_3 j).IsWhole
  nbuf5_3 : grid5.bufCount reads5_3 false = 2
  hreads5_3 : ∀ i i' : grid5.Coords, (∀ a, reads5_3 a = true → i a = i' a) → cc5_transform_3 i = cc5_transform_3 i'
  hinb5_3 : ∀ (i : grid5.Coords) a, (cc5_transform_3 i a + 1) * S10000x100.size a ≤ S50000x100.size a
  hwx5_3 : ∀ i : grid5.Coords, EltTy.bits .f32 = 32 ∨ (Rect.block (s := S50000x100) S10000x100.size (cc5_transform_3 i) (hinb5_3 i)).WholeWords (EltTy.packing .f32)
  hrank6 : 0 < grid6.rank
  hstage6_0 : ∀ j, (stage6_0 j).IsWhole
  nbuf6_0 : grid6.bufCount reads6_0 false = 1
  hreads6_0 : ∀ i i' : grid6.Coords, (∀ a, reads6_0 a = true → i a = i' a) → cc6_transform_0 i = cc6_transform_0 i'
  hinb6_0 : ∀ (i : grid6.Coords) a, (cc6_transform_0 i a + 1) * S2000x100.size a ≤ S2000x100.size a
  hwx6_0 : ∀ i : grid6.Coords, EltTy.bits .f32 = 32 ∨ (Rect.block (s := S2000x100) S2000x100.size (cc6_transform_0 i) (hinb6_0 i)).WholeWords (EltTy.packing .f32)
  hstage6_1 : ∀ j, (stage6_1 j).IsWhole
  nbuf6_1 : grid6.bufCount reads6_1 true = 1
  hreads6_1 : ∀ i i' : grid6.Coords, (∀ a, reads6_1 a = true → i a = i' a) → cc6_transform_1 i = cc6_transform_1 i'
  hinb6_1 : ∀ (i : grid6.Coords) a, (cc6_transform_1 i a + 1) * S100x128.size a ≤ S100x128.size a
  hwx6_1 : ∀ i : grid6.Coords, EltTy.bits .f32 = 32 ∨ (Rect.block (s := S100x128) S100x128.size (cc6_transform_1 i) (hinb6_1 i)).WholeWords (EltTy.packing .f32)
  hstage6_2 : ∀ j, (stage6_2 j).IsWhole
  nbuf6_2 : grid6.bufCount reads6_2 true = 1
  hreads6_2 : ∀ i i' : grid6.Coords, (∀ a, reads6_2 a = true → i a = i' a) → cc6_transform_2 i = cc6_transform_2 i'
  hinb6_2 : ∀ (i : grid6.Coords) a, (cc6_transform_2 i a + 1) * S1x128.size a ≤ S1x128.size a
  hwx6_2 : ∀ i : grid6.Coords, EltTy.bits .f32 = 32 ∨ (Rect.block (s := S1x128) S1x128.size (cc6_transform_2 i) (hinb6_2 i)).WholeWords (EltTy.packing .f32)
  hstage6_3 : ∀ j, (stage6_3 j).IsWhole
  nbuf6_3 : grid6.bufCount reads6_3 false = 1
  hreads6_3 : ∀ i i' : grid6.Coords, (∀ a, reads6_3 a = true → i a = i' a) → cc6_transform_3 i = cc6_transform_3 i'
  hinb6_3 : ∀ (i : grid6.Coords) a, (cc6_transform_3 i a + 1) * S2000x128.size a ≤ S2000x128.size a
  hwx6_3 : ∀ i : grid6.Coords, EltTy.bits .f32 = 32 ∨ (Rect.block (s := S2000x128) S2000x128.size (cc6_transform_3 i) (hinb6_3 i)).WholeWords (EltTy.packing .f32)

variable [Facts₀]

def gather_S174x100_S50000x9x1_S50000x9x100_2_0_n_n_0_2_1100 : GatherDims S174x100 S50000x9x1 S50000x9x100 where
  offsetDims := [2]
  collapsedSliceDims := [0]
  operandBatchingDims := []
  startIndicesBatchingDims := []
  startIndexMap := [0]
  indexVectorDim := 2
  sliceSizes := ![1, 100]
  wf := gather_S174x100_S50000x9x1_S50000x9x100_2_0_n_n_0_2_1100_wf
def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def dot_S5000x100_S100x100_S5000x100_1_0_0_1_n_n : DotDims S5000x100 S100x100 S5000x100 where
  lhsContracting := [1]
  rhsContracting := [0]
  lhsNonContracting := [0]
  rhsNonContracting := [1]
  lhsBatch := []
  rhsBatch := []
  wf := dot_S5000x100_S100x100_S5000x100_1_0_0_1_n_n_wf
def gather_S50000x100_S850000x1_S850000x100_1_0_n_n_0_1_1100 : GatherDims S50000x100 S850000x1 S850000x100 where
  offsetDims := [1]
  collapsedSliceDims := [0]
  operandBatchingDims := []
  startIndicesBatchingDims := []
  startIndexMap := [0]
  indexVectorDim := 1
  sliceSizes := ![1, 100]
  wf := gather_S50000x100_S850000x1_S850000x100_1_0_n_n_0_1_1100_wf
def scatter_S50000x100_S850000x1_S850000x100_1_0_0_1 : ScatterDims S50000x100 S850000x1 S850000x100 where
  updateWindowDims := [1]
  insertedWindowDims := [0]
  scatterDimsToOperandDims := [0]
  indexVectorDim := 1
  wf := scatter_S50000x100_S850000x1_S850000x100_1_0_0_1_wf
def scatter_S2000_S50000x1_S50000_n_0_0_1 : ScatterDims S2000 S50000x1 S50000 where
  updateWindowDims := []
  insertedWindowDims := [0]
  scatterDimsToOperandDims := [0]
  indexVectorDim := 1
  wf := scatter_S2000_S50000x1_S50000_n_0_0_1_wf
def scatter_S2000x100_S50000x1_S50000x100_1_0_0_1 : ScatterDims S2000x100 S50000x1 S50000x100 where
  updateWindowDims := [1]
  insertedWindowDims := [0]
  scatterDimsToOperandDims := [0]
  indexVectorDim := 1
  wf := scatter_S2000x100_S50000x1_S50000x100_1_0_0_1_wf
def dot_S2000x100_S100x128_S2000x128_1_0_0_1_n_n : DotDims S2000x100 S100x128 S2000x128 where
  lhsContracting := [1]
  rhsContracting := [0]
  lhsNonContracting := [0]
  rhsNonContracting := [1]
  lhsBatch := []
  rhsBatch := []
  wf := dot_S2000x100_S100x128_S2000x128_1_0_0_1_n_n_wf

abbrev win0_0 : Pipeline.Window sig grid0 :=
  Pipeline.Window.ofSpec (Memref.whole main_v4) S5000x100.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg4) S100x100.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v41) S1x100.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v42) S5000x100.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v49) S10000x100.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v36) S10000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v50) S10000x100.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v53) S10000x100.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v39) S10000x1.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v54) S1x100.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v55) S10000x100.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

abbrev win3_0 : Pipeline.Window sig grid3 :=
  Pipeline.Window.ofSpec (Memref.whole main_v55) S5000x100.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_arg6) S100x100.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v57) S1x100.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v58) S5000x100.size cc3_transform_3 reads3_3 true false 2 stage3_3 sem3_3
    hrank3 hreads3_3 hinb3_3 nbuf3_3 (Memref.isWhole_whole _) hwx3_3 hstage3_3

abbrev win3 : Fin 4 → Pipeline.Window sig grid3 := fun | 0 => win3_0 | 1 => win3_1 | 2 => win3_2 | 3 => win3_3 | ⟨_ + 4, h⟩ => absurd h (Nat.not_lt.2 (Nat.le_add_left _ _))
abbrev spec3 : Fin 4 → Pipeline.WinSpec sig grid3.rank := fun w => (win3 w).toWinSpec

abbrev win4_0 : Pipeline.Window sig grid4 :=
  Pipeline.Window.ofSpec (Memref.whole main_v65) S10000x100.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v36) S10000x1.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v66) S10000x100.size cc4_transform_2 reads4_2 true false 2 stage4_2 sem4_2
    hrank4 hreads4_2 hinb4_2 nbuf4_2 (Memref.isWhole_whole _) hwx4_2 hstage4_2

abbrev win4 : Fin 3 → Pipeline.Window sig grid4 := fun | 0 => win4_0 | 1 => win4_1 | 2 => win4_2 | ⟨_ + 3, h⟩ => absurd h (Nat.not_lt.2 (Nat.le_add_left _ _))
abbrev spec4 : Fin 3 → Pipeline.WinSpec sig grid4.rank := fun w => (win4 w).toWinSpec

abbrev win5_0 : Pipeline.Window sig grid5 :=
  Pipeline.Window.ofSpec (Memref.whole main_v69) S10000x100.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v39) S10000x1.size cc5_transform_1 reads5_1 false false 2 stage5_1 sem5_1
    hrank5 hreads5_1 hinb5_1 nbuf5_1 (Memref.isWhole_whole _) hwx5_1 hstage5_1

abbrev win5_2 : Pipeline.Window sig grid5 :=
  Pipeline.Window.ofSpec (Memref.whole main_v70) S1x100.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_v71) S10000x100.size cc5_transform_3 reads5_3 true false 2 stage5_3 sem5_3
    hrank5 hreads5_3 hinb5_3 nbuf5_3 (Memref.isWhole_whole _) hwx5_3 hstage5_3

abbrev win5 : Fin 4 → Pipeline.Window sig grid5 := fun | 0 => win5_0 | 1 => win5_1 | 2 => win5_2 | 3 => win5_3 | ⟨_ + 4, h⟩ => absurd h (Nat.not_lt.2 (Nat.le_add_left _ _))
abbrev spec5 : Fin 4 → Pipeline.WinSpec sig grid5.rank := fun w => (win5 w).toWinSpec

abbrev win6_0 : Pipeline.Window sig grid6 :=
  Pipeline.Window.ofSpec (Memref.whole main_v83) S2000x100.size cc6_transform_0 reads6_0 false false 1 stage6_0 sem6_0
    hrank6 hreads6_0 hinb6_0 nbuf6_0 (Memref.isWhole_whole _) hwx6_0 hstage6_0

abbrev win6_1 : Pipeline.Window sig grid6 :=
  Pipeline.Window.ofSpec (Memref.whole main_arg8) S100x128.size cc6_transform_1 reads6_1 false true 1 stage6_1 sem6_1
    hrank6 hreads6_1 hinb6_1 nbuf6_1 (Memref.isWhole_whole _) hwx6_1 hstage6_1

abbrev win6_2 : Pipeline.Window sig grid6 :=
  Pipeline.Window.ofSpec (Memref.whole main_v84) S1x128.size cc6_transform_2 reads6_2 false true 1 stage6_2 sem6_2
    hrank6 hreads6_2 hinb6_2 nbuf6_2 (Memref.isWhole_whole _) hwx6_2 hstage6_2

abbrev win6_3 : Pipeline.Window sig grid6 :=
  Pipeline.Window.ofSpec (Memref.whole main_v85) S2000x128.size cc6_transform_3 reads6_3 true false 1 stage6_3 sem6_3
    hrank6 hreads6_3 hinb6_3 nbuf6_3 (Memref.isWhole_whole _) hwx6_3 hstage6_3

abbrev win6 : Fin 4 → Pipeline.Window sig grid6 := fun | 0 => win6_0 | 1 => win6_1 | 2 => win6_2 | 3 => win6_3 | ⟨_ + 4, h⟩ => absurd h (Nat.not_lt.2 (Nat.le_add_left _ _))
abbrev spec6 : Fin 4 → Pipeline.WinSpec sig grid6.rank := fun w => (win6 w).toWinSpec

class Facts : Prop extends Facts₀ where

variable [Facts]
-- ==== ReferenceIdeal.lean ====
abbrev S50000x9 : Shape := ⟨2, ![50000, 9]⟩
abbrev S2x800000 : Shape := ⟨2, ![2, 800000]⟩
abbrev S50000 : Shape := ⟨1, ![50000]⟩
abbrev S174x100 : Shape := ⟨2, ![174, 100]⟩
abbrev S100x100 : Shape := ⟨2, ![100, 100]⟩
abbrev S100 : Shape := ⟨1, ![100]⟩
abbrev S100x128 : Shape := ⟨2, ![100, 128]⟩
abbrev S128 : Shape := ⟨1, ![128]⟩
abbrev S9 : Shape := ⟨1, ![9]⟩
abbrev S1x9 : Shape := ⟨2, ![1, 9]⟩
abbrev S_ : Shape := ⟨0, ![]⟩
abbrev S50000x9x1 : Shape := ⟨3, ![50000, 9, 1]⟩
abbrev S1 : Shape := ⟨1, ![1]⟩
abbrev S1x1x1 : Shape := ⟨3, ![1, 1, 1]⟩
abbrev S50000x9x100 : Shape := ⟨3, ![50000, 9, 100]⟩
abbrev S50000x100 : Shape := ⟨2, ![50000, 100]⟩
abbrev S1x800000 : Shape := ⟨2, ![1, 800000]⟩
abbrev S800000 : Shape := ⟨1, ![800000]⟩
abbrev S850000 : Shape := ⟨1, ![850000]⟩
abbrev S850000x1 : Shape := ⟨2, ![850000, 1]⟩
abbrev S850000x100 : Shape := ⟨2, ![850000, 100]⟩
abbrev S50000x1 : Shape := ⟨2, ![50000, 1]⟩
abbrev S1x100 : Shape := ⟨2, ![1, 100]⟩
abbrev S2000 : Shape := ⟨1, ![2000]⟩
abbrev S2000x100 : Shape := ⟨2, ![2000, 100]⟩
abbrev S2000x1 : Shape := ⟨2, ![2000, 1]⟩
abbrev S2000x128 : Shape := ⟨2, ![2000, 128]⟩
abbrev S1x128 : Shape := ⟨2, ![1, 128]⟩

abbrev nBuf : Space → Nat
  | .hbm => 198
  | .vmem => 0
  | .smem => 0
  | _ => 0

abbrev hbmTy0_0 (i : Nat) : BufTy := match i % 128 with
  | 0 => ⟨S50000x9, .i32⟩
  | 1 => ⟨S2x800000, .i32⟩
  | 2 => ⟨S50000, .i32⟩
  | 3 => ⟨S174x100, .f32⟩
  | 4 => ⟨S100x100, .f32⟩
  | 5 => ⟨S100, .f32⟩
  | 6 => ⟨S100x100, .f32⟩
  | 7 => ⟨S100, .f32⟩
  | 8 => ⟨S100x128, .f32⟩
  | 9 => ⟨S128, .f32⟩
  | 10 => ⟨S9, .i32⟩
  | 11 => ⟨S1x9, .i32⟩
  | 12 => ⟨S50000x9, .i32⟩
  | 13 => ⟨S50000x9, .i32⟩
  | 14 => ⟨S_, .i32⟩
  | 15 => ⟨S50000x9, .i32⟩
  | 16 => ⟨S50000x9, .i1⟩
  | 17 => ⟨S_, .i32⟩
  | 18 => ⟨S50000x9, .i32⟩
  | 19 => ⟨S50000x9, .i32⟩
  | 20 => ⟨S50000x9, .i32⟩
  | 21 => ⟨S50000x9x1, .i32⟩
  | 22 => ⟨S1, .i32⟩
  | 23 => ⟨S_, .i32⟩
  | 24 => ⟨S50000x9x1, .i32⟩
  | 25 => ⟨S50000x9x1, .i1⟩
  | 26 => ⟨S1x1x1, .i32⟩
  | 27 => ⟨S50000x9x1, .i32⟩
  | 28 => ⟨S50000x9x1, .i1⟩
  | 29 => ⟨S50000x9x1, .i1⟩
  | 30 => ⟨S_, .i1⟩
  | 31 => ⟨S50000x9, .i1⟩
  | 32 => ⟨S50000x9x100, .f32⟩
  | 33 => ⟨S50000x9x100, .i1⟩
  | 34 => ⟨S_, .f32⟩
  | 35 => ⟨S50000x9x100, .f32⟩
  | 36 => ⟨S50000x9x100, .f32⟩
  | 37 => ⟨S_, .f32⟩
  | 38 => ⟨S50000x100, .f32⟩
  | 39 => ⟨S50000, .i32⟩
  | 40 => ⟨S1x800000, .i32⟩
  | 41 => ⟨S800000, .i32⟩
  | 42 => ⟨S850000, .i32⟩
  | 43 => ⟨S1x800000, .i32⟩
  | 44 => ⟨S800000, .i32⟩
  | 45 => ⟨S850000, .i32⟩
  | 46 => ⟨S_, .f32⟩
  | 47 => ⟨S850000, .f32⟩
  | 48 => ⟨S_, .f32⟩
  | 49 => ⟨S50000, .f32⟩
  | 50 => ⟨S850000x1, .i32⟩
  | 51 => ⟨S50000, .f32⟩
  | 52 => ⟨S_, .f32⟩
  | 53 => ⟨S50000, .f32⟩
  | 54 => ⟨S50000, .i1⟩
  | 55 => ⟨S_, .f32⟩
  | 56 => ⟨S50000, .f32⟩
  | 57 => ⟨S50000, .f32⟩
  | 58 => ⟨S_, .f32⟩
  | 59 => ⟨S_, .f32⟩
  | 60 => ⟨S50000, .f32⟩
  | 61 => ⟨S50000, .f32⟩
  | 62 => ⟨S_, .i32⟩
  | 63 => ⟨S850000, .i32⟩
  | 64 => ⟨S850000, .i1⟩
  | 65 => ⟨S_, .i32⟩
  | 66 => ⟨S850000, .i32⟩
  | 67 => ⟨S850000, .i32⟩
  | 68 => ⟨S850000, .i32⟩
  | 69 => ⟨S850000x1, .i32⟩
  | 70 => ⟨S850000, .f32⟩
  | 71 => ⟨S850000, .f32⟩
  | 72 => ⟨S_, .i32⟩
  | 73 => ⟨S850000, .i32⟩
  | 74 => ⟨S850000, .i1⟩
  | 75 => ⟨S_, .i32⟩
  | 76 => ⟨S850000, .i32⟩
  | 77 => ⟨S850000, .i32⟩
  | 78 => ⟨S850000, .i32⟩
  | 79 => ⟨S850000x1, .i32⟩
  | 80 => ⟨S850000, .f32⟩
  | 81 => ⟨S850000, .f32⟩
  | 82 => ⟨S_, .f32⟩
  | 83 => ⟨S50000, .f32⟩
  | 84 => ⟨S50000, .f32⟩
  | 85 => ⟨S850000x1, .f32⟩
  | 86 => ⟨S50000x100, .f32⟩
  | 87 => ⟨S_, .i32⟩
  | 88 => ⟨S850000, .i32⟩
  | 89 => ⟨S850000, .i1⟩
  | 90 => ⟨S_, .i32⟩
  | 91 => ⟨S850000, .i32⟩
  | 92 => ⟨S850000, .i32⟩
  | 93 => ⟨S850000, .i32⟩
  | 94 => ⟨S850000x1, .i32⟩
  | 95 => ⟨S850000x100, .f32⟩
  | 96 => ⟨S850000x100, .f32⟩
  | 97 => ⟨S850000x100, .f32⟩
  | 98 => ⟨S_, .f32⟩
  | 99 => ⟨S_, .f32⟩
  | 100 => ⟨S_, .f32⟩
  | 101 => ⟨S850000x100, .f32⟩
  | 102 => ⟨S850000x100, .f32⟩
  | 103 => ⟨S_, .f32⟩
  | 104 => ⟨S850000x100, .f32⟩
  | 105 => ⟨S850000x100, .f32⟩
  | 106 => ⟨S_, .f32⟩
  | 107 => ⟨S850000x100, .f32⟩
  | 108 => ⟨S850000x100, .f32⟩
  | 109 => ⟨S_, .f32⟩
  | 110 => ⟨S50000x100, .f32⟩
  | 111 => ⟨S850000x1, .i32⟩
  | 112 => ⟨S50000x100, .f32⟩
  | 113 => ⟨S50000x1, .f32⟩
  | 114 => ⟨S50000x100, .f32⟩
  | 115 => ⟨S50000x100, .f32⟩
  | 116 => ⟨S_, .f32⟩
  | 117 => ⟨S_, .f32⟩
  | 118 => ⟨S_, .f32⟩
  | 119 => ⟨S50000x100, .f32⟩
  | 120 => ⟨S50000x100, .f32⟩
  | 121 => ⟨S_, .f32⟩
  | 122 => ⟨S50000x100, .f32⟩
  | 123 => ⟨S50000x100, .f32⟩
  | 124 => ⟨S_, .f32⟩
  | 125 => ⟨S50000x100, .f32⟩
  | 126 => ⟨S50000x100, .f32⟩
  | 127 => ⟨S1x100, .f32⟩
  | _ => ⟨S50000x9, .i32⟩

abbrev hbmTy0_1 (i : Nat) : BufTy := match i % 128 with
  | 0 => ⟨S50000x100, .f32⟩
  | 1 => ⟨S50000x100, .f32⟩
  | 2 => ⟨S_, .f32⟩
  | 3 => ⟨S50000x100, .f32⟩
  | 4 => ⟨S50000x100, .f32⟩
  | 5 => ⟨S850000x1, .f32⟩
  | 6 => ⟨S50000x100, .f32⟩
  | 7 => ⟨S_, .i32⟩
  | 8 => ⟨S850000, .i32⟩
  | 9 => ⟨S850000, .i1⟩
  | 10 => ⟨S_, .i32⟩
  | 11 => ⟨S850000, .i32⟩
  | 12 => ⟨S850000, .i32⟩
  | 13 => ⟨S850000, .i32⟩
  | 14 => ⟨S850000x1, .i32⟩
  | 15 => ⟨S850000x100, .f32⟩
  | 16 => ⟨S850000x100, .f32⟩
  | 17 => ⟨S850000x100, .f32⟩
  | 18 => ⟨S_, .f32⟩
  | 19 => ⟨S_, .f32⟩
  | 20 => ⟨S_, .f32⟩
  | 21 => ⟨S850000x100, .f32⟩
  | 22 => ⟨S850000x100, .f32⟩
  | 23 => ⟨S_, .f32⟩
  | 24 => ⟨S850000x100, .f32⟩
  | 25 => ⟨S850000x100, .f32⟩
  | 26 => ⟨S_, .f32⟩
  | 27 => ⟨S850000x100, .f32⟩
  | 28 => ⟨S850000x100, .f32⟩
  | 29 => ⟨S_, .f32⟩
  | 30 => ⟨S50000x100, .f32⟩
  | 31 => ⟨S850000x1, .i32⟩
  | 32 => ⟨S50000x100, .f32⟩
  | 33 => ⟨S50000x1, .f32⟩
  | 34 => ⟨S50000x100, .f32⟩
  | 35 => ⟨S50000x100, .f32⟩
  | 36 => ⟨S_, .f32⟩
  | 37 => ⟨S_, .f32⟩
  | 38 => ⟨S_, .f32⟩
  | 39 => ⟨S50000x100, .f32⟩
  | 40 => ⟨S50000x100, .f32⟩
  | 41 => ⟨S_, .f32⟩
  | 42 => ⟨S50000x100, .f32⟩
  | 43 => ⟨S50000x100, .f32⟩
  | 44 => ⟨S_, .f32⟩
  | 45 => ⟨S50000x100, .f32⟩
  | 46 => ⟨S50000x100, .f32⟩
  | 47 => ⟨S1x100, .f32⟩
  | 48 => ⟨S50000x100, .f32⟩
  | 49 => ⟨S50000x100, .f32⟩
  | 50 => ⟨S_, .f32⟩
  | 51 => ⟨S50000, .f32⟩
  | 52 => ⟨S_, .f32⟩
  | 53 => ⟨S2000, .f32⟩
  | 54 => ⟨S50000x1, .i32⟩
  | 55 => ⟨S2000, .f32⟩
  | 56 => ⟨S_, .f32⟩
  | 57 => ⟨S2000x100, .f32⟩
  | 58 => ⟨S50000x1, .i32⟩
  | 59 => ⟨S2000x100, .f32⟩
  | 60 => ⟨S_, .f32⟩
  | 61 => ⟨S2000, .f32⟩
  | 62 => ⟨S2000, .f32⟩
  | 63 => ⟨S2000x1, .f32⟩
  | 64 => ⟨S2000x100, .f32⟩
  | 65 => ⟨S2000x100, .f32⟩
  | 66 => ⟨S2000x128, .f32⟩
  | 67 => ⟨S1x128, .f32⟩
  | 68 => ⟨S2000x128, .f32⟩
  | 69 => ⟨S2000x128, .f32⟩
  | _ => ⟨S50000x9, .i32⟩

abbrev hbmTy (i : Nat) : BufTy := match i / 128 with
  | 0 => hbmTy0_0 i
  | 1 => hbmTy0_1 i
  | _ => ⟨S50000x9, .i32⟩

abbrev bufTy : (tb : Table) → Fin (tcTables nBuf tb) → BufTy
  | .hbm, ⟨i, _⟩ => hbmTy i
  | _, _ => ⟨S50000x9, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_c : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_call0_c : Ref sig .tc := ⟨.hbm, 14, rfl⟩
abbrev main_call0_v0 : Ref sig .tc := ⟨.hbm, 15, rfl⟩
abbrev main_call0_v1 : Ref sig .tc := ⟨.hbm, 16, rfl⟩
abbrev main_call0_c_0 : Ref sig .tc := ⟨.hbm, 17, rfl⟩
abbrev main_call0_v2 : Ref sig .tc := ⟨.hbm, 18, rfl⟩
abbrev main_call0_v3 : Ref sig .tc := ⟨.hbm, 19, rfl⟩
abbrev main_call0_v4 : Ref sig .tc := ⟨.hbm, 20, rfl⟩
abbrev main_call0_v5 : Ref sig .tc := ⟨.hbm, 21, rfl⟩
abbrev main_call0_c_1 : Ref sig .tc := ⟨.hbm, 22, rfl⟩
abbrev main_call0_c_2 : Ref sig .tc := ⟨.hbm, 23, rfl⟩
abbrev main_call0_v6 : Ref sig .tc := ⟨.hbm, 24, rfl⟩
abbrev main_call0_v7 : Ref sig .tc := ⟨.hbm, 25, rfl⟩
abbrev main_call0_v8 : Ref sig .tc := ⟨.hbm, 26, rfl⟩
abbrev main_call0_v9 : Ref sig .tc := ⟨.hbm, 27, rfl⟩
abbrev main_call0_v10 : Ref sig .tc := ⟨.hbm, 28, rfl⟩
abbrev main_call0_v11 : Ref sig .tc := ⟨.hbm, 29, rfl⟩
abbrev main_call0_c_3 : Ref sig .tc := ⟨.hbm, 30, rfl⟩
abbrev main_call0_v12 : Ref sig .tc := ⟨.hbm, 31, rfl⟩
abbrev main_call0_v13 : Ref sig .tc := ⟨.hbm, 32, rfl⟩
abbrev main_call0_v14 : Ref sig .tc := ⟨.hbm, 33, rfl⟩
abbrev main_call0_cst : Ref sig .tc := ⟨.hbm, 34, rfl⟩
abbrev main_call0_v15 : Ref sig .tc := ⟨.hbm, 35, rfl⟩
abbrev main_v3 : Ref sig .tc := ⟨.hbm, 36, rfl⟩
abbrev main_cst : Ref sig .tc := ⟨.hbm, 37, rfl⟩
abbrev main_v4 : Ref sig .tc := ⟨.hbm, 38, rfl⟩
abbrev main_v5 : Ref sig .tc := ⟨.hbm, 39, rfl⟩
abbrev main_v6 : Ref sig .tc := ⟨.hbm, 40, rfl⟩
abbrev main_v7 : Ref sig .tc := ⟨.hbm, 41, rfl⟩
abbrev main_v8 : Ref sig .tc := ⟨.hbm, 42, rfl⟩
abbrev main_v9 : Ref sig .tc := ⟨.hbm, 43, rfl⟩
abbrev main_v10 : Ref sig .tc := ⟨.hbm, 44, rfl⟩
abbrev main_v11 : Ref sig .tc := ⟨.hbm, 45, rfl⟩
abbrev main_cst_0 : Ref sig .tc := ⟨.hbm, 46, rfl⟩
abbrev main_v12 : Ref sig .tc := ⟨.hbm, 47, rfl⟩
abbrev main_cst_1 : Ref sig .tc := ⟨.hbm, 48, rfl⟩
abbrev main_v13 : Ref sig .tc := ⟨.hbm, 49, rfl⟩
abbrev main_v14 : Ref sig .tc := ⟨.hbm, 50, rfl⟩
abbrev main_v15 : Ref sig .tc := ⟨.hbm, 51, rfl⟩
abbrev main_cst_2 : Ref sig .tc := ⟨.hbm, 52, rfl⟩
abbrev main_v16 : Ref sig .tc := ⟨.hbm, 53, rfl⟩
abbrev main_v17 : Ref sig .tc := ⟨.hbm, 54, rfl⟩
abbrev main_cst_3 : Ref sig .tc := ⟨.hbm, 55, rfl⟩
abbrev main_v18 : Ref sig .tc := ⟨.hbm, 56, rfl⟩
abbrev main_v19 : Ref sig .tc := ⟨.hbm, 57, rfl⟩
abbrev main_cst_4 : Ref sig .tc := ⟨.hbm, 58, rfl⟩
abbrev main_call1_v0 : Ref sig .tc := ⟨.hbm, 59, rfl⟩
abbrev main_call1_v1 : Ref sig .tc := ⟨.hbm, 60, rfl⟩
abbrev main_v20 : Ref sig .tc := ⟨.hbm, 61, rfl⟩
abbrev main_c_5 : Ref sig .tc := ⟨.hbm, 62, rfl⟩
abbrev main_v21 : Ref sig .tc := ⟨.hbm, 63, rfl⟩
abbrev main_v22 : Ref sig .tc := ⟨.hbm, 64, rfl⟩
abbrev main_c_6 : Ref sig .tc := ⟨.hbm, 65, rfl⟩
abbrev main_v23 : Ref sig .tc := ⟨.hbm, 66, rfl⟩
abbrev main_v24 : Ref sig .tc := ⟨.hbm, 67, rfl⟩
abbrev main_v25 : Ref sig .tc := ⟨.hbm, 68, rfl⟩
abbrev main_v26 : Ref sig .tc := ⟨.hbm, 69, rfl⟩
abbrev main_v27 : Ref sig .tc := ⟨.hbm, 70, rfl⟩
abbrev main_v28 : Ref sig .tc := ⟨.hbm, 71, rfl⟩
abbrev main_c_7 : Ref sig .tc := ⟨.hbm, 72, rfl⟩
abbrev main_v29 : Ref sig .tc := ⟨.hbm, 73, rfl⟩
abbrev main_v30 : Ref sig .tc := ⟨.hbm, 74, rfl⟩
abbrev main_c_8 : Ref sig .tc := ⟨.hbm, 75, rfl⟩
abbrev main_v31 : Ref sig .tc := ⟨.hbm, 76, rfl⟩
abbrev main_v32 : Ref sig .tc := ⟨.hbm, 77, rfl⟩
abbrev main_v33 : Ref sig .tc := ⟨.hbm, 78, rfl⟩
abbrev main_v34 : Ref sig .tc := ⟨.hbm, 79, rfl⟩
abbrev main_v35 : Ref sig .tc := ⟨.hbm, 80, rfl⟩
abbrev main_v36 : Ref sig .tc := ⟨.hbm, 81, rfl⟩
abbrev main_cst_9 : Ref sig .tc := ⟨.hbm, 82, rfl⟩
abbrev main_v37 : Ref sig .tc := ⟨.hbm, 83, rfl⟩
abbrev main_v38 : Ref sig .tc := ⟨.hbm, 84, rfl⟩
abbrev main_v39 : Ref sig .tc := ⟨.hbm, 85, rfl⟩
abbrev main_v40 : Ref sig .tc := ⟨.hbm, 86, rfl⟩
abbrev main_c_10 : Ref sig .tc := ⟨.hbm, 87, rfl⟩
abbrev main_v41 : Ref sig .tc := ⟨.hbm, 88, rfl⟩
abbrev main_v42 : Ref sig .tc := ⟨.hbm, 89, rfl⟩
abbrev main_c_11 : Ref sig .tc := ⟨.hbm, 90, rfl⟩
abbrev main_v43 : Ref sig .tc := ⟨.hbm, 91, rfl⟩
abbrev main_v44 : Ref sig .tc := ⟨.hbm, 92, rfl⟩
abbrev main_v45 : Ref sig .tc := ⟨.hbm, 93, rfl⟩
abbrev main_v46 : Ref sig .tc := ⟨.hbm, 94, rfl⟩
abbrev main_v47 : Ref sig .tc := ⟨.hbm, 95, rfl⟩
abbrev main_v48 : Ref sig .tc := ⟨.hbm, 96, rfl⟩
abbrev main_v49 : Ref sig .tc := ⟨.hbm, 97, rfl⟩
abbrev main_cst_12 : Ref sig .tc := ⟨.hbm, 98, rfl⟩
abbrev main_cst_13 : Ref sig .tc := ⟨.hbm, 99, rfl⟩
abbrev main_call2_v0 : Ref sig .tc := ⟨.hbm, 100, rfl⟩
abbrev main_call2_v1 : Ref sig .tc := ⟨.hbm, 101, rfl⟩
abbrev main_call2_v2 : Ref sig .tc := ⟨.hbm, 102, rfl⟩
abbrev main_call2_v3 : Ref sig .tc := ⟨.hbm, 103, rfl⟩
abbrev main_call2_v4 : Ref sig .tc := ⟨.hbm, 104, rfl⟩
abbrev main_v50 : Ref sig .tc := ⟨.hbm, 105, rfl⟩
abbrev main_cst_14 : Ref sig .tc := ⟨.hbm, 106, rfl⟩
abbrev main_v51 : Ref sig .tc := ⟨.hbm, 107, rfl⟩
abbrev main_v52 : Ref sig .tc := ⟨.hbm, 108, rfl⟩
abbrev main_cst_15 : Ref sig .tc := ⟨.hbm, 109, rfl⟩
abbrev main_v53 : Ref sig .tc := ⟨.hbm, 110, rfl⟩
abbrev main_v54 : Ref sig .tc := ⟨.hbm, 111, rfl⟩
abbrev main_v55 : Ref sig .tc := ⟨.hbm, 112, rfl⟩
abbrev main_v56 : Ref sig .tc := ⟨.hbm, 113, rfl⟩
abbrev main_v57 : Ref sig .tc := ⟨.hbm, 114, rfl⟩
abbrev main_v58 : Ref sig .tc := ⟨.hbm, 115, rfl⟩
abbrev main_cst_16 : Ref sig .tc := ⟨.hbm, 116, rfl⟩
abbrev main_cst_17 : Ref sig .tc := ⟨.hbm, 117, rfl⟩
abbrev main_call3_v0 : Ref sig .tc := ⟨.hbm, 118, rfl⟩
abbrev main_call3_v1 : Ref sig .tc := ⟨.hbm, 119, rfl⟩
abbrev main_call3_v2 : Ref sig .tc := ⟨.hbm, 120, rfl⟩
abbrev main_call3_v3 : Ref sig .tc := ⟨.hbm, 121, rfl⟩
abbrev main_call3_v4 : Ref sig .tc := ⟨.hbm, 122, rfl⟩
abbrev main_v59 : Ref sig .tc := ⟨.hbm, 123, rfl⟩
abbrev main_cst_18 : Ref sig .tc := ⟨.hbm, 124, rfl⟩
abbrev main_v60 : Ref sig .tc := ⟨.hbm, 125, rfl⟩
abbrev main_v61 : Ref sig .tc := ⟨.hbm, 126, rfl⟩
abbrev main_v62 : Ref sig .tc := ⟨.hbm, 127, rfl⟩
abbrev main_v63 : Ref sig .tc := ⟨.hbm, 128, rfl⟩
abbrev main_v64 : Ref sig .tc := ⟨.hbm, 129, rfl⟩
abbrev main_call4_cst : Ref sig .tc := ⟨.hbm, 130, rfl⟩
abbrev main_call4_v0 : Ref sig .tc := ⟨.hbm, 131, rfl⟩
abbrev main_v65 : Ref sig .tc := ⟨.hbm, 132, rfl⟩
abbrev main_v66 : Ref sig .tc := ⟨.hbm, 133, rfl⟩
abbrev main_v67 : Ref sig .tc := ⟨.hbm, 134, rfl⟩
abbrev main_c_19 : Ref sig .tc := ⟨.hbm, 135, rfl⟩
abbrev main_v68 : Ref sig .tc := ⟨.hbm, 136, rfl⟩
abbrev main_v69 : Ref sig .tc := ⟨.hbm, 137, rfl⟩
abbrev main_c_20 : Ref sig .tc := ⟨.hbm, 138, rfl⟩
abbrev main_v70 : Ref sig .tc := ⟨.hbm, 139, rfl⟩
abbrev main_v71 : Ref sig .tc := ⟨.hbm, 140, rfl⟩
abbrev main_v72 : Ref sig .tc := ⟨.hbm, 141, rfl⟩
abbrev main_v73 : Ref sig .tc := ⟨.hbm, 142, rfl⟩
abbrev main_v74 : Ref sig .tc := ⟨.hbm, 143, rfl⟩
abbrev main_v75 : Ref sig .tc := ⟨.hbm, 144, rfl⟩
abbrev main_v76 : Ref sig .tc := ⟨.hbm, 145, rfl⟩
abbrev main_cst_21 : Ref sig .tc := ⟨.hbm, 146, rfl⟩
abbrev main_cst_22 : Ref sig .tc := ⟨.hbm, 147, rfl⟩
abbrev main_call5_v0 : Ref sig .tc := ⟨.hbm, 148, rfl⟩
abbrev main_call5_v1 : Ref sig .tc := ⟨.hbm, 149, rfl⟩
abbrev main_call5_v2 : Ref sig .tc := ⟨.hbm, 150, rfl⟩
abbrev main_call5_v3 : Ref sig .tc := ⟨.hbm, 151, rfl⟩
abbrev main_call5_v4 : Ref sig .tc := ⟨.hbm, 152, rfl⟩
abbrev main_v77 : Ref sig .tc := ⟨.hbm, 153, rfl⟩
abbrev main_cst_23 : Ref sig .tc := ⟨.hbm, 154, rfl⟩
abbrev main_v78 : Ref sig .tc := ⟨.hbm, 155, rfl⟩
abbrev main_v79 : Ref sig .tc := ⟨.hbm, 156, rfl⟩
abbrev main_cst_24 : Ref sig .tc := ⟨.hbm, 157, rfl⟩
abbrev main_v80 : Ref sig .tc := ⟨.hbm, 158, rfl⟩
abbrev main_v81 : Ref sig .tc := ⟨.hbm, 159, rfl⟩
abbrev main_v82 : Ref sig .tc := ⟨.hbm, 160, rfl⟩
abbrev main_v83 : Ref sig .tc := ⟨.hbm, 161, rfl⟩
abbrev main_v84 : Ref sig .tc := ⟨.hbm, 162, rfl⟩
abbrev main_v85 : Ref sig .tc := ⟨.hbm, 163, rfl⟩
abbrev main_cst_25 : Ref sig .tc := ⟨.hbm, 164, rfl⟩
abbrev main_cst_26 : Ref sig .tc := ⟨.hbm, 165, rfl⟩
abbrev main_call6_v0 : Ref sig .tc := ⟨.hbm, 166, rfl⟩
abbrev main_call6_v1 : Ref sig .tc := ⟨.hbm, 167, rfl⟩
abbrev main_call6_v2 : Ref sig .tc := ⟨.hbm, 168, rfl⟩
abbrev main_call6_v3 : Ref sig .tc := ⟨.hbm, 169, rfl⟩
abbrev main_call6_v4 : Ref sig .tc := ⟨.hbm, 170, rfl⟩
abbrev main_v86 : Ref sig .tc := ⟨.hbm, 171, rfl⟩
abbrev main_cst_27 : Ref sig .tc := ⟨.hbm, 172, rfl⟩
abbrev main_v87 : Ref sig .tc := ⟨.hbm, 173, rfl⟩
abbrev main_v88 : Ref sig .tc := ⟨.hbm, 174, rfl⟩
abbrev main_v89 : Ref sig .tc := ⟨.hbm, 175, rfl⟩
abbrev main_v90 : Ref sig .tc := ⟨.hbm, 176, rfl⟩
abbrev main_v91 : Ref sig .tc := ⟨.hbm, 177, rfl⟩
abbrev main_cst_28 : Ref sig .tc := ⟨.hbm, 178, rfl⟩
abbrev main_v92 : Ref sig .tc := ⟨.hbm, 179, rfl⟩
abbrev main_cst_29 : Ref sig .tc := ⟨.hbm, 180, rfl⟩
abbrev main_v93 : Ref sig .tc := ⟨.hbm, 181, rfl⟩
abbrev main_v94 : Ref sig .tc := ⟨.hbm, 182, rfl⟩
abbrev main_v95 : Ref sig .tc := ⟨.hbm, 183, rfl⟩
abbrev main_cst_30 : Ref sig .tc := ⟨.hbm, 184, rfl⟩
abbrev main_v96 : Ref sig .tc := ⟨.hbm, 185, rfl⟩
abbrev main_v97 : Ref sig .tc := ⟨.hbm, 186, rfl⟩
abbrev main_v98 : Ref sig .tc := ⟨.hbm, 187, rfl⟩
abbrev main_cst_31 : Ref sig .tc := ⟨.hbm, 188, rfl⟩
abbrev main_v99 : Ref sig .tc := ⟨.hbm, 189, rfl⟩
abbrev main_v100 : Ref sig .tc := ⟨.hbm, 190, rfl⟩
abbrev main_v101 : Ref sig .tc := ⟨.hbm, 191, rfl⟩
abbrev main_v102 : Ref sig .tc := ⟨.hbm, 192, rfl⟩
abbrev main_v103 : Ref sig .tc := ⟨.hbm, 193, rfl⟩
abbrev main_v104 : Ref sig .tc := ⟨.hbm, 194, rfl⟩
abbrev main_v105 : Ref sig .tc := ⟨.hbm, 195, rfl⟩
abbrev main_v106 : Ref sig .tc := ⟨.hbm, 196, rfl⟩
abbrev main_v107 : Ref sig .tc := ⟨.hbm, 197, rfl⟩

abbrev nD : Nat := 1
abbrev τ : Topo := Topo.v7x

variable {F : FTy → Type} [FloatOps F]

class Facts₀ : Prop where
  bcast_S9_S1x9_1 : S9.BroadcastsInDim S1x9 (![1] : Fin 1 → Fin S1x9.rank)
  bcast_S1x9_S50000x9_0_1 : S1x9.BroadcastsInDim S50000x9 (![0, 1] : Fin 2 → Fin S50000x9.rank)
  bcast_S_S50000x9 : S_.BroadcastsInDim S50000x9 (![] : Fin 0 → Fin S50000x9.rank)
  bcast_S50000x9_S50000x9x1_0_1 : S50000x9.BroadcastsInDim S50000x9x1 (![0, 1] : Fin 2 → Fin S50000x9x1.rank)
  bcast_S_S50000x9x1 : S_.BroadcastsInDim S50000x9x1 (![] : Fin 0 → Fin S50000x9x1.rank)
  bcast_S1_S1x1x1_2 : S1.BroadcastsInDim S1x1x1 (![2] : Fin 1 → Fin S1x1x1.rank)
  bcast_S1x1x1_S50000x9x1_0_1_2 : S1x1x1.BroadcastsInDim S50000x9x1 (![0, 1, 2] : Fin 3 → Fin S50000x9x1.rank)
  reducesTo_S50000x9x1_S50000x9_d2 : S50000x9x1.ReducesTo [2] S50000x9
  h_S_ : 0 < S_.numel
  bcast_S50000x9_S50000x9x100_0_1 : S50000x9.BroadcastsInDim S50000x9x100 (![0, 1] : Fin 2 → Fin S50000x9x100.rank)
  bcast_S_S50000x9x100 : S_.BroadcastsInDim S50000x9x100 (![] : Fin 0 → Fin S50000x9x100.rank)
  reducesTo_S50000x9x100_S50000x100_d1 : S50000x9x100.ReducesTo [1] S50000x100
  slices_S2x800000_S1x800000_0_0 : S2x800000.Slices ![0, 0] S1x800000
  shapeCasts_S1x800000_S800000 : S1x800000.ShapeCasts S800000
  concatenates_S800000_S50000_S850000_d0 : Shape.Concatenates [S800000, S50000] S850000 0
  slices_S2x800000_S1x800000_1_0 : S2x800000.Slices ![1, 0] S1x800000
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  bcast_S850000x1_S850000x100_0_1 : S850000x1.BroadcastsInDim S850000x100 (![0, 1] : Fin 2 → Fin S850000x100.rank)
  bcast_S_S850000x100 : S_.BroadcastsInDim S850000x100 (![] : Fin 0 → Fin S850000x100.rank)
  bcast_S_S50000x100 : S_.BroadcastsInDim S50000x100 (![] : Fin 0 → Fin S50000x100.rank)
  bcast_S50000_S50000x1_0 : S50000.BroadcastsInDim S50000x1 (![0] : Fin 1 → Fin S50000x1.rank)
  bcast_S50000x1_S50000x100_0_1 : S50000x1.BroadcastsInDim S50000x100 (![0, 1] : Fin 2 → Fin S50000x100.rank)
  bcast_S100_S1x100_1 : S100.BroadcastsInDim S1x100 (![1] : Fin 1 → Fin S1x100.rank)
  bcast_S1x100_S50000x100_0_1 : S1x100.BroadcastsInDim S50000x100 (![0, 1] : Fin 2 → Fin S50000x100.rank)
  bcast_S_S2000 : S_.BroadcastsInDim S2000 (![] : Fin 0 → Fin S2000.rank)
  bcast_S_S2000x100 : S_.BroadcastsInDim S2000x100 (![] : Fin 0 → Fin S2000x100.rank)
  bcast_S2000_S2000x1_0 : S2000.BroadcastsInDim S2000x1 (![0] : Fin 1 → Fin S2000x1.rank)
  bcast_S2000x1_S2000x100_0_1 : S2000x1.BroadcastsInDim S2000x100 (![0, 1] : Fin 2 → Fin S2000x100.rank)
  bcast_S128_S1x128_1 : S128.BroadcastsInDim S1x128 (![1] : Fin 1 → Fin S1x128.rank)
  bcast_S1x128_S2000x128_0_1 : S1x128.BroadcastsInDim S2000x128 (![0, 1] : Fin 2 → Fin S2000x128.rank)
  gather_S174x100_S50000x9x1_S50000x9x100_2_0_n_n_0_2_1100_wf : GatherDims.WF S174x100 S50000x9x1 S50000x9x100 [2] [0] [] [0] [] 2 ![1, 100]
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  dot_S50000x100_S100x100_S50000x100_1_0_0_1_n_n_wf : DotDims.WF S50000x100 S100x100 S50000x100 [1] [0] [0] [1] [] []
  gather_S50000x100_S850000x1_S850000x100_1_0_n_n_0_1_1100_wf : GatherDims.WF S50000x100 S850000x1 S850000x100 [1] [0] [] [0] [] 1 ![1, 100]
  scatter_S50000x100_S850000x1_S850000x100_1_0_0_1_wf : ScatterDims.WF S50000x100 S850000x1 S850000x100 [1] [0] [0] 1
  scatter_S2000_S50000x1_S50000_n_0_0_1_wf : ScatterDims.WF S2000 S50000x1 S50000 [] [0] [0] 1
  scatter_S2000x100_S50000x1_S50000x100_1_0_0_1_wf : ScatterDims.WF S2000x100 S50000x1 S50000x100 [1] [0] [0] 1
  dot_S2000x100_S100x128_S2000x128_1_0_0_1_n_n_wf : DotDims.WF S2000x100 S100x128 S2000x128 [1] [0] [0] [1] [] []

variable [Facts₀]

def gather_S174x100_S50000x9x1_S50000x9x100_2_0_n_n_0_2_1100 : GatherDims S174x100 S50000x9x1 S50000x9x100 where
  offsetDims := [2]
  collapsedSliceDims := [0]
  operandBatchingDims := []
  startIndicesBatchingDims := []
  startIndexMap := [0]
  indexVectorDim := 2
  sliceSizes := ![1, 100]
  wf := gather_S174x100_S50000x9x1_S50000x9x100_2_0_n_n_0_2_1100_wf
def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def dot_S50000x100_S100x100_S50000x100_1_0_0_1_n_n : DotDims S50000x100 S100x100 S50000x100 where
  lhsContracting := [1]
  rhsContracting := [0]
  lhsNonContracting := [0]
  rhsNonContracting := [1]
  lhsBatch := []
  rhsBatch := []
  wf := dot_S50000x100_S100x100_S50000x100_1_0_0_1_n_n_wf
def gather_S50000x100_S850000x1_S850000x100_1_0_n_n_0_1_1100 : GatherDims S50000x100 S850000x1 S850000x100 where
  offsetDims := [1]
  collapsedSliceDims := [0]
  operandBatchingDims := []
  startIndicesBatchingDims := []
  startIndexMap := [0]
  indexVectorDim := 1
  sliceSizes := ![1, 100]
  wf := gather_S50000x100_S850000x1_S850000x100_1_0_n_n_0_1_1100_wf
def scatter_S50000x100_S850000x1_S850000x100_1_0_0_1 : ScatterDims S50000x100 S850000x1 S850000x100 where
  updateWindowDims := [1]
  insertedWindowDims := [0]
  scatterDimsToOperandDims := [0]
  indexVectorDim := 1
  wf := scatter_S50000x100_S850000x1_S850000x100_1_0_0_1_wf
def scatter_S2000_S50000x1_S50000_n_0_0_1 : ScatterDims S2000 S50000x1 S50000 where
  updateWindowDims := []
  insertedWindowDims := [0]
  scatterDimsToOperandDims := [0]
  indexVectorDim := 1
  wf := scatter_S2000_S50000x1_S50000_n_0_0_1_wf
def scatter_S2000x100_S50000x1_S50000x100_1_0_0_1 : ScatterDims S2000x100 S50000x1 S50000x100 where
  updateWindowDims := [1]
  insertedWindowDims := [0]
  scatterDimsToOperandDims := [0]
  indexVectorDim := 1
  wf := scatter_S2000x100_S50000x1_S50000x100_1_0_0_1_wf
def dot_S2000x100_S100x128_S2000x128_1_0_0_1_n_n : DotDims S2000x100 S100x128 S2000x128 where
  lhsContracting := [1]
  rhsContracting := [0]
  lhsNonContracting := [0]
  rhsNonContracting := [1]
  lhsBatch := []
  rhsBatch := []
  wf := dot_S2000x100_S100x128_S2000x128_1_0_0_1_n_n_wf

class Facts : Prop extends Facts₀ where

variable [Facts]
-- ==== Proof.KernelRun.lean ====
/-
  The idealized kernel's run with its result named. Every weakly fair execution of @main ends, nothing faulting, with
  the result buffer holding what the fold of the program's segments leaves there — the last region's output array after
  its write-backs — and with the ten argument arrays as launched. The contents at each segment boundary are the
  valuations `Gen.W0 … Gen.W18`: a stretch of host operations applies its operations, a region replaces its arrays
  by what its pipeline leaves and keeps every other buffer.
-/
import proofs.«119466_j60455959658662_1_alg».proof.Proof.Gen.KernelIdeal.Frame

set_option maxRecDepth 16384

noncomputable section

namespace Cert.KernelIdeal.Named

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run of @main over its eighteen segments; the final state read at the result buffer and at each argument. -/
theorem run_named : θ_run defs (onTc (τ := τ) (main (F := F))) ⟨m, fun _ => 0, ρ⟩ (fun r => ∀ c : Dev nD,
      r.2.mem ((c.tc : Thread nD τ).loc main_v85) = W18 m ρ c (Proc.devRef .tc main_v85)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W18 m ρ c b)
    (hfin := fun c s' => by
      iintro ⟨⟨Hh, -⟩, HSI⟩
      unfold StableHlo.held
      imodintro
      iapply (pointsTo_read_all (Pipeline.ucRefs τ sig) (fun b => (((c : Thread nD τ)).1, b)) (W18 m ρ c) s')
      isplitl [Hh] <;> iassumption)
    (hQ := fun s h c =>
      ⟨h c _ (mem_uc main_v85 (by decide)),
       (h c _ (mem_uc main_arg0 (by decide))).trans (W18_main_arg0 m ρ c),
       (h c _ (mem_uc main_arg1 (by decide))).trans (W18_main_arg1 m ρ c),
       (h c _ (mem_uc main_arg2 (by decide))).trans (W18_main_arg2 m ρ c),
       (h c _ (mem_uc main_arg3 (by decide))).trans (W18_main_arg3 m ρ c),
       (h c _ (mem_uc main_arg4 (by decide))).trans (W18_main_arg4 m ρ c),
       (h c _ (mem_uc main_arg5 (by decide))).trans (W18_main_arg5 m ρ c),
       (h c _ (mem_uc main_arg6 (by decide))).trans (W18_main_arg6 m ρ c),
       (h c _ (mem_uc main_arg7 (by decide))).trans (W18_main_arg7 m ρ c),
       (h c _ (mem_uc main_arg8 (by decide))).trans (W18_main_arg8 m ρ c),
       (h c _ (mem_uc main_arg9 (by decide))).trans (W18_main_arg9 m ρ c)⟩)

end Cert.KernelIdeal.Named

end
-- ==== Proof.KernelKeeps.lean ====
/-
  Buffers that no later segment writes keep their contents. Each array the later regions and host stretches read —
  the edge endpoints, the normalisation column, the count column, a dense layer's output, the argument arrays — is
  written once (or never), so its contents at a later segment boundary are its contents at an earlier one: a region
  replaces only its own arrays and a stretch of host operations only the buffers its operations write.
-/
import proofs.«119466_j60455959658662_1_alg».proof.Proof.Gen.KernelIdeal.Frame

set_option maxRecDepth 16384

noncomputable section

namespace Cert.KernelIdeal.Keeps

open Cert.KernelIdeal Cert.KernelIdeal.Gen
open Idealize.ShloMosaic Idealize.ShloMosaic.TcCoe Idealize.ShloMosaic.Tactic Idealize.SL.Sem

variable {F : FTy → Type} [FloatOps F]
variable (m : (ℓ : Loc nD τ sig) → Buf (Elt F) ℓ) (ρ : Dev nD → PrngReg)

/-- The source endpoints survive the first dense layer. -/
theorem keep_v8_6 (c : Dev nD) : W6 m ρ c (Proc.devRef .tc main_v8) = W5 m ρ c (Proc.devRef .tc main_v8) :=
  calc W6 m ρ c (Proc.devRef .tc main_v8)
    _ = W5 m ρ c (Proc.devRef .tc main_v8) := W6_of_ne m ρ c main_v8 (by decide)

/-- The source endpoints survive up to the second gather. -/
theorem keep_v8_12 (c : Dev nD) : W12 m ρ c (Proc.devRef .tc main_v8) = W5 m ρ c (Proc.devRef .tc main_v8) :=
  calc W12 m ρ c (Proc.devRef .tc main_v8)
    _ = W11 m ρ c (Proc.devRef .tc main_v8) := W12_of_ne m ρ c main_v8 (by decide)
    _ = W10 m ρ c (Proc.devRef .tc main_v8) := StableHlo.after_of_forall_not_mem (b := Proc.devRef .tc main_v8) _ _ (List.forall_iff_forall_mem.mp (by
          simp only [hostOps3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W9 m ρ c (Proc.devRef .tc main_v8) := W10_of_ne m ρ c main_v8 (by decide)
    _ = W8 m ρ c (Proc.devRef .tc main_v8) := StableHlo.after_of_forall_not_mem (b := Proc.devRef .tc main_v8) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W7 m ρ c (Proc.devRef .tc main_v8) := W8_of_ne m ρ c main_v8 (by decide)
    _ = W6 m ρ c (Proc.devRef .tc main_v8) := StableHlo.after_of_forall_not_mem (b := Proc.devRef .tc main_v8) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W5 m ρ c (Proc.devRef .tc main_v8) := W6_of_ne m ρ c main_v8 (by decide)

/-- The target endpoints survive up to the first aggregation. -/
theorem keep_v11_8 (c : Dev nD) : W8 m ρ c (Proc.devRef .tc main_v11) = W5 m ρ c (Proc.devRef .tc main_v11) :=
  calc W8 m ρ c (Proc.devRef .tc main_v11)
    _ = W7 m ρ c (Proc.devRef .tc main_v11) := W8_of_ne m ρ c main_v11 (by decide)
    _ = W6 m ρ c (Proc.devRef .tc main_v11) := StableHlo.after_of_forall_not_mem (b := Proc.devRef .tc main_v11) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W5 m ρ c (Proc.devRef .tc main_v11) := W6_of_ne m ρ c main_v11 (by decide)

/-- The target endpoints survive up to the second aggregation. -/
theorem keep_v11_14 (c : Dev nD) : W14 m ρ c (Proc.devRef .tc main_v11) = W5 m ρ c (Proc.devRef .tc main_v11) :=
  calc W14 m ρ c (Proc.devRef .tc main_v11)
    _ = W13 m ρ c (Proc.devRef .tc main_v11) := W14_of_ne m ρ c main_v11 (by decide)
    _ = W12 m ρ c (Proc.devRef .tc main_v11) := StableHlo.after_of_forall_not_mem (b := Proc.devRef .tc main_v11) _ _ (List.forall_iff_forall_mem.mp (by
          simp only [hostOps4, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W11 m ρ c (Proc.devRef .tc main_v11) := W12_of_ne m ρ c main_v11 (by decide)
    _ = W10 m ρ c (Proc.devRef .tc main_v11) := StableHlo.after_of_forall_not_mem (b := Proc.devRef .tc main_v11) _ _ (List.forall_iff_forall_mem.mp (by
          simp only [hostOps3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W9 m ρ c (Proc.devRef .tc main_v11) := W10_of_ne m ρ c main_v11 (by decide)
    _ = W8 m ρ c (Proc.devRef .tc main_v11) := StableHlo.after_of_forall_not_mem (b := Proc.devRef .tc main_v11) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W7 m ρ c (Proc.devRef .tc main_v11) := W8_of_ne m ρ c main_v11 (by decide)
    _ = W6 m ρ c (Proc.devRef .tc main_v11) := StableHlo.after_of_forall_not_mem (b := Proc.devRef .tc main_v11) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W5 m ρ c (Proc.devRef .tc main_v11) := W6_of_ne m ρ c main_v11 (by decide)

/-- The normalisation column survives up to the first message transform. -/
theorem keep_v36_7 (c : Dev nD) : W7 m ρ c (Proc.devRef .tc main_v36) = W5 m ρ c (Proc.devRef .tc main_v36) :=
  calc W7 m ρ c (Proc.devRef .tc main_v36)
    _ = W6 m ρ c (Proc.devRef .tc main_v36) := StableHlo.after_of_forall_not_mem (b := Proc.devRef .tc main_v36) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W5 m ρ c (Proc.devRef .tc main_v36) := W6_of_ne m ρ c main_v36 (by decide)

/-- The normalisation column survives up to the second message transform. -/
theorem keep_v36_13 (c : Dev nD) : W13 m ρ c (Proc.devRef .tc main_v36) = W5 m ρ c (Proc.devRef .tc main_v36) :=
  calc W13 m ρ c (Proc.devRef .tc main_v36)
    _ = W12 m ρ c (Proc.devRef .tc main_v36) := StableHlo.after_of_forall_not_mem (b := Proc.devRef .tc main_v36) _ _ (List.forall_iff_forall_mem.mp (by
          simp only [hostOps4, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W11 m ρ c (Proc.devRef .tc main_v36) := W12_of_ne m ρ c main_v36 (by decide)
    _ = W10 m ρ c (Proc.devRef .tc main_v36) := StableHlo.after_of_forall_not_mem (b := Proc.devRef .tc main_v36) _ _ (List.forall_iff_forall_mem.mp (by
          simp only [hostOps3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W9 m ρ c (Proc.devRef .tc main_v36) := W10_of_ne m ρ c main_v36 (by decide)
    _ = W8 m ρ c (Proc.devRef .tc main_v36) := StableHlo.after_of_forall_not_mem (b := Proc.devRef .tc main_v36) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W7 m ρ c (Proc.devRef .tc main_v36) := (W8_arr m ρ c 1).trans (((dat1 (V7 m ρ) c).arrAt_in 1 rfl _).trans (A_eq1 (V7 m ρ) c 1))
    _ = W6 m ρ c (Proc.devRef .tc main_v36) := StableHlo.after_of_forall_not_mem (b := Proc.devRef .tc main_v36) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W5 m ρ c (Proc.devRef .tc main_v36) := W6_of_ne m ρ c main_v36 (by decide)

/-- The count column survives up to the first node update. -/
theorem keep_v39_9 (c : Dev nD) : W9 m ρ c (Proc.devRef .tc main_v39) = W5 m ρ c (Proc.devRef .tc main_v39) :=
  calc W9 m ρ c (Proc.devRef .tc main_v39)
    _ = W8 m ρ c (Proc.devRef .tc main_v39) := StableHlo.after_of_forall_not_mem (b := Proc.devRef .tc main_v39) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W7 m ρ c (Proc.devRef .tc main_v39) := W8_of_ne m ρ c main_v39 (by decide)
    _ = W6 m ρ c (Proc.devRef .tc main_v39) := StableHlo.after_of_forall_not_mem (b := Proc.devRef .tc main_v39) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W5 m ρ c (Proc.devRef .tc main_v39) := W6_of_ne m ρ c main_v39 (by decide)

/-- The count column survives up to the second node update. -/
theorem keep_v39_15 (c : Dev nD) : W15 m ρ c (Proc.devRef .tc main_v39) = W5 m ρ c (Proc.devRef .tc main_v39) :=
  calc W15 m ρ c (Proc.devRef .tc main_v39)
    _ = W14 m ρ c (Proc.devRef .tc main_v39) := StableHlo.after_of_forall_not_mem (b := Proc.devRef .tc main_v39) _ _ (List.forall_iff_forall_mem.mp (by
          simp only [hostOps5, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W13 m ρ c (Proc.devRef .tc main_v39) := W14_of_ne m ρ c main_v39 (by decide)
    _ = W12 m ρ c (Proc.devRef .tc main_v39) := StableHlo.after_of_forall_not_mem (b := Proc.devRef .tc main_v39) _ _ (List.forall_iff_forall_mem.mp (by
          simp only [hostOps4, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W11 m ρ c (Proc.devRef .tc main_v39) := W12_of_ne m ρ c main_v39 (by decide)
    _ = W10 m ρ c (Proc.devRef .tc main_v39) := StableHlo.after_of_forall_not_mem (b := Proc.devRef .tc main_v39) _ _ (List.forall_iff_forall_mem.mp (by
          simp only [hostOps3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W9 m ρ c (Proc.devRef .tc main_v39) := (W10_arr m ρ c 1).trans (((dat2 (V9 m ρ) c).arrAt_in 1 rfl _).trans (A_eq2 (V9 m ρ) c 1))
    _ = W8 m ρ c (Proc.devRef .tc main_v39) := StableHlo.after_of_forall_not_mem (b := Proc.devRef .tc main_v39) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W7 m ρ c (Proc.devRef .tc main_v39) := W8_of_ne m ρ c main_v39 (by decide)
    _ = W6 m ρ c (Proc.devRef .tc main_v39) := StableHlo.after_of_forall_not_mem (b := Proc.devRef .tc main_v39) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W5 m ρ c (Proc.devRef .tc main_v39) := W6_of_ne m ρ c main_v39 (by decide)

/-- The first layer's output survives the host stretch before the second dense layer. -/
theorem keep_v55_11 (c : Dev nD) : W11 m ρ c (Proc.devRef .tc main_v55) = W10 m ρ c (Proc.devRef .tc main_v55) :=
  calc W11 m ρ c (Proc.devRef .tc main_v55)
    _ = W10 m ρ c (Proc.devRef .tc main_v55) := StableHlo.after_of_forall_not_mem (b := Proc.devRef .tc main_v55) _ _ (List.forall_iff_forall_mem.mp (by
          simp only [hostOps3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))

/-- The first weight matrix is as launched when the first dense layer starts. -/
theorem keep_arg4_5 (c : Dev nD) : W5 m ρ c (Proc.devRef .tc main_arg4) = W0 m ρ c (Proc.devRef .tc main_arg4) :=
  calc W5 m ρ c (Proc.devRef .tc main_arg4)
    _ = W4 m ρ c (Proc.devRef .tc main_arg4) := StableHlo.after_of_forall_not_mem (b := Proc.devRef .tc main_arg4) _ _ (List.forall_iff_forall_mem.mp (by
          simp only [hostOps0_4, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_arg4) := StableHlo.after_of_forall_not_mem (b := Proc.devRef .tc main_arg4) _ _ (List.forall_iff_forall_mem.mp (by
          simp only [hostOps0_3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W2 m ρ c (Proc.devRef .tc main_arg4) := StableHlo.after_of_forall_not_mem (b := Proc.devRef .tc main_arg4) _ _ (List.forall_iff_forall_mem.mp (by
          simp only [hostOps0_2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg4) := StableHlo.after_of_forall_not_mem (b := Proc.devRef .tc main_arg4) _ _ (List.forall_iff_forall_mem.mp (by
          simp only [hostOps0_1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W0 m ρ c (Proc.devRef .tc main_arg4) := StableHlo.after_of_forall_not_mem (b := Proc.devRef .tc main_arg4) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))

/-- The first bias is as launched when the first node update's row is formed. -/
theorem keep_arg5_8 (c : Dev nD) : W8 m ρ c (Proc.devRef .tc main_arg5) = W0 m ρ c (Proc.devRef .tc main_arg5) :=
  calc W8 m ρ c (Proc.devRef .tc main_arg5)
    _ = W7 m ρ c (Proc.devRef .tc main_arg5) := W8_of_ne m ρ c main_arg5 (by decide)
    _ = W6 m ρ c (Proc.devRef .tc main_arg5) := StableHlo.after_of_forall_not_mem (b := Proc.devRef .tc main_arg5) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W5 m ρ c (Proc.devRef .tc main_arg5) := W6_of_ne m ρ c main_arg5 (by decide)
    _ = W4 m ρ c (Proc.devRef .tc main_arg5) := StableHlo.after_of_forall_not_mem (b := Proc.devRef .tc main_arg5) _ _ (List.forall_iff_forall_mem.mp (by
          simp only [hostOps0_4, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_arg5) := StableHlo.after_of_forall_not_mem (b := Proc.devRef .tc main_arg5) _ _ (List.forall_iff_forall_mem.mp (by
          simp only [hostOps0_3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W2 m ρ c (Proc.devRef .tc main_arg5) := StableHlo.after_of_forall_not_mem (b := Proc.devRef .tc main_arg5) _ _ (List.forall_iff_forall_mem.mp (by
          simp only [hostOps0_2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg5) := StableHlo.after_of_forall_not_mem (b := Proc.devRef .tc main_arg5) _ _ (List.forall_iff_forall_mem.mp (by
          simp only [hostOps0_1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W0 m ρ c (Proc.devRef .tc main_arg5) := StableHlo.after_of_forall_not_mem (b := Proc.devRef .tc main_arg5) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))

/-- The second weight matrix is as launched when the second dense layer starts. -/
theorem keep_arg6_11 (c : Dev nD) : W11 m ρ c (Proc.devRef .tc main_arg6) = W0 m ρ c (Proc.devRef .tc main_arg6) :=
  calc W11 m ρ c (Proc.devRef .tc main_arg6)
    _ = W10 m ρ c (Proc.devRef .tc main_arg6) := StableHlo.after_of_forall_not_mem (b := Proc.devRef .tc main_arg6) _ _ (List.forall_iff_forall_mem.mp (by
          simp only [hostOps3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W9 m ρ c (Proc.devRef .tc main_arg6) := W10_of_ne m ρ c main_arg6 (by decide)
    _ = W8 m ρ c (Proc.devRef .tc main_arg6) := StableHlo.after_of_forall_not_mem (b := Proc.devRef .tc main_arg6) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W7 m ρ c (Proc.devRef .tc main_arg6) := W8_of_ne m ρ c main_arg6 (by decide)
    _ = W6 m ρ c (Proc.devRef .tc main_arg6) := StableHlo.after_of_forall_not_mem (b := Proc.devRef .tc main_arg6) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W5 m ρ c (Proc.devRef .tc main_arg6) := W6_of_ne m ρ c main_arg6 (by decide)
    _ = W4 m ρ c (Proc.devRef .tc main_arg6) := StableHlo.after_of_forall_not_mem (b := Proc.devRef .tc main_arg6) _ _ (List.forall_iff_forall_mem.mp (by
          simp only [hostOps0_4, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_arg6) := StableHlo.after_of_forall_not_mem (b := Proc.devRef .tc main_arg6) _ _ (List.forall_iff_forall_mem.mp (by
          simp only [hostOps0_3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W2 m ρ c (Proc.devRef .tc main_arg6) := StableHlo.after_of_forall_not_mem (b := Proc.devRef .tc main_arg6) _ _ (List.forall_iff_forall_mem.mp (by
          simp only [hostOps0_2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg6) := StableHlo.after_of_forall_not_mem (b := Proc.devRef .tc main_arg6) _ _ (List.forall_iff_forall_mem.mp (by
          simp only [hostOps0_1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W0 m ρ c (Proc.devRef .tc main_arg6) := StableHlo.after_of_forall_not_mem (b := Proc.devRef .tc main_arg6) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))

/-- The second bias is as launched when the second node update's row is formed. -/
theorem keep_arg7_14 (c : Dev nD) : W14 m ρ c (Proc.devRef .tc main_arg7) = W0 m ρ c (Proc.devRef .tc main_arg7) :=
  calc W14 m ρ c (Proc.devRef .tc main_arg7)
    _ = W13 m ρ c (Proc.devRef .tc main_arg7) := W14_of_ne m ρ c main_arg7 (by decide)
    _ = W12 m ρ c (Proc.devRef .tc main_arg7) := StableHlo.after_of_forall_not_mem (b := Proc.devRef .tc main_arg7) _ _ (List.forall_iff_forall_mem.mp (by
          simp only [hostOps4, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W11 m ρ c (Proc.devRef .tc main_arg7) := W12_of_ne m ρ c main_arg7 (by decide)
    _ = W10 m ρ c (Proc.devRef .tc main_arg7) := StableHlo.after_of_forall_not_mem (b := Proc.devRef .tc main_arg7) _ _ (List.forall_iff_forall_mem.mp (by
          simp only [hostOps3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W9 m ρ c (Proc.devRef .tc main_arg7) := W10_of_ne m ρ c main_arg7 (by decide)
    _ = W8 m ρ c (Proc.devRef .tc main_arg7) := StableHlo.after_of_forall_not_mem (b := Proc.devRef .tc main_arg7) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W7 m ρ c (Proc.devRef .tc main_arg7) := W8_of_ne m ρ c main_arg7 (by decide)
    _ = W6 m ρ c (Proc.devRef .tc main_arg7) := StableHlo.after_of_forall_not_mem (b := Proc.devRef .tc main_arg7) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W5 m ρ c (Proc.devRef .tc main_arg7) := W6_of_ne m ρ c main_arg7 (by decide)
    _ = W4 m ρ c (Proc.devRef .tc main_arg7) := StableHlo.after_of_forall_not_mem (b := Proc.devRef .tc main_arg7) _ _ (List.forall_iff_forall_mem.mp (by
          simp only [hostOps0_4, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_arg7) := StableHlo.after_of_forall_not_mem (b := Proc.devRef .tc main_arg7) _ _ (List.forall_iff_forall_mem.mp (by
          simp only [hostOps0_3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W2 m ρ c (Proc.devRef .tc main_arg7) := StableHlo.after_of_forall_not_mem (b := Proc.devRef .tc main_arg7) _ _ (List.forall_iff_forall_mem.mp (by
          simp only [hostOps0_2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg7) := StableHlo.after_of_forall_not_mem (b := Proc.devRef .tc main_arg7) _ _ (List.forall_iff_forall_mem.mp (by
          simp only [hostOps0_1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W0 m ρ c (Proc.devRef .tc main_arg7) := StableHlo.after_of_forall_not_mem (b := Proc.devRef .tc main_arg7) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))

/-- The graph assignment is as launched when the pooling starts. -/
theorem keep_arg2_16 (c : Dev nD) : W16 m ρ c (Proc.devRef .tc main_arg2) = W0 m ρ c (Proc.devRef .tc main_arg2) :=
  calc W16 m ρ c (Proc.devRef .tc main_arg2)
    _ = W15 m ρ c (Proc.devRef .tc main_arg2) := W16_of_ne m ρ c main_arg2 (by decide)
    _ = W14 m ρ c (Proc.devRef .tc main_arg2) := StableHlo.after_of_forall_not_mem (b := Proc.devRef .tc main_arg2) _ _ (List.forall_iff_forall_mem.mp (by
          simp only [hostOps5, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W13 m ρ c (Proc.devRef .tc main_arg2) := W14_of_ne m ρ c main_arg2 (by decide)
    _ = W12 m ρ c (Proc.devRef .tc main_arg2) := StableHlo.after_of_forall_not_mem (b := Proc.devRef .tc main_arg2) _ _ (List.forall_iff_forall_mem.mp (by
          simp only [hostOps4, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W11 m ρ c (Proc.devRef .tc main_arg2) := W12_of_ne m ρ c main_arg2 (by decide)
    _ = W10 m ρ c (Proc.devRef .tc main_arg2) := StableHlo.after_of_forall_not_mem (b := Proc.devRef .tc main_arg2) _ _ (List.forall_iff_forall_mem.mp (by
          simp only [hostOps3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W9 m ρ c (Proc.devRef .tc main_arg2) := W10_of_ne m ρ c main_arg2 (by decide)
    _ = W8 m ρ c (Proc.devRef .tc main_arg2) := StableHlo.after_of_forall_not_mem (b := Proc.devRef .tc main_arg2) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W7 m ρ c (Proc.devRef .tc main_arg2) := W8_of_ne m ρ c main_arg2 (by decide)
    _ = W6 m ρ c (Proc.devRef .tc main_arg2) := StableHlo.after_of_forall_not_mem (b := Proc.devRef .tc main_arg2) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W5 m ρ c (Proc.devRef .tc main_arg2) := W6_of_ne m ρ c main_arg2 (by decide)
    _ = W4 m ρ c (Proc.devRef .tc main_arg2) := StableHlo.after_of_forall_not_mem (b := Proc.devRef .tc main_arg2) _ _ (List.forall_iff_forall_mem.mp (by
          simp only [hostOps0_4, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_arg2) := StableHlo.after_of_forall_not_mem (b := Proc.devRef .tc main_arg2) _ _ (List.forall_iff_forall_mem.mp (by
          simp only [hostOps0_3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W2 m ρ c (Proc.devRef .tc main_arg2) := StableHlo.after_of_forall_not_mem (b := Proc.devRef .tc main_arg2) _ _ (List.forall_iff_forall_mem.mp (by
          simp only [hostOps0_2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg2) := StableHlo.after_of_forall_not_mem (b := Proc.devRef .tc main_arg2) _ _ (List.forall_iff_forall_mem.mp (by
          simp only [hostOps0_1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W0 m ρ c (Proc.devRef .tc main_arg2) := StableHlo.after_of_forall_not_mem (b := Proc.devRef .tc main_arg2) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))

/-- The readout weights are as launched when the readout layer starts. -/
theorem keep_arg8_17 (c : Dev nD) : W17 m ρ c (Proc.devRef .tc main_arg8) = W0 m ρ c (Proc.devRef .tc main_arg8) :=
  calc W17 m ρ c (Proc.devRef .tc main_arg8)
    _ = W16 m ρ c (Proc.devRef .tc main_arg8) := StableHlo.after_of_forall_not_mem (b := Proc.devRef .tc main_arg8) _ _ (List.forall_iff_forall_mem.mp (by
          simp only [hostOps6, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W15 m ρ c (Proc.devRef .tc main_arg8) := W16_of_ne m ρ c main_arg8 (by decide)
    _ = W14 m ρ c (Proc.devRef .tc main_arg8) := StableHlo.after_of_forall_not_mem (b := Proc.devRef .tc main_arg8) _ _ (List.forall_iff_forall_mem.mp (by
          simp only [hostOps5, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W13 m ρ c (Proc.devRef .tc main_arg8) := W14_of_ne m ρ c main_arg8 (by decide)
    _ = W12 m ρ c (Proc.devRef .tc main_arg8) := StableHlo.after_of_forall_not_mem (b := Proc.devRef .tc main_arg8) _ _ (List.forall_iff_forall_mem.mp (by
          simp only [hostOps4, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W11 m ρ c (Proc.devRef .tc main_arg8) := W12_of_ne m ρ c main_arg8 (by decide)
    _ = W10 m ρ c (Proc.devRef .tc main_arg8) := StableHlo.after_of_forall_not_mem (b := Proc.devRef .tc main_arg8) _ _ (List.forall_iff_forall_mem.mp (by
          simp only [hostOps3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W9 m ρ c (Proc.devRef .tc main_arg8) := W10_of_ne m ρ c main_arg8 (by decide)
    _ = W8 m ρ c (Proc.devRef .tc main_arg8) := StableHlo.after_of_forall_not_mem (b := Proc.devRef .tc main_arg8) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W7 m ρ c (Proc.devRef .tc main_arg8) := W8_of_ne m ρ c main_arg8 (by decide)
    _ = W6 m ρ c (Proc.devRef .tc main_arg8) := StableHlo.after_of_forall_not_mem (b := Proc.devRef .tc main_arg8) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W5 m ρ c (Proc.devRef .tc main_arg8) := W6_of_ne m ρ c main_arg8 (by decide)
    _ = W4 m ρ c (Proc.devRef .tc main_arg8) := StableHlo.after_of_forall_not_mem (b := Proc.devRef .tc main_arg8) _ _ (List.forall_iff_forall_mem.mp (by
          simp only [hostOps0_4, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_arg8) := StableHlo.after_of_forall_not_mem (b := Proc.devRef .tc main_arg8) _ _ (List.forall_iff_forall_mem.mp (by
          simp only [hostOps0_3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W2 m ρ c (Proc.devRef .tc main_arg8) := StableHlo.after_of_forall_not_mem (b := Proc.devRef .tc main_arg8) _ _ (List.forall_iff_forall_mem.mp (by
          simp only [hostOps0_2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg8) := StableHlo.after_of_forall_not_mem (b := Proc.devRef .tc main_arg8) _ _ (List.forall_iff_forall_mem.mp (by
          simp only [hostOps0_1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W0 m ρ c (Proc.devRef .tc main_arg8) := StableHlo.after_of_forall_not_mem (b := Proc.devRef .tc main_arg8) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))

/-- The readout bias is as launched when its row is formed. -/
theorem keep_arg9_16 (c : Dev nD) : W16 m ρ c (Proc.devRef .tc main_arg9) = W0 m ρ c (Proc.devRef .tc main_arg9) :=
  calc W16 m ρ c (Proc.devRef .tc main_arg9)
    _ = W15 m ρ c (Proc.devRef .tc main_arg9) := W16_of_ne m ρ c main_arg9 (by decide)
    _ = W14 m ρ c (Proc.devRef .tc main_arg9) := StableHlo.after_of_forall_not_mem (b := Proc.devRef .tc main_arg9) _ _ (List.forall_iff_forall_mem.mp (by
          simp only [hostOps5, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W13 m ρ c (Proc.devRef .tc main_arg9) := W14_of_ne m ρ c main_arg9 (by decide)
    _ = W12 m ρ c (Proc.devRef .tc main_arg9) := StableHlo.after_of_forall_not_mem (b := Proc.devRef .tc main_arg9) _ _ (List.forall_iff_forall_mem.mp (by
          simp only [hostOps4, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W11 m ρ c (Proc.devRef .tc main_arg9) := W12_of_ne m ρ c main_arg9 (by decide)
    _ = W10 m ρ c (Proc.devRef .tc main_arg9) := StableHlo.after_of_forall_not_mem (b := Proc.devRef .tc main_arg9) _ _ (List.forall_iff_forall_mem.mp (by
          simp only [hostOps3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W9 m ρ c (Proc.devRef .tc main_arg9) := W10_of_ne m ρ c main_arg9 (by decide)
    _ = W8 m ρ c (Proc.devRef .tc main_arg9) := StableHlo.after_of_forall_not_mem (b := Proc.devRef .tc main_arg9) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W7 m ρ c (Proc.devRef .tc main_arg9) := W8_of_ne m ρ c main_arg9 (by decide)
    _ = W6 m ρ c (Proc.devRef .tc main_arg9) := StableHlo.after_of_forall_not_mem (b := Proc.devRef .tc main_arg9) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W5 m ρ c (Proc.devRef .tc main_arg9) := W6_of_ne m ρ c main_arg9 (by decide)
    _ = W4 m ρ c (Proc.devRef .tc main_arg9) := StableHlo.after_of_forall_not_mem (b := Proc.devRef .tc main_arg9) _ _ (List.forall_iff_forall_mem.mp (by
          simp only [hostOps0_4, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_arg9) := StableHlo.after_of_forall_not_mem (b := Proc.devRef .tc main_arg9) _ _ (List.forall_iff_forall_mem.mp (by
          simp only [hostOps0_3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W2 m ρ c (Proc.devRef .tc main_arg9) := StableHlo.after_of_forall_not_mem (b := Proc.devRef .tc main_arg9) _ _ (List.forall_iff_forall_mem.mp (by
          simp only [hostOps0_2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg9) := StableHlo.after_of_forall_not_mem (b := Proc.devRef .tc main_arg9) _ _ (List.forall_iff_forall_mem.mp (by
          simp only [hostOps0_1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W0 m ρ c (Proc.devRef .tc main_arg9) := StableHlo.after_of_forall_not_mem (b := Proc.devRef .tc main_arg9) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))

end Cert.KernelIdeal.Keeps

end
-- ==== Proof.LibPlainContract.lean ====
/-
  A plain matrix contraction read at one entry.

  For the dimension numbers of an [M, K] by [K, N] product (contract the left operand's axis 1 with the right operand's
  axis 0, no batch axis), the sum over the contraction index that the exact matrix product takes at result entry (p, q)
  is the textbook sum over k < K of l[p, k] · r[k, q]. Stated for the sum itself, for a matrix unit's product into a
  zero accumulator, and for a host dot product, all at the exact (extended real) reading of floats.
-/
import Idealize.ShloMosaic.PureOps.Ideal.Laws
import Idealize.ShloMosaic.Lib.ValueIdx

noncomputable section

namespace Cert.LibPlainContract

open Idealize.ShloMosaic Idealize.ShloMosaic.ValueIdx

/-- The contraction index of a plain product has one axis, of extent K. -/
theorem plain_rank (M K N : Nat) : (DotDims.plain M K N).contr.rank = 1 := rfl
theorem plain_size (M K N : Nat) : (DotDims.plain M K N).contr.size ⟨0, Nat.one_pos⟩ = K := rfl

/-- At result entry (p, q) and contraction position k the left operand is read at (p, k) … -/
theorem plain_lhsIdx (M K N : Nat) (p : Fin M) (q : Fin N) (k : Fin K) :
    (DotDims.plain M K N).lhsIdx (ix2 p q) ((contrEquiv1 (DotDims.plain M K N) K rfl rfl).symm k) = ix2 p k :=
  funext fun a => Fin.ext (by
    have hk := contrEquiv1_symm_val (DotDims.plain M K N) K rfl rfl k
    match a with
    | ⟨0, _⟩ => rfl
    | ⟨1, _⟩ => exact ((DotDims.plain M K N).lhsIdx_val_of_single rfl _ _).trans hk)

/-- … and the right operand at (k, q). -/
theorem plain_rhsIdx (M K N : Nat) (p : Fin M) (q : Fin N) (k : Fin K) :
    (DotDims.plain M K N).rhsIdx (ix2 p q) ((contrEquiv1 (DotDims.plain M K N) K rfl rfl).symm k) = ix2 k q :=
  funext fun a => Fin.ext (by
    have hk := contrEquiv1_symm_val (DotDims.plain M K N) K rfl rfl k
    match a with
    | ⟨0, _⟩ => exact ((DotDims.plain M K N).rhsIdx_val_of_single rfl _ _).trans hk
    | ⟨1, _⟩ => rfl)

/-- The contraction sum at entry (p, q) is the sum over k of l[p, k] · r[k, q]. -/
theorem plain_sum (M K N : Nat) (l : (⟨2, ![M, K]⟩ : Shape).Idx → EReal) (r : (⟨2, ![K, N]⟩ : Shape).Idx → EReal)
    (p : Fin M) (q : Fin N) :
    ∑ k : (DotDims.plain M K N).contr.Idx,
        l ((DotDims.plain M K N).lhsIdx (ix2 p q) k) * r ((DotDims.plain M K N).rhsIdx (ix2 p q) k)
      = ∑ k : Fin K, l (ix2 p k) * r (ix2 k q) := by
  rw [← Equiv.sum_comp (contrEquiv1 (DotDims.plain M K N) K rfl rfl).symm]
  refine Finset.sum_congr rfl fun k _ => ?_
  rw [plain_lhsIdx, plain_rhsIdx]

/-- A matrix unit's product into the zero accumulator, at entry (p, q). -/
theorem matmul_plain_apply (M K N : Nat) {φ₁ φ₂ : FTy} (prec : Option ContractPrecision)
    (l : FVec Ideal ⟨2, ![M, K]⟩ φ₁) (r : FVec Ideal ⟨2, ![K, N]⟩ φ₂) (p : Fin M) (q : Fin N) :
    FloatOps.matmul (DotDims.plain M K N) prec l r (constant ⟨2, ![M, N]⟩ .f32 0x00000000#32) (ix2 p q)
      = ∑ k : Fin K, l (ix2 p k) * r (ix2 k q) :=
  (Ideal.matmul_constant_zero_apply (DotDims.plain M K N) prec l r (ix2 p q)).trans (plain_sum M K N l r p q)

/-- A host dot product, at entry (p, q). -/
theorem dotGeneral_plain_apply (M K N : Nat) {φ₁ φ₂ : FTy} (prec : Option ContractPrecision) (sched : HostSchedule)
    (l : FVec Ideal ⟨2, ![M, K]⟩ φ₁) (r : FVec Ideal ⟨2, ![K, N]⟩ φ₂) (p : Fin M) (q : Fin N) :
    FloatOps.dotGeneral (DotDims.plain M K N) prec sched l r (ix2 p q) = ∑ k : Fin K, l (ix2 p k) * r (ix2 k q) :=
  (Ideal.dotGeneral_apply (DotDims.plain M K N) prec sched l r (ix2 p q)).trans (plain_sum M K N l r p q)

end Cert.LibPlainContract

end
-- ==== Proof.LibLreluRows.lean ====
/-
  Single entries of a leaky rectifier and of a bias laid along the rows of a matrix, at exact (extended real) values.

  lrelu with slope 0.2 of one value (lr), and of a vector in the two spellings a tiled body and a host program give it
  (a comparison with a splat zero, a product with a splat 0.2 and a select — the constants scalars splat, or rank-0
  arrays broadcast), read at an index as lr of the entry, by computation. A bias vector of n entries laid along every
  row of an [m, n] matrix, read at entry (P, k) as entry k of the vector, in the two spellings: the vector broadcast
  along axis 1 of a one-row matrix and that row broadcast down the rows (biasRows_apply), and a one-row matrix, cast
  to its own shape, broadcast down the rows (rowDown_apply); a vector cast to a one-row matrix read at (0, k)
  (rowCast_apply).
-/
import Idealize.ShloMosaic.PureOps.Ideal.Laws
import Idealize.ShloMosaic.Lib.Pipeline.Value
import Idealize.ShloMosaic.Lib.ValueIdx
import Idealize.ShloMosaic.Lib.ValueLayout
import Idealize.ShloMosaic.Lib.KernelVsHost

noncomputable section

namespace Cert.LibLreluRows

open Idealize.ShloMosaic Idealize.ShloMosaic.ValueIdx

/-- lrelu on one value: v where v ≥ 0, and 0.2·v elsewhere (0.2 as its single-precision pattern). -/
def lr (v : EReal) : EReal :=
  Scalar.select (FloatOps.cmpf (F := Ideal) (φ := .f32) .oge v (Ideal.ofBits .f32 0x00000000#32)) v
    (Ideal.ofBits .f32 0x3E4CCCCD#32 * v)

/-- lrelu of a vector as a comparison with a splat zero, a product with a splat 0.2 and a select, at one index. -/
theorem lrelu_splat_apply {s : Shape} (v : FVec Ideal s .f32) (i : s.Idx) :
    select (cmpf .oge v (broadcast s (Scalar.ofBits (F := Ideal) .f32 0x00000000#32))) v
      (mulf (broadcast s (Scalar.ofBits (F := Ideal) .f32 0x3E4CCCCD#32)) v) i = lr (v i) := rfl

/-- The same with the two constants rank-0 arrays broadcast to the shape. -/
theorem lrelu_bcast_apply {s : Shape} (h : (⟨0, ![]⟩ : Shape).BroadcastsInDim s ![]) (v : FVec Ideal s .f32) (i : s.Idx) :
    select (cmpf .oge v (broadcastInDim s ![] h (constant (F := Ideal) ⟨0, ![]⟩ .f32 0x00000000#32))) v
      (mulf (broadcastInDim s ![] h (id (constant (F := Ideal) ⟨0, ![]⟩ .f32 0x3E4CCCCD#32))) v) i = lr (v i) := rfl

/-- lrelu of a vector: a comparison with a splat zero, a product with a splat 0.2 and a select. -/
def lrv {s : Shape} (v : FVec Ideal s .f32) : FVec Ideal s .f32 :=
  select (cmpf .oge v (broadcast s (Scalar.ofBits (F := Ideal) .f32 0x00000000#32))) v
    (mulf (broadcast s (Scalar.ofBits (F := Ideal) .f32 0x3E4CCCCD#32)) v)

theorem lrv_apply {s : Shape} (v : FVec Ideal s .f32) (i : s.Idx) : lrv v i = lr (v i) := rfl

/-- A vector of n entries read as a one-row matrix: entry (0, k) is entry k. -/
theorem rowCast_apply {α : Type} {n : Nat} (h : (⟨1, ![n]⟩ : Shape).ShapeCasts ⟨2, ![1, n]⟩)
    (b : (⟨1, ![n]⟩ : Shape).Idx → α) (k : Fin n) :
    shapeCast ⟨2, ![1, n]⟩ b h (ix2 (0 : Fin 1) k) = b (ix1 k) :=
  (shapeCast_addUnit_apply ![n] b h (ix2 (0 : Fin 1) k)).trans
    (congrArg b (funext fun a => match a with | ⟨0, _⟩ => rfl))

/-- A vector broadcast along axis 1 of a one-row matrix and that row broadcast down m rows: entry (P, k) is entry k. -/
theorem biasRows_apply {α : Type} {m n : Nat} (h1 : (⟨1, ![n]⟩ : Shape).BroadcastsInDim ⟨2, ![1, n]⟩ ![1])
    (h2 : (⟨2, ![1, n]⟩ : Shape).BroadcastsInDim ⟨2, ![m, n]⟩ ![0, 1]) (b : (⟨1, ![n]⟩ : Shape).Idx → α)
    (P : Fin m) (k : Fin n) :
    broadcastInDim ⟨2, ![m, n]⟩ ![0, 1] h2 (broadcastInDim ⟨2, ![1, n]⟩ ![1] h1 b) (ix2 P k) = b (ix1 k) := by
  rw [broadcastInDim_oneRow_apply]
  refine broadcastInDim_apply ![1] h1 b (ix2 (0 : Fin 1) k) (ix1 k) ?_
  intro a
  match a with
  | ⟨0, _⟩ =>
    show k.val = if n = 1 then 0 else k.val
    split
    · have := k.isLt; omega
    · rfl

/-- A one-row matrix (cast to its own shape) broadcast down m rows: entry (p, k) is the row's entry (0, k). -/
theorem rowDown_apply {α : Type} {m n : Nat} (hs : (⟨2, ![1, n]⟩ : Shape).ShapeCasts ⟨2, ![1, n]⟩)
    (hb : (⟨2, ![1, n]⟩ : Shape).Broadcasts ⟨2, ![m, n]⟩) (x : (⟨2, ![1, n]⟩ : Shape).Idx → α) (p : Fin m) (k : Fin n) :
    broadcastTo ⟨2, ![m, n]⟩ (shapeCast ⟨2, ![1, n]⟩ x hs) hb (ix2 p k) = x (ix2 (0 : Fin 1) k) := by
  rw [broadcastTo_1b_ab_apply, shapeCast_self]

end Cert.LibLreluRows

end
-- ==== Proof.LibDenseRows.lean ====
/-
  Dense stages of a graph network read entry by entry, at exact (extended real) values.

    mm X W       entry (p, q) = Σ_k X[p, k] · W[k, q]        the matrix product
    act A b      entry (p, k) = max(A[p, k] + b[k], 0)        a bias laid along every row, then the rectifier
    addRow A b   entry (p, k) = A[p, k] + b[k]                a bias laid along every row

  A tiled body multiplies one block of rows by a whole weight matrix on the matrix unit, its operands narrowed to half
  precision first (at exact values the narrowing changes nothing) and its accumulator zero; a host program takes the
  whole product by a dot product. Both are read here at one entry as the same sum over the contracted index. The bias
  reaches the tiled body as a one-row matrix broadcast down the rows and the host program as a vector broadcast twice.
-/
import Idealize.ShloMosaic.PureOps.Ideal.Laws
import Idealize.ShloMosaic.Lib.ValueIdx
import Idealize.ShloMosaic.Lib.ValueLayout
import Idealize.ShloMosaic.Lib.Pipeline.Value
import proofs.«119466_j60455959658662_1_alg».proof.Proof.LibPlainContract
import proofs.«119466_j60455959658662_1_alg».proof.Proof.LibLreluRows

noncomputable section

namespace Cert.Dense

open Idealize.ShloMosaic Idealize.ShloMosaic.ValueIdx

variable {N K C : Nat}

/-- An N-by-K array of extended reals. -/
abbrev Mat (N K : Nat) : Type := (⟨2, ![N, K]⟩ : Shape).Idx → EReal
/-- A vector of K extended reals. -/
abbrev Row (K : Nat) : Type := (⟨1, ![K]⟩ : Shape).Idx → EReal

/-- The row and the column of an entry. -/
abbrev rowOf (i : (⟨2, ![N, K]⟩ : Shape).Idx) : Fin N := ⟨(i 0).val, idx2_lt0 i⟩
abbrev colOf (i : (⟨2, ![N, K]⟩ : Shape).Idx) : Fin K := ⟨(i 1).val, idx2_lt1 i⟩

/-- The matrix product. -/
def mm (X : Mat N K) (W : Mat K C) : Mat N C := fun i => ∑ k : Fin K, X (ix2 (rowOf i) k) * W (ix2 k (colOf i))
/-- A bias along every row, then the rectifier. -/
def act (A : Mat N K) (b : Row K) : Mat N K := fun i => max (A i + b (ix1 (colOf i))) 0
/-- A bias along every row. -/
def addRow (A : Mat N K) (b : Row K) : Mat N K := fun i => A i + b (ix1 (colOf i))

/-- A one-row bias along every row, then the rectifier. -/
def actRow (A : Mat N K) (b : Mat 1 K) : Mat N K := fun i => max (A i + b (ix2 (0 : Fin 1) (colOf i))) 0
/-- A one-row bias along every row. -/
def addRowRow (A : Mat N K) (b : Mat 1 K) : Mat N K := fun i => A i + b (ix2 (0 : Fin 1) (colOf i))

/-- The one-row bias that is a vector cast to a one-row matrix acts as the vector. -/
theorem actRow_cast (A : Mat N K) (v : Row K) (h : (⟨1, ![K]⟩ : Shape).ShapeCasts ⟨2, ![1, K]⟩) :
    actRow A (shapeCast ⟨2, ![1, K]⟩ v h) = act A v := by
  funext i
  exact congrArg (fun z => max (A i + z) 0) (Cert.LibLreluRows.rowCast_apply h v (colOf i))
theorem addRowRow_cast (A : Mat N K) (v : Row K) (h : (⟨1, ![K]⟩ : Shape).ShapeCasts ⟨2, ![1, K]⟩) :
    addRowRow A (shapeCast ⟨2, ![1, K]⟩ v h) = addRow A v := by
  funext i
  exact congrArg (fun z => A i + z) (Cert.LibLreluRows.rowCast_apply h v (colOf i))

theorem mm_apply (X : Mat N K) (W : Mat K C) (p : Fin N) (q : Fin C) :
    mm X W (ix2 p q) = ∑ k : Fin K, X (ix2 p k) * W (ix2 k q) := rfl
theorem act_apply (A : Mat N K) (b : Row K) (p : Fin N) (k : Fin K) :
    act A b (ix2 p k) = max (A (ix2 p k) + b (ix1 k)) 0 := rfl
theorem addRow_apply (A : Mat N K) (b : Row K) (p : Fin N) (k : Fin K) :
    addRow A b (ix2 p k) = A (ix2 p k) + b (ix1 k) := rfl
theorem actRow_apply (A : Mat N K) (b : Mat 1 K) (p : Fin N) (k : Fin K) :
    actRow A b (ix2 p k) = max (A (ix2 p k) + b (ix2 (0 : Fin 1) k)) 0 := rfl
theorem addRowRow_apply (A : Mat N K) (b : Mat 1 K) (p : Fin N) (k : Fin K) :
    addRowRow A b (ix2 p k) = A (ix2 p k) + b (ix2 (0 : Fin 1) k) := rfl

/-! ## The tiled body's stages at one entry -/

/-- The matrix unit's product of two narrowed operands into the zero accumulator is the plain sum. -/
theorem tileProduct_apply (M K C : Nat) (prec : Option ContractPrecision)
    (h0 h1 : FTy.bf16.bits < FTy.f32.bits)
    (x : FVec Ideal ⟨2, ![M, K]⟩ .f32) (w : FVec Ideal ⟨2, ![K, C]⟩ .f32) (p : Fin M) (q : Fin C) :
    matmul (DotDims.plain M K C) prec (truncf .bf16 x h0) (truncf .bf16 w h1)
        (constant ⟨2, ![M, C]⟩ .f32 0x00000000#32) (ix2 p q)
      = ∑ k : Fin K, x (ix2 p k) * w (ix2 k q) :=
  Cert.LibPlainContract.matmul_plain_apply M K C prec (truncf .bf16 x h0) (truncf .bf16 w h1) p q

/-- A block of rows plus a one-row bias broadcast down the rows, rectified against a splat zero, at one entry. -/
theorem tileAct_apply (M K : Nat)
    (hs0 : (⟨2, ![M, K]⟩ : Shape).ShapeCasts ⟨2, ![M, K]⟩) (hs1 : (⟨2, ![1, K]⟩ : Shape).ShapeCasts ⟨2, ![1, K]⟩)
    (hb : (⟨2, ![1, K]⟩ : Shape).Broadcasts ⟨2, ![M, K]⟩)
    (x : FVec Ideal ⟨2, ![M, K]⟩ .f32) (b : FVec Ideal ⟨2, ![1, K]⟩ .f32) (p : Fin M) (k : Fin K) :
    maximumf (addf (shapeCast ⟨2, ![M, K]⟩ x hs0) (broadcastTo ⟨2, ![M, K]⟩ (shapeCast ⟨2, ![1, K]⟩ b hs1) hb))
        (broadcast ⟨2, ![M, K]⟩ (Scalar.ofBits (F := Ideal) .f32 0x00000000#32)) (ix2 p k)
      = max (x (ix2 p k) + b (ix2 (0 : Fin 1) k)) 0 := by
  show max (shapeCast ⟨2, ![M, K]⟩ x hs0 (ix2 p k) + broadcastTo ⟨2, ![M, K]⟩ (shapeCast ⟨2, ![1, K]⟩ b hs1) hb (ix2 p k))
      (Ideal.ofBits .f32 0x00000000#32) = _
  rw [shapeCast_self, Cert.LibLreluRows.rowDown_apply, Ideal.ofBits_zero_f32]

/-- A block of rows plus a one-row bias broadcast down the rows (no rectifier), at one entry. -/
theorem tileAddRow_apply (M K : Nat)
    (hs1 : (⟨2, ![1, K]⟩ : Shape).ShapeCasts ⟨2, ![1, K]⟩) (hb : (⟨2, ![1, K]⟩ : Shape).Broadcasts ⟨2, ![M, K]⟩)
    (x : FVec Ideal ⟨2, ![M, K]⟩ .f32) (b : FVec Ideal ⟨2, ![1, K]⟩ .f32) (p : Fin M) (k : Fin K) :
    addf x (broadcastTo ⟨2, ![M, K]⟩ (shapeCast ⟨2, ![1, K]⟩ b hs1) hb) (ix2 p k)
      = x (ix2 p k) + b (ix2 (0 : Fin 1) k) := by
  show x (ix2 p k) + broadcastTo ⟨2, ![M, K]⟩ (shapeCast ⟨2, ![1, K]⟩ b hs1) hb (ix2 p k) = _
  rw [Cert.LibLreluRows.rowDown_apply]

/-- The rectifier against a splat zero, at one entry. -/
theorem tileRelu_apply (M K : Nat) (x : FVec Ideal ⟨2, ![M, K]⟩ .f32) (i : (⟨2, ![M, K]⟩ : Shape).Idx) :
    maximumf x (broadcast ⟨2, ![M, K]⟩ (Scalar.ofBits (F := Ideal) .f32 0x00000000#32)) i = max (x i) 0 := by
  show max (x i) (Ideal.ofBits .f32 0x00000000#32) = _
  rw [Ideal.ofBits_zero_f32]

/-! ## The host program's stages at one entry -/

/-- The host's dot product of two matrices is the plain sum. -/
theorem hostProduct_apply (M K C : Nat) (prec : Option ContractPrecision)
    (x : FVec Ideal ⟨2, ![M, K]⟩ .f32) (w : FVec Ideal ⟨2, ![K, C]⟩ .f32) (p : Fin M) (q : Fin C) :
    Host.dotGeneral (DotDims.plain M K C) prec x w (ix2 p q) = ∑ k : Fin K, x (ix2 p k) * w (ix2 k q) := by
  simp only [Host.dotGeneral]
  exact Cert.LibPlainContract.dotGeneral_plain_apply M K C prec _ x w p q

/-- A bias vector broadcast to a one-row matrix and down the rows, added, at one entry. -/
theorem hostAddRow_apply (M K : Nat) (h1 : (⟨1, ![K]⟩ : Shape).BroadcastsInDim ⟨2, ![1, K]⟩ ![1])
    (h2 : (⟨2, ![1, K]⟩ : Shape).BroadcastsInDim ⟨2, ![M, K]⟩ ![0, 1])
    (x : FVec Ideal ⟨2, ![M, K]⟩ .f32) (b : FVec Ideal ⟨1, ![K]⟩ .f32) (p : Fin M) (k : Fin K) :
    addf x (broadcastInDim ⟨2, ![M, K]⟩ ![0, 1] h2 (broadcastInDim ⟨2, ![1, K]⟩ ![1] h1 b)) (ix2 p k)
      = x (ix2 p k) + b (ix1 k) := by
  show x (ix2 p k) + broadcastInDim ⟨2, ![M, K]⟩ ![0, 1] h2 (broadcastInDim ⟨2, ![1, K]⟩ ![1] h1 b) (ix2 p k) = _
  rw [Cert.LibLreluRows.biasRows_apply]

/-- The rectifier against a rank-0 zero broadcast over the array, at one entry. -/
theorem hostRelu_apply (M K : Nat) (h : (⟨0, ![]⟩ : Shape).BroadcastsInDim ⟨2, ![M, K]⟩ ![])
    (x : FVec Ideal ⟨2, ![M, K]⟩ .f32) (i : (⟨2, ![M, K]⟩ : Shape).Idx) :
    maximumf x (broadcastInDim ⟨2, ![M, K]⟩ ![] h (constant (F := Ideal) ⟨0, ![]⟩ .f32 0x00000000#32)) i = max (x i) 0 := by
  show max (x i) (Ideal.ofBits .f32 0x00000000#32) = _
  rw [Ideal.ofBits_zero_f32]

end Cert.Dense

end
-- ==== Proof.Mm0.lean ====
/-
  A dense layer, as one function of whole arrays. The pipelined body takes a block of 5000 rows of the input, [5000, 100],
  the whole weight matrix, [100, 100], and a one-row bias, [1, 100], and stores the block's product with the weights
  plus the bias laid along every row: entry (p, q) is the sum over k of x[p, k] · w[k, q], plus b[q]. Block t of the input and
  of the output starts at row 5000 · t, so the 10 blocks tile the 50000 rows, and the array written back is that
  function of the whole arrays.
-/
import proofs.«119466_j60455959658662_1_alg».proof.Proof.Gen.KernelIdeal.Frame
import Idealize.ShloMosaic.Lib.Pipeline.Value
import Idealize.ShloMosaic.Lib.ValueIdx
import Idealize.ShloMosaic.Lib.ValueLayout
import proofs.«119466_j60455959658662_1_alg».proof.Proof.LibDenseRows

set_option maxRecDepth 16384

noncomputable section

namespace Cert.KernelIdeal.Mm0

open Cert.KernelIdeal Cert.KernelIdeal.Gen Idealize.ShloMosaic Idealize.ShloMosaic.ValueIdx Idealize.ShloMosaic.TcCoe
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl

/-- The whole-array layer: entry (p, q) is the sum over k of x[p, k] · w[k, q], plus b[0, q]. -/
def G (x : FVec Ideal S50000x100 .f32) (w : FVec Ideal S100x100 .f32) (b : FVec Ideal S1x100 .f32) : FVec Ideal S50000x100 .f32 :=
  fun i => (∑ k : Fin 100, x (ix2 (⟨(i 0).val, idx2_lt0 i⟩ : Fin 50000) k) * w (ix2 k (⟨(i 1).val, idx2_lt1 i⟩ : Fin 100)))
    + b (ix2 (0 : Fin 1) (⟨(i 1).val, idx2_lt1 i⟩ : Fin 100))

/-- The body's stored value at one entry of a block. -/
theorem pay_apply (v0 : FVec Ideal S5000x100 .f32) (v3 : FVec Ideal S100x100 .f32) (v6 : FVec Ideal S1x100 .f32) (j : S5000x100.Idx) :
    k0_pay1 v0 v3 v6 j = (∑ k : Fin 100, v0 (ix2 (⟨(j 0).val, idx2_lt0 j⟩ : Fin 5000) k) * v3 (ix2 k (⟨(j 1).val, idx2_lt1 j⟩ : Fin 100)))
      + v6 (ix2 (0 : Fin 1) (⟨(j 1).val, idx2_lt1 j⟩ : Fin 100)) := by
  obtain ⟨p, q, rfl⟩ : ∃ (p : Fin 5000) (q : Fin 100), j = ix2 p q := ⟨⟨(j 0).val, idx2_lt0 j⟩, ⟨(j 1).val, idx2_lt1 j⟩, eq_ix2 j⟩
  unfold k0_pay1
  refine (Cert.Dense.tileAddRow_apply 5000 100 shapeCasts_S1x100_S1x100 broadcasts_S1x100_S5000x100 _ _ p q).trans ?_
  refine congrArg (fun z => z + v6 (ix2 (0 : Fin 1) q)) ?_
  refine (Cert.Dense.tileProduct_apply 5000 100 100 none bitsLt_bf16_f32 bitsLt_bf16_f32 _ _ p q).trans ?_
  refine Finset.sum_congr rfl fun k _ => ?_
  rw [shapeCast_self]

/-- The printed index maps over the grid: the input and output blocks move together, weights and bias stay. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

set_option maxHeartbeats 4000000 in
/-- What point t writes back is block t of the layer of the three arrays as the region finds them. -/
theorem flushed_eq (c : Dev nD) (t : Fin cfg0.N) :
    (dat0 V c).flushed 3 t = ((cfg0.win 3).blk t).view.read (Elt Ideal)
      (G (V c (Pipeline.arrRef spec0 0)) (V c (Pipeline.arrRef spec0 1)) (V c (Pipeline.arrRef spec0 2))) := by
  show (cfg0.win 3).cut (grid0.coords t) ((dat0 V c).after 3 t) = _
  rw [after0_3]
  unfold out0_3
  rw [View.canon_unit_zero hz]
  simp only [View.ld_unit_zero (S := S5000x100) hz, View.ld_unit_zero (S := S100x100) hz, View.ld_unit_zero (S := S1x100) hz]
  obtain ⟨e0, e1, e2, e3, e4, e5, e6, e7⟩ := idx_facts t
  funext j
  refine (pay_apply (iblk0 V c 0 t) (iblk0 V c 1 t) (iblk0 V c 2 t) j).trans ?_
  show _ = G (V c (Pipeline.arrRef spec0 0)) (V c (Pipeline.arrRef spec0 1)) (V c (Pipeline.arrRef spec0 2)) (((cfg0.win 3).blk t).view.emb j)
  unfold G
  have g0 : ∀ k : Fin 100, ((cfg0.win 0).blk t).view.emb (ix2 (⟨(j 0).val, idx2_lt0 j⟩ : Fin 5000) k)
      = ix2 (⟨((((cfg0.win 3).blk t).view.emb j) 0).val, idx2_lt0 _⟩ : Fin 50000) k := by
    intro k; funext a; apply Fin.ext
    match a with
    | ⟨0, _⟩ => show win0_0.index t (0 : Fin 2) * 5000 + 1 * (j 0).val = win0_3.index t (0 : Fin 2) * 5000 + 1 * (j 0).val; omega
    | ⟨1, _⟩ => show win0_0.index t (1 : Fin 2) * 100 + 1 * k.val = k.val; omega
  have g1 : ∀ k : Fin 100, ((cfg0.win 1).blk t).view.emb (ix2 k (⟨(j 1).val, idx2_lt1 j⟩ : Fin 100))
      = ix2 k (⟨((((cfg0.win 3).blk t).view.emb j) 1).val, idx2_lt1 _⟩ : Fin 100) := by
    intro k; funext a; apply Fin.ext
    match a with
    | ⟨0, _⟩ => show win0_1.index t (0 : Fin 2) * 100 + 1 * k.val = k.val; omega
    | ⟨1, _⟩ => show win0_1.index t (1 : Fin 2) * 100 + 1 * (j 1).val = win0_3.index t (1 : Fin 2) * 100 + 1 * (j 1).val; omega
  have g2 : ((cfg0.win 2).blk t).view.emb (ix2 (0 : Fin 1) (⟨(j 1).val, idx2_lt1 j⟩ : Fin 100))
      = ix2 (0 : Fin 1) (⟨((((cfg0.win 3).blk t).view.emb j) 1).val, idx2_lt1 _⟩ : Fin 100) := by
    funext a; apply Fin.ext
    match a with
    | ⟨0, _⟩ => show win0_2.index t (0 : Fin 2) * 1 + 1 * 0 = 0; omega
    | ⟨1, _⟩ => show win0_2.index t (1 : Fin 2) * 100 + 1 * (j 1).val = win0_3.index t (1 : Fin 2) * 100 + 1 * (j 1).val; omega
  have h0 : ∀ k : Fin 100, iblk0 V c 0 t (ix2 (⟨(j 0).val, idx2_lt0 j⟩ : Fin 5000) k)
      = V c (Pipeline.arrRef spec0 0) (ix2 (⟨((((cfg0.win 3).blk t).view.emb j) 0).val, idx2_lt0 _⟩ : Fin 50000) k) :=
    fun k => congrArg (V c (Pipeline.arrRef spec0 0)) (g0 k)
  have h1 : ∀ k : Fin 100, iblk0 V c 1 t (ix2 k (⟨(j 1).val, idx2_lt1 j⟩ : Fin 100))
      = V c (Pipeline.arrRef spec0 1) (ix2 k (⟨((((cfg0.win 3).blk t).view.emb j) 1).val, idx2_lt1 _⟩ : Fin 100)) :=
    fun k => congrArg (V c (Pipeline.arrRef spec0 1)) (g1 k)
  have h2 : iblk0 V c 2 t (ix2 (0 : Fin 1) (⟨(j 1).val, idx2_lt1 j⟩ : Fin 100))
      = V c (Pipeline.arrRef spec0 2) (ix2 (0 : Fin 1) (⟨((((cfg0.win 3).blk t).view.emb j) 1).val, idx2_lt1 _⟩ : Fin 100)) :=
    congrArg (V c (Pipeline.arrRef spec0 2)) g2
  rw [h2]
  refine congrArg (fun z => z + _) (Finset.sum_congr rfl fun k _ => ?_)
  rw [h0 k, h1 k]

/-- An index of the array is in point t's block iff each coordinate is in the block's range on its axis. -/
theorem mem_blk (t : Fin cfg0.N) (i : S50000x100.Idx) :
    i ∈ ((cfg0.win 3).blk t).view.set ↔ ∀ a : Fin 2, win0_3.index t a * S5000x100.size a ≤ (i a).val ∧ (i a).val < win0_3.index t a * S5000x100.size a + S5000x100.size a := by
  show i ∈ ((View.whole main_v42).slice (win0_3.rect t)).set ↔ _
  rw [View.set_slice_whole, Rect.mem_set_unit]
  exact Iff.rfl

/-- Every row lies in the block of the point numbered by its quotient by 5000. -/
theorem cover (i : S50000x100.Idx) : ∃ t : Fin cfg0.N, (cfg0.win 3).flush t = true ∧ i ∈ ((cfg0.win 3).blk t).view.set := by
  have hi0 : (i 0).val < 50000 := (i 0).isLt
  have hi1 : (i 1).val < 100 := (i 1).isLt
  have hN : grid0.N = 10 := N_0
  let t : Fin cfg0.N := ⟨(i 0).val / 5000, by show _ < grid0.N; rw [hN]; omega⟩
  obtain ⟨e0, e1, e2, e3, e4, e5, e6, e7⟩ := idx_facts t
  have ht : t.val = (i 0).val / 5000 := rfl
  refine ⟨t, flush0_3 t, ?_⟩
  rw [mem_blk]
  intro a
  match a with
  | ⟨0, _⟩ => show win0_3.index t (0 : Fin 2) * 5000 ≤ (i 0).val ∧ (i 0).val < win0_3.index t (0 : Fin 2) * 5000 + 5000; omega
  | ⟨1, _⟩ => show win0_3.index t (1 : Fin 2) * 100 ≤ (i 1).val ∧ (i 1).val < win0_3.index t (1 : Fin 2) * 100 + 100; omega

/-- The output array after the region: the layer of the three input arrays as the region finds them. -/
theorem final (c : Dev nD) : (dat0 V c).arrAt 3 cfg0.N
    = G (V c (Pipeline.arrRef spec0 0)) (V c (Pipeline.arrRef spec0 1)) (V c (Pipeline.arrRef spec0 2)) :=
  (dat0 V c).arrAt_eq_of_cover 3 _ (fun t _ => flushed_eq V c t) cover

end Cert.KernelIdeal.Mm0

end
-- ==== Proof.LibKeepdims.lean ====
/-
  Layout operations of a row reduction kept as a column, read at an index given by coordinates.

  A reduction over the columns of an [a, b] array gives an [a] vector. Keeping the reduced axis makes it an [a, 1]
  column (a shape cast on the kernel's side, a broadcast along the axes [0] on the host's), and the column is then
  spread over the b columns (a broadcast [a, 1] → [a, b]). Read at (p, c) the spread column is the vector at p.
-/
import Idealize.ShloMosaic.Lib.ValueLayout

namespace Cert.Lib.Keepdims

open Idealize.ShloMosaic Idealize.ShloMosaic.ValueIdx

variable {α : Type}

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast to `[a, b]` reads, at `(p, c)`, the column at row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The host's form of the first: an `[a]` array broadcast along the axes `[0]` to `[a, 1]`. -/
theorem broadcastInDim_a_a1_apply {a : ℕ} (v : (⟨1, ![a]⟩ : Shape).Idx → α)
    (h : (⟨1, ![a]⟩ : Shape).BroadcastsInDim ⟨2, ![a, 1]⟩ (![0] : Fin 1 → Fin (⟨2, ![a, 1]⟩ : Shape).rank))
    (p : Fin a) (u : Fin 1) : broadcastInDim ⟨2, ![a, 1]⟩ ![0] h v (ix2 p u) = v (ix1 p) := by
  refine broadcastInDim_apply _ h v (ix2 p u) (ix1 p) fun ax => ?_
  match ax with
  | ⟨0, _⟩ =>
    show p.val = if a = 1 then 0 else p.val
    split
    · have := p.isLt; omega
    · rfl

/-- The host's form of the second: an `[a, 1]` column broadcast along the axes `[0, 1]` to `[a, b]`. -/
theorem broadcastInDim_a1_ab_apply {a b : ℕ} (v : (⟨2, ![a, 1]⟩ : Shape).Idx → α)
    (h : (⟨2, ![a, 1]⟩ : Shape).BroadcastsInDim ⟨2, ![a, b]⟩ (![0, 1] : Fin 2 → Fin (⟨2, ![a, b]⟩ : Shape).rank))
    (p : Fin a) (c : Fin b) : broadcastInDim ⟨2, ![a, b]⟩ ![0, 1] h v (ix2 p c) = v (ix2 p (0 : Fin 1)) := by
  refine broadcastInDim_apply _ h v (ix2 p c) (ix2 p (0 : Fin 1)) fun ax => ?_
  match ax with
  | ⟨0, _⟩ =>
    show p.val = if a = 1 then 0 else p.val
    split
    · have := p.isLt; omega
    · rfl
  | ⟨1, _⟩ => rfl

end Cert.Lib.Keepdims
-- ==== Proof.Edge1.lean ====
/-
  The message transform, as one function of whole arrays. The pipelined body takes a block of 10000 rows of the
  gathered features, [10000, 100], and the matching block of the per-edge weight column, [10000, 1], and stores
  1 / min(100, max(1e-16, w[e] · x[e, q])) at every entry. Block t of each of the three arrays starts at row 10000 · t,
  so the 85 blocks tile the 850000 rows, and the array written back is that function of the two whole arrays.
-/
import proofs.«119466_j60455959658662_1_alg».proof.Proof.Gen.KernelIdeal.Frame
import Idealize.ShloMosaic.Lib.Pipeline.Value
import Idealize.ShloMosaic.Lib.ValueIdx
import Idealize.ShloMosaic.Lib.ValueLayout
import proofs.«119466_j60455959658662_1_alg».proof.Proof.LibKeepdims

set_option maxRecDepth 16384

noncomputable section

namespace Cert.KernelIdeal.Edge1

open Cert.KernelIdeal Cert.KernelIdeal.Gen Idealize.ShloMosaic Idealize.ShloMosaic.ValueIdx Idealize.ShloMosaic.TcCoe
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl

/-- One entry of the transform: the reciprocal of the clipped product. -/
def recipClip (w x : Ideal .f32) : Ideal .f32 :=
  FloatOps.divf (Scalar.ofBits .f32 0x3F800000#32)
    (FloatOps.minimumf (Scalar.ofBits .f32 0x42C80000#32) (FloatOps.maximumf (Scalar.ofBits .f32 0x24E69595#32) (FloatOps.mulf w x)))

/-- The whole-array transform: entry (e, q) from the weight of edge e and the feature at (e, q). -/
def G (x : FVec Ideal S850000x100 .f32) (w : FVec Ideal S850000x1 .f32) : FVec Ideal S850000x100 .f32 :=
  fun i => recipClip (w (ix2 (⟨(i 0).val, idx2_lt0 i⟩ : Fin 850000) (0 : Fin 1))) (x i)

/-- The body's stored value at one entry of a block. -/
theorem pay_apply (v0 : Vec Ideal S10000x1 .f32) (v2 : Vec Ideal S10000x100 .f32) (j : S10000x100.Idx) :
    k1_pay1 v0 v2 j = recipClip (v0 (ix2 (⟨(j 0).val, idx2_lt0 j⟩ : Fin 10000) (0 : Fin 1))) (v2 j) := by
  obtain ⟨p, q, rfl⟩ : ∃ (p : Fin 10000) (q : Fin 100), j = ix2 p q := ⟨⟨(j 0).val, idx2_lt0 j⟩, ⟨(j 1).val, idx2_lt1 j⟩, eq_ix2 j⟩
  unfold k1_pay1 recipClip
  show FloatOps.divf _ (FloatOps.minimumf _ (FloatOps.maximumf _ (FloatOps.mulf
      (broadcastTo S10000x100 (shapeCast S10000x1 _ shapeCasts_S10000x1_S10000x1) broadcasts_S10000x1_S10000x100 (ix2 p q))
      (shapeCast S10000x100 _ shapeCasts_S10000x100_S10000x100 (ix2 p q))))) = _
  rw [shapeCast_self, Cert.Lib.Keepdims.broadcastTo_a1_ab_apply, shapeCast_self]
  rfl

/-- The printed index maps over the grid: the three windows move together, one block of rows per point. -/
theorem idx_facts : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0 :=
  (by decide +kernel : ∀ t : Fin grid1.N, _)

set_option maxHeartbeats 4000000 in
/-- What point t writes back is block t of the transform of the two arrays as the region finds them. -/
theorem flushed_eq (c : Dev nD) (t : Fin cfg1.N) :
    (dat1 V c).flushed 2 t = ((cfg1.win 2).blk t).view.read (Elt Ideal)
      (G (V c (Pipeline.arrRef spec1 0)) (V c (Pipeline.arrRef spec1 1))) := by
  show (cfg1.win 2).cut (grid1.coords t) ((dat1 V c).after 2 t) = _
  rw [after1_2]
  unfold out1_2
  rw [View.canon_unit_zero hz]
  simp only [View.ld_unit_zero (S := S10000x100) hz, View.ld_unit_zero (S := S10000x1) hz]
  obtain ⟨e0, e1, e2, e3, e4, e5⟩ := idx_facts t
  funext j
  refine (pay_apply (iblk1 V c 1 t) (iblk1 V c 0 t) j).trans ?_
  show recipClip (V c (Pipeline.arrRef spec1 1) (((cfg1.win 1).blk t).view.emb (ix2 (⟨(j 0).val, idx2_lt0 j⟩ : Fin 10000) (0 : Fin 1))))
      (V c (Pipeline.arrRef spec1 0) (((cfg1.win 0).blk t).view.emb j))
    = recipClip (V c (Pipeline.arrRef spec1 1) (ix2 (⟨((((cfg1.win 2).blk t).view.emb j) 0).val, idx2_lt0 _⟩ : Fin 850000) (0 : Fin 1)))
      (V c (Pipeline.arrRef spec1 0) (((cfg1.win 2).blk t).view.emb j))
  have h0 : ((cfg1.win 0).blk t).view.emb j = ((cfg1.win 2).blk t).view.emb j := by
    funext a; apply Fin.ext
    match a with
    | ⟨0, _⟩ => show win1_0.index t (0 : Fin 2) * 10000 + 1 * (j 0).val = win1_2.index t (0 : Fin 2) * 10000 + 1 * (j 0).val; omega
    | ⟨1, _⟩ => show win1_0.index t (1 : Fin 2) * 100 + 1 * (j 1).val = win1_2.index t (1 : Fin 2) * 100 + 1 * (j 1).val; omega
  have h1 : ((cfg1.win 1).blk t).view.emb (ix2 (⟨(j 0).val, idx2_lt0 j⟩ : Fin 10000) (0 : Fin 1))
      = ix2 (⟨((((cfg1.win 2).blk t).view.emb j) 0).val, idx2_lt0 _⟩ : Fin 850000) (0 : Fin 1) := by
    funext a; apply Fin.ext
    match a with
    | ⟨0, _⟩ => show win1_1.index t (0 : Fin 2) * 10000 + 1 * (j 0).val = win1_2.index t (0 : Fin 2) * 10000 + 1 * (j 0).val; omega
    | ⟨1, _⟩ => show win1_1.index t (1 : Fin 2) * 1 + 1 * 0 = 0; omega
  rw [h0, h1]

/-- An index of the array is in point t's block iff each coordinate is in the block's range on its axis. -/
theorem mem_blk (t : Fin cfg1.N) (i : S850000x100.Idx) :
    i ∈ ((cfg1.win 2).blk t).view.set ↔ ∀ a : Fin 2, win1_2.index t a * S10000x100.size a ≤ (i a).val ∧ (i a).val < win1_2.index t a * S10000x100.size a + S10000x100.size a := by
  show i ∈ ((View.whole main_v50).slice (win1_2.rect t)).set ↔ _
  rw [View.set_slice_whole, Rect.mem_set_unit]
  exact Iff.rfl

/-- Every row lies in the block of the point numbered by its quotient by 10000. -/
theorem cover (i : S850000x100.Idx) : ∃ t : Fin cfg1.N, (cfg1.win 2).flush t = true ∧ i ∈ ((cfg1.win 2).blk t).view.set := by
  have hi0 : (i 0).val < 850000 := (i 0).isLt
  have hi1 : (i 1).val < 100 := (i 1).isLt
  have hN : grid1.N = 85 := N_1
  let t : Fin cfg1.N := ⟨(i 0).val / 10000, by show _ < grid1.N; rw [hN]; omega⟩
  obtain ⟨e0, e1, e2, e3, e4, e5⟩ := idx_facts t
  have ht : t.val = (i 0).val / 10000 := rfl
  refine ⟨t, flush1_2 t, ?_⟩
  rw [mem_blk]
  intro a
  match a with
  | ⟨0, _⟩ => show win1_2.index t (0 : Fin 2) * 10000 ≤ (i 0).val ∧ (i 0).val < win1_2.index t (0 : Fin 2) * 10000 + 10000; omega
  | ⟨1, _⟩ => show win1_2.index t (1 : Fin 2) * 100 ≤ (i 1).val ∧ (i 1).val < win1_2.index t (1 : Fin 2) * 100 + 100; omega

/-- The output array after the region: the transform of the two input arrays as the region finds them. -/
theorem final (c : Dev nD) : (dat1 V c).arrAt 2 cfg1.N
    = G (V c (Pipeline.arrRef spec1 0)) (V c (Pipeline.arrRef spec1 1)) :=
  (dat1 V c).arrAt_eq_of_cover 2 _ (fun t _ => flushed_eq V c t) cover

end Cert.KernelIdeal.Edge1

end
-- ==== Proof.Fin2.lean ====
/-
  The node update, as one function of whole arrays. The pipelined body takes a block of 10000 rows of the aggregated
  messages, [10000, 100], the matching block of the per-node count column, [10000, 1], and the one-row bias, [1, 100],
  and stores max(1 / min(100, max(1e-16, a[n, q] / cnt[n])) + b[q], 0) at every entry. Block t of the row-blocked arrays starts at
  row 10000 · t, so the 5 blocks tile the 50000 rows, and the array written back is that function of the whole arrays.
-/
import proofs.«119466_j60455959658662_1_alg».proof.Proof.Gen.KernelIdeal.Frame
import Idealize.ShloMosaic.Lib.Pipeline.Value
import Idealize.ShloMosaic.Lib.ValueIdx
import Idealize.ShloMosaic.Lib.ValueLayout
import proofs.«119466_j60455959658662_1_alg».proof.Proof.LibKeepdims
import proofs.«119466_j60455959658662_1_alg».proof.Proof.LibLreluRows

set_option maxRecDepth 16384

noncomputable section

namespace Cert.KernelIdeal.Fin2

open Cert.KernelIdeal Cert.KernelIdeal.Gen Idealize.ShloMosaic Idealize.ShloMosaic.ValueIdx Idealize.ShloMosaic.TcCoe
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl

/-- One entry of the update from the aggregate, the count and the bias. -/
def upd (a n b : Ideal .f32) : Ideal .f32 :=
  FloatOps.maximumf (FloatOps.addf (FloatOps.divf (Scalar.ofBits .f32 0x3F800000#32)
    (FloatOps.minimumf (Scalar.ofBits .f32 0x42C80000#32) (FloatOps.maximumf (Scalar.ofBits .f32 0x24E69595#32) (FloatOps.divf a n)))) b) (Scalar.ofBits .f32 0x00000000#32)

/-- The whole-array update: entry (n, q) from the aggregate at (n, q), the count of node n and the bias at q. -/
def G (a : FVec Ideal S50000x100 .f32) (n : FVec Ideal S50000x1 .f32) (b : FVec Ideal S1x100 .f32) : FVec Ideal S50000x100 .f32 :=
  fun i => upd (a i) (n (ix2 (⟨(i 0).val, idx2_lt0 i⟩ : Fin 50000) (0 : Fin 1))) (b (ix2 (0 : Fin 1) (⟨(i 1).val, idx2_lt1 i⟩ : Fin 100)))

/-- The body's stored value at one entry of a block. -/
theorem pay_apply (v0 : Vec Ideal S10000x100 .f32) (v2 : Vec Ideal S10000x1 .f32) (v12 : Vec Ideal S1x100 .f32) (j : S10000x100.Idx) :
    k2_pay1 v0 v2 v12 j = upd (v0 j) (v2 (ix2 (⟨(j 0).val, idx2_lt0 j⟩ : Fin 10000) (0 : Fin 1))) (v12 (ix2 (0 : Fin 1) (⟨(j 1).val, idx2_lt1 j⟩ : Fin 100))) := by
  obtain ⟨p, q, rfl⟩ : ∃ (p : Fin 10000) (q : Fin 100), j = ix2 p q := ⟨⟨(j 0).val, idx2_lt0 j⟩, ⟨(j 1).val, idx2_lt1 j⟩, eq_ix2 j⟩
  unfold k2_pay1 upd
  show FloatOps.maximumf (FloatOps.addf (FloatOps.divf _ (FloatOps.minimumf _ (FloatOps.maximumf _ (FloatOps.divf
      (shapeCast S10000x100 _ shapeCasts_S10000x100_S10000x100 (ix2 p q))
      (broadcastTo S10000x100 (shapeCast S10000x1 _ shapeCasts_S10000x1_S10000x1) broadcasts_S10000x1_S10000x100 (ix2 p q))))))
      (broadcastTo S10000x100 (shapeCast S1x100 _ shapeCasts_S1x100_S1x100) broadcasts_S1x100_S10000x100 (ix2 p q))) _ = _
  rw [shapeCast_self, Cert.Lib.Keepdims.broadcastTo_a1_ab_apply, shapeCast_self, Cert.LibLreluRows.rowDown_apply]
  rfl

/-- The printed index maps over the grid: the row-blocked windows move together, the bias row stays. -/
theorem idx_facts : ∀ t : Fin cfg2.N, win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 2) = t.val ∧ win2_3.index t (1 : Fin 2) = 0 :=
  (by decide +kernel : ∀ t : Fin grid2.N, _)

set_option maxHeartbeats 4000000 in
/-- What point t writes back is block t of the update of the three arrays as the region finds them. -/
theorem flushed_eq (c : Dev nD) (t : Fin cfg2.N) :
    (dat2 V c).flushed 3 t = ((cfg2.win 3).blk t).view.read (Elt Ideal)
      (G (V c (Pipeline.arrRef spec2 0)) (V c (Pipeline.arrRef spec2 1)) (V c (Pipeline.arrRef spec2 2))) := by
  show (cfg2.win 3).cut (grid2.coords t) ((dat2 V c).after 3 t) = _
  rw [after2_3]
  unfold out2_3
  rw [View.canon_unit_zero hz]
  simp only [View.ld_unit_zero (S := S10000x100) hz, View.ld_unit_zero (S := S10000x1) hz, View.ld_unit_zero (S := S1x100) hz]
  obtain ⟨e0, e1, e2, e3, e4, e5, e6, e7⟩ := idx_facts t
  funext j
  refine (pay_apply (iblk2 V c 0 t) (iblk2 V c 1 t) (iblk2 V c 2 t) j).trans ?_
  show _ = G (V c (Pipeline.arrRef spec2 0)) (V c (Pipeline.arrRef spec2 1)) (V c (Pipeline.arrRef spec2 2)) (((cfg2.win 3).blk t).view.emb j)
  unfold G
  have g0 : ((cfg2.win 0).blk t).view.emb j = ((cfg2.win 3).blk t).view.emb j := by
    funext a; apply Fin.ext
    match a with
    | ⟨0, _⟩ => show win2_0.index t (0 : Fin 2) * 10000 + 1 * (j 0).val = win2_3.index t (0 : Fin 2) * 10000 + 1 * (j 0).val; omega
    | ⟨1, _⟩ => show win2_0.index t (1 : Fin 2) * 100 + 1 * (j 1).val = win2_3.index t (1 : Fin 2) * 100 + 1 * (j 1).val; omega
  have g1 : ((cfg2.win 1).blk t).view.emb (ix2 (⟨(j 0).val, idx2_lt0 j⟩ : Fin 10000) (0 : Fin 1))
      = ix2 (⟨((((cfg2.win 3).blk t).view.emb j) 0).val, idx2_lt0 _⟩ : Fin 50000) (0 : Fin 1) := by
    funext a; apply Fin.ext
    match a with
    | ⟨0, _⟩ => show win2_1.index t (0 : Fin 2) * 10000 + 1 * (j 0).val = win2_3.index t (0 : Fin 2) * 10000 + 1 * (j 0).val; omega
    | ⟨1, _⟩ => show win2_1.index t (1 : Fin 2) * 1 + 1 * 0 = 0; omega
  have g2 : ((cfg2.win 2).blk t).view.emb (ix2 (0 : Fin 1) (⟨(j 1).val, idx2_lt1 j⟩ : Fin 100))
      = ix2 (0 : Fin 1) (⟨((((cfg2.win 3).blk t).view.emb j) 1).val, idx2_lt1 _⟩ : Fin 100) := by
    funext a; apply Fin.ext
    match a with
    | ⟨0, _⟩ => show win2_2.index t (0 : Fin 2) * 1 + 1 * 0 = 0; omega
    | ⟨1, _⟩ => show win2_2.index t (1 : Fin 2) * 100 + 1 * (j 1).val = win2_3.index t (1 : Fin 2) * 100 + 1 * (j 1).val; omega
  have h0 : iblk2 V c 0 t j = V c (Pipeline.arrRef spec2 0) (((cfg2.win 3).blk t).view.emb j) :=
    congrArg (V c (Pipeline.arrRef spec2 0)) g0
  have h1 : iblk2 V c 1 t (ix2 (⟨(j 0).val, idx2_lt0 j⟩ : Fin 10000) (0 : Fin 1))
      = V c (Pipeline.arrRef spec2 1) (ix2 (⟨((((cfg2.win 3).blk t).view.emb j) 0).val, idx2_lt0 _⟩ : Fin 50000) (0 : Fin 1)) :=
    congrArg (V c (Pipeline.arrRef spec2 1)) g1
  have h2 : iblk2 V c 2 t (ix2 (0 : Fin 1) (⟨(j 1).val, idx2_lt1 j⟩ : Fin 100))
      = V c (Pipeline.arrRef spec2 2) (ix2 (0 : Fin 1) (⟨((((cfg2.win 3).blk t).view.emb j) 1).val, idx2_lt1 _⟩ : Fin 100)) :=
    congrArg (V c (Pipeline.arrRef spec2 2)) g2
  rw [h0, h1, h2]

/-- An index of the array is in point t's block iff each coordinate is in the block's range on its axis. -/
theorem mem_blk (t : Fin cfg2.N) (i : S50000x100.Idx) :
    i ∈ ((cfg2.win 3).blk t).view.set ↔ ∀ a : Fin 2, win2_3.index t a * S10000x100.size a ≤ (i a).val ∧ (i a).val < win2_3.index t a * S10000x100.size a + S10000x100.size a := by
  show i ∈ ((View.whole main_v55).slice (win2_3.rect t)).set ↔ _
  rw [View.set_slice_whole, Rect.mem_set_unit]
  exact Iff.rfl

/-- Every row lies in the block of the point numbered by its quotient by 10000. -/
theorem cover (i : S50000x100.Idx) : ∃ t : Fin cfg2.N, (cfg2.win 3).flush t = true ∧ i ∈ ((cfg2.win 3).blk t).view.set := by
  have hi0 : (i 0).val < 50000 := (i 0).isLt
  have hi1 : (i 1).val < 100 := (i 1).isLt
  have hN : grid2.N = 5 := N_2
  let t : Fin cfg2.N := ⟨(i 0).val / 10000, by show _ < grid2.N; rw [hN]; omega⟩
  obtain ⟨e0, e1, e2, e3, e4, e5, e6, e7⟩ := idx_facts t
  have ht : t.val = (i 0).val / 10000 := rfl
  refine ⟨t, flush2_3 t, ?_⟩
  rw [mem_blk]
  intro a
  match a with
  | ⟨0, _⟩ => show win2_3.index t (0 : Fin 2) * 10000 ≤ (i 0).val ∧ (i 0).val < win2_3.index t (0 : Fin 2) * 10000 + 10000; omega
  | ⟨1, _⟩ => show win2_3.index t (1 : Fin 2) * 100 ≤ (i 1).val ∧ (i 1).val < win2_3.index t (1 : Fin 2) * 100 + 100; omega

/-- The output array after the region: the update of the three input arrays as the region finds them. -/
theorem final (c : Dev nD) : (dat2 V c).arrAt 3 cfg2.N
    = G (V c (Pipeline.arrRef spec2 0)) (V c (Pipeline.arrRef spec2 1)) (V c (Pipeline.arrRef spec2 2)) :=
  (dat2 V c).arrAt_eq_of_cover 3 _ (fun t _ => flushed_eq V c t) cover

end Cert.KernelIdeal.Fin2

end
-- ==== Proof.Mm3.lean ====
/-
  A dense layer, as one function of whole arrays. The pipelined body takes a block of 5000 rows of the input, [5000, 100],
  the whole weight matrix, [100, 100], and a one-row bias, [1, 100], and stores the block's product with the weights
  plus the bias laid along every row: entry (p, q) is the sum over k of x[p, k] · w[k, q], plus b[q]. Block t of the input and
  of the output starts at row 5000 · t, so the 10 blocks tile the 50000 rows, and the array written back is that
  function of the whole arrays.
-/
import proofs.«119466_j60455959658662_1_alg».proof.Proof.Gen.KernelIdeal.Frame
import Idealize.ShloMosaic.Lib.Pipeline.Value
import Idealize.ShloMosaic.Lib.ValueIdx
import Idealize.ShloMosaic.Lib.ValueLayout
import proofs.«119466_j60455959658662_1_alg».proof.Proof.LibDenseRows

set_option maxRecDepth 16384

noncomputable section

namespace Cert.KernelIdeal.Mm3

open Cert.KernelIdeal Cert.KernelIdeal.Gen Idealize.ShloMosaic Idealize.ShloMosaic.ValueIdx Idealize.ShloMosaic.TcCoe
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl

/-- The whole-array layer: entry (p, q) is the sum over k of x[p, k] · w[k, q], plus b[0, q]. -/
def G (x : FVec Ideal S50000x100 .f32) (w : FVec Ideal S100x100 .f32) (b : FVec Ideal S1x100 .f32) : FVec Ideal S50000x100 .f32 :=
  fun i => (∑ k : Fin 100, x (ix2 (⟨(i 0).val, idx2_lt0 i⟩ : Fin 50000) k) * w (ix2 k (⟨(i 1).val, idx2_lt1 i⟩ : Fin 100)))
    + b (ix2 (0 : Fin 1) (⟨(i 1).val, idx2_lt1 i⟩ : Fin 100))

/-- The body's stored value at one entry of a block. -/
theorem pay_apply (v0 : FVec Ideal S5000x100 .f32) (v3 : FVec Ideal S100x100 .f32) (v6 : FVec Ideal S1x100 .f32) (j : S5000x100.Idx) :
    k3_pay1 v0 v3 v6 j = (∑ k : Fin 100, v0 (ix2 (⟨(j 0).val, idx2_lt0 j⟩ : Fin 5000) k) * v3 (ix2 k (⟨(j 1).val, idx2_lt1 j⟩ : Fin 100)))
      + v6 (ix2 (0 : Fin 1) (⟨(j 1).val, idx2_lt1 j⟩ : Fin 100)) := by
  obtain ⟨p, q, rfl⟩ : ∃ (p : Fin 5000) (q : Fin 100), j = ix2 p q := ⟨⟨(j 0).val, idx2_lt0 j⟩, ⟨(j 1).val, idx2_lt1 j⟩, eq_ix2 j⟩
  unfold k3_pay1
  refine (Cert.Dense.tileAddRow_apply 5000 100 shapeCasts_S1x100_S1x100 broadcasts_S1x100_S5000x100 _ _ p q).trans ?_
  refine congrArg (fun z => z + v6 (ix2 (0 : Fin 1) q)) ?_
  refine (Cert.Dense.tileProduct_apply 5000 100 100 none bitsLt_bf16_f32 bitsLt_bf16_f32 _ _ p q).trans ?_
  refine Finset.sum_congr rfl fun k _ => ?_
  rw [shapeCast_self]

/-- The printed index maps over the grid: the input and output blocks move together, weights and bias stay. -/
theorem idx_facts : ∀ t : Fin cfg3.N, win3_0.index t (0 : Fin 2) = t.val ∧ win3_0.index t (1 : Fin 2) = 0
    ∧ win3_1.index t (0 : Fin 2) = 0 ∧ win3_1.index t (1 : Fin 2) = 0
    ∧ win3_2.index t (0 : Fin 2) = 0 ∧ win3_2.index t (1 : Fin 2) = 0
    ∧ win3_3.index t (0 : Fin 2) = t.val ∧ win3_3.index t (1 : Fin 2) = 0 :=
  (by decide +kernel : ∀ t : Fin grid3.N, _)

set_option maxHeartbeats 4000000 in
/-- What point t writes back is block t of the layer of the three arrays as the region finds them. -/
theorem flushed_eq (c : Dev nD) (t : Fin cfg3.N) :
    (dat3 V c).flushed 3 t = ((cfg3.win 3).blk t).view.read (Elt Ideal)
      (G (V c (Pipeline.arrRef spec3 0)) (V c (Pipeline.arrRef spec3 1)) (V c (Pipeline.arrRef spec3 2))) := by
  show (cfg3.win 3).cut (grid3.coords t) ((dat3 V c).after 3 t) = _
  rw [after3_3]
  unfold out3_3
  rw [View.canon_unit_zero hz]
  simp only [View.ld_unit_zero (S := S5000x100) hz, View.ld_unit_zero (S := S100x100) hz, View.ld_unit_zero (S := S1x100) hz]
  obtain ⟨e0, e1, e2, e3, e4, e5, e6, e7⟩ := idx_facts t
  funext j
  refine (pay_apply (iblk3 V c 0 t) (iblk3 V c 1 t) (iblk3 V c 2 t) j).trans ?_
  show _ = G (V c (Pipeline.arrRef spec3 0)) (V c (Pipeline.arrRef spec3 1)) (V c (Pipeline.arrRef spec3 2)) (((cfg3.win 3).blk t).view.emb j)
  unfold G
  have g0 : ∀ k : Fin 100, ((cfg3.win 0).blk t).view.emb (ix2 (⟨(j 0).val, idx2_lt0 j⟩ : Fin 5000) k)
      = ix2 (⟨((((cfg3.win 3).blk t).view.emb j) 0).val, idx2_lt0 _⟩ : Fin 50000) k := by
    intro k; funext a; apply Fin.ext
    match a with
    | ⟨0, _⟩ => show win3_0.index t (0 : Fin 2) * 5000 + 1 * (j 0).val = win3_3.index t (0 : Fin 2) * 5000 + 1 * (j 0).val; omega
    | ⟨1, _⟩ => show win3_0.index t (1 : Fin 2) * 100 + 1 * k.val = k.val; omega
  have g1 : ∀ k : Fin 100, ((cfg3.win 1).blk t).view.emb (ix2 k (⟨(j 1).val, idx2_lt1 j⟩ : Fin 100))
      = ix2 k (⟨((((cfg3.win 3).blk t).view.emb j) 1).val, idx2_lt1 _⟩ : Fin 100) := by
    intro k; funext a; apply Fin.ext
    match a with
    | ⟨0, _⟩ => show win3_1.index t (0 : Fin 2) * 100 + 1 * k.val = k.val; omega
    | ⟨1, _⟩ => show win3_1.index t (1 : Fin 2) * 100 + 1 * (j 1).val = win3_3.index t (1 : Fin 2) * 100 + 1 * (j 1).val; omega
  have g2 : ((cfg3.win 2).blk t).view.emb (ix2 (0 : Fin 1) (⟨(j 1).val, idx2_lt1 j⟩ : Fin 100))
      = ix2 (0 : Fin 1) (⟨((((cfg3.win 3).blk t).view.emb j) 1).val, idx2_lt1 _⟩ : Fin 100) := by
    funext a; apply Fin.ext
    match a with
    | ⟨0, _⟩ => show win3_2.index t (0 : Fin 2) * 1 + 1 * 0 = 0; omega
    | ⟨1, _⟩ => show win3_2.index t (1 : Fin 2) * 100 + 1 * (j 1).val = win3_3.index t (1 : Fin 2) * 100 + 1 * (j 1).val; omega
  have h0 : ∀ k : Fin 100, iblk3 V c 0 t (ix2 (⟨(j 0).val, idx2_lt0 j⟩ : Fin 5000) k)
      = V c (Pipeline.arrRef spec3 0) (ix2 (⟨((((cfg3.win 3).blk t).view.emb j) 0).val, idx2_lt0 _⟩ : Fin 50000) k) :=
    fun k => congrArg (V c (Pipeline.arrRef spec3 0)) (g0 k)
  have h1 : ∀ k : Fin 100, iblk3 V c 1 t (ix2 k (⟨(j 1).val, idx2_lt1 j⟩ : Fin 100))
      = V c (Pipeline.arrRef spec3 1) (ix2 k (⟨((((cfg3.win 3).blk t).view.emb j) 1).val, idx2_lt1 _⟩ : Fin 100)) :=
    fun k => congrArg (V c (Pipeline.arrRef spec3 1)) (g1 k)
  have h2 : iblk3 V c 2 t (ix2 (0 : Fin 1) (⟨(j 1).val, idx2_lt1 j⟩ : Fin 100))
      = V c (Pipeline.arrRef spec3 2) (ix2 (0 : Fin 1) (⟨((((cfg3.win 3).blk t).view.emb j) 1).val, idx2_lt1 _⟩ : Fin 100)) :=
    congrArg (V c (Pipeline.arrRef spec3 2)) g2
  rw [h2]
  refine congrArg (fun z => z + _) (Finset.sum_congr rfl fun k _ => ?_)
  rw [h0 k, h1 k]

/-- An index of the array is in point t's block iff each coordinate is in the block's range on its axis. -/
theorem mem_blk (t : Fin cfg3.N) (i : S50000x100.Idx) :
    i ∈ ((cfg3.win 3).blk t).view.set ↔ ∀ a : Fin 2, win3_3.index t a * S5000x100.size a ≤ (i a).val ∧ (i a).val < win3_3.index t a * S5000x100.size a + S5000x100.size a := by
  show i ∈ ((View.whole main_v58).slice (win3_3.rect t)).set ↔ _
  rw [View.set_slice_whole, Rect.mem_set_unit]
  exact Iff.rfl

/-- Every row lies in the block of the point numbered by its quotient by 5000. -/
theorem cover (i : S50000x100.Idx) : ∃ t : Fin cfg3.N, (cfg3.win 3).flush t = true ∧ i ∈ ((cfg3.win 3).blk t).view.set := by
  have hi0 : (i 0).val < 50000 := (i 0).isLt
  have hi1 : (i 1).val < 100 := (i 1).isLt
  have hN : grid3.N = 10 := N_3
  let t : Fin cfg3.N := ⟨(i 0).val / 5000, by show _ < grid3.N; rw [hN]; omega⟩
  obtain ⟨e0, e1, e2, e3, e4, e5, e6, e7⟩ := idx_facts t
  have ht : t.val = (i 0).val / 5000 := rfl
  refine ⟨t, flush3_3 t, ?_⟩
  rw [mem_blk]
  intro a
  match a with
  | ⟨0, _⟩ => show win3_3.index t (0 : Fin 2) * 5000 ≤ (i 0).val ∧ (i 0).val < win3_3.index t (0 : Fin 2) * 5000 + 5000; omega
  | ⟨1, _⟩ => show win3_3.index t (1 : Fin 2) * 100 ≤ (i 1).val ∧ (i 1).val < win3_3.index t (1 : Fin 2) * 100 + 100; omega

/-- The output array after the region: the layer of the three input arrays as the region finds them. -/
theorem final (c : Dev nD) : (dat3 V c).arrAt 3 cfg3.N
    = G (V c (Pipeline.arrRef spec3 0)) (V c (Pipeline.arrRef spec3 1)) (V c (Pipeline.arrRef spec3 2)) :=
  (dat3 V c).arrAt_eq_of_cover 3 _ (fun t _ => flushed_eq V c t) cover

end Cert.KernelIdeal.Mm3

end
-- ==== Proof.Edge4.lean ====
/-
  The message transform, as one function of whole arrays. The pipelined body takes a block of 10000 rows of the
  gathered features, [10000, 100], and the matching block of the per-edge weight column, [10000, 1], and stores
  1 / min(100, max(1e-16, w[e] · x[e, q])) at every entry. Block t of each of the three arrays starts at row 10000 · t,
  so the 85 blocks tile the 850000 rows, and the array written back is that function of the two whole arrays.
-/
import proofs.«119466_j60455959658662_1_alg».proof.Proof.Gen.KernelIdeal.Frame
import Idealize.ShloMosaic.Lib.Pipeline.Value
import Idealize.ShloMosaic.Lib.ValueIdx
import Idealize.ShloMosaic.Lib.ValueLayout
import proofs.«119466_j60455959658662_1_alg».proof.Proof.LibKeepdims

set_option maxRecDepth 16384

noncomputable section

namespace Cert.KernelIdeal.Edge4

open Cert.KernelIdeal Cert.KernelIdeal.Gen Idealize.ShloMosaic Idealize.ShloMosaic.ValueIdx Idealize.ShloMosaic.TcCoe
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl

/-- One entry of the transform: the reciprocal of the clipped product. -/
def recipClip (w x : Ideal .f32) : Ideal .f32 :=
  FloatOps.divf (Scalar.ofBits .f32 0x3F800000#32)
    (FloatOps.minimumf (Scalar.ofBits .f32 0x42C80000#32) (FloatOps.maximumf (Scalar.ofBits .f32 0x24E69595#32) (FloatOps.mulf w x)))

/-- The whole-array transform: entry (e, q) from the weight of edge e and the feature at (e, q). -/
def G (x : FVec Ideal S850000x100 .f32) (w : FVec Ideal S850000x1 .f32) : FVec Ideal S850000x100 .f32 :=
  fun i => recipClip (w (ix2 (⟨(i 0).val, idx2_lt0 i⟩ : Fin 850000) (0 : Fin 1))) (x i)

/-- The body's stored value at one entry of a block. -/
theorem pay_apply (v0 : Vec Ideal S10000x1 .f32) (v2 : Vec Ideal S10000x100 .f32) (j : S10000x100.Idx) :
    k4_pay1 v0 v2 j = recipClip (v0 (ix2 (⟨(j 0).val, idx2_lt0 j⟩ : Fin 10000) (0 : Fin 1))) (v2 j) := by
  obtain ⟨p, q, rfl⟩ : ∃ (p : Fin 10000) (q : Fin 100), j = ix2 p q := ⟨⟨(j 0).val, idx2_lt0 j⟩, ⟨(j 1).val, idx2_lt1 j⟩, eq_ix2 j⟩
  unfold k4_pay1 recipClip
  show FloatOps.divf _ (FloatOps.minimumf _ (FloatOps.maximumf _ (FloatOps.mulf
      (broadcastTo S10000x100 (shapeCast S10000x1 _ shapeCasts_S10000x1_S10000x1) broadcasts_S10000x1_S10000x100 (ix2 p q))
      (shapeCast S10000x100 _ shapeCasts_S10000x100_S10000x100 (ix2 p q))))) = _
  rw [shapeCast_self, Cert.Lib.Keepdims.broadcastTo_a1_ab_apply, shapeCast_self]
  rfl

/-- The printed index maps over the grid: the three windows move together, one block of rows per point. -/
theorem idx_facts : ∀ t : Fin cfg4.N, win4_0.index t (0 : Fin 2) = t.val ∧ win4_0.index t (1 : Fin 2) = 0
    ∧ win4_1.index t (0 : Fin 2) = t.val ∧ win4_1.index t (1 : Fin 2) = 0
    ∧ win4_2.index t (0 : Fin 2) = t.val ∧ win4_2.index t (1 : Fin 2) = 0 :=
  (by decide +kernel : ∀ t : Fin grid4.N, _)

set_option maxHeartbeats 4000000 in
/-- What point t writes back is block t of the transform of the two arrays as the region finds them. -/
theorem flushed_eq (c : Dev nD) (t : Fin cfg4.N) :
    (dat4 V c).flushed 2 t = ((cfg4.win 2).blk t).view.read (Elt Ideal)
      (G (V c (Pipeline.arrRef spec4 0)) (V c (Pipeline.arrRef spec4 1))) := by
  show (cfg4.win 2).cut (grid4.coords t) ((dat4 V c).after 2 t) = _
  rw [after4_2]
  unfold out4_2
  rw [View.canon_unit_zero hz]
  simp only [View.ld_unit_zero (S := S10000x100) hz, View.ld_unit_zero (S := S10000x1) hz]
  obtain ⟨e0, e1, e2, e3, e4, e5⟩ := idx_facts t
  funext j
  refine (pay_apply (iblk4 V c 1 t) (iblk4 V c 0 t) j).trans ?_
  show recipClip (V c (Pipeline.arrRef spec4 1) (((cfg4.win 1).blk t).view.emb (ix2 (⟨(j 0).val, idx2_lt0 j⟩ : Fin 10000) (0 : Fin 1))))
      (V c (Pipeline.arrRef spec4 0) (((cfg4.win 0).blk t).view.emb j))
    = recipClip (V c (Pipeline.arrRef spec4 1) (ix2 (⟨((((cfg4.win 2).blk t).view.emb j) 0).val, idx2_lt0 _⟩ : Fin 850000) (0 : Fin 1)))
      (V c (Pipeline.arrRef spec4 0) (((cfg4.win 2).blk t).view.emb j))
  have h0 : ((cfg4.win 0).blk t).view.emb j = ((cfg4.win 2).blk t).view.emb j := by
    funext a; apply Fin.ext
    match a with
    | ⟨0, _⟩ => show win4_0.index t (0 : Fin 2) * 10000 + 1 * (j 0).val = win4_2.index t (0 : Fin 2) * 10000 + 1 * (j 0).val; omega
    | ⟨1, _⟩ => show win4_0.index t (1 : Fin 2) * 100 + 1 * (j 1).val = win4_2.index t (1 : Fin 2) * 100 + 1 * (j 1).val; omega
  have h1 : ((cfg4.win 1).blk t).view.emb (ix2 (⟨(j 0).val, idx2_lt0 j⟩ : Fin 10000) (0 : Fin 1))
      = ix2 (⟨((((cfg4.win 2).blk t).view.emb j) 0).val, idx2_lt0 _⟩ : Fin 850000) (0 : Fin 1) := by
    funext a; apply Fin.ext
    match a with
    | ⟨0, _⟩ => show win4_1.index t (0 : Fin 2) * 10000 + 1 * (j 0).val = win4_2.index t (0 : Fin 2) * 10000 + 1 * (j 0).val; omega
    | ⟨1, _⟩ => show win4_1.index t (1 : Fin 2) * 1 + 1 * 0 = 0; omega
  rw [h0, h1]

/-- An index of the array is in point t's block iff each coordinate is in the block's range on its axis. -/
theorem mem_blk (t : Fin cfg4.N) (i : S850000x100.Idx) :
    i ∈ ((cfg4.win 2).blk t).view.set ↔ ∀ a : Fin 2, win4_2.index t a * S10000x100.size a ≤ (i a).val ∧ (i a).val < win4_2.index t a * S10000x100.size a + S10000x100.size a := by
  show i ∈ ((View.whole main_v66).slice (win4_2.rect t)).set ↔ _
  rw [View.set_slice_whole, Rect.mem_set_unit]
  exact Iff.rfl

/-- Every row lies in the block of the point numbered by its quotient by 10000. -/
theorem cover (i : S850000x100.Idx) : ∃ t : Fin cfg4.N, (cfg4.win 2).flush t = true ∧ i ∈ ((cfg4.win 2).blk t).view.set := by
  have hi0 : (i 0).val < 850000 := (i 0).isLt
  have hi1 : (i 1).val < 100 := (i 1).isLt
  have hN : grid4.N = 85 := N_4
  let t : Fin cfg4.N := ⟨(i 0).val / 10000, by show _ < grid4.N; rw [hN]; omega⟩
  obtain ⟨e0, e1, e2, e3, e4, e5⟩ := idx_facts t
  have ht : t.val = (i 0).val / 10000 := rfl
  refine ⟨t, flush4_2 t, ?_⟩
  rw [mem_blk]
  intro a
  match a with
  | ⟨0, _⟩ => show win4_2.index t (0 : Fin 2) * 10000 ≤ (i 0).val ∧ (i 0).val < win4_2.index t (0 : Fin 2) * 10000 + 10000; omega
  | ⟨1, _⟩ => show win4_2.index t (1 : Fin 2) * 100 ≤ (i 1).val ∧ (i 1).val < win4_2.index t (1 : Fin 2) * 100 + 100; omega

/-- The output array after the region: the transform of the two input arrays as the region finds them. -/
theorem final (c : Dev nD) : (dat4 V c).arrAt 2 cfg4.N
    = G (V c (Pipeline.arrRef spec4 0)) (V c (Pipeline.arrRef spec4 1)) :=
  (dat4 V c).arrAt_eq_of_cover 2 _ (fun t _ => flushed_eq V c t) cover

end Cert.KernelIdeal.Edge4

end
-- ==== Proof.Fin5.lean ====
/-
  The node update, as one function of whole arrays. The pipelined body takes a block of 10000 rows of the aggregated
  messages, [10000, 100], the matching block of the per-node count column, [10000, 1], and the one-row bias, [1, 100],
  and stores 1 / min(100, max(1e-16, a[n, q] / cnt[n])) + b[q] at every entry. Block t of the row-blocked arrays starts at
  row 10000 · t, so the 5 blocks tile the 50000 rows, and the array written back is that function of the whole arrays.
-/
import proofs.«119466_j60455959658662_1_alg».proof.Proof.Gen.KernelIdeal.Frame
import Idealize.ShloMosaic.Lib.Pipeline.Value
import Idealize.ShloMosaic.Lib.ValueIdx
import Idealize.ShloMosaic.Lib.ValueLayout
import proofs.«119466_j60455959658662_1_alg».proof.Proof.LibKeepdims
import proofs.«119466_j60455959658662_1_alg».proof.Proof.LibLreluRows

set_option maxRecDepth 16384

noncomputable section

namespace Cert.KernelIdeal.Fin5

open Cert.KernelIdeal Cert.KernelIdeal.Gen Idealize.ShloMosaic Idealize.ShloMosaic.ValueIdx Idealize.ShloMosaic.TcCoe
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl

/-- One entry of the update from the aggregate, the count and the bias. -/
def upd (a n b : Ideal .f32) : Ideal .f32 :=
  FloatOps.addf (FloatOps.divf (Scalar.ofBits .f32 0x3F800000#32)
    (FloatOps.minimumf (Scalar.ofBits .f32 0x42C80000#32) (FloatOps.maximumf (Scalar.ofBits .f32 0x24E69595#32) (FloatOps.divf a n)))) b

/-- The whole-array update: entry (n, q) from the aggregate at (n, q), the count of node n and the bias at q. -/
def G (a : FVec Ideal S50000x100 .f32) (n : FVec Ideal S50000x1 .f32) (b : FVec Ideal S1x100 .f32) : FVec Ideal S50000x100 .f32 :=
  fun i => upd (a i) (n (ix2 (⟨(i 0).val, idx2_lt0 i⟩ : Fin 50000) (0 : Fin 1))) (b (ix2 (0 : Fin 1) (⟨(i 1).val, idx2_lt1 i⟩ : Fin 100)))

/-- The body's stored value at one entry of a block. -/
theorem pay_apply (v0 : Vec Ideal S10000x100 .f32) (v2 : Vec Ideal S10000x1 .f32) (v12 : Vec Ideal S1x100 .f32) (j : S10000x100.Idx) :
    k5_pay1 v0 v2 v12 j = upd (v0 j) (v2 (ix2 (⟨(j 0).val, idx2_lt0 j⟩ : Fin 10000) (0 : Fin 1))) (v12 (ix2 (0 : Fin 1) (⟨(j 1).val, idx2_lt1 j⟩ : Fin 100))) := by
  obtain ⟨p, q, rfl⟩ : ∃ (p : Fin 10000) (q : Fin 100), j = ix2 p q := ⟨⟨(j 0).val, idx2_lt0 j⟩, ⟨(j 1).val, idx2_lt1 j⟩, eq_ix2 j⟩
  unfold k5_pay1 upd
  show FloatOps.addf (FloatOps.divf _ (FloatOps.minimumf _ (FloatOps.maximumf _ (FloatOps.divf
      (shapeCast S10000x100 _ shapeCasts_S10000x100_S10000x100 (ix2 p q))
      (broadcastTo S10000x100 (shapeCast S10000x1 _ shapeCasts_S10000x1_S10000x1) broadcasts_S10000x1_S10000x100 (ix2 p q))))))
      (broadcastTo S10000x100 (shapeCast S1x100 _ shapeCasts_S1x100_S1x100) broadcasts_S1x100_S10000x100 (ix2 p q)) = _
  rw [shapeCast_self, Cert.Lib.Keepdims.broadcastTo_a1_ab_apply, shapeCast_self, Cert.LibLreluRows.rowDown_apply]
  rfl

/-- The printed index maps over the grid: the row-blocked windows move together, the bias row stays. -/
theorem idx_facts : ∀ t : Fin cfg5.N, win5_0.index t (0 : Fin 2) = t.val ∧ win5_0.index t (1 : Fin 2) = 0
    ∧ win5_1.index t (0 : Fin 2) = t.val ∧ win5_1.index t (1 : Fin 2) = 0
    ∧ win5_2.index t (0 : Fin 2) = 0 ∧ win5_2.index t (1 : Fin 2) = 0
    ∧ win5_3.index t (0 : Fin 2) = t.val ∧ win5_3.index t (1 : Fin 2) = 0 :=
  (by decide +kernel : ∀ t : Fin grid5.N, _)

set_option maxHeartbeats 4000000 in
/-- What point t writes back is block t of the update of the three arrays as the region finds them. -/
theorem flushed_eq (c : Dev nD) (t : Fin cfg5.N) :
    (dat5 V c).flushed 3 t = ((cfg5.win 3).blk t).view.read (Elt Ideal)
      (G (V c (Pipeline.arrRef spec5 0)) (V c (Pipeline.arrRef spec5 1)) (V c (Pipeline.arrRef spec5 2))) := by
  show (cfg5.win 3).cut (grid5.coords t) ((dat5 V c).after 3 t) = _
  rw [after5_3]
  unfold out5_3
  rw [View.canon_unit_zero hz]
  simp only [View.ld_unit_zero (S := S10000x100) hz, View.ld_unit_zero (S := S10000x1) hz, View.ld_unit_zero (S := S1x100) hz]
  obtain ⟨e0, e1, e2, e3, e4, e5, e6, e7⟩ := idx_facts t
  funext j
  refine (pay_apply (iblk5 V c 0 t) (iblk5 V c 1 t) (iblk5 V c 2 t) j).trans ?_
  show _ = G (V c (Pipeline.arrRef spec5 0)) (V c (Pipeline.arrRef spec5 1)) (V c (Pipeline.arrRef spec5 2)) (((cfg5.win 3).blk t).view.emb j)
  unfold G
  have g0 : ((cfg5.win 0).blk t).view.emb j = ((cfg5.win 3).blk t).view.emb j := by
    funext a; apply Fin.ext
    match a with
    | ⟨0, _⟩ => show win5_0.index t (0 : Fin 2) * 10000 + 1 * (j 0).val = win5_3.index t (0 : Fin 2) * 10000 + 1 * (j 0).val; omega
    | ⟨1, _⟩ => show win5_0.index t (1 : Fin 2) * 100 + 1 * (j 1).val = win5_3.index t (1 : Fin 2) * 100 + 1 * (j 1).val; omega
  have g1 : ((cfg5.win 1).blk t).view.emb (ix2 (⟨(j 0).val, idx2_lt0 j⟩ : Fin 10000) (0 : Fin 1))
      = ix2 (⟨((((cfg5.win 3).blk t).view.emb j) 0).val, idx2_lt0 _⟩ : Fin 50000) (0 : Fin 1) := by
    funext a; apply Fin.ext
    match a with
    | ⟨0, _⟩ => show win5_1.index t (0 : Fin 2) * 10000 + 1 * (j 0).val = win5_3.index t (0 : Fin 2) * 10000 + 1 * (j 0).val; omega
    | ⟨1, _⟩ => show win5_1.index t (1 : Fin 2) * 1 + 1 * 0 = 0; omega
  have g2 : ((cfg5.win 2).blk t).view.emb (ix2 (0 : Fin 1) (⟨(j 1).val, idx2_lt1 j⟩ : Fin 100))
      = ix2 (0 : Fin 1) (⟨((((cfg5.win 3).blk t).view.emb j) 1).val, idx2_lt1 _⟩ : Fin 100) := by
    funext a; apply Fin.ext
    match a with
    | ⟨0, _⟩ => show win5_2.index t (0 : Fin 2) * 1 + 1 * 0 = 0; omega
    | ⟨1, _⟩ => show win5_2.index t (1 : Fin 2) * 100 + 1 * (j 1).val = win5_3.index t (1 : Fin 2) * 100 + 1 * (j 1).val; omega
  have h0 : iblk5 V c 0 t j = V c (Pipeline.arrRef spec5 0) (((cfg5.win 3).blk t).view.emb j) :=
    congrArg (V c (Pipeline.arrRef spec5 0)) g0
  have h1 : iblk5 V c 1 t (ix2 (⟨(j 0).val, idx2_lt0 j⟩ : Fin 10000) (0 : Fin 1))
      = V c (Pipeline.arrRef spec5 1) (ix2 (⟨((((cfg5.win 3).blk t).view.emb j) 0).val, idx2_lt0 _⟩ : Fin 50000) (0 : Fin 1)) :=
    congrArg (V c (Pipeline.arrRef spec5 1)) g1
  have h2 : iblk5 V c 2 t (ix2 (0 : Fin 1) (⟨(j 1).val, idx2_lt1 j⟩ : Fin 100))
      = V c (Pipeline.arrRef spec5 2) (ix2 (0 : Fin 1) (⟨((((cfg5.win 3).blk t).view.emb j) 1).val, idx2_lt1 _⟩ : Fin 100)) :=
    congrArg (V c (Pipeline.arrRef spec5 2)) g2
  rw [h0, h1, h2]

/-- An index of the array is in point t's block iff each coordinate is in the block's range on its axis. -/
theorem mem_blk (t : Fin cfg5.N) (i : S50000x100.Idx) :
    i ∈ ((cfg5.win 3).blk t).view.set ↔ ∀ a : Fin 2, win5_3.index t a * S10000x100.size a ≤ (i a).val ∧ (i a).val < win5_3.index t a * S10000x100.size a + S10000x100.size a := by
  show i ∈ ((View.whole main_v71).slice (win5_3.rect t)).set ↔ _
  rw [View.set_slice_whole, Rect.mem_set_unit]
  exact Iff.rfl

/-- Every row lies in the block of the point numbered by its quotient by 10000. -/
theorem cover (i : S50000x100.Idx) : ∃ t : Fin cfg5.N, (cfg5.win 3).flush t = true ∧ i ∈ ((cfg5.win 3).blk t).view.set := by
  have hi0 : (i 0).val < 50000 := (i 0).isLt
  have hi1 : (i 1).val < 100 := (i 1).isLt
  have hN : grid5.N = 5 := N_5
  let t : Fin cfg5.N := ⟨(i 0).val / 10000, by show _ < grid5.N; rw [hN]; omega⟩
  obtain ⟨e0, e1, e2, e3, e4, e5, e6, e7⟩ := idx_facts t
  have ht : t.val = (i 0).val / 10000 := rfl
  refine ⟨t, flush5_3 t, ?_⟩
  rw [mem_blk]
  intro a
  match a with
  | ⟨0, _⟩ => show win5_3.index t (0 : Fin 2) * 10000 ≤ (i 0).val ∧ (i 0).val < win5_3.index t (0 : Fin 2) * 10000 + 10000; omega
  | ⟨1, _⟩ => show win5_3.index t (1 : Fin 2) * 100 ≤ (i 1).val ∧ (i 1).val < win5_3.index t (1 : Fin 2) * 100 + 100; omega

/-- The output array after the region: the update of the three input arrays as the region finds them. -/
theorem final (c : Dev nD) : (dat5 V c).arrAt 3 cfg5.N
    = G (V c (Pipeline.arrRef spec5 0)) (V c (Pipeline.arrRef spec5 1)) (V c (Pipeline.arrRef spec5 2)) :=
  (dat5 V c).arrAt_eq_of_cover 3 _ (fun t _ => flushed_eq V c t) cover

end Cert.KernelIdeal.Fin5

end
-- ==== Proof.Mm6.lean ====
/-
  A dense layer, as one function of whole arrays. The pipelined body takes a block of 2000 rows of the input, [2000, 100],
  the whole weight matrix, [100, 128], and a one-row bias, [1, 128], and stores the block's product with the weights
  plus the bias laid along every row: entry (p, q) is the sum over k of x[p, k] · w[k, q], plus b[q]. Block t of the input and
  of the output starts at row 2000 · t, so the 1 block tiles the 2000 rows, and the array written back is that
  function of the whole arrays.
-/
import proofs.«119466_j60455959658662_1_alg».proof.Proof.Gen.KernelIdeal.Frame
import Idealize.ShloMosaic.Lib.Pipeline.Value
import Idealize.ShloMosaic.Lib.ValueIdx
import Idealize.ShloMosaic.Lib.ValueLayout
import proofs.«119466_j60455959658662_1_alg».proof.Proof.LibDenseRows

set_option maxRecDepth 16384

noncomputable section

namespace Cert.KernelIdeal.Mm6

open Cert.KernelIdeal Cert.KernelIdeal.Gen Idealize.ShloMosaic Idealize.ShloMosaic.ValueIdx Idealize.ShloMosaic.TcCoe
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl

/-- The whole-array layer: entry (p, q) is the sum over k of x[p, k] · w[k, q], plus b[0, q]. -/
def G (x : FVec Ideal S2000x100 .f32) (w : FVec Ideal S100x128 .f32) (b : FVec Ideal S1x128 .f32) : FVec Ideal S2000x128 .f32 :=
  fun i => (∑ k : Fin 100, x (ix2 (⟨(i 0).val, idx2_lt0 i⟩ : Fin 2000) k) * w (ix2 k (⟨(i 1).val, idx2_lt1 i⟩ : Fin 128)))
    + b (ix2 (0 : Fin 1) (⟨(i 1).val, idx2_lt1 i⟩ : Fin 128))

/-- The body's stored value at one entry of a block. -/
theorem pay_apply (v0 : FVec Ideal S2000x100 .f32) (v3 : FVec Ideal S100x128 .f32) (v6 : FVec Ideal S1x128 .f32) (j : S2000x128.Idx) :
    k6_pay1 v0 v3 v6 j = (∑ k : Fin 100, v0 (ix2 (⟨(j 0).val, idx2_lt0 j⟩ : Fin 2000) k) * v3 (ix2 k (⟨(j 1).val, idx2_lt1 j⟩ : Fin 128)))
      + v6 (ix2 (0 : Fin 1) (⟨(j 1).val, idx2_lt1 j⟩ : Fin 128)) := by
  obtain ⟨p, q, rfl⟩ : ∃ (p : Fin 2000) (q : Fin 128), j = ix2 p q := ⟨⟨(j 0).val, idx2_lt0 j⟩, ⟨(j 1).val, idx2_lt1 j⟩, eq_ix2 j⟩
  unfold k6_pay1
  refine (Cert.Dense.tileAddRow_apply 2000 128 shapeCasts_S1x128_S1x128 broadcasts_S1x128_S2000x128 _ _ p q).trans ?_
  refine congrArg (fun z => z + v6 (ix2 (0 : Fin 1) q)) ?_
  refine (Cert.Dense.tileProduct_apply 2000 100 128 none bitsLt_bf16_f32 bitsLt_bf16_f32 _ _ p q).trans ?_
  refine Finset.sum_congr rfl fun k _ => ?_
  rw [shapeCast_self]

/-- The printed index maps over the grid: the input and output blocks move together, weights and bias stay. -/
theorem idx_facts : ∀ t : Fin cfg6.N, win6_0.index t (0 : Fin 2) = t.val ∧ win6_0.index t (1 : Fin 2) = 0
    ∧ win6_1.index t (0 : Fin 2) = 0 ∧ win6_1.index t (1 : Fin 2) = 0
    ∧ win6_2.index t (0 : Fin 2) = 0 ∧ win6_2.index t (1 : Fin 2) = 0
    ∧ win6_3.index t (0 : Fin 2) = t.val ∧ win6_3.index t (1 : Fin 2) = 0 :=
  (by decide +kernel : ∀ t : Fin grid6.N, _)

set_option maxHeartbeats 4000000 in
/-- What point t writes back is block t of the layer of the three arrays as the region finds them. -/
theorem flushed_eq (c : Dev nD) (t : Fin cfg6.N) :
    (dat6 V c).flushed 3 t = ((cfg6.win 3).blk t).view.read (Elt Ideal)
      (G (V c (Pipeline.arrRef spec6 0)) (V c (Pipeline.arrRef spec6 1)) (V c (Pipeline.arrRef spec6 2))) := by
  show (cfg6.win 3).cut (grid6.coords t) ((dat6 V c).after 3 t) = _
  rw [after6_3]
  unfold out6_3
  rw [View.canon_unit_zero hz]
  simp only [View.ld_unit_zero (S := S2000x100) hz, View.ld_unit_zero (S := S100x128) hz, View.ld_unit_zero (S := S1x128) hz]
  obtain ⟨e0, e1, e2, e3, e4, e5, e6, e7⟩ := idx_facts t
  funext j
  refine (pay_apply (iblk6 V c 0 t) (iblk6 V c 1 t) (iblk6 V c 2 t) j).trans ?_
  show _ = G (V c (Pipeline.arrRef spec6 0)) (V c (Pipeline.arrRef spec6 1)) (V c (Pipeline.arrRef spec6 2)) (((cfg6.win 3).blk t).view.emb j)
  unfold G
  have g0 : ∀ k : Fin 100, ((cfg6.win 0).blk t).view.emb (ix2 (⟨(j 0).val, idx2_lt0 j⟩ : Fin 2000) k)
      = ix2 (⟨((((cfg6.win 3).blk t).view.emb j) 0).val, idx2_lt0 _⟩ : Fin 2000) k := by
    intro k; funext a; apply Fin.ext
    match a with
    | ⟨0, _⟩ => show win6_0.index t (0 : Fin 2) * 2000 + 1 * (j 0).val = win6_3.index t (0 : Fin 2) * 2000 + 1 * (j 0).val; omega
    | ⟨1, _⟩ => show win6_0.index t (1 : Fin 2) * 100 + 1 * k.val = k.val; omega
  have g1 : ∀ k : Fin 100, ((cfg6.win 1).blk t).view.emb (ix2 k (⟨(j 1).val, idx2_lt1 j⟩ : Fin 128))
      = ix2 k (⟨((((cfg6.win 3).blk t).view.emb j) 1).val, idx2_lt1 _⟩ : Fin 128) := by
    intro k; funext a; apply Fin.ext
    match a with
    | ⟨0, _⟩ => show win6_1.index t (0 : Fin 2) * 100 + 1 * k.val = k.val; omega
    | ⟨1, _⟩ => show win6_1.index t (1 : Fin 2) * 128 + 1 * (j 1).val = win6_3.index t (1 : Fin 2) * 128 + 1 * (j 1).val; omega
  have g2 : ((cfg6.win 2).blk t).view.emb (ix2 (0 : Fin 1) (⟨(j 1).val, idx2_lt1 j⟩ : Fin 128))
      = ix2 (0 : Fin 1) (⟨((((cfg6.win 3).blk t).view.emb j) 1).val, idx2_lt1 _⟩ : Fin 128) := by
    funext a; apply Fin.ext
    match a with
    | ⟨0, _⟩ => show win6_2.index t (0 : Fin 2) * 1 + 1 * 0 = 0; omega
    | ⟨1, _⟩ => show win6_2.index t (1 : Fin 2) * 128 + 1 * (j 1).val = win6_3.index t (1 : Fin 2) * 128 + 1 * (j 1).val; omega
  have h0 : ∀ k : Fin 100, iblk6 V c 0 t (ix2 (⟨(j 0).val, idx2_lt0 j⟩ : Fin 2000) k)
      = V c (Pipeline.arrRef spec6 0) (ix2 (⟨((((cfg6.win 3).blk t).view.emb j) 0).val, idx2_lt0 _⟩ : Fin 2000) k) :=
    fun k => congrArg (V c (Pipeline.arrRef spec6 0)) (g0 k)
  have h1 : ∀ k : Fin 100, iblk6 V c 1 t (ix2 k (⟨(j 1).val, idx2_lt1 j⟩ : Fin 128))
      = V c (Pipeline.arrRef spec6 1) (ix2 k (⟨((((cfg6.win 3).blk t).view.emb j) 1).val, idx2_lt1 _⟩ : Fin 128)) :=
    fun k => congrArg (V c (Pipeline.arrRef spec6 1)) (g1 k)
  have h2 : iblk6 V c 2 t (ix2 (0 : Fin 1) (⟨(j 1).val, idx2_lt1 j⟩ : Fin 128))
      = V c (Pipeline.arrRef spec6 2) (ix2 (0 : Fin 1) (⟨((((cfg6.win 3).blk t).view.emb j) 1).val, idx2_lt1 _⟩ : Fin 128)) :=
    congrArg (V c (Pipeline.arrRef spec6 2)) g2
  rw [h2]
  refine congrArg (fun z => z + _) (Finset.sum_congr rfl fun k _ => ?_)
  rw [h0 k, h1 k]

/-- An index of the array is in point t's block iff each coordinate is in the block's range on its axis. -/
theorem mem_blk (t : Fin cfg6.N) (i : S2000x128.Idx) :
    i ∈ ((cfg6.win 3).blk t).view.set ↔ ∀ a : Fin 2, win6_3.index t a * S2000x128.size a ≤ (i a).val ∧ (i a).val < win6_3.index t a * S2000x128.size a + S2000x128.size a := by
  show i ∈ ((View.whole main_v85).slice (win6_3.rect t)).set ↔ _
  rw [View.set_slice_whole, Rect.mem_set_unit]
  exact Iff.rfl

/-- Every row lies in the block of the point numbered by its quotient by 2000. -/
theorem cover (i : S2000x128.Idx) : ∃ t : Fin cfg6.N, (cfg6.win 3).flush t = true ∧ i ∈ ((cfg6.win 3).blk t).view.set := by
  have hi0 : (i 0).val < 2000 := (i 0).isLt
  have hi1 : (i 1).val < 128 := (i 1).isLt
  have hN : grid6.N = 1 := N_6
  let t : Fin cfg6.N := ⟨(i 0).val / 2000, by show _ < grid6.N; rw [hN]; omega⟩
  obtain ⟨e0, e1, e2, e3, e4, e5, e6, e7⟩ := idx_facts t
  have ht : t.val = (i 0).val / 2000 := rfl
  refine ⟨t, flush6_3 t, ?_⟩
  rw [mem_blk]
  intro a
  match a with
  | ⟨0, _⟩ => show win6_3.index t (0 : Fin 2) * 2000 ≤ (i 0).val ∧ (i 0).val < win6_3.index t (0 : Fin 2) * 2000 + 2000; omega
  | ⟨1, _⟩ => show win6_3.index t (1 : Fin 2) * 128 ≤ (i 1).val ∧ (i 1).val < win6_3.index t (1 : Fin 2) * 128 + 128; omega

/-- The output array after the region: the layer of the three input arrays as the region finds them. -/
theorem final (c : Dev nD) : (dat6 V c).arrAt 3 cfg6.N
    = G (V c (Pipeline.arrRef spec6 0)) (V c (Pipeline.arrRef spec6 1)) (V c (Pipeline.arrRef spec6 2)) :=
  (dat6 V c).arrAt_eq_of_cover 3 _ (fun t _ => flushed_eq V c t) cover

end Cert.KernelIdeal.Mm6

end
-- ==== Proof.RefStages.lean ====
/-
  The reference's stages as named terms. Each `res_‹buffer›` is the host-operation term for one buffer of the reference
  program from the contents of the buffers that stage reads: the node features (nine embedding rows taken per node and
  summed), the edge endpoints with the self loops appended, the degrees and their inverse square roots, the edge weights,
  and per layer the dot product, the gather at the sources, the message transform, the sum at the targets and the node
  update; then the per-graph mean and the readout. `result` composes them over the ten argument arrays.
-/
import proofs.«119466_j60455959658662_1_alg».proof.Proof.Gen.ReferenceIdeal
import Idealize.ShloMosaic.PureOps.Ideal

noncomputable section

namespace Cert.ReferenceIdeal.RefStages

open Cert.ReferenceIdeal Cert.ReferenceIdeal.Gen Idealize.ShloMosaic Idealize.ShloMosaic.TcCoe

variable {F : FTy → Type} [FloatOps F]

/-- `main_v4`, the node features: the nine embedding rows taken per node (an index outside the table reads as not-a-number) and summed. -/
abbrev res_v4 (a0 : (⟨S50000x9, .i32⟩ : BufTy).Contents (Elt F)) (a3 : (⟨S174x100, .f32⟩ : BufTy).Contents (Elt F)) : (⟨S50000x100, .f32⟩ : BufTy).Contents (Elt F) :=
  (((fun x v => Host.reduceAdd x v reducesTo_S50000x9x100_S50000x100_d1 h_S_) : (⟨S50000x9x100, .f32⟩ : BufTy).Contents (Elt F) → (⟨S_, .f32⟩ : BufTy).Contents (Elt F) → (⟨S50000x100, .f32⟩ : BufTy).Contents (Elt F)) ((select : (⟨S50000x9x100, .i1⟩ : BufTy).Contents (Elt F) → (⟨S50000x9x100, .f32⟩ : BufTy).Contents (Elt F) → (⟨S50000x9x100, .f32⟩ : BufTy).Contents (Elt F) → (⟨S50000x9x100, .f32⟩ : BufTy).Contents (Elt F)) (((broadcastInDim S50000x9x100 ![0, 1] bcast_S50000x9_S50000x9x100_0_1) : (⟨S50000x9, .i1⟩ : BufTy).Contents (Elt F) → (⟨S50000x9x100, .i1⟩ : BufTy).Contents (Elt F)) (((fun x v => Host.reduce IntOp.andi x v reducesTo_S50000x9x1_S50000x9_d2 h_S_) : (⟨S50000x9x1, .i1⟩ : BufTy).Contents (Elt F) → (⟨S_, .i1⟩ : BufTy).Contents (Elt F) → (⟨S50000x9, .i1⟩ : BufTy).Contents (Elt F)) ((andi : (⟨S50000x9x1, .i1⟩ : BufTy).Contents (Elt F) → (⟨S50000x9x1, .i1⟩ : BufTy).Contents (Elt F) → (⟨S50000x9x1, .i1⟩ : BufTy).Contents (Elt F)) (((cmpi .sge) : (⟨S50000x9x1, .i32⟩ : BufTy).Contents (Elt F) → (⟨S50000x9x1, .i32⟩ : BufTy).Contents (Elt F) → (⟨S50000x9x1, .i1⟩ : BufTy).Contents (Elt F)) (((broadcastInDim S50000x9x1 ![0, 1] bcast_S50000x9_S50000x9x1_0_1) : (⟨S50000x9, .i32⟩ : BufTy).Contents (Elt F) → (⟨S50000x9x1, .i32⟩ : BufTy).Contents (Elt F)) ((select : (⟨S50000x9, .i1⟩ : BufTy).Contents (Elt F) → (⟨S50000x9, .i32⟩ : BufTy).Contents (Elt F) → (⟨S50000x9, .i32⟩ : BufTy).Contents (Elt F) → (⟨S50000x9, .i32⟩ : BufTy).Contents (Elt F)) (((cmpi .slt) : (⟨S50000x9, .i32⟩ : BufTy).Contents (Elt F) → (⟨S50000x9, .i32⟩ : BufTy).Contents (Elt F) → (⟨S50000x9, .i1⟩ : BufTy).Contents (Elt F)) ((addi : (⟨S50000x9, .i32⟩ : BufTy).Contents (Elt F) → (⟨S50000x9, .i32⟩ : BufTy).Contents (Elt F) → (⟨S50000x9, .i32⟩ : BufTy).Contents (Elt F)) a0 ((broadcastInDim S50000x9 ![0, 1] bcast_S1x9_S50000x9_0_1 : (⟨S1x9, .i32⟩ : BufTy).Contents (Elt F) → (⟨S50000x9, .i32⟩ : BufTy).Contents (Elt F)) ((broadcastInDim S1x9 ![1] bcast_S9_S1x9_1 : (⟨S9, .i32⟩ : BufTy).Contents (Elt F) → (⟨S1x9, .i32⟩ : BufTy).Contents (Elt F)) ((fun i => lit0 (S9.rowMajor i)) : (⟨S9, .i32⟩ : BufTy).Contents (Elt F))))) (((broadcastInDim S50000x9 ![] bcast_S_S50000x9) : (⟨S_, .i32⟩ : BufTy).Contents (Elt F) → (⟨S50000x9, .i32⟩ : BufTy).Contents (Elt F)) (((constantI S_ 32 0#32) : (⟨S_, .i32⟩ : BufTy).Contents (Elt F)) : (⟨S_, .i32⟩ : BufTy).Contents (Elt F)))) ((addi : (⟨S50000x9, .i32⟩ : BufTy).Contents (Elt F) → (⟨S50000x9, .i32⟩ : BufTy).Contents (Elt F) → (⟨S50000x9, .i32⟩ : BufTy).Contents (Elt F)) ((addi : (⟨S50000x9, .i32⟩ : BufTy).Contents (Elt F) → (⟨S50000x9, .i32⟩ : BufTy).Contents (Elt F) → (⟨S50000x9, .i32⟩ : BufTy).Contents (Elt F)) a0 ((broadcastInDim S50000x9 ![0, 1] bcast_S1x9_S50000x9_0_1 : (⟨S1x9, .i32⟩ : BufTy).Contents (Elt F) → (⟨S50000x9, .i32⟩ : BufTy).Contents (Elt F)) ((broadcastInDim S1x9 ![1] bcast_S9_S1x9_1 : (⟨S9, .i32⟩ : BufTy).Contents (Elt F) → (⟨S1x9, .i32⟩ : BufTy).Contents (Elt F)) ((fun i => lit0 (S9.rowMajor i)) : (⟨S9, .i32⟩ : BufTy).Contents (Elt F))))) (((broadcastInDim S50000x9 ![] bcast_S_S50000x9) : (⟨S_, .i32⟩ : BufTy).Contents (Elt F) → (⟨S50000x9, .i32⟩ : BufTy).Contents (Elt F)) (((constantI S_ 32 174#32) : (⟨S_, .i32⟩ : BufTy).Contents (Elt F)) : (⟨S_, .i32⟩ : BufTy).Contents (Elt F)))) ((addi : (⟨S50000x9, .i32⟩ : BufTy).Contents (Elt F) → (⟨S50000x9, .i32⟩ : BufTy).Contents (Elt F) → (⟨S50000x9, .i32⟩ : BufTy).Contents (Elt F)) a0 ((broadcastInDim S50000x9 ![0, 1] bcast_S1x9_S50000x9_0_1 : (⟨S1x9, .i32⟩ : BufTy).Contents (Elt F) → (⟨S50000x9, .i32⟩ : BufTy).Contents (Elt F)) ((broadcastInDim S1x9 ![1] bcast_S9_S1x9_1 : (⟨S9, .i32⟩ : BufTy).Contents (Elt F) → (⟨S1x9, .i32⟩ : BufTy).Contents (Elt F)) ((fun i => lit0 (S9.rowMajor i)) : (⟨S9, .i32⟩ : BufTy).Contents (Elt F))))))) (((broadcastInDim S50000x9x1 ![] bcast_S_S50000x9x1) : (⟨S_, .i32⟩ : BufTy).Contents (Elt F) → (⟨S50000x9x1, .i32⟩ : BufTy).Contents (Elt F)) (((constantI S_ 32 0#32) : (⟨S_, .i32⟩ : BufTy).Contents (Elt F)) : (⟨S_, .i32⟩ : BufTy).Contents (Elt F)))) (((cmpi .sle) : (⟨S50000x9x1, .i32⟩ : BufTy).Contents (Elt F) → (⟨S50000x9x1, .i32⟩ : BufTy).Contents (Elt F) → (⟨S50000x9x1, .i1⟩ : BufTy).Contents (Elt F)) (((broadcastInDim S50000x9x1 ![0, 1] bcast_S50000x9_S50000x9x1_0_1) : (⟨S50000x9, .i32⟩ : BufTy).Contents (Elt F) → (⟨S50000x9x1, .i32⟩ : BufTy).Contents (Elt F)) ((select : (⟨S50000x9, .i1⟩ : BufTy).Contents (Elt F) → (⟨S50000x9, .i32⟩ : BufTy).Contents (Elt F) → (⟨S50000x9, .i32⟩ : BufTy).Contents (Elt F) → (⟨S50000x9, .i32⟩ : BufTy).Contents (Elt F)) (((cmpi .slt) : (⟨S50000x9, .i32⟩ : BufTy).Contents (Elt F) → (⟨S50000x9, .i32⟩ : BufTy).Contents (Elt F) → (⟨S50000x9, .i1⟩ : BufTy).Contents (Elt F)) ((addi : (⟨S50000x9, .i32⟩ : BufTy).Contents (Elt F) → (⟨S50000x9, .i32⟩ : BufTy).Contents (Elt F) → (⟨S50000x9, .i32⟩ : BufTy).Contents (Elt F)) a0 ((broadcastInDim S50000x9 ![0, 1] bcast_S1x9_S50000x9_0_1 : (⟨S1x9, .i32⟩ : BufTy).Contents (Elt F) → (⟨S50000x9, .i32⟩ : BufTy).Contents (Elt F)) ((broadcastInDim S1x9 ![1] bcast_S9_S1x9_1 : (⟨S9, .i32⟩ : BufTy).Contents (Elt F) → (⟨S1x9, .i32⟩ : BufTy).Contents (Elt F)) ((fun i => lit0 (S9.rowMajor i)) : (⟨S9, .i32⟩ : BufTy).Contents (Elt F))))) (((broadcastInDim S50000x9 ![] bcast_S_S50000x9) : (⟨S_, .i32⟩ : BufTy).Contents (Elt F) → (⟨S50000x9, .i32⟩ : BufTy).Contents (Elt F)) (((constantI S_ 32 0#32) : (⟨S_, .i32⟩ : BufTy).Contents (Elt F)) : (⟨S_, .i32⟩ : BufTy).Contents (Elt F)))) ((addi : (⟨S50000x9, .i32⟩ : BufTy).Contents (Elt F) → (⟨S50000x9, .i32⟩ : BufTy).Contents (Elt F) → (⟨S50000x9, .i32⟩ : BufTy).Contents (Elt F)) ((addi : (⟨S50000x9, .i32⟩ : BufTy).Contents (Elt F) → (⟨S50000x9, .i32⟩ : BufTy).Contents (Elt F) → (⟨S50000x9, .i32⟩ : BufTy).Contents (Elt F)) a0 ((broadcastInDim S50000x9 ![0, 1] bcast_S1x9_S50000x9_0_1 : (⟨S1x9, .i32⟩ : BufTy).Contents (Elt F) → (⟨S50000x9, .i32⟩ : BufTy).Contents (Elt F)) ((broadcastInDim S1x9 ![1] bcast_S9_S1x9_1 : (⟨S9, .i32⟩ : BufTy).Contents (Elt F) → (⟨S1x9, .i32⟩ : BufTy).Contents (Elt F)) ((fun i => lit0 (S9.rowMajor i)) : (⟨S9, .i32⟩ : BufTy).Contents (Elt F))))) (((broadcastInDim S50000x9 ![] bcast_S_S50000x9) : (⟨S_, .i32⟩ : BufTy).Contents (Elt F) → (⟨S50000x9, .i32⟩ : BufTy).Contents (Elt F)) (((constantI S_ 32 174#32) : (⟨S_, .i32⟩ : BufTy).Contents (Elt F)) : (⟨S_, .i32⟩ : BufTy).Contents (Elt F)))) ((addi : (⟨S50000x9, .i32⟩ : BufTy).Contents (Elt F) → (⟨S50000x9, .i32⟩ : BufTy).Contents (Elt F) → (⟨S50000x9, .i32⟩ : BufTy).Contents (Elt F)) a0 ((broadcastInDim S50000x9 ![0, 1] bcast_S1x9_S50000x9_0_1 : (⟨S1x9, .i32⟩ : BufTy).Contents (Elt F) → (⟨S50000x9, .i32⟩ : BufTy).Contents (Elt F)) ((broadcastInDim S1x9 ![1] bcast_S9_S1x9_1 : (⟨S9, .i32⟩ : BufTy).Contents (Elt F) → (⟨S1x9, .i32⟩ : BufTy).Contents (Elt F)) ((fun i => lit0 (S9.rowMajor i)) : (⟨S9, .i32⟩ : BufTy).Contents (Elt F))))))) (((broadcastInDim S50000x9x1 ![0, 1, 2] bcast_S1x1x1_S50000x9x1_0_1_2) : (⟨S1x1x1, .i32⟩ : BufTy).Contents (Elt F) → (⟨S50000x9x1, .i32⟩ : BufTy).Contents (Elt F)) (((broadcastInDim S1x1x1 ![2] bcast_S1_S1x1x1_2) : (⟨S1, .i32⟩ : BufTy).Contents (Elt F) → (⟨S1x1x1, .i32⟩ : BufTy).Contents (Elt F)) (((constantI S1 32 173#32) : (⟨S1, .i32⟩ : BufTy).Contents (Elt F)) : (⟨S1, .i32⟩ : BufTy).Contents (Elt F)))))) (((constantI S_ 1 1#1) : (⟨S_, .i1⟩ : BufTy).Contents (Elt F)) : (⟨S_, .i1⟩ : BufTy).Contents (Elt F)))) (((fun x i => Host.gather gather_S174x100_S50000x9x1_S50000x9x100_2_0_n_n_0_2_1100 x i) : (⟨S174x100, .f32⟩ : BufTy).Contents (Elt F) → (⟨S50000x9x1, .i32⟩ : BufTy).Contents (Elt F) → (⟨S50000x9x100, .f32⟩ : BufTy).Contents (Elt F)) a3 (((broadcastInDim S50000x9x1 ![0, 1] bcast_S50000x9_S50000x9x1_0_1) : (⟨S50000x9, .i32⟩ : BufTy).Contents (Elt F) → (⟨S50000x9x1, .i32⟩ : BufTy).Contents (Elt F)) ((select : (⟨S50000x9, .i1⟩ : BufTy).Contents (Elt F) → (⟨S50000x9, .i32⟩ : BufTy).Contents (Elt F) → (⟨S50000x9, .i32⟩ : BufTy).Contents (Elt F) → (⟨S50000x9, .i32⟩ : BufTy).Contents (Elt F)) (((cmpi .slt) : (⟨S50000x9, .i32⟩ : BufTy).Contents (Elt F) → (⟨S50000x9, .i32⟩ : BufTy).Contents (Elt F) → (⟨S50000x9, .i1⟩ : BufTy).Contents (Elt F)) ((addi : (⟨S50000x9, .i32⟩ : BufTy).Contents (Elt F) → (⟨S50000x9, .i32⟩ : BufTy).Contents (Elt F) → (⟨S50000x9, .i32⟩ : BufTy).Contents (Elt F)) a0 ((broadcastInDim S50000x9 ![0, 1] bcast_S1x9_S50000x9_0_1 : (⟨S1x9, .i32⟩ : BufTy).Contents (Elt F) → (⟨S50000x9, .i32⟩ : BufTy).Contents (Elt F)) ((broadcastInDim S1x9 ![1] bcast_S9_S1x9_1 : (⟨S9, .i32⟩ : BufTy).Contents (Elt F) → (⟨S1x9, .i32⟩ : BufTy).Contents (Elt F)) ((fun i => lit0 (S9.rowMajor i)) : (⟨S9, .i32⟩ : BufTy).Contents (Elt F))))) (((broadcastInDim S50000x9 ![] bcast_S_S50000x9) : (⟨S_, .i32⟩ : BufTy).Contents (Elt F) → (⟨S50000x9, .i32⟩ : BufTy).Contents (Elt F)) (((constantI S_ 32 0#32) : (⟨S_, .i32⟩ : BufTy).Contents (Elt F)) : (⟨S_, .i32⟩ : BufTy).Contents (Elt F)))) ((addi : (⟨S50000x9, .i32⟩ : BufTy).Contents (Elt F) → (⟨S50000x9, .i32⟩ : BufTy).Contents (Elt F) → (⟨S50000x9, .i32⟩ : BufTy).Contents (Elt F)) ((addi : (⟨S50000x9, .i32⟩ : BufTy).Contents (Elt F) → (⟨S50000x9, .i32⟩ : BufTy).Contents (Elt F) → (⟨S50000x9, .i32⟩ : BufTy).Contents (Elt F)) a0 ((broadcastInDim S50000x9 ![0, 1] bcast_S1x9_S50000x9_0_1 : (⟨S1x9, .i32⟩ : BufTy).Contents (Elt F) → (⟨S50000x9, .i32⟩ : BufTy).Contents (Elt F)) ((broadcastInDim S1x9 ![1] bcast_S9_S1x9_1 : (⟨S9, .i32⟩ : BufTy).Contents (Elt F) → (⟨S1x9, .i32⟩ : BufTy).Contents (Elt F)) ((fun i => lit0 (S9.rowMajor i)) : (⟨S9, .i32⟩ : BufTy).Contents (Elt F))))) (((broadcastInDim S50000x9 ![] bcast_S_S50000x9) : (⟨S_, .i32⟩ : BufTy).Contents (Elt F) → (⟨S50000x9, .i32⟩ : BufTy).Contents (Elt F)) (((constantI S_ 32 174#32) : (⟨S_, .i32⟩ : BufTy).Contents (Elt F)) : (⟨S_, .i32⟩ : BufTy).Contents (Elt F)))) ((addi : (⟨S50000x9, .i32⟩ : BufTy).Contents (Elt F) → (⟨S50000x9, .i32⟩ : BufTy).Contents (Elt F) → (⟨S50000x9, .i32⟩ : BufTy).Contents (Elt F)) a0 ((broadcastInDim S50000x9 ![0, 1] bcast_S1x9_S50000x9_0_1 : (⟨S1x9, .i32⟩ : BufTy).Contents (Elt F) → (⟨S50000x9, .i32⟩ : BufTy).Contents (Elt F)) ((broadcastInDim S1x9 ![1] bcast_S9_S1x9_1 : (⟨S9, .i32⟩ : BufTy).Contents (Elt F) → (⟨S1x9, .i32⟩ : BufTy).Contents (Elt F)) ((fun i => lit0 (S9.rowMajor i)) : (⟨S9, .i32⟩ : BufTy).Contents (Elt F)))))))) (((broadcastInDim S50000x9x100 ![] bcast_S_S50000x9x100) : (⟨S_, .f32⟩ : BufTy).Contents (Elt F) → (⟨S50000x9x100, .f32⟩ : BufTy).Contents (Elt F)) (((constant S_ .f32 0x7FC00000#32) : (⟨S_, .f32⟩ : BufTy).Contents (Elt F)) : (⟨S_, .f32⟩ : BufTy).Contents (Elt F)))) ((constant S_ .f32 0x00000000#32) : (⟨S_, .f32⟩ : BufTy).Contents (Elt F)))

/-- `main_v8`, the edges' source nodes followed by every node once (the self loops). -/
abbrev res_v8 (a1 : (⟨S2x800000, .i32⟩ : BufTy).Contents (Elt F)) : (⟨S850000, .i32⟩ : BufTy).Contents (Elt F) :=
  (((fun a b => concatenate S850000 0 [⟨S800000, a⟩, ⟨S50000, b⟩] concatenates_S800000_S50000_S850000_d0) : (⟨S800000, .i32⟩ : BufTy).Contents (Elt F) → (⟨S50000, .i32⟩ : BufTy).Contents (Elt F) → (⟨S850000, .i32⟩ : BufTy).Contents (Elt F)) (shapeCast S800000 (((extractStridedSlice S1x800000 ![0, 0] · slices_S2x800000_S1x800000_0_0) : (⟨S2x800000, .i32⟩ : BufTy).Contents (Elt F) → (⟨S1x800000, .i32⟩ : BufTy).Contents (Elt F)) a1) shapeCasts_S1x800000_S800000) ((iotaInDim S50000 32 0) : (⟨S50000, .i32⟩ : BufTy).Contents (Elt F)))

/-- `main_v11`, the edges' target nodes followed by every node once (the self loops). -/
abbrev res_v11 (a1 : (⟨S2x800000, .i32⟩ : BufTy).Contents (Elt F)) : (⟨S850000, .i32⟩ : BufTy).Contents (Elt F) :=
  (((fun a b => concatenate S850000 0 [⟨S800000, a⟩, ⟨S50000, b⟩] concatenates_S800000_S50000_S850000_d0) : (⟨S800000, .i32⟩ : BufTy).Contents (Elt F) → (⟨S50000, .i32⟩ : BufTy).Contents (Elt F) → (⟨S850000, .i32⟩ : BufTy).Contents (Elt F)) (shapeCast S800000 (((extractStridedSlice S1x800000 ![1, 0] · slices_S2x800000_S1x800000_1_0) : (⟨S2x800000, .i32⟩ : BufTy).Contents (Elt F) → (⟨S1x800000, .i32⟩ : BufTy).Contents (Elt F)) a1) shapeCasts_S1x800000_S800000) ((iotaInDim S50000 32 0) : (⟨S50000, .i32⟩ : BufTy).Contents (Elt F)))

/-- `main_v15`, each node's degree: the count of the edges (self loops included) that end at it. -/
abbrev res_v15 (v11 : (⟨S850000, .i32⟩ : BufTy).Contents (Elt F)) : (⟨S50000, .f32⟩ : BufTy).Contents (Elt F) :=
  (((fun x i u => Host.scatterAdd scatter_S50000_S850000x1_S850000_n_0_0_1 x i u) : (⟨S50000, .f32⟩ : BufTy).Contents (Elt F) → (⟨S850000x1, .i32⟩ : BufTy).Contents (Elt F) → (⟨S850000, .f32⟩ : BufTy).Contents (Elt F) → (⟨S50000, .f32⟩ : BufTy).Contents (Elt F)) ((broadcastInDim S50000 ![] bcast_S_S50000 : (⟨S_, .f32⟩ : BufTy).Contents (Elt F) → (⟨S50000, .f32⟩ : BufTy).Contents (Elt F)) ((constant S_ .f32 0x00000000#32) : (⟨S_, .f32⟩ : BufTy).Contents (Elt F))) ((broadcastInDim S850000x1 ![0] bcast_S850000_S850000x1_0 : (⟨S850000, .i32⟩ : BufTy).Contents (Elt F) → (⟨S850000x1, .i32⟩ : BufTy).Contents (Elt F)) v11) ((broadcastInDim S850000 ![] bcast_S_S850000 : (⟨S_, .f32⟩ : BufTy).Contents (Elt F) → (⟨S850000, .f32⟩ : BufTy).Contents (Elt F)) ((constant S_ .f32 0x3F800000#32) : (⟨S_, .f32⟩ : BufTy).Contents (Elt F))))

/-- `main_v20`, the degree's inverse square root where the degree is positive, zero elsewhere. -/
abbrev res_v20 (v15 : (⟨S50000, .f32⟩ : BufTy).Contents (Elt F)) : (⟨S50000, .f32⟩ : BufTy).Contents (Elt F) :=
  ((select : (⟨S50000, .i1⟩ : BufTy).Contents (Elt F) → (⟨S50000, .f32⟩ : BufTy).Contents (Elt F) → (⟨S50000, .f32⟩ : BufTy).Contents (Elt F) → (⟨S50000, .f32⟩ : BufTy).Contents (Elt F)) ((cmpf .ogt : (⟨S50000, .f32⟩ : BufTy).Contents (Elt F) → (⟨S50000, .f32⟩ : BufTy).Contents (Elt F) → (⟨S50000, .i1⟩ : BufTy).Contents (Elt F)) v15 ((broadcastInDim S50000 ![] bcast_S_S50000 : (⟨S_, .f32⟩ : BufTy).Contents (Elt F) → (⟨S50000, .f32⟩ : BufTy).Contents (Elt F)) ((constant S_ .f32 0x00000000#32) : (⟨S_, .f32⟩ : BufTy).Contents (Elt F)))) ((Host.powf : (⟨S50000, .f32⟩ : BufTy).Contents (Elt F) → (⟨S50000, .f32⟩ : BufTy).Contents (Elt F) → (⟨S50000, .f32⟩ : BufTy).Contents (Elt F)) v15 ((broadcastInDim S50000 ![] bcast_S_S50000 : (⟨S_, .f32⟩ : BufTy).Contents (Elt F) → (⟨S50000, .f32⟩ : BufTy).Contents (Elt F)) ((constant S_ .f32 0xBF000000#32) : (⟨S_, .f32⟩ : BufTy).Contents (Elt F)))) (((broadcastInDim S50000 ![] bcast_S_S50000) : (⟨S_, .f32⟩ : BufTy).Contents (Elt F) → (⟨S50000, .f32⟩ : BufTy).Contents (Elt F)) ((id : (⟨S_, .f32⟩ : BufTy).Contents (Elt F) → (⟨S_, .f32⟩ : BufTy).Contents (Elt F)) ((constant S_ .f32 0x00000000#32) : (⟨S_, .f32⟩ : BufTy).Contents (Elt F)))))

/-- `main_v36`, each edge's weight: the inverse square roots at its two ends, multiplied. -/
abbrev res_v36 (v20 : (⟨S50000, .f32⟩ : BufTy).Contents (Elt F)) (v8 : (⟨S850000, .i32⟩ : BufTy).Contents (Elt F)) (v11 : (⟨S850000, .i32⟩ : BufTy).Contents (Elt F)) : (⟨S850000, .f32⟩ : BufTy).Contents (Elt F) :=
  ((mulf : (⟨S850000, .f32⟩ : BufTy).Contents (Elt F) → (⟨S850000, .f32⟩ : BufTy).Contents (Elt F) → (⟨S850000, .f32⟩ : BufTy).Contents (Elt F)) ((mulf : (⟨S850000, .f32⟩ : BufTy).Contents (Elt F) → (⟨S850000, .f32⟩ : BufTy).Contents (Elt F) → (⟨S850000, .f32⟩ : BufTy).Contents (Elt F)) (((fun x i => Host.gather gather_S50000_S850000x1_S850000_n_0_n_n_0_1_1 x i) : (⟨S50000, .f32⟩ : BufTy).Contents (Elt F) → (⟨S850000x1, .i32⟩ : BufTy).Contents (Elt F) → (⟨S850000, .f32⟩ : BufTy).Contents (Elt F)) v20 ((broadcastInDim S850000x1 ![0] bcast_S850000_S850000x1_0 : (⟨S850000, .i32⟩ : BufTy).Contents (Elt F) → (⟨S850000x1, .i32⟩ : BufTy).Contents (Elt F)) ((select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)) ((cmpi .slt : (⟨S850000, .i32⟩ : BufTy).Contents (Elt F) → (⟨S850000, .i32⟩ : BufTy).Contents (Elt F) → (⟨S850000, .i1⟩ : BufTy).Contents (Elt F)) v8 ((broadcastInDim S850000 ![] bcast_S_S850000 : (⟨S_, .i32⟩ : BufTy).Contents (Elt F) → (⟨S850000, .i32⟩ : BufTy).Contents (Elt F)) ((constantI S_ 32 0#32) : (⟨S_, .i32⟩ : BufTy).Contents (Elt F)))) ((addi : (⟨S850000, .i32⟩ : BufTy).Contents (Elt F) → (⟨S850000, .i32⟩ : BufTy).Contents (Elt F) → (⟨S850000, .i32⟩ : BufTy).Contents (Elt F)) v8 ((broadcastInDim S850000 ![] bcast_S_S850000 : (⟨S_, .i32⟩ : BufTy).Contents (Elt F) → (⟨S850000, .i32⟩ : BufTy).Contents (Elt F)) ((constantI S_ 32 50000#32) : (⟨S_, .i32⟩ : BufTy).Contents (Elt F)))) v8))) ((broadcastInDim S850000 ![] bcast_S_S850000 : (⟨S_, .f32⟩ : BufTy).Contents (Elt F) → (⟨S850000, .f32⟩ : BufTy).Contents (Elt F)) ((constant S_ .f32 0x3F800000#32) : (⟨S_, .f32⟩ : BufTy).Contents (Elt F)))) (((fun x i => Host.gather gather_S50000_S850000x1_S850000_n_0_n_n_0_1_1 x i) : (⟨S50000, .f32⟩ : BufTy).Contents (Elt F) → (⟨S850000x1, .i32⟩ : BufTy).Contents (Elt F) → (⟨S850000, .f32⟩ : BufTy).Contents (Elt F)) v20 ((broadcastInDim S850000x1 ![0] bcast_S850000_S850000x1_0 : (⟨S850000, .i32⟩ : BufTy).Contents (Elt F) → (⟨S850000x1, .i32⟩ : BufTy).Contents (Elt F)) ((select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)) ((cmpi .slt : (⟨S850000, .i32⟩ : BufTy).Contents (Elt F) → (⟨S850000, .i32⟩ : BufTy).Contents (Elt F) → (⟨S850000, .i1⟩ : BufTy).Contents (Elt F)) v11 ((broadcastInDim S850000 ![] bcast_S_S850000 : (⟨S_, .i32⟩ : BufTy).Contents (Elt F) → (⟨S850000, .i32⟩ : BufTy).Contents (Elt F)) ((constantI S_ 32 0#32) : (⟨S_, .i32⟩ : BufTy).Contents (Elt F)))) ((addi : (⟨S850000, .i32⟩ : BufTy).Contents (Elt F) → (⟨S850000, .i32⟩ : BufTy).Contents (Elt F) → (⟨S850000, .i32⟩ : BufTy).Contents (Elt F)) v11 ((broadcastInDim S850000 ![] bcast_S_S850000 : (⟨S_, .i32⟩ : BufTy).Contents (Elt F) → (⟨S850000, .i32⟩ : BufTy).Contents (Elt F)) ((constantI S_ 32 50000#32) : (⟨S_, .i32⟩ : BufTy).Contents (Elt F)))) v11))))

/-- `main_v38`, each node's degree, at least one. -/
abbrev res_v38 (v15 : (⟨S50000, .f32⟩ : BufTy).Contents (Elt F)) : (⟨S50000, .f32⟩ : BufTy).Contents (Elt F) :=
  ((maximumf : (⟨S50000, .f32⟩ : BufTy).Contents (Elt F) → (⟨S50000, .f32⟩ : BufTy).Contents (Elt F) → (⟨S50000, .f32⟩ : BufTy).Contents (Elt F)) v15 ((broadcastInDim S50000 ![] bcast_S_S50000 : (⟨S_, .f32⟩ : BufTy).Contents (Elt F) → (⟨S50000, .f32⟩ : BufTy).Contents (Elt F)) ((constant S_ .f32 0x3F800000#32) : (⟨S_, .f32⟩ : BufTy).Contents (Elt F))))

/-- `main_v40`, the first layer's features times its weight matrix. -/
abbrev res_v40 (v4 : (⟨S50000x100, .f32⟩ : BufTy).Contents (Elt F)) (a4 : (⟨S100x100, .f32⟩ : BufTy).Contents (Elt F)) : (⟨S50000x100, .f32⟩ : BufTy).Contents (Elt F) :=
  (((fun l r => Host.dotGeneral dot_S50000x100_S100x100_S50000x100_1_0_0_1_n_n none l r) : (⟨S50000x100, .f32⟩ : BufTy).Contents (Elt F) → (⟨S100x100, .f32⟩ : BufTy).Contents (Elt F) → (⟨S50000x100, .f32⟩ : BufTy).Contents (Elt F)) v4 a4)

/-- `main_v47`, the first layer's transformed features gathered at each edge's source. -/
abbrev res_v47 (v40 : (⟨S50000x100, .f32⟩ : BufTy).Contents (Elt F)) (v8 : (⟨S850000, .i32⟩ : BufTy).Contents (Elt F)) : (⟨S850000x100, .f32⟩ : BufTy).Contents (Elt F) :=
  (((fun x i => Host.gather gather_S50000x100_S850000x1_S850000x100_1_0_n_n_0_1_1100 x i) : (⟨S50000x100, .f32⟩ : BufTy).Contents (Elt F) → (⟨S850000x1, .i32⟩ : BufTy).Contents (Elt F) → (⟨S850000x100, .f32⟩ : BufTy).Contents (Elt F)) v40 ((broadcastInDim S850000x1 ![0] bcast_S850000_S850000x1_0 : (⟨S850000, .i32⟩ : BufTy).Contents (Elt F) → (⟨S850000x1, .i32⟩ : BufTy).Contents (Elt F)) ((select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)) ((cmpi .slt : (⟨S850000, .i32⟩ : BufTy).Contents (Elt F) → (⟨S850000, .i32⟩ : BufTy).Contents (Elt F) → (⟨S850000, .i1⟩ : BufTy).Contents (Elt F)) v8 ((broadcastInDim S850000 ![] bcast_S_S850000 : (⟨S_, .i32⟩ : BufTy).Contents (Elt F) → (⟨S850000, .i32⟩ : BufTy).Contents (Elt F)) ((constantI S_ 32 0#32) : (⟨S_, .i32⟩ : BufTy).Contents (Elt F)))) ((addi : (⟨S850000, .i32⟩ : BufTy).Contents (Elt F) → (⟨S850000, .i32⟩ : BufTy).Contents (Elt F) → (⟨S850000, .i32⟩ : BufTy).Contents (Elt F)) v8 ((broadcastInDim S850000 ![] bcast_S_S850000 : (⟨S_, .i32⟩ : BufTy).Contents (Elt F) → (⟨S850000, .i32⟩ : BufTy).Contents (Elt F)) ((constantI S_ 32 50000#32) : (⟨S_, .i32⟩ : BufTy).Contents (Elt F)))) v8)))

/-- `main_v52`, the first layer's messages: the reciprocal of the weighted gathered features clipped to [1e-16, 100]. -/
abbrev res_v52 (v47 : (⟨S850000x100, .f32⟩ : BufTy).Contents (Elt F)) (v36 : (⟨S850000, .f32⟩ : BufTy).Contents (Elt F)) : (⟨S850000x100, .f32⟩ : BufTy).Contents (Elt F) :=
  ((Host.powf : (⟨S850000x100, .f32⟩ : BufTy).Contents (Elt F) → (⟨S850000x100, .f32⟩ : BufTy).Contents (Elt F) → (⟨S850000x100, .f32⟩ : BufTy).Contents (Elt F)) ((minimumf : (⟨S850000x100, .f32⟩ : BufTy).Contents (Elt F) → (⟨S850000x100, .f32⟩ : BufTy).Contents (Elt F) → (⟨S850000x100, .f32⟩ : BufTy).Contents (Elt F)) (((broadcastInDim S850000x100 ![] bcast_S_S850000x100) : (⟨S_, .f32⟩ : BufTy).Contents (Elt F) → (⟨S850000x100, .f32⟩ : BufTy).Contents (Elt F)) ((id : (⟨S_, .f32⟩ : BufTy).Contents (Elt F) → (⟨S_, .f32⟩ : BufTy).Contents (Elt F)) ((constant S_ .f32 0x42C80000#32) : (⟨S_, .f32⟩ : BufTy).Contents (Elt F)))) ((maximumf : (⟨S850000x100, .f32⟩ : BufTy).Contents (Elt F) → (⟨S850000x100, .f32⟩ : BufTy).Contents (Elt F) → (⟨S850000x100, .f32⟩ : BufTy).Contents (Elt F)) (((broadcastInDim S850000x100 ![] bcast_S_S850000x100) : (⟨S_, .f32⟩ : BufTy).Contents (Elt F) → (⟨S850000x100, .f32⟩ : BufTy).Contents (Elt F)) ((id : (⟨S_, .f32⟩ : BufTy).Contents (Elt F) → (⟨S_, .f32⟩ : BufTy).Contents (Elt F)) ((constant S_ .f32 0x24E69595#32) : (⟨S_, .f32⟩ : BufTy).Contents (Elt F)))) ((mulf : (⟨S850000x100, .f32⟩ : BufTy).Contents (Elt F) → (⟨S850000x100, .f32⟩ : BufTy).Contents (Elt F) → (⟨S850000x100, .f32⟩ : BufTy).Contents (Elt F)) ((broadcastInDim S850000x100 ![0, 1] bcast_S850000x1_S850000x100_0_1 : (⟨S850000x1, .f32⟩ : BufTy).Contents (Elt F) → (⟨S850000x100, .f32⟩ : BufTy).Contents (Elt F)) ((broadcastInDim S850000x1 ![0] bcast_S850000_S850000x1_0 : (⟨S850000, .f32⟩ : BufTy).Contents (Elt F) → (⟨S850000x1, .f32⟩ : BufTy).Contents (Elt F)) v36)) v47))) ((broadcastInDim S850000x100 ![] bcast_S_S850000x100 : (⟨S_, .f32⟩ : BufTy).Contents (Elt F) → (⟨S850000x100, .f32⟩ : BufTy).Contents (Elt F)) ((constant S_ .f32 0xBF800000#32) : (⟨S_, .f32⟩ : BufTy).Contents (Elt F))))

/-- `main_v55`, the first layer's messages summed at each edge's target. -/
abbrev res_v55 (v52 : (⟨S850000x100, .f32⟩ : BufTy).Contents (Elt F)) (v11 : (⟨S850000, .i32⟩ : BufTy).Contents (Elt F)) : (⟨S50000x100, .f32⟩ : BufTy).Contents (Elt F) :=
  (((fun x i u => Host.scatterAdd scatter_S50000x100_S850000x1_S850000x100_1_0_0_1 x i u) : (⟨S50000x100, .f32⟩ : BufTy).Contents (Elt F) → (⟨S850000x1, .i32⟩ : BufTy).Contents (Elt F) → (⟨S850000x100, .f32⟩ : BufTy).Contents (Elt F) → (⟨S50000x100, .f32⟩ : BufTy).Contents (Elt F)) ((broadcastInDim S50000x100 ![] bcast_S_S50000x100 : (⟨S_, .f32⟩ : BufTy).Contents (Elt F) → (⟨S50000x100, .f32⟩ : BufTy).Contents (Elt F)) ((constant S_ .f32 0x00000000#32) : (⟨S_, .f32⟩ : BufTy).Contents (Elt F))) ((broadcastInDim S850000x1 ![0] bcast_S850000_S850000x1_0 : (⟨S850000, .i32⟩ : BufTy).Contents (Elt F) → (⟨S850000x1, .i32⟩ : BufTy).Contents (Elt F)) v11) v52)

/-- `main_v65`, the first layer's output: the reciprocal of the clipped mean message plus the bias, negative entries zeroed. -/
abbrev res_v65 (v55 : (⟨S50000x100, .f32⟩ : BufTy).Contents (Elt F)) (v38 : (⟨S50000, .f32⟩ : BufTy).Contents (Elt F)) (a5 : (⟨S100, .f32⟩ : BufTy).Contents (Elt F)) : (⟨S50000x100, .f32⟩ : BufTy).Contents (Elt F) :=
  ((maximumf : (⟨S50000x100, .f32⟩ : BufTy).Contents (Elt F) → (⟨S50000x100, .f32⟩ : BufTy).Contents (Elt F) → (⟨S50000x100, .f32⟩ : BufTy).Contents (Elt F)) ((addf : (⟨S50000x100, .f32⟩ : BufTy).Contents (Elt F) → (⟨S50000x100, .f32⟩ : BufTy).Contents (Elt F) → (⟨S50000x100, .f32⟩ : BufTy).Contents (Elt F)) ((Host.powf : (⟨S50000x100, .f32⟩ : BufTy).Contents (Elt F) → (⟨S50000x100, .f32⟩ : BufTy).Contents (Elt F) → (⟨S50000x100, .f32⟩ : BufTy).Contents (Elt F)) ((minimumf : (⟨S50000x100, .f32⟩ : BufTy).Contents (Elt F) → (⟨S50000x100, .f32⟩ : BufTy).Contents (Elt F) → (⟨S50000x100, .f32⟩ : BufTy).Contents (Elt F)) (((broadcastInDim S50000x100 ![] bcast_S_S50000x100) : (⟨S_, .f32⟩ : BufTy).Contents (Elt F) → (⟨S50000x100, .f32⟩ : BufTy).Contents (Elt F)) ((id : (⟨S_, .f32⟩ : BufTy).Contents (Elt F) → (⟨S_, .f32⟩ : BufTy).Contents (Elt F)) ((constant S_ .f32 0x42C80000#32) : (⟨S_, .f32⟩ : BufTy).Contents (Elt F)))) ((maximumf : (⟨S50000x100, .f32⟩ : BufTy).Contents (Elt F) → (⟨S50000x100, .f32⟩ : BufTy).Contents (Elt F) → (⟨S50000x100, .f32⟩ : BufTy).Contents (Elt F)) (((broadcastInDim S50000x100 ![] bcast_S_S50000x100) : (⟨S_, .f32⟩ : BufTy).Contents (Elt F) → (⟨S50000x100, .f32⟩ : BufTy).Contents (Elt F)) ((id : (⟨S_, .f32⟩ : BufTy).Contents (Elt F) → (⟨S_, .f32⟩ : BufTy).Contents (Elt F)) ((constant S_ .f32 0x24E69595#32) : (⟨S_, .f32⟩ : BufTy).Contents (Elt F)))) ((Host.divf : (⟨S50000x100, .f32⟩ : BufTy).Contents (Elt F) → (⟨S50000x100, .f32⟩ : BufTy).Contents (Elt F) → (⟨S50000x100, .f32⟩ : BufTy).Contents (Elt F)) v55 ((broadcastInDim S50000x100 ![0, 1] bcast_S50000x1_S50000x100_0_1 : (⟨S50000x1, .f32⟩ : BufTy).Contents (Elt F) → (⟨S50000x100, .f32⟩ : BufTy).Contents (Elt F)) ((broadcastInDim S50000x1 ![0] bcast_S50000_S50000x1_0 : (⟨S50000, .f32⟩ : BufTy).Contents (Elt F) → (⟨S50000x1, .f32⟩ : BufTy).Contents (Elt F)) v38))))) ((broadcastInDim S50000x100 ![] bcast_S_S50000x100 : (⟨S_, .f32⟩ : BufTy).Contents (Elt F) → (⟨S50000x100, .f32⟩ : BufTy).Contents (Elt F)) ((constant S_ .f32 0xBF800000#32) : (⟨S_, .f32⟩ : BufTy).Contents (Elt F)))) ((broadcastInDim S50000x100 ![0, 1] bcast_S1x100_S50000x100_0_1 : (⟨S1x100, .f32⟩ : BufTy).Contents (Elt F) → (⟨S50000x100, .f32⟩ : BufTy).Contents (Elt F)) ((broadcastInDim S1x100 ![1] bcast_S100_S1x100_1 : (⟨S100, .f32⟩ : BufTy).Contents (Elt F) → (⟨S1x100, .f32⟩ : BufTy).Contents (Elt F)) a5))) (((broadcastInDim S50000x100 ![] bcast_S_S50000x100) : (⟨S_, .f32⟩ : BufTy).Contents (Elt F) → (⟨S50000x100, .f32⟩ : BufTy).Contents (Elt F)) (((constant S_ .f32 0x00000000#32) : (⟨S_, .f32⟩ : BufTy).Contents (Elt F)) : (⟨S_, .f32⟩ : BufTy).Contents (Elt F))))

/-- `main_v67`, the second layer's features times its weight matrix. -/
abbrev res_v67 (v65 : (⟨S50000x100, .f32⟩ : BufTy).Contents (Elt F)) (a6 : (⟨S100x100, .f32⟩ : BufTy).Contents (Elt F)) : (⟨S50000x100, .f32⟩ : BufTy).Contents (Elt F) :=
  (((fun l r => Host.dotGeneral dot_S50000x100_S100x100_S50000x100_1_0_0_1_n_n none l r) : (⟨S50000x100, .f32⟩ : BufTy).Contents (Elt F) → (⟨S100x100, .f32⟩ : BufTy).Contents (Elt F) → (⟨S50000x100, .f32⟩ : BufTy).Contents (Elt F)) v65 a6)

/-- `main_v74`, the second layer's transformed features gathered at each edge's source. -/
abbrev res_v74 (v67 : (⟨S50000x100, .f32⟩ : BufTy).Contents (Elt F)) (v8 : (⟨S850000, .i32⟩ : BufTy).Contents (Elt F)) : (⟨S850000x100, .f32⟩ : BufTy).Contents (Elt F) :=
  (((fun x i => Host.gather gather_S50000x100_S850000x1_S850000x100_1_0_n_n_0_1_1100 x i) : (⟨S50000x100, .f32⟩ : BufTy).Contents (Elt F) → (⟨S850000x1, .i32⟩ : BufTy).Contents (Elt F) → (⟨S850000x100, .f32⟩ : BufTy).Contents (Elt F)) v67 ((broadcastInDim S850000x1 ![0] bcast_S850000_S850000x1_0 : (⟨S850000, .i32⟩ : BufTy).Contents (Elt F) → (⟨S850000x1, .i32⟩ : BufTy).Contents (Elt F)) ((select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)) ((cmpi .slt : (⟨S850000, .i32⟩ : BufTy).Contents (Elt F) → (⟨S850000, .i32⟩ : BufTy).Contents (Elt F) → (⟨S850000, .i1⟩ : BufTy).Contents (Elt F)) v8 ((broadcastInDim S850000 ![] bcast_S_S850000 : (⟨S_, .i32⟩ : BufTy).Contents (Elt F) → (⟨S850000, .i32⟩ : BufTy).Contents (Elt F)) ((constantI S_ 32 0#32) : (⟨S_, .i32⟩ : BufTy).Contents (Elt F)))) ((addi : (⟨S850000, .i32⟩ : BufTy).Contents (Elt F) → (⟨S850000, .i32⟩ : BufTy).Contents (Elt F) → (⟨S850000, .i32⟩ : BufTy).Contents (Elt F)) v8 ((broadcastInDim S850000 ![] bcast_S_S850000 : (⟨S_, .i32⟩ : BufTy).Contents (Elt F) → (⟨S850000, .i32⟩ : BufTy).Contents (Elt F)) ((constantI S_ 32 50000#32) : (⟨S_, .i32⟩ : BufTy).Contents (Elt F)))) v8)))

/-- `main_v79`, the second layer's messages: the reciprocal of the weighted gathered features clipped to [1e-16, 100]. -/
abbrev res_v79 (v74 : (⟨S850000x100, .f32⟩ : BufTy).Contents (Elt F)) (v36 : (⟨S850000, .f32⟩ : BufTy).Contents (Elt F)) : (⟨S850000x100, .f32⟩ : BufTy).Contents (Elt F) :=
  ((Host.powf : (⟨S850000x100, .f32⟩ : BufTy).Contents (Elt F) → (⟨S850000x100, .f32⟩ : BufTy).Contents (Elt F) → (⟨S850000x100, .f32⟩ : BufTy).Contents (Elt F)) ((minimumf : (⟨S850000x100, .f32⟩ : BufTy).Contents (Elt F) → (⟨S850000x100, .f32⟩ : BufTy).Contents (Elt F) → (⟨S850000x100, .f32⟩ : BufTy).Contents (Elt F)) (((broadcastInDim S850000x100 ![] bcast_S_S850000x100) : (⟨S_, .f32⟩ : BufTy).Contents (Elt F) → (⟨S850000x100, .f32⟩ : BufTy).Contents (Elt F)) ((id : (⟨S_, .f32⟩ : BufTy).Contents (Elt F) → (⟨S_, .f32⟩ : BufTy).Contents (Elt F)) ((constant S_ .f32 0x42C80000#32) : (⟨S_, .f32⟩ : BufTy).Contents (Elt F)))) ((maximumf : (⟨S850000x100, .f32⟩ : BufTy).Contents (Elt F) → (⟨S850000x100, .f32⟩ : BufTy).Contents (Elt F) → (⟨S850000x100, .f32⟩ : BufTy).Contents (Elt F)) (((broadcastInDim S850000x100 ![] bcast_S_S850000x100) : (⟨S_, .f32⟩ : BufTy).Contents (Elt F) → (⟨S850000x100, .f32⟩ : BufTy).Contents (Elt F)) ((id : (⟨S_, .f32⟩ : BufTy).Contents (Elt F) → (⟨S_, .f32⟩ : BufTy).Contents (Elt F)) ((constant S_ .f32 0x24E69595#32) : (⟨S_, .f32⟩ : BufTy).Contents (Elt F)))) ((mulf : (⟨S850000x100, .f32⟩ : BufTy).Contents (Elt F) → (⟨S850000x100, .f32⟩ : BufTy).Contents (Elt F) → (⟨S850000x100, .f32⟩ : BufTy).Contents (Elt F)) ((broadcastInDim S850000x100 ![0, 1] bcast_S850000x1_S850000x100_0_1 : (⟨S850000x1, .f32⟩ : BufTy).Contents (Elt F) → (⟨S850000x100, .f32⟩ : BufTy).Contents (Elt F)) ((broadcastInDim S850000x1 ![0] bcast_S850000_S850000x1_0 : (⟨S850000, .f32⟩ : BufTy).Contents (Elt F) → (⟨S850000x1, .f32⟩ : BufTy).Contents (Elt F)) v36)) v74))) ((broadcastInDim S850000x100 ![] bcast_S_S850000x100 : (⟨S_, .f32⟩ : BufTy).Contents (Elt F) → (⟨S850000x100, .f32⟩ : BufTy).Contents (Elt F)) ((constant S_ .f32 0xBF800000#32) : (⟨S_, .f32⟩ : BufTy).Contents (Elt F))))

/-- `main_v82`, the second layer's messages summed at each edge's target. -/
abbrev res_v82 (v79 : (⟨S850000x100, .f32⟩ : BufTy).Contents (Elt F)) (v11 : (⟨S850000, .i32⟩ : BufTy).Contents (Elt F)) : (⟨S50000x100, .f32⟩ : BufTy).Contents (Elt F) :=
  (((fun x i u => Host.scatterAdd scatter_S50000x100_S850000x1_S850000x100_1_0_0_1 x i u) : (⟨S50000x100, .f32⟩ : BufTy).Contents (Elt F) → (⟨S850000x1, .i32⟩ : BufTy).Contents (Elt F) → (⟨S850000x100, .f32⟩ : BufTy).Contents (Elt F) → (⟨S50000x100, .f32⟩ : BufTy).Contents (Elt F)) ((broadcastInDim S50000x100 ![] bcast_S_S50000x100 : (⟨S_, .f32⟩ : BufTy).Contents (Elt F) → (⟨S50000x100, .f32⟩ : BufTy).Contents (Elt F)) ((constant S_ .f32 0x00000000#32) : (⟨S_, .f32⟩ : BufTy).Contents (Elt F))) ((broadcastInDim S850000x1 ![0] bcast_S850000_S850000x1_0 : (⟨S850000, .i32⟩ : BufTy).Contents (Elt F) → (⟨S850000x1, .i32⟩ : BufTy).Contents (Elt F)) v11) v79)

/-- `main_v91`, the second layer's output: the reciprocal of the clipped mean message plus the bias. -/
abbrev res_v91 (v82 : (⟨S50000x100, .f32⟩ : BufTy).Contents (Elt F)) (v38 : (⟨S50000, .f32⟩ : BufTy).Contents (Elt F)) (a7 : (⟨S100, .f32⟩ : BufTy).Contents (Elt F)) : (⟨S50000x100, .f32⟩ : BufTy).Contents (Elt F) :=
  ((addf : (⟨S50000x100, .f32⟩ : BufTy).Contents (Elt F) → (⟨S50000x100, .f32⟩ : BufTy).Contents (Elt F) → (⟨S50000x100, .f32⟩ : BufTy).Contents (Elt F)) ((Host.powf : (⟨S50000x100, .f32⟩ : BufTy).Contents (Elt F) → (⟨S50000x100, .f32⟩ : BufTy).Contents (Elt F) → (⟨S50000x100, .f32⟩ : BufTy).Contents (Elt F)) ((minimumf : (⟨S50000x100, .f32⟩ : BufTy).Contents (Elt F) → (⟨S50000x100, .f32⟩ : BufTy).Contents (Elt F) → (⟨S50000x100, .f32⟩ : BufTy).Contents (Elt F)) (((broadcastInDim S50000x100 ![] bcast_S_S50000x100) : (⟨S_, .f32⟩ : BufTy).Contents (Elt F) → (⟨S50000x100, .f32⟩ : BufTy).Contents (Elt F)) ((id : (⟨S_, .f32⟩ : BufTy).Contents (Elt F) → (⟨S_, .f32⟩ : BufTy).Contents (Elt F)) ((constant S_ .f32 0x42C80000#32) : (⟨S_, .f32⟩ : BufTy).Contents (Elt F)))) ((maximumf : (⟨S50000x100, .f32⟩ : BufTy).Contents (Elt F) → (⟨S50000x100, .f32⟩ : BufTy).Contents (Elt F) → (⟨S50000x100, .f32⟩ : BufTy).Contents (Elt F)) (((broadcastInDim S50000x100 ![] bcast_S_S50000x100) : (⟨S_, .f32⟩ : BufTy).Contents (Elt F) → (⟨S50000x100, .f32⟩ : BufTy).Contents (Elt F)) ((id : (⟨S_, .f32⟩ : BufTy).Contents (Elt F) → (⟨S_, .f32⟩ : BufTy).Contents (Elt F)) ((constant S_ .f32 0x24E69595#32) : (⟨S_, .f32⟩ : BufTy).Contents (Elt F)))) ((Host.divf : (⟨S50000x100, .f32⟩ : BufTy).Contents (Elt F) → (⟨S50000x100, .f32⟩ : BufTy).Contents (Elt F) → (⟨S50000x100, .f32⟩ : BufTy).Contents (Elt F)) v82 ((broadcastInDim S50000x100 ![0, 1] bcast_S50000x1_S50000x100_0_1 : (⟨S50000x1, .f32⟩ : BufTy).Contents (Elt F) → (⟨S50000x100, .f32⟩ : BufTy).Contents (Elt F)) ((broadcastInDim S50000x1 ![0] bcast_S50000_S50000x1_0 : (⟨S50000, .f32⟩ : BufTy).Contents (Elt F) → (⟨S50000x1, .f32⟩ : BufTy).Contents (Elt F)) v38))))) ((broadcastInDim S50000x100 ![] bcast_S_S50000x100 : (⟨S_, .f32⟩ : BufTy).Contents (Elt F) → (⟨S50000x100, .f32⟩ : BufTy).Contents (Elt F)) ((constant S_ .f32 0xBF800000#32) : (⟨S_, .f32⟩ : BufTy).Contents (Elt F)))) ((broadcastInDim S50000x100 ![0, 1] bcast_S1x100_S50000x100_0_1 : (⟨S1x100, .f32⟩ : BufTy).Contents (Elt F) → (⟨S50000x100, .f32⟩ : BufTy).Contents (Elt F)) ((broadcastInDim S1x100 ![1] bcast_S100_S1x100_1 : (⟨S100, .f32⟩ : BufTy).Contents (Elt F) → (⟨S1x100, .f32⟩ : BufTy).Contents (Elt F)) a7)))

/-- `main_v103`, the nodes' features averaged per graph (a graph's node count at least one). -/
abbrev res_v103 (v91 : (⟨S50000x100, .f32⟩ : BufTy).Contents (Elt F)) (a2 : (⟨S50000, .i32⟩ : BufTy).Contents (Elt F)) : (⟨S2000x100, .f32⟩ : BufTy).Contents (Elt F) :=
  ((Host.divf : (⟨S2000x100, .f32⟩ : BufTy).Contents (Elt F) → (⟨S2000x100, .f32⟩ : BufTy).Contents (Elt F) → (⟨S2000x100, .f32⟩ : BufTy).Contents (Elt F)) (((fun x i u => Host.scatterAdd scatter_S2000x100_S50000x1_S50000x100_1_0_0_1 x i u) : (⟨S2000x100, .f32⟩ : BufTy).Contents (Elt F) → (⟨S50000x1, .i32⟩ : BufTy).Contents (Elt F) → (⟨S50000x100, .f32⟩ : BufTy).Contents (Elt F) → (⟨S2000x100, .f32⟩ : BufTy).Contents (Elt F)) ((broadcastInDim S2000x100 ![] bcast_S_S2000x100 : (⟨S_, .f32⟩ : BufTy).Contents (Elt F) → (⟨S2000x100, .f32⟩ : BufTy).Contents (Elt F)) ((constant S_ .f32 0x00000000#32) : (⟨S_, .f32⟩ : BufTy).Contents (Elt F))) ((broadcastInDim S50000x1 ![0] bcast_S50000_S50000x1_0 : (⟨S50000, .i32⟩ : BufTy).Contents (Elt F) → (⟨S50000x1, .i32⟩ : BufTy).Contents (Elt F)) a2) v91) ((broadcastInDim S2000x100 ![0, 1] bcast_S2000x1_S2000x100_0_1 : (⟨S2000x1, .f32⟩ : BufTy).Contents (Elt F) → (⟨S2000x100, .f32⟩ : BufTy).Contents (Elt F)) ((broadcastInDim S2000x1 ![0] bcast_S2000_S2000x1_0 : (⟨S2000, .f32⟩ : BufTy).Contents (Elt F) → (⟨S2000x1, .f32⟩ : BufTy).Contents (Elt F)) ((maximumf : (⟨S2000, .f32⟩ : BufTy).Contents (Elt F) → (⟨S2000, .f32⟩ : BufTy).Contents (Elt F) → (⟨S2000, .f32⟩ : BufTy).Contents (Elt F)) (((fun x i u => Host.scatterAdd scatter_S2000_S50000x1_S50000_n_0_0_1 x i u) : (⟨S2000, .f32⟩ : BufTy).Contents (Elt F) → (⟨S50000x1, .i32⟩ : BufTy).Contents (Elt F) → (⟨S50000, .f32⟩ : BufTy).Contents (Elt F) → (⟨S2000, .f32⟩ : BufTy).Contents (Elt F)) ((broadcastInDim S2000 ![] bcast_S_S2000 : (⟨S_, .f32⟩ : BufTy).Contents (Elt F) → (⟨S2000, .f32⟩ : BufTy).Contents (Elt F)) ((constant S_ .f32 0x00000000#32) : (⟨S_, .f32⟩ : BufTy).Contents (Elt F))) ((broadcastInDim S50000x1 ![0] bcast_S50000_S50000x1_0 : (⟨S50000, .i32⟩ : BufTy).Contents (Elt F) → (⟨S50000x1, .i32⟩ : BufTy).Contents (Elt F)) a2) ((broadcastInDim S50000 ![] bcast_S_S50000 : (⟨S_, .f32⟩ : BufTy).Contents (Elt F) → (⟨S50000, .f32⟩ : BufTy).Contents (Elt F)) ((constant S_ .f32 0x3F800000#32) : (⟨S_, .f32⟩ : BufTy).Contents (Elt F)))) ((broadcastInDim S2000 ![] bcast_S_S2000 : (⟨S_, .f32⟩ : BufTy).Contents (Elt F) → (⟨S2000, .f32⟩ : BufTy).Contents (Elt F)) ((constant S_ .f32 0x3F800000#32) : (⟨S_, .f32⟩ : BufTy).Contents (Elt F)))))))

/-- `main_v107`, the per-graph averages times the output weights plus the output bias. -/
abbrev res_v107 (v103 : (⟨S2000x100, .f32⟩ : BufTy).Contents (Elt F)) (a8 : (⟨S100x128, .f32⟩ : BufTy).Contents (Elt F)) (a9 : (⟨S128, .f32⟩ : BufTy).Contents (Elt F)) : (⟨S2000x128, .f32⟩ : BufTy).Contents (Elt F) :=
  ((addf : (⟨S2000x128, .f32⟩ : BufTy).Contents (Elt F) → (⟨S2000x128, .f32⟩ : BufTy).Contents (Elt F) → (⟨S2000x128, .f32⟩ : BufTy).Contents (Elt F)) (((fun l r => Host.dotGeneral dot_S2000x100_S100x128_S2000x128_1_0_0_1_n_n none l r) : (⟨S2000x100, .f32⟩ : BufTy).Contents (Elt F) → (⟨S100x128, .f32⟩ : BufTy).Contents (Elt F) → (⟨S2000x128, .f32⟩ : BufTy).Contents (Elt F)) v103 a8) ((broadcastInDim S2000x128 ![0, 1] bcast_S1x128_S2000x128_0_1 : (⟨S1x128, .f32⟩ : BufTy).Contents (Elt F) → (⟨S2000x128, .f32⟩ : BufTy).Contents (Elt F)) ((broadcastInDim S1x128 ![1] bcast_S128_S1x128_1 : (⟨S128, .f32⟩ : BufTy).Contents (Elt F) → (⟨S1x128, .f32⟩ : BufTy).Contents (Elt F)) a9)))

/-! ## The stages composed over the arguments -/

/-- `main_v4` of the arguments' contents. -/
abbrev xH0 (a0 : (⟨S50000x9, .i32⟩ : BufTy).Contents (Elt F)) (a3 : (⟨S174x100, .f32⟩ : BufTy).Contents (Elt F)) : (⟨S50000x100, .f32⟩ : BufTy).Contents (Elt F) :=
  res_v4 a0 a3

/-- `main_v8` of the arguments' contents. -/
abbrev xRow (a1 : (⟨S2x800000, .i32⟩ : BufTy).Contents (Elt F)) : (⟨S850000, .i32⟩ : BufTy).Contents (Elt F) :=
  res_v8 a1

/-- `main_v11` of the arguments' contents. -/
abbrev xCol (a1 : (⟨S2x800000, .i32⟩ : BufTy).Contents (Elt F)) : (⟨S850000, .i32⟩ : BufTy).Contents (Elt F) :=
  res_v11 a1

/-- `main_v15` of the arguments' contents. -/
abbrev xDeg (a1 : (⟨S2x800000, .i32⟩ : BufTy).Contents (Elt F)) : (⟨S50000, .f32⟩ : BufTy).Contents (Elt F) :=
  res_v15 (xCol a1)

/-- `main_v20` of the arguments' contents. -/
abbrev xDinv (a1 : (⟨S2x800000, .i32⟩ : BufTy).Contents (Elt F)) : (⟨S50000, .f32⟩ : BufTy).Contents (Elt F) :=
  res_v20 (xDeg a1)

/-- `main_v36` of the arguments' contents. -/
abbrev xNorm (a1 : (⟨S2x800000, .i32⟩ : BufTy).Contents (Elt F)) : (⟨S850000, .f32⟩ : BufTy).Contents (Elt F) :=
  res_v36 (xDinv a1) (xRow a1) (xCol a1)

/-- `main_v38` of the arguments' contents. -/
abbrev xCnt (a1 : (⟨S2x800000, .i32⟩ : BufTy).Contents (Elt F)) : (⟨S50000, .f32⟩ : BufTy).Contents (Elt F) :=
  res_v38 (xDeg a1)

/-- `main_v40` of the arguments' contents. -/
abbrev xHW1 (a0 : (⟨S50000x9, .i32⟩ : BufTy).Contents (Elt F)) (a3 : (⟨S174x100, .f32⟩ : BufTy).Contents (Elt F)) (a4 : (⟨S100x100, .f32⟩ : BufTy).Contents (Elt F)) : (⟨S50000x100, .f32⟩ : BufTy).Contents (Elt F) :=
  res_v40 (xH0 a0 a3) a4

/-- `main_v47` of the arguments' contents. -/
abbrev xGat1 (a0 : (⟨S50000x9, .i32⟩ : BufTy).Contents (Elt F)) (a1 : (⟨S2x800000, .i32⟩ : BufTy).Contents (Elt F)) (a3 : (⟨S174x100, .f32⟩ : BufTy).Contents (Elt F)) (a4 : (⟨S100x100, .f32⟩ : BufTy).Contents (Elt F)) : (⟨S850000x100, .f32⟩ : BufTy).Contents (Elt F) :=
  res_v47 (xHW1 a0 a3 a4) (xRow a1)

/-- `main_v52` of the arguments' contents. -/
abbrev xMsg1 (a0 : (⟨S50000x9, .i32⟩ : BufTy).Contents (Elt F)) (a1 : (⟨S2x800000, .i32⟩ : BufTy).Contents (Elt F)) (a3 : (⟨S174x100, .f32⟩ : BufTy).Contents (Elt F)) (a4 : (⟨S100x100, .f32⟩ : BufTy).Contents (Elt F)) : (⟨S850000x100, .f32⟩ : BufTy).Contents (Elt F) :=
  res_v52 (xGat1 a0 a1 a3 a4) (xNorm a1)

/-- `main_v55` of the arguments' contents. -/
abbrev xAgg1 (a0 : (⟨S50000x9, .i32⟩ : BufTy).Contents (Elt F)) (a1 : (⟨S2x800000, .i32⟩ : BufTy).Contents (Elt F)) (a3 : (⟨S174x100, .f32⟩ : BufTy).Contents (Elt F)) (a4 : (⟨S100x100, .f32⟩ : BufTy).Contents (Elt F)) : (⟨S50000x100, .f32⟩ : BufTy).Contents (Elt F) :=
  res_v55 (xMsg1 a0 a1 a3 a4) (xCol a1)

/-- `main_v65` of the arguments' contents. -/
abbrev xAct1 (a0 : (⟨S50000x9, .i32⟩ : BufTy).Contents (Elt F)) (a1 : (⟨S2x800000, .i32⟩ : BufTy).Contents (Elt F)) (a3 : (⟨S174x100, .f32⟩ : BufTy).Contents (Elt F)) (a4 : (⟨S100x100, .f32⟩ : BufTy).Contents (Elt F)) (a5 : (⟨S100, .f32⟩ : BufTy).Contents (Elt F)) : (⟨S50000x100, .f32⟩ : BufTy).Contents (Elt F) :=
  res_v65 (xAgg1 a0 a1 a3 a4) (xCnt a1) a5

/-- `main_v67` of the arguments' contents. -/
abbrev xHW2 (a0 : (⟨S50000x9, .i32⟩ : BufTy).Contents (Elt F)) (a1 : (⟨S2x800000, .i32⟩ : BufTy).Contents (Elt F)) (a3 : (⟨S174x100, .f32⟩ : BufTy).Contents (Elt F)) (a4 : (⟨S100x100, .f32⟩ : BufTy).Contents (Elt F)) (a5 : (⟨S100, .f32⟩ : BufTy).Contents (Elt F)) (a6 : (⟨S100x100, .f32⟩ : BufTy).Contents (Elt F)) : (⟨S50000x100, .f32⟩ : BufTy).Contents (Elt F) :=
  res_v67 (xAct1 a0 a1 a3 a4 a5) a6

/-- `main_v74` of the arguments' contents. -/
abbrev xGat2 (a0 : (⟨S50000x9, .i32⟩ : BufTy).Contents (Elt F)) (a1 : (⟨S2x800000, .i32⟩ : BufTy).Contents (Elt F)) (a3 : (⟨S174x100, .f32⟩ : BufTy).Contents (Elt F)) (a4 : (⟨S100x100, .f32⟩ : BufTy).Contents (Elt F)) (a5 : (⟨S100, .f32⟩ : BufTy).Contents (Elt F)) (a6 : (⟨S100x100, .f32⟩ : BufTy).Contents (Elt F)) : (⟨S850000x100, .f32⟩ : BufTy).Contents (Elt F) :=
  res_v74 (xHW2 a0 a1 a3 a4 a5 a6) (xRow a1)

/-- `main_v79` of the arguments' contents. -/
abbrev xMsg2 (a0 : (⟨S50000x9, .i32⟩ : BufTy).Contents (Elt F)) (a1 : (⟨S2x800000, .i32⟩ : BufTy).Contents (Elt F)) (a3 : (⟨S174x100, .f32⟩ : BufTy).Contents (Elt F)) (a4 : (⟨S100x100, .f32⟩ : BufTy).Contents (Elt F)) (a5 : (⟨S100, .f32⟩ : BufTy).Contents (Elt F)) (a6 : (⟨S100x100, .f32⟩ : BufTy).Contents (Elt F)) : (⟨S850000x100, .f32⟩ : BufTy).Contents (Elt F) :=
  res_v79 (xGat2 a0 a1 a3 a4 a5 a6) (xNorm a1)

/-- `main_v82` of the arguments' contents. -/
abbrev xAgg2 (a0 : (⟨S50000x9, .i32⟩ : BufTy).Contents (Elt F)) (a1 : (⟨S2x800000, .i32⟩ : BufTy).Contents (Elt F)) (a3 : (⟨S174x100, .f32⟩ : BufTy).Contents (Elt F)) (a4 : (⟨S100x100, .f32⟩ : BufTy).Contents (Elt F)) (a5 : (⟨S100, .f32⟩ : BufTy).Contents (Elt F)) (a6 : (⟨S100x100, .f32⟩ : BufTy).Contents (Elt F)) : (⟨S50000x100, .f32⟩ : BufTy).Contents (Elt F) :=
  res_v82 (xMsg2 a0 a1 a3 a4 a5 a6) (xCol a1)

/-- `main_v91` of the arguments' contents. -/
abbrev xAct2 (a0 : (⟨S50000x9, .i32⟩ : BufTy).Contents (Elt F)) (a1 : (⟨S2x800000, .i32⟩ : BufTy).Contents (Elt F)) (a3 : (⟨S174x100, .f32⟩ : BufTy).Contents (Elt F)) (a4 : (⟨S100x100, .f32⟩ : BufTy).Contents (Elt F)) (a5 : (⟨S100, .f32⟩ : BufTy).Contents (Elt F)) (a6 : (⟨S100x100, .f32⟩ : BufTy).Contents (Elt F)) (a7 : (⟨S100, .f32⟩ : BufTy).Contents (Elt F)) : (⟨S50000x100, .f32⟩ : BufTy).Contents (Elt F) :=
  res_v91 (xAgg2 a0 a1 a3 a4 a5 a6) (xCnt a1) a7

/-- `main_v103` of the arguments' contents. -/
abbrev xPooled (a0 : (⟨S50000x9, .i32⟩ : BufTy).Contents (Elt F)) (a1 : (⟨S2x800000, .i32⟩ : BufTy).Contents (Elt F)) (a2 : (⟨S50000, .i32⟩ : BufTy).Contents (Elt F)) (a3 : (⟨S174x100, .f32⟩ : BufTy).Contents (Elt F)) (a4 : (⟨S100x100, .f32⟩ : BufTy).Contents (Elt F)) (a5 : (⟨S100, .f32⟩ : BufTy).Contents (Elt F)) (a6 : (⟨S100x100, .f32⟩ : BufTy).Contents (Elt F)) (a7 : (⟨S100, .f32⟩ : BufTy).Contents (Elt F)) : (⟨S2000x100, .f32⟩ : BufTy).Contents (Elt F) :=
  res_v103 (xAct2 a0 a1 a3 a4 a5 a6 a7) a2

/-- `main_v107` of the arguments' contents. -/
abbrev result (a0 : (⟨S50000x9, .i32⟩ : BufTy).Contents (Elt F)) (a1 : (⟨S2x800000, .i32⟩ : BufTy).Contents (Elt F)) (a2 : (⟨S50000, .i32⟩ : BufTy).Contents (Elt F)) (a3 : (⟨S174x100, .f32⟩ : BufTy).Contents (Elt F)) (a4 : (⟨S100x100, .f32⟩ : BufTy).Contents (Elt F)) (a5 : (⟨S100, .f32⟩ : BufTy).Contents (Elt F)) (a6 : (⟨S100x100, .f32⟩ : BufTy).Contents (Elt F)) (a7 : (⟨S100, .f32⟩ : BufTy).Contents (Elt F)) (a8 : (⟨S100x128, .f32⟩ : BufTy).Contents (Elt F)) (a9 : (⟨S128, .f32⟩ : BufTy).Contents (Elt F)) : (⟨S2000x128, .f32⟩ : BufTy).Contents (Elt F) :=
  res_v107 (xPooled a0 a1 a2 a3 a4 a5 a6 a7) a8 a9

end Cert.ReferenceIdeal.RefStages

end
-- ==== Proof.KernelStages.lean ====
/-
  The idealized kernel's result as one term of its argument arrays. The result buffer holds the readout layer of the
  pooled node features; each region's output array is its whole-array function of what its input windows hold when the
  region starts, and each stretch of host operations between two regions applies its gathers, scatters and reshapes.
  Walking the segments back from the result to the launch memory gives the composition below: two rounds of
  (dense layer, gather at the source nodes, message transform, sum at the target nodes, node update), the mean
  over each graph's nodes, and the readout layer. The stages that are plain host operations on both sides are stated
  with the reference's own stage terms, so that the comparison with the reference is stage by stage.
-/
import proofs.«119466_j60455959658662_1_alg».proof.Proof.Gen.KernelIdeal.Frame
import proofs.«119466_j60455959658662_1_alg».proof.Proof.KernelKeeps
import proofs.«119466_j60455959658662_1_alg».proof.Proof.Mm0
import proofs.«119466_j60455959658662_1_alg».proof.Proof.Edge1
import proofs.«119466_j60455959658662_1_alg».proof.Proof.Fin2
import proofs.«119466_j60455959658662_1_alg».proof.Proof.Mm3
import proofs.«119466_j60455959658662_1_alg».proof.Proof.Edge4
import proofs.«119466_j60455959658662_1_alg».proof.Proof.Fin5
import proofs.«119466_j60455959658662_1_alg».proof.Proof.Mm6
import proofs.«119466_j60455959658662_1_alg».proof.Proof.RefStages
import Idealize.ShloMosaic.Lib.StableHlo.Run
import Idealize.ShloMosaic.PureOps.Ideal

set_option maxRecDepth 16384

noncomputable section

namespace Cert.KernelIdeal.Stages

open Cert.KernelIdeal Cert.KernelIdeal.Gen Cert.KernelIdeal.Keeps
open Idealize.ShloMosaic Idealize.ShloMosaic.TcCoe Idealize.ShloMosaic.Tactic Idealize.SL.Sem Idealize.ShloMosaic.StableHlo

variable {F : FTy → Type} [FloatOps F]

/-- A bias vector of 100 entries as a one-row matrix. -/
def biasRow (b : (⟨S100, .f32⟩ : BufTy).Contents (Elt F)) : (⟨S1x100, .f32⟩ : BufTy).Contents (Elt F) := shapeCast S1x100 b shapeCasts_S100_S1x100
/-- A bias vector of 128 entries as a one-row matrix. -/
def biasRow128 (b : (⟨S128, .f32⟩ : BufTy).Contents (Elt F)) : (⟨S1x128, .f32⟩ : BufTy).Contents (Elt F) := shapeCast S1x128 b shapeCasts_S128_S1x128
/-- The zero bias of the two inner dense layers, as a one-row matrix. -/
def zeroRow : (⟨S1x100, .f32⟩ : BufTy).Contents (Elt F) :=
  shapeCast S1x100 (broadcastInDim S100 ![] bcast_S_S100 (constant S_ .f32 0x00000000#32) : (⟨S100, .f32⟩ : BufTy).Contents (Elt F)) shapeCasts_S100_S1x100
/-- A vector of 850000 entries as a column. -/
def col850000 (v : (⟨S850000, .f32⟩ : BufTy).Contents (Elt F)) : (⟨S850000x1, .f32⟩ : BufTy).Contents (Elt F) := shapeCast S850000x1 v shapeCasts_S850000_S850000x1
/-- A vector of 50000 entries as a column. -/
def col50000 (v : (⟨S50000, .f32⟩ : BufTy).Contents (Elt F)) : (⟨S50000x1, .f32⟩ : BufTy).Contents (Elt F) := shapeCast S50000x1 v shapeCasts_S50000_S50000x1
/-- The mean over each graph's nodes, the node count taken as a column before it is raised to at least one. -/
def pool (h : (⟨S50000x100, .f32⟩ : BufTy).Contents (Elt F)) (b : (⟨S50000, .i32⟩ : BufTy).Contents (Elt F)) : (⟨S2000x100, .f32⟩ : BufTy).Contents (Elt F) :=
  (Host.divf : (⟨S2000x100, .f32⟩ : BufTy).Contents (Elt F) → (⟨S2000x100, .f32⟩ : BufTy).Contents (Elt F) → (⟨S2000x100, .f32⟩ : BufTy).Contents (Elt F))
    ((Host.scatterAdd scatter_S2000x100_S50000x1_S50000x100_1_0_0_1 : (⟨S2000x100, .f32⟩ : BufTy).Contents (Elt F) → (⟨S50000x1, .i32⟩ : BufTy).Contents (Elt F) → (⟨S50000x100, .f32⟩ : BufTy).Contents (Elt F) → (⟨S2000x100, .f32⟩ : BufTy).Contents (Elt F))
      (broadcastInDim S2000x100 ![] bcast_S_S2000x100 (constant S_ .f32 0x00000000#32))
      (broadcastInDim S50000x1 ![0] bcast_S50000_S50000x1_0 b) h)
    (broadcastInDim S2000x100 ![0, 1] bcast_S2000x1_S2000x100_0_1
      ((maximumf : (⟨S2000x1, .f32⟩ : BufTy).Contents (Elt F) → (⟨S2000x1, .f32⟩ : BufTy).Contents (Elt F) → (⟨S2000x1, .f32⟩ : BufTy).Contents (Elt F))
        (shapeCast S2000x1
          ((Host.scatterAdd scatter_S2000_S50000x1_S50000_n_0_0_1 : (⟨S2000, .f32⟩ : BufTy).Contents (Elt F) → (⟨S50000x1, .i32⟩ : BufTy).Contents (Elt F) → (⟨S50000, .f32⟩ : BufTy).Contents (Elt F) → (⟨S2000, .f32⟩ : BufTy).Contents (Elt F))
            (broadcastInDim S2000 ![] bcast_S_S2000 (constant S_ .f32 0x00000000#32))
            (broadcastInDim S50000x1 ![0] bcast_S50000_S50000x1_0 b)
            (broadcastInDim S50000 ![] bcast_S_S50000 (constant S_ .f32 0x3F800000#32)))
          shapeCasts_S2000_S2000x1)
        (broadcastInDim S2000x1 ![] bcast_S_S2000x1 (constant S_ .f32 0x3F800000#32))))
/-- The edge weights without the reference's extra factor one: the inverse square roots at the two ends, multiplied. -/
def normK (dinv : (⟨S50000, .f32⟩ : BufTy).Contents (Elt F)) (row col : (⟨S850000, .i32⟩ : BufTy).Contents (Elt F)) : (⟨S850000, .f32⟩ : BufTy).Contents (Elt F) :=
  (mulf : (⟨S850000, .f32⟩ : BufTy).Contents (Elt F) → (⟨S850000, .f32⟩ : BufTy).Contents (Elt F) → (⟨S850000, .f32⟩ : BufTy).Contents (Elt F))
    ((Host.gather gather_S50000_S850000x1_S850000_n_0_n_n_0_1_1 : (⟨S50000, .f32⟩ : BufTy).Contents (Elt F) → (⟨S850000x1, .i32⟩ : BufTy).Contents (Elt F) → (⟨S850000, .f32⟩ : BufTy).Contents (Elt F)) dinv
      (broadcastInDim S850000x1 ![0] bcast_S850000_S850000x1_0
        ((select : (⟨S850000, .i1⟩ : BufTy).Contents (Elt F) → (⟨S850000, .i32⟩ : BufTy).Contents (Elt F) → (⟨S850000, .i32⟩ : BufTy).Contents (Elt F) → (⟨S850000, .i32⟩ : BufTy).Contents (Elt F))
          ((cmpi .slt : (⟨S850000, .i32⟩ : BufTy).Contents (Elt F) → (⟨S850000, .i32⟩ : BufTy).Contents (Elt F) → (⟨S850000, .i1⟩ : BufTy).Contents (Elt F)) row (broadcastInDim S850000 ![] bcast_S_S850000 (constantI S_ 32 0#32)))
          ((addi : (⟨S850000, .i32⟩ : BufTy).Contents (Elt F) → (⟨S850000, .i32⟩ : BufTy).Contents (Elt F) → (⟨S850000, .i32⟩ : BufTy).Contents (Elt F)) row (broadcastInDim S850000 ![] bcast_S_S850000 (constantI S_ 32 50000#32))) row)))
    ((Host.gather gather_S50000_S850000x1_S850000_n_0_n_n_0_1_1 : (⟨S50000, .f32⟩ : BufTy).Contents (Elt F) → (⟨S850000x1, .i32⟩ : BufTy).Contents (Elt F) → (⟨S850000, .f32⟩ : BufTy).Contents (Elt F)) dinv
      (broadcastInDim S850000x1 ![0] bcast_S850000_S850000x1_0
        ((select : (⟨S850000, .i1⟩ : BufTy).Contents (Elt F) → (⟨S850000, .i32⟩ : BufTy).Contents (Elt F) → (⟨S850000, .i32⟩ : BufTy).Contents (Elt F) → (⟨S850000, .i32⟩ : BufTy).Contents (Elt F))
          ((cmpi .slt : (⟨S850000, .i32⟩ : BufTy).Contents (Elt F) → (⟨S850000, .i32⟩ : BufTy).Contents (Elt F) → (⟨S850000, .i1⟩ : BufTy).Contents (Elt F)) col (broadcastInDim S850000 ![] bcast_S_S850000 (constantI S_ 32 0#32)))
          ((addi : (⟨S850000, .i32⟩ : BufTy).Contents (Elt F) → (⟨S850000, .i32⟩ : BufTy).Contents (Elt F) → (⟨S850000, .i32⟩ : BufTy).Contents (Elt F)) col (broadcastInDim S850000 ![] bcast_S_S850000 (constantI S_ 32 50000#32))) col)))

variable (m : (ℓ : Loc nD τ sig) → Buf (Elt Ideal) ℓ) (ρ : Dev nD → PrngReg) (c : Dev nD)

/-! ## Each region's output array -/

theorem r6 : W18 m ρ c (Proc.devRef .tc main_v85) = Cert.KernelIdeal.Mm6.G (W17 m ρ c (Proc.devRef .tc main_v83))
    (W17 m ρ c (Proc.devRef .tc main_arg8)) (W17 m ρ c (Proc.devRef .tc main_v84)) :=
  (W18_arr m ρ c 3).trans (Cert.KernelIdeal.Mm6.final (V17 m ρ) c)
theorem r5 : W16 m ρ c (Proc.devRef .tc main_v71) = Cert.KernelIdeal.Fin5.G (W15 m ρ c (Proc.devRef .tc main_v69))
    (W15 m ρ c (Proc.devRef .tc main_v39)) (W15 m ρ c (Proc.devRef .tc main_v70)) :=
  (W16_arr m ρ c 3).trans (Cert.KernelIdeal.Fin5.final (V15 m ρ) c)
theorem r4 : W14 m ρ c (Proc.devRef .tc main_v66) = Cert.KernelIdeal.Edge4.G (W13 m ρ c (Proc.devRef .tc main_v65))
    (W13 m ρ c (Proc.devRef .tc main_v36)) :=
  (W14_arr m ρ c 2).trans (Cert.KernelIdeal.Edge4.final (V13 m ρ) c)
theorem r3 : W12 m ρ c (Proc.devRef .tc main_v58) = Cert.KernelIdeal.Mm3.G (W11 m ρ c (Proc.devRef .tc main_v55))
    (W11 m ρ c (Proc.devRef .tc main_arg6)) (W11 m ρ c (Proc.devRef .tc main_v57)) :=
  (W12_arr m ρ c 3).trans (Cert.KernelIdeal.Mm3.final (V11 m ρ) c)
theorem r2 : W10 m ρ c (Proc.devRef .tc main_v55) = Cert.KernelIdeal.Fin2.G (W9 m ρ c (Proc.devRef .tc main_v53))
    (W9 m ρ c (Proc.devRef .tc main_v39)) (W9 m ρ c (Proc.devRef .tc main_v54)) :=
  (W10_arr m ρ c 3).trans (Cert.KernelIdeal.Fin2.final (V9 m ρ) c)
theorem r1 : W8 m ρ c (Proc.devRef .tc main_v50) = Cert.KernelIdeal.Edge1.G (W7 m ρ c (Proc.devRef .tc main_v49))
    (W7 m ρ c (Proc.devRef .tc main_v36)) :=
  (W8_arr m ρ c 2).trans (Cert.KernelIdeal.Edge1.final (V7 m ρ) c)
theorem r0 : W6 m ρ c (Proc.devRef .tc main_v42) = Cert.KernelIdeal.Mm0.G (W5 m ρ c (Proc.devRef .tc main_v4))
    (W5 m ρ c (Proc.devRef .tc main_arg4)) (W5 m ρ c (Proc.devRef .tc main_v41)) :=
  (W6_arr m ρ c 3).trans (Cert.KernelIdeal.Mm0.final (V5 m ρ) c)

/-! ## Each stretch of host operations between two regions -/

theorem h6a : W17 m ρ c (Proc.devRef .tc main_v83) = pool (F := Ideal) (W16 m ρ c (Proc.devRef .tc main_v71)) (W16 m ρ c (Proc.devRef .tc main_arg2)) := by
  show StableHlo.after hostOps6 (W16 m ρ c) (Proc.devRef .tc main_v83) = _
  after_results
  rfl
theorem h6b : W17 m ρ c (Proc.devRef .tc main_v84) = biasRow128 (F := Ideal) (W16 m ρ c (Proc.devRef .tc main_arg9)) := by
  show StableHlo.after hostOps6 (W16 m ρ c) (Proc.devRef .tc main_v84) = _
  after_results
  rfl
theorem h5a : W15 m ρ c (Proc.devRef .tc main_v69) = Cert.ReferenceIdeal.RefStages.res_v82 (F := Ideal) (W14 m ρ c (Proc.devRef .tc main_v66)) (W14 m ρ c (Proc.devRef .tc main_v11)) := by
  show StableHlo.after hostOps5 (W14 m ρ c) (Proc.devRef .tc main_v69) = _
  after_results
  rfl
theorem h5b : W15 m ρ c (Proc.devRef .tc main_v70) = biasRow (F := Ideal) (W14 m ρ c (Proc.devRef .tc main_arg7)) := by
  show StableHlo.after hostOps5 (W14 m ρ c) (Proc.devRef .tc main_v70) = _
  after_results
  rfl
theorem h4 : W13 m ρ c (Proc.devRef .tc main_v65) = Cert.ReferenceIdeal.RefStages.res_v74 (F := Ideal) (W12 m ρ c (Proc.devRef .tc main_v58)) (W12 m ρ c (Proc.devRef .tc main_v8)) := by
  show StableHlo.after hostOps4 (W12 m ρ c) (Proc.devRef .tc main_v65) = _
  after_results
  rfl
theorem h3 : W11 m ρ c (Proc.devRef .tc main_v57) = zeroRow (F := Ideal) := by
  show StableHlo.after hostOps3 (W10 m ρ c) (Proc.devRef .tc main_v57) = _
  after_results
  rfl
theorem h2a : W9 m ρ c (Proc.devRef .tc main_v53) = Cert.ReferenceIdeal.RefStages.res_v55 (F := Ideal) (W8 m ρ c (Proc.devRef .tc main_v50)) (W8 m ρ c (Proc.devRef .tc main_v11)) := by
  show StableHlo.after hostOps2 (W8 m ρ c) (Proc.devRef .tc main_v53) = _
  after_results
  rfl
theorem h2b : W9 m ρ c (Proc.devRef .tc main_v54) = biasRow (F := Ideal) (W8 m ρ c (Proc.devRef .tc main_arg5)) := by
  show StableHlo.after hostOps2 (W8 m ρ c) (Proc.devRef .tc main_v54) = _
  after_results
  rfl
theorem h1 : W7 m ρ c (Proc.devRef .tc main_v49) = Cert.ReferenceIdeal.RefStages.res_v47 (F := Ideal) (W6 m ρ c (Proc.devRef .tc main_v42)) (W6 m ρ c (Proc.devRef .tc main_v8)) := by
  show StableHlo.after hostOps1 (W6 m ρ c) (Proc.devRef .tc main_v49) = _
  after_results
  rfl

end Cert.KernelIdeal.Stages

end
-- ==== Proof.KernelPrefix.lean ====
/-
  What the first region finds. Before the first region the idealized kernel runs the same host operations as the
  reference, in five stretches: the table row indices; the nine embedding rows per node; their sum, the edge endpoints
  with the self loops appended, the degrees and the pieces of their inverse square roots; the inverse square roots; and
  the edge weights, the counts and the zero bias row. Each stretch is read from an arbitrary starting valuation, and the
  five are composed from the launch memory. The kernel lays the weights and the counts out as columns by a reshape and
  multiplies the two inverse square roots directly; otherwise the terms are the reference's own.
-/
import proofs.«119466_j60455959658662_1_alg».proof.Proof.KernelStages

set_option maxRecDepth 16384
set_option maxHeartbeats 4000000

noncomputable section

namespace Cert.KernelIdeal.Prefix

open Cert.KernelIdeal Cert.KernelIdeal.Gen Cert.KernelIdeal.Stages
open Idealize.ShloMosaic Idealize.ShloMosaic.TcCoe Idealize.ShloMosaic.Tactic Idealize.SL.Sem Idealize.ShloMosaic.StableHlo

section Terms
variable {F : FTy → Type} [FloatOps F]

/-- The per-feature row index: the categorical code plus its feature's offset in the embedding table. -/
abbrev idx0 (a0 : (⟨S50000x9, .i32⟩ : BufTy).Contents (Elt F)) : (⟨S50000x9, .i32⟩ : BufTy).Contents (Elt F) :=
  ((addi : (⟨S50000x9, .i32⟩ : BufTy).Contents (Elt F) → (⟨S50000x9, .i32⟩ : BufTy).Contents (Elt F) → (⟨S50000x9, .i32⟩ : BufTy).Contents (Elt F)) a0 ((broadcastInDim S50000x9 ![0, 1] bcast_S1x9_S50000x9_0_1 : (⟨S1x9, .i32⟩ : BufTy).Contents (Elt F) → (⟨S50000x9, .i32⟩ : BufTy).Contents (Elt F)) ((broadcastInDim S1x9 ![1] bcast_S9_S1x9_1 : (⟨S9, .i32⟩ : BufTy).Contents (Elt F) → (⟨S1x9, .i32⟩ : BufTy).Contents (Elt F)) ((fun i => lit0 (S9.rowMajor i)) : (⟨S9, .i32⟩ : BufTy).Contents (Elt F)))))

/-- The nine embedding rows of every node, a row index outside the table reading as not-a-number. -/
abbrev takeK (a3 : (⟨S174x100, .f32⟩ : BufTy).Contents (Elt F)) (x2 : (⟨S50000x9, .i32⟩ : BufTy).Contents (Elt F)) : (⟨S50000x9x100, .f32⟩ : BufTy).Contents (Elt F) :=
  ((select : (⟨S50000x9x100, .i1⟩ : BufTy).Contents (Elt F) → (⟨S50000x9x100, .f32⟩ : BufTy).Contents (Elt F) → (⟨S50000x9x100, .f32⟩ : BufTy).Contents (Elt F) → (⟨S50000x9x100, .f32⟩ : BufTy).Contents (Elt F)) (((broadcastInDim S50000x9x100 ![0, 1] bcast_S50000x9_S50000x9x100_0_1) : (⟨S50000x9, .i1⟩ : BufTy).Contents (Elt F) → (⟨S50000x9x100, .i1⟩ : BufTy).Contents (Elt F)) (((fun x v => Host.reduce IntOp.andi x v reducesTo_S50000x9x1_S50000x9_d2 h_S_) : (⟨S50000x9x1, .i1⟩ : BufTy).Contents (Elt F) → (⟨S_, .i1⟩ : BufTy).Contents (Elt F) → (⟨S50000x9, .i1⟩ : BufTy).Contents (Elt F)) ((andi : (⟨S50000x9x1, .i1⟩ : BufTy).Contents (Elt F) → (⟨S50000x9x1, .i1⟩ : BufTy).Contents (Elt F) → (⟨S50000x9x1, .i1⟩ : BufTy).Contents (Elt F)) (((cmpi .sge) : (⟨S50000x9x1, .i32⟩ : BufTy).Contents (Elt F) → (⟨S50000x9x1, .i32⟩ : BufTy).Contents (Elt F) → (⟨S50000x9x1, .i1⟩ : BufTy).Contents (Elt F)) (((broadcastInDim S50000x9x1 ![0, 1] bcast_S50000x9_S50000x9x1_0_1) : (⟨S50000x9, .i32⟩ : BufTy).Contents (Elt F) → (⟨S50000x9x1, .i32⟩ : BufTy).Contents (Elt F)) ((select : (⟨S50000x9, .i1⟩ : BufTy).Contents (Elt F) → (⟨S50000x9, .i32⟩ : BufTy).Contents (Elt F) → (⟨S50000x9, .i32⟩ : BufTy).Contents (Elt F) → (⟨S50000x9, .i32⟩ : BufTy).Contents (Elt F)) (((cmpi .slt) : (⟨S50000x9, .i32⟩ : BufTy).Contents (Elt F) → (⟨S50000x9, .i32⟩ : BufTy).Contents (Elt F) → (⟨S50000x9, .i1⟩ : BufTy).Contents (Elt F)) x2 (((broadcastInDim S50000x9 ![] bcast_S_S50000x9) : (⟨S_, .i32⟩ : BufTy).Contents (Elt F) → (⟨S50000x9, .i32⟩ : BufTy).Contents (Elt F)) (((constantI S_ 32 0#32) : (⟨S_, .i32⟩ : BufTy).Contents (Elt F)) : (⟨S_, .i32⟩ : BufTy).Contents (Elt F)))) ((addi : (⟨S50000x9, .i32⟩ : BufTy).Contents (Elt F) → (⟨S50000x9, .i32⟩ : BufTy).Contents (Elt F) → (⟨S50000x9, .i32⟩ : BufTy).Contents (Elt F)) x2 (((broadcastInDim S50000x9 ![] bcast_S_S50000x9) : (⟨S_, .i32⟩ : BufTy).Contents (Elt F) → (⟨S50000x9, .i32⟩ : BufTy).Contents (Elt F)) (((constantI S_ 32 174#32) : (⟨S_, .i32⟩ : BufTy).Contents (Elt F)) : (⟨S_, .i32⟩ : BufTy).Contents (Elt F)))) x2)) (((broadcastInDim S50000x9x1 ![] bcast_S_S50000x9x1) : (⟨S_, .i32⟩ : BufTy).Contents (Elt F) → (⟨S50000x9x1, .i32⟩ : BufTy).Contents (Elt F)) (((constantI S_ 32 0#32) : (⟨S_, .i32⟩ : BufTy).Contents (Elt F)) : (⟨S_, .i32⟩ : BufTy).Contents (Elt F)))) (((cmpi .sle) : (⟨S50000x9x1, .i32⟩ : BufTy).Contents (Elt F) → (⟨S50000x9x1, .i32⟩ : BufTy).Contents (Elt F) → (⟨S50000x9x1, .i1⟩ : BufTy).Contents (Elt F)) (((broadcastInDim S50000x9x1 ![0, 1] bcast_S50000x9_S50000x9x1_0_1) : (⟨S50000x9, .i32⟩ : BufTy).Contents (Elt F) → (⟨S50000x9x1, .i32⟩ : BufTy).Contents (Elt F)) ((select : (⟨S50000x9, .i1⟩ : BufTy).Contents (Elt F) → (⟨S50000x9, .i32⟩ : BufTy).Contents (Elt F) → (⟨S50000x9, .i32⟩ : BufTy).Contents (Elt F) → (⟨S50000x9, .i32⟩ : BufTy).Contents (Elt F)) (((cmpi .slt) : (⟨S50000x9, .i32⟩ : BufTy).Contents (Elt F) → (⟨S50000x9, .i32⟩ : BufTy).Contents (Elt F) → (⟨S50000x9, .i1⟩ : BufTy).Contents (Elt F)) x2 (((broadcastInDim S50000x9 ![] bcast_S_S50000x9) : (⟨S_, .i32⟩ : BufTy).Contents (Elt F) → (⟨S50000x9, .i32⟩ : BufTy).Contents (Elt F)) (((constantI S_ 32 0#32) : (⟨S_, .i32⟩ : BufTy).Contents (Elt F)) : (⟨S_, .i32⟩ : BufTy).Contents (Elt F)))) ((addi : (⟨S50000x9, .i32⟩ : BufTy).Contents (Elt F) → (⟨S50000x9, .i32⟩ : BufTy).Contents (Elt F) → (⟨S50000x9, .i32⟩ : BufTy).Contents (Elt F)) x2 (((broadcastInDim S50000x9 ![] bcast_S_S50000x9) : (⟨S_, .i32⟩ : BufTy).Contents (Elt F) → (⟨S50000x9, .i32⟩ : BufTy).Contents (Elt F)) (((constantI S_ 32 174#32) : (⟨S_, .i32⟩ : BufTy).Contents (Elt F)) : (⟨S_, .i32⟩ : BufTy).Contents (Elt F)))) x2)) (((broadcastInDim S50000x9x1 ![0, 1, 2] bcast_S1x1x1_S50000x9x1_0_1_2) : (⟨S1x1x1, .i32⟩ : BufTy).Contents (Elt F) → (⟨S50000x9x1, .i32⟩ : BufTy).Contents (Elt F)) (((broadcastInDim S1x1x1 ![2] bcast_S1_S1x1x1_2) : (⟨S1, .i32⟩ : BufTy).Contents (Elt F) → (⟨S1x1x1, .i32⟩ : BufTy).Contents (Elt F)) (((constantI S1 32 173#32) : (⟨S1, .i32⟩ : BufTy).Contents (Elt F)) : (⟨S1, .i32⟩ : BufTy).Contents (Elt F)))))) (((constantI S_ 1 1#1) : (⟨S_, .i1⟩ : BufTy).Contents (Elt F)) : (⟨S_, .i1⟩ : BufTy).Contents (Elt F)))) (((fun x i => Host.gather gather_S174x100_S50000x9x1_S50000x9x100_2_0_n_n_0_2_1100 x i) : (⟨S174x100, .f32⟩ : BufTy).Contents (Elt F) → (⟨S50000x9x1, .i32⟩ : BufTy).Contents (Elt F) → (⟨S50000x9x100, .f32⟩ : BufTy).Contents (Elt F)) a3 (((broadcastInDim S50000x9x1 ![0, 1] bcast_S50000x9_S50000x9x1_0_1) : (⟨S50000x9, .i32⟩ : BufTy).Contents (Elt F) → (⟨S50000x9x1, .i32⟩ : BufTy).Contents (Elt F)) ((select : (⟨S50000x9, .i1⟩ : BufTy).Contents (Elt F) → (⟨S50000x9, .i32⟩ : BufTy).Contents (Elt F) → (⟨S50000x9, .i32⟩ : BufTy).Contents (Elt F) → (⟨S50000x9, .i32⟩ : BufTy).Contents (Elt F)) (((cmpi .slt) : (⟨S50000x9, .i32⟩ : BufTy).Contents (Elt F) → (⟨S50000x9, .i32⟩ : BufTy).Contents (Elt F) → (⟨S50000x9, .i1⟩ : BufTy).Contents (Elt F)) x2 (((broadcastInDim S50000x9 ![] bcast_S_S50000x9) : (⟨S_, .i32⟩ : BufTy).Contents (Elt F) → (⟨S50000x9, .i32⟩ : BufTy).Contents (Elt F)) (((constantI S_ 32 0#32) : (⟨S_, .i32⟩ : BufTy).Contents (Elt F)) : (⟨S_, .i32⟩ : BufTy).Contents (Elt F)))) ((addi : (⟨S50000x9, .i32⟩ : BufTy).Contents (Elt F) → (⟨S50000x9, .i32⟩ : BufTy).Contents (Elt F) → (⟨S50000x9, .i32⟩ : BufTy).Contents (Elt F)) x2 (((broadcastInDim S50000x9 ![] bcast_S_S50000x9) : (⟨S_, .i32⟩ : BufTy).Contents (Elt F) → (⟨S50000x9, .i32⟩ : BufTy).Contents (Elt F)) (((constantI S_ 32 174#32) : (⟨S_, .i32⟩ : BufTy).Contents (Elt F)) : (⟨S_, .i32⟩ : BufTy).Contents (Elt F)))) x2))) (((broadcastInDim S50000x9x100 ![] bcast_S_S50000x9x100) : (⟨S_, .f32⟩ : BufTy).Contents (Elt F) → (⟨S50000x9x100, .f32⟩ : BufTy).Contents (Elt F)) (((constant S_ .f32 0x7FC00000#32) : (⟨S_, .f32⟩ : BufTy).Contents (Elt F)) : (⟨S_, .f32⟩ : BufTy).Contents (Elt F))))

end Terms

/-! ## Each stretch from an arbitrary valuation -/

/-- The row indices after the first stretch. -/
theorem s0_v2 (V : Valuation τ sig (Elt Ideal)) : StableHlo.after hostOps0 V (Proc.devRef .tc main_v2) = idx0 (F := Ideal) (V (Proc.devRef .tc main_arg0)) := by
  after_results_simp
  try rfl

/-- The first stretch keeps the edge list. -/
theorem s0_arg1 (V : Valuation τ sig (Elt Ideal)) : StableHlo.after hostOps0 V (Proc.devRef .tc main_arg1) = (V (Proc.devRef .tc main_arg1)) := by
  after_results_simp
  try rfl

/-- The first stretch keeps the embedding table. -/
theorem s0_arg3 (V : Valuation τ sig (Elt Ideal)) : StableHlo.after hostOps0 V (Proc.devRef .tc main_arg3) = (V (Proc.devRef .tc main_arg3)) := by
  after_results_simp
  try rfl

/-- The embedding rows after the second stretch. -/
theorem s1_v3 (V : Valuation τ sig (Elt Ideal)) : StableHlo.after hostOps0_1 V (Proc.devRef .tc main_v3) = takeK (F := Ideal) (V (Proc.devRef .tc main_arg3)) (V (Proc.devRef .tc main_v2)) := by
  after_results_simp
  try simp only [TRef.toBuf, TRef.ofBuf, cast_cast, cast_eq]
  try rfl

/-- The second stretch keeps the edge list. -/
theorem s1_arg1 (V : Valuation τ sig (Elt Ideal)) : StableHlo.after hostOps0_1 V (Proc.devRef .tc main_arg1) = (V (Proc.devRef .tc main_arg1)) := by
  after_results_simp
  try simp only [TRef.toBuf, TRef.ofBuf, cast_cast, cast_eq]
  try rfl

/-- The node features: the rows summed. -/
theorem s2_v4 (V : Valuation τ sig (Elt Ideal)) : StableHlo.after hostOps0_2 V (Proc.devRef .tc main_v4) = (Host.reduceAdd (V (Proc.devRef .tc main_v3)) (constant (F := Ideal) S_ .f32 0x00000000#32) reducesTo_S50000x9x100_S50000x100_d1 h_S_ : (⟨S50000x100, .f32⟩ : BufTy).Contents (Elt Ideal)) := by
  after_results_simp
  try rfl

/-- The source endpoints. -/
theorem s2_v8 (V : Valuation τ sig (Elt Ideal)) : StableHlo.after hostOps0_2 V (Proc.devRef .tc main_v8) = Cert.ReferenceIdeal.RefStages.res_v8 (F := Ideal) (V (Proc.devRef .tc main_arg1)) := by
  after_results_simp
  try rfl

/-- The target endpoints. -/
theorem s2_v11 (V : Valuation τ sig (Elt Ideal)) : StableHlo.after hostOps0_2 V (Proc.devRef .tc main_v11) = Cert.ReferenceIdeal.RefStages.res_v11 (F := Ideal) (V (Proc.devRef .tc main_arg1)) := by
  after_results_simp
  try rfl

/-- The degrees. -/
theorem s2_v15 (V : Valuation τ sig (Elt Ideal)) : StableHlo.after hostOps0_2 V (Proc.devRef .tc main_v15) = Cert.ReferenceIdeal.RefStages.res_v15 (F := Ideal) (Cert.ReferenceIdeal.RefStages.res_v11 (V (Proc.devRef .tc main_arg1))) := by
  after_results_simp
  try rfl

/-- The degree's positivity test. -/
theorem s2_v17 (V : Valuation τ sig (Elt Ideal)) : StableHlo.after hostOps0_2 V (Proc.devRef .tc main_v17) = (cmpf .ogt (Cert.ReferenceIdeal.RefStages.res_v15 (F := Ideal) (Cert.ReferenceIdeal.RefStages.res_v11 (V (Proc.devRef .tc main_arg1)))) (broadcastInDim S50000 ![] bcast_S_S50000 (constant (F := Ideal) S_ .f32 0x00000000#32)) : (⟨S50000, .i1⟩ : BufTy).Contents (Elt Ideal)) := by
  after_results_simp
  try rfl

/-- The degree to the power minus one half. -/
theorem s2_v19 (V : Valuation τ sig (Elt Ideal)) : StableHlo.after hostOps0_2 V (Proc.devRef .tc main_v19) = (Host.powf (Cert.ReferenceIdeal.RefStages.res_v15 (F := Ideal) (Cert.ReferenceIdeal.RefStages.res_v11 (V (Proc.devRef .tc main_arg1)))) (broadcastInDim S50000 ![] bcast_S_S50000 (constant (F := Ideal) S_ .f32 0xBF000000#32)) : (⟨S50000, .f32⟩ : BufTy).Contents (Elt Ideal)) := by
  after_results_simp
  try rfl

/-- The zero that replaces the power where the degree is not positive. -/
theorem s2_cst4 (V : Valuation τ sig (Elt Ideal)) : StableHlo.after hostOps0_2 V (Proc.devRef .tc main_cst_4) = (constant (F := Ideal) S_ .f32 0x00000000#32 : (⟨S_, .f32⟩ : BufTy).Contents (Elt Ideal)) := by
  after_results_simp
  try rfl

/-- The inverse square roots from the comparison, the power and the zero. -/
theorem s3_v20 (V : Valuation τ sig (Elt Ideal)) : StableHlo.after hostOps0_3 V (Proc.devRef .tc main_v20) = (select (V (Proc.devRef .tc main_v17)) (V (Proc.devRef .tc main_v19)) (broadcastInDim S50000 ![] bcast_S_S50000 (id (V (Proc.devRef .tc main_cst_4)))) : (⟨S50000, .f32⟩ : BufTy).Contents (Elt Ideal)) := by
  after_results_simp
  try simp only [TRef.toBuf, TRef.ofBuf, cast_cast, cast_eq]
  try rfl

/-- The fourth stretch keeps the node features. -/
theorem s3_v4 (V : Valuation τ sig (Elt Ideal)) : StableHlo.after hostOps0_3 V (Proc.devRef .tc main_v4) = (V (Proc.devRef .tc main_v4)) := by
  after_results_simp
  try simp only [TRef.toBuf, TRef.ofBuf, cast_cast, cast_eq]
  try rfl

/-- The fourth stretch keeps the source endpoints. -/
theorem s3_v8 (V : Valuation τ sig (Elt Ideal)) : StableHlo.after hostOps0_3 V (Proc.devRef .tc main_v8) = (V (Proc.devRef .tc main_v8)) := by
  after_results_simp
  try simp only [TRef.toBuf, TRef.ofBuf, cast_cast, cast_eq]
  try rfl

/-- The fourth stretch keeps the target endpoints. -/
theorem s3_v11 (V : Valuation τ sig (Elt Ideal)) : StableHlo.after hostOps0_3 V (Proc.devRef .tc main_v11) = (V (Proc.devRef .tc main_v11)) := by
  after_results_simp
  try simp only [TRef.toBuf, TRef.ofBuf, cast_cast, cast_eq]
  try rfl

/-- The fourth stretch keeps the degrees. -/
theorem s3_v15 (V : Valuation τ sig (Elt Ideal)) : StableHlo.after hostOps0_3 V (Proc.devRef .tc main_v15) = (V (Proc.devRef .tc main_v15)) := by
  after_results_simp
  try simp only [TRef.toBuf, TRef.ofBuf, cast_cast, cast_eq]
  try rfl

/-- The weight column. -/
theorem s4_v36 (V : Valuation τ sig (Elt Ideal)) : StableHlo.after hostOps0_4 V (Proc.devRef .tc main_v36) = col850000 (normK (F := Ideal) (V (Proc.devRef .tc main_v20)) (V (Proc.devRef .tc main_v8)) (V (Proc.devRef .tc main_v11))) := by
  after_results_simp
  try rfl

/-- The count column. -/
theorem s4_v39 (V : Valuation τ sig (Elt Ideal)) : StableHlo.after hostOps0_4 V (Proc.devRef .tc main_v39) = col50000 (Cert.ReferenceIdeal.RefStages.res_v38 (F := Ideal) (V (Proc.devRef .tc main_v15))) := by
  after_results_simp
  try rfl

/-- The zero bias row. -/
theorem s4_v41 (V : Valuation τ sig (Elt Ideal)) : StableHlo.after hostOps0_4 V (Proc.devRef .tc main_v41) = zeroRow (F := Ideal) := by
  after_results_simp
  try rfl

/-- The last stretch keeps the node features. -/
theorem s4_v4 (V : Valuation τ sig (Elt Ideal)) : StableHlo.after hostOps0_4 V (Proc.devRef .tc main_v4) = (V (Proc.devRef .tc main_v4)) := by
  after_results_simp
  try rfl

/-- The last stretch keeps the source endpoints. -/
theorem s4_v8 (V : Valuation τ sig (Elt Ideal)) : StableHlo.after hostOps0_4 V (Proc.devRef .tc main_v8) = (V (Proc.devRef .tc main_v8)) := by
  after_results_simp
  try rfl

/-- The last stretch keeps the target endpoints. -/
theorem s4_v11 (V : Valuation τ sig (Elt Ideal)) : StableHlo.after hostOps0_4 V (Proc.devRef .tc main_v11) = (V (Proc.devRef .tc main_v11)) := by
  after_results_simp
  try rfl

/-! ## The five stretches composed from the launch memory -/

variable (m : (ℓ : Loc nD τ sig) → Buf (Elt Ideal) ℓ) (ρ : Dev nD → PrngReg) (c : Dev nD)

theorem w0 (b : Ref sig .tc) : W0 m ρ c (Proc.devRef .tc b) = m ((c : Thread nD τ).loc b) := rfl

theorem q_arg1_2 : W2 m ρ c (Proc.devRef .tc main_arg1) = m ((c : Thread nD τ).loc main_arg1) :=
  (s1_arg1 (W1 m ρ c)).trans ((s0_arg1 (W0 m ρ c)).trans (w0 m ρ c main_arg1))

/-- The node features, as the reference forms them. -/
theorem p_v4 : W5 m ρ c (Proc.devRef .tc main_v4)
    = Cert.ReferenceIdeal.RefStages.res_v4 (F := Ideal) (m ((c : Thread nD τ).loc main_arg0)) (m ((c : Thread nD τ).loc main_arg3)) := by
  have e3 : W2 m ρ c (Proc.devRef .tc main_v3) = _ := s1_v3 (W1 m ρ c)
  have e2 : W1 m ρ c (Proc.devRef .tc main_v2) = _ := s0_v2 (W0 m ρ c)
  have ea : W1 m ρ c (Proc.devRef .tc main_arg3) = _ := s0_arg3 (W0 m ρ c)
  refine (s4_v4 (W4 m ρ c)).trans ((s3_v4 (W3 m ρ c)).trans ((s2_v4 (W2 m ρ c)).trans ?_))
  rw [e3, e2, ea, w0, w0]
  rfl

/-- The source endpoints, as the reference forms them. -/
theorem p_v8 : W5 m ρ c (Proc.devRef .tc main_v8) = Cert.ReferenceIdeal.RefStages.res_v8 (F := Ideal) (m ((c : Thread nD τ).loc main_arg1)) := by
  refine (s4_v8 (W4 m ρ c)).trans ((s3_v8 (W3 m ρ c)).trans ((s2_v8 (W2 m ρ c)).trans ?_))
  rw [q_arg1_2]

/-- The target endpoints, as the reference forms them. -/
theorem p_v11 : W5 m ρ c (Proc.devRef .tc main_v11) = Cert.ReferenceIdeal.RefStages.res_v11 (F := Ideal) (m ((c : Thread nD τ).loc main_arg1)) := by
  refine (s4_v11 (W4 m ρ c)).trans ((s3_v11 (W3 m ρ c)).trans ((s2_v11 (W2 m ρ c)).trans ?_))
  rw [q_arg1_2]

theorem q_v15_4 : W4 m ρ c (Proc.devRef .tc main_v15)
    = Cert.ReferenceIdeal.RefStages.res_v15 (F := Ideal) (Cert.ReferenceIdeal.RefStages.res_v11 (m ((c : Thread nD τ).loc main_arg1))) := by
  refine (s3_v15 (W3 m ρ c)).trans ((s2_v15 (W2 m ρ c)).trans ?_)
  rw [q_arg1_2]

theorem q_v20_4 : W4 m ρ c (Proc.devRef .tc main_v20)
    = Cert.ReferenceIdeal.RefStages.res_v20 (F := Ideal) (Cert.ReferenceIdeal.RefStages.res_v15 (Cert.ReferenceIdeal.RefStages.res_v11 (m ((c : Thread nD τ).loc main_arg1)))) := by
  have e17 : W3 m ρ c (Proc.devRef .tc main_v17) = _ := s2_v17 (W2 m ρ c)
  have e19 : W3 m ρ c (Proc.devRef .tc main_v19) = _ := s2_v19 (W2 m ρ c)
  have e4 : W3 m ρ c (Proc.devRef .tc main_cst_4) = _ := s2_cst4 (W2 m ρ c)
  refine (s3_v20 (W3 m ρ c)).trans ?_
  rw [e17, e19, e4, q_arg1_2]

theorem q_v8_4 : W4 m ρ c (Proc.devRef .tc main_v8) = Cert.ReferenceIdeal.RefStages.res_v8 (F := Ideal) (m ((c : Thread nD τ).loc main_arg1)) := by
  refine (s3_v8 (W3 m ρ c)).trans ((s2_v8 (W2 m ρ c)).trans ?_)
  rw [q_arg1_2]

theorem q_v11_4 : W4 m ρ c (Proc.devRef .tc main_v11) = Cert.ReferenceIdeal.RefStages.res_v11 (F := Ideal) (m ((c : Thread nD τ).loc main_arg1)) := by
  refine (s3_v11 (W3 m ρ c)).trans ((s2_v11 (W2 m ρ c)).trans ?_)
  rw [q_arg1_2]

/-- The count column: the reference's counts, reshaped. -/
theorem p_v39 : W5 m ρ c (Proc.devRef .tc main_v39)
    = col50000 (Cert.ReferenceIdeal.RefStages.res_v38 (F := Ideal) (Cert.ReferenceIdeal.RefStages.res_v15 (Cert.ReferenceIdeal.RefStages.res_v11 (m ((c : Thread nD τ).loc main_arg1))))) := by
  refine (s4_v39 (W4 m ρ c)).trans ?_
  rw [q_v15_4]

/-- The weight column: the two inverse square roots multiplied, reshaped. -/
theorem p_v36 : W5 m ρ c (Proc.devRef .tc main_v36)
    = col850000 (normK (Cert.ReferenceIdeal.RefStages.res_v20 (F := Ideal) (Cert.ReferenceIdeal.RefStages.res_v15 (Cert.ReferenceIdeal.RefStages.res_v11 (m ((c : Thread nD τ).loc main_arg1)))))
        (Cert.ReferenceIdeal.RefStages.res_v8 (m ((c : Thread nD τ).loc main_arg1))) (Cert.ReferenceIdeal.RefStages.res_v11 (m ((c : Thread nD τ).loc main_arg1)))) := by
  refine (s4_v36 (W4 m ρ c)).trans ?_
  rw [q_v20_4, q_v8_4, q_v11_4]

/-- The zero bias row of the first dense layer. -/
theorem p_v41 : W5 m ρ c (Proc.devRef .tc main_v41) = zeroRow (F := Ideal) := s4_v41 (W4 m ρ c)

end Cert.KernelIdeal.Prefix

end
-- ==== Proof.LibRecipClip.lean ====
/-
  A reciprocal written two ways, at the exact-real reading of floats (extended reals).

  One program divides one by a clipped value, `1 / clip(x, lo, hi)`; another raises the same
  clipped value to the power minus one, `clip(x, lo, hi) ^ (-1)`. With `0 < lo` and `hi < ∞` the
  clipped value is a positive real whatever `x` is (an infinity included), and on a positive real
  `r` both expressions are the real `r⁻¹`. The clip's bounds are the f32 words `0x24E69595`
  (about `1e-16`) and `0x42C80000` (`100`).
-/
import Idealize.ShloMosaic.PureOps.Ideal
import Idealize.ShloMosaic.PureOps.Ideal.Laws

noncomputable section

namespace Cert.LibRecipClip

open Idealize.ShloMosaic

/-! ### The constant words -/

/-- The f32 word `0x3F800000` denotes the extended real one. -/
theorem ofBits_one : Ideal.ofBits .f32 0x3F800000#32 = (1 : EReal) := by
  rw [show (1 : EReal) = ((1 : ℝ) : EReal) by norm_cast]
  simp [Ideal.ofBits, Ideal.ieee, -EReal.coe_mul]; norm_num

/-- The f32 word `0xBF800000` denotes the real minus one. -/
theorem ofBits_neg_one : Ideal.ofBits .f32 0xBF800000#32 = ((-1 : ℝ) : EReal) := by
  simp [Ideal.ofBits, Ideal.ieee, -EReal.coe_mul, -EReal.coe_neg]; norm_num

/-- The f32 word `0x24E69595` denotes the real `15111573 · 2⁻⁷⁷` (about `1e-16`). -/
theorem ofBits_lo_eq :
    Ideal.ofBits .f32 0x24E69595#32 = (((15111573 : ℝ) * (2 : ℝ) ^ (-77 : Int) : ℝ) : EReal) := by
  simp [Ideal.ofBits, Ideal.ieee, -EReal.coe_mul]

/-- The f32 word `0x42C80000` denotes the real `100`. -/
theorem ofBits_hi_eq : Ideal.ofBits .f32 0x42C80000#32 = ((100 : ℝ) : EReal) := by
  simp [Ideal.ofBits, Ideal.ieee, -EReal.coe_mul]; norm_num

/-- The lower clip bound is a positive real. -/
theorem ofBits_lo_pos : ∃ l : ℝ, 0 < l ∧ Ideal.ofBits .f32 0x24E69595#32 = (l : EReal) :=
  ⟨(15111573 : ℝ) * (2 : ℝ) ^ (-77 : Int), by positivity, ofBits_lo_eq⟩

/-- The upper clip bound is a positive real. -/
theorem ofBits_hi_pos : ∃ h : ℝ, 0 < h ∧ Ideal.ofBits .f32 0x42C80000#32 = (h : EReal) :=
  ⟨100, by norm_num, ofBits_hi_eq⟩

/-! ### Power minus one and the quotient of one, on a positive real -/

/-- On a positive real `r`, the power `r ^ (-1)` and the quotient `1 / r` are both the real `r⁻¹`. -/
theorem pow_neg_one_coe {r : ℝ} (hr : 0 < r) :
    Ideal.pow (r : EReal) ((-1 : ℝ) : EReal) = Ideal.div 1 (r : EReal) := by
  have hne : ((r : ℝ) : EReal) ≠ 0 := by exact_mod_cast hr.ne'
  rw [Ideal.pow_coe_coe, Ideal.div, if_neg hne, one_mul, ← EReal.coe_inv]
  congr 1
  exact Real.rpow_neg_one r

/-- The same for an extended real that is positive and not `+∞`: it is a positive real. -/
theorem pow_neg_one_eq_div {y : EReal} (h0 : 0 < y) (ht : y ≠ ⊤) :
    Ideal.pow y ((-1 : ℝ) : EReal) = Ideal.div 1 y := by
  have hb : y ≠ ⊥ := (lt_of_le_of_lt bot_le h0).ne'
  lift y to ℝ using ⟨ht, hb⟩
  exact pow_neg_one_coe (by exact_mod_cast h0)

/-! ### The clip -/

/-- Clipping any extended real `x` from below by a positive real `l` and then from above by a
    positive real `h` gives a positive real: `min h (max l x)` is at least `min h l > 0` and at
    most `h < ∞`. No order between `l` and `h` is needed. -/
theorem clip_pos_real {l h : ℝ} (hl : 0 < l) (hh : 0 < h) (x : EReal) :
    ∃ r : ℝ, 0 < r ∧ min (h : EReal) (max (l : EReal) x) = (r : EReal) := by
  have h0 : (0 : EReal) < min (h : EReal) (max (l : EReal) x) :=
    lt_min (by exact_mod_cast hh) (lt_of_lt_of_le (by exact_mod_cast hl) (le_max_left _ _))
  have ht : min (h : EReal) (max (l : EReal) x) ≠ ⊤ :=
    (lt_of_le_of_lt (min_le_left _ _) (EReal.coe_lt_top h)).ne
  have hb : min (h : EReal) (max (l : EReal) x) ≠ ⊥ := (lt_of_le_of_lt bot_le h0).ne'
  generalize min (h : EReal) (max (l : EReal) x) = y at h0 ht hb
  lift y to ℝ using ⟨ht, hb⟩
  exact ⟨y, by exact_mod_cast h0, rfl⟩

/-- The clip between the words `0x24E69595` and `0x42C80000` is a positive real at every `x`. -/
theorem clip_words_pos_real (x : EReal) :
    ∃ r : ℝ, 0 < r ∧
      min (Ideal.ofBits .f32 0x42C80000#32) (max (Ideal.ofBits .f32 0x24E69595#32) x) = (r : EReal) := by
  obtain ⟨l, hl, hlo⟩ := ofBits_lo_pos
  obtain ⟨h, hh, hhi⟩ := ofBits_hi_pos
  rw [hlo, hhi]
  exact clip_pos_real hl hh x

/-! ### The law -/

/-- For EVERY extended real `x` (an infinity included), with `y = min hi (max lo x)` the clipped
    value, `y ^ (-1) = 1 / y`: the clip makes `y` a positive real, where both sides are `y⁻¹`. -/
theorem pow_clip_eq_div (x : EReal) :
    Ideal.pow (min (Ideal.ofBits .f32 0x42C80000#32) (max (Ideal.ofBits .f32 0x24E69595#32) x))
        (Ideal.ofBits .f32 0xBF800000#32)
      = Ideal.div (Ideal.ofBits .f32 0x3F800000#32)
          (min (Ideal.ofBits .f32 0x42C80000#32) (max (Ideal.ofBits .f32 0x24E69595#32) x)) := by
  obtain ⟨r, hr, hy⟩ := clip_words_pos_real x
  rw [hy, ofBits_neg_one, ofBits_one]
  exact pow_neg_one_coe hr

/-- The law in the operations' own spelling (`hostPowf`, `divf`, `minimumf`, `maximumf` at the
    extended reals): the power of the clipped value to the word minus one is the quotient of the
    word one by the clipped value. -/
theorem hostPowf_clip_eq_divf (x : Ideal .f32) :
    FloatOps.hostPowf
        (FloatOps.minimumf (F := Ideal) (Ideal.ofBits .f32 0x42C80000#32)
          (FloatOps.maximumf (Ideal.ofBits .f32 0x24E69595#32) x))
        (Ideal.ofBits .f32 0xBF800000#32)
      = FloatOps.divf (Ideal.ofBits .f32 0x3F800000#32)
          (FloatOps.minimumf (F := Ideal) (Ideal.ofBits .f32 0x42C80000#32)
            (FloatOps.maximumf (Ideal.ofBits .f32 0x24E69595#32) x)) :=
  pow_clip_eq_div x

/-- The same with every constant spelled as the instance's `ofBits` field. -/
theorem hostPowf_clip_eq_divf' (x : Ideal .f32) :
    FloatOps.hostPowf
        (FloatOps.minimumf (F := Ideal) (FloatOps.ofBits .f32 0x42C80000#32)
          (FloatOps.maximumf (FloatOps.ofBits .f32 0x24E69595#32) x))
        (FloatOps.ofBits .f32 0xBF800000#32)
      = FloatOps.divf (FloatOps.ofBits .f32 0x3F800000#32)
          (FloatOps.minimumf (F := Ideal) (FloatOps.ofBits .f32 0x42C80000#32)
            (FloatOps.maximumf (FloatOps.ofBits .f32 0x24E69595#32) x)) :=
  pow_clip_eq_div x

/-- The same against `hostDivf`, which at the extended reals is the same function as `divf`. -/
theorem hostPowf_clip_eq_hostDivf (x : Ideal .f32) :
    FloatOps.hostPowf
        (FloatOps.minimumf (F := Ideal) (Ideal.ofBits .f32 0x42C80000#32)
          (FloatOps.maximumf (Ideal.ofBits .f32 0x24E69595#32) x))
        (Ideal.ofBits .f32 0xBF800000#32)
      = FloatOps.hostDivf (Ideal.ofBits .f32 0x3F800000#32)
          (FloatOps.minimumf (F := Ideal) (Ideal.ofBits .f32 0x42C80000#32)
            (FloatOps.maximumf (Ideal.ofBits .f32 0x24E69595#32) x)) :=
  pow_clip_eq_div x

/-! ### Two identities -/

/-- Multiplying by the word one changes nothing, at every extended real. -/
theorem mulf_one (x : Ideal .f32) : FloatOps.mulf x (Ideal.ofBits .f32 0x3F800000#32) = x := by
  rw [Ideal.mulf_def, ofBits_one, mul_one]

/-- Multiplying the word one by `x` gives `x`. -/
theorem one_mulf (x : Ideal .f32) : FloatOps.mulf (Ideal.ofBits .f32 0x3F800000#32) x = x := by
  rw [Ideal.mulf_def, ofBits_one, one_mul]

/-- Adding the word zero changes nothing, at every extended real. -/
theorem addf_zero (x : Ideal .f32) : FloatOps.addf x (Ideal.ofBits .f32 0x00000000#32) = x := by
  rw [Ideal.addf_def, Ideal.ofBits_zero_f32, add_zero]

/-- Adding `x` to the word zero gives `x`. -/
theorem zero_addf (x : Ideal .f32) : FloatOps.addf (Ideal.ofBits .f32 0x00000000#32) x = x := by
  rw [Ideal.addf_def, Ideal.ofBits_zero_f32, zero_add]

end Cert.LibRecipClip
-- ==== Proof.LibColumn.lean ====
/-
  Column-shaped arrays read at one entry.

  A vector of length a and the a-by-1 column and the 1-by-a row with the same entries are one list of numbers in
  row-major order, so a reshape between any two of them reads the same entry: the column's entry (p, 0) is the
  vector's entry p, and the row's entry (0, j) is the column's entry (j, 0). The last lemma reads a sum along the
  second axis of an n-by-b array, taken from the zero accumulator, at row p: it is the sum over j < b of the entries
  (p, j), at the exact (extended real) reading of floats.
-/
import Idealize.ShloMosaic.Lib.ValueLayout
import Idealize.ShloMosaic.PureOps.Ideal.Laws

noncomputable section

namespace Cert.LibColumn

open Idealize.ShloMosaic Idealize.ShloMosaic.ValueIdx

variable {α : Type}

/-- A vector of length a reshaped to an a-by-1 column reads, at (p, u), the vector at p. -/
theorem shapeCast_a_a1_apply {a : ℕ} (x : (⟨1, ![a]⟩ : Shape).Idx → α) (h : (⟨1, ![a]⟩ : Shape).ShapeCasts ⟨2, ![a, 1]⟩)
    (p : Fin a) (u : Fin 1) : shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

/-- An a-by-1 column reshaped to a vector of length a reads, at p, the column at (p, 0). -/
theorem shapeCast_a1_a_apply {a : ℕ} (x : (⟨2, ![a, 1]⟩ : Shape).Idx → α) (h : (⟨2, ![a, 1]⟩ : Shape).ShapeCasts ⟨1, ![a]⟩)
    (p : Fin a) : shapeCast ⟨1, ![a]⟩ x h (ix1 p) = x (ix2 p (0 : Fin 1)) :=
  shapeCast_apply x h _ _ (by
    rw [Shape.rowMajor_val_two, Shape.rowMajor_val_one]
    show p.val * 1 + 0 = p.val
    rw [Nat.mul_one, Nat.add_zero])

/-- An a-by-1 column reshaped to a 1-by-a row reads, at (u, j), the column at (j, 0). -/
theorem shapeCast_a1_1a_apply {a : ℕ} (x : (⟨2, ![a, 1]⟩ : Shape).Idx → α) (h : (⟨2, ![a, 1]⟩ : Shape).ShapeCasts ⟨2, ![1, a]⟩)
    (u : Fin 1) (j : Fin a) : shapeCast ⟨2, ![1, a]⟩ x h (ix2 u j) = x (ix2 j (0 : Fin 1)) :=
  shapeCast_apply x h _ _ (by
    have hu : u.val = 0 := by omega
    rw [Shape.rowMajor_val_two, Shape.rowMajor_val_two]
    show j.val * 1 + 0 = u.val * a + j.val
    rw [hu, Nat.mul_one, Nat.add_zero, Nat.zero_mul, Nat.zero_add])

/-- The sum along the second axis of an n-by-b array, from the zero accumulator, at row p: the sum of that row. -/
theorem laneSum_apply {n b : ℕ} (src : FVec Ideal ⟨2, ![n, b]⟩ .f32) (h : Shape.Reduces ⟨2, ![n, b]⟩ [1] ⟨1, ![n]⟩)
    (hφ : FKind.Formats .f32) (hacc : (0x00000000#32 : BitVec 32) = 0x00000000#32) (p : Fin n) :
    multiReduction .add [1] ⟨1, ![n]⟩ src 0x00000000#32 h hφ hacc (ix1 p) = ∑ j : Fin b, src (ix2 p j) := by
  refine (Ideal.multiReduction_add_single src 0x00000000#32 h hφ hacc (ix1 p)).trans ?_
  refine Finset.sum_congr rfl fun j _ => congrArg src ?_
  funext a
  exact Fin.ext (by match a with | ⟨0, _⟩ => rfl | ⟨1, _⟩ => rfl)

end Cert.LibColumn

end
-- ==== Proof.StageLaws.lean ====
/-
  The two programs' stages are the same functions. Each stage of the idealized kernel — a dense layer, a message
  transform, a node update, the per-graph mean, the readout — is compared, entry by entry on the extended reals, with the
  reference's stage: a product with the weights plus a zero (or a vector) bias against a dot product (plus the vector
  broadcast twice); the quotient 1 / y against y to the power −1 at a clipped, hence positive real, y; a count column
  formed by a reshape against one formed by a broadcast; an edge weight against the same weight times one. None of the
  laws needs the inputs finite: the only quotient-against-power step is taken at a value clipped into [1e-16, 100].
-/
import proofs.«119466_j60455959658662_1_alg».proof.Proof.KernelStages
import proofs.«119466_j60455959658662_1_alg».proof.Proof.LibRecipClip
import proofs.«119466_j60455959658662_1_alg».proof.Proof.LibDenseRows
import proofs.«119466_j60455959658662_1_alg».proof.Proof.LibKeepdims
import proofs.«119466_j60455959658662_1_alg».proof.Proof.LibColumn
import proofs.«119466_j60455959658662_1_alg».proof.Proof.LibLreluRows
import Idealize.ShloMosaic.Lib.ValueIdx
import Idealize.ShloMosaic.Lib.ValueLayout

set_option maxRecDepth 16384

noncomputable section

namespace Cert.StageLaws

open Cert.KernelIdeal Cert.KernelIdeal.Gen Cert.KernelIdeal.Stages
open Idealize.ShloMosaic Idealize.ShloMosaic.ValueIdx

/-! ## Dense layers -/

/-- The zero one-row bias reads zero. -/
theorem zeroRow_apply (q : Fin 100) : zeroRow (F := Ideal) (ix2 (0 : Fin 1) q) = (0 : EReal) := by
  unfold zeroRow
  rw [Cert.LibLreluRows.rowCast_apply]
  exact Ideal.ofBits_zero_f32

/-- An inner dense layer with the zero bias is the reference's dot product. -/
theorem mm0_eq (h : (⟨S50000x100, .f32⟩ : BufTy).Contents (Elt Ideal)) (w : (⟨S100x100, .f32⟩ : BufTy).Contents (Elt Ideal)) :
    Cert.KernelIdeal.Mm0.G h w (zeroRow (F := Ideal)) = Cert.ReferenceIdeal.RefStages.res_v40 (F := Ideal) h w := by
  funext i
  obtain ⟨p, q, rfl⟩ : ∃ (p : Fin 50000) (q : Fin 100), i = ix2 p q := ⟨⟨(i 0).val, idx2_lt0 i⟩, ⟨(i 1).val, idx2_lt1 i⟩, eq_ix2 i⟩
  refine Eq.trans ?_ (Cert.Dense.hostProduct_apply 50000 100 100 none h w p q).symm
  show (∑ k : Fin 100, h (ix2 p k) * w (ix2 k q)) + zeroRow (F := Ideal) (ix2 (0 : Fin 1) q) = _
  rw [zeroRow_apply, add_zero]

theorem mm3_eq (h : (⟨S50000x100, .f32⟩ : BufTy).Contents (Elt Ideal)) (w : (⟨S100x100, .f32⟩ : BufTy).Contents (Elt Ideal)) :
    Cert.KernelIdeal.Mm3.G h w (zeroRow (F := Ideal)) = Cert.ReferenceIdeal.RefStages.res_v67 (F := Ideal) h w := mm0_eq h w

/-- The readout layer with its bias as a one-row matrix is the reference's dot product plus the bias broadcast twice. -/
theorem mm6_eq (h : (⟨S2000x100, .f32⟩ : BufTy).Contents (Elt Ideal)) (w : (⟨S100x128, .f32⟩ : BufTy).Contents (Elt Ideal)) (b : (⟨S128, .f32⟩ : BufTy).Contents (Elt Ideal)) :
    Cert.KernelIdeal.Mm6.G h w (biasRow128 b) = Cert.ReferenceIdeal.RefStages.res_v107 (F := Ideal) h w b := by
  funext i
  obtain ⟨p, q, rfl⟩ : ∃ (p : Fin 2000) (q : Fin 128), i = ix2 p q := ⟨⟨(i 0).val, idx2_lt0 i⟩, ⟨(i 1).val, idx2_lt1 i⟩, eq_ix2 i⟩
  refine Eq.trans ?_ (Cert.Dense.hostAddRow_apply 2000 128 _ _ _ b p q).symm
  show (∑ k : Fin 100, h (ix2 p k) * w (ix2 k q)) + biasRow128 b (ix2 (0 : Fin 1) q) = _
  unfold biasRow128
  rw [Cert.LibLreluRows.rowCast_apply]
  exact congrArg (fun z => z + b (ix1 q)) (Cert.Dense.hostProduct_apply 2000 100 128 none h w p q).symm

/-! ## Message transforms -/

/-- The reciprocal of the clipped weighted feature is its power −1: the reference's message transform, when the weight
    column holds the reference's weights. -/
theorem edge1_eq (x : (⟨S850000x100, .f32⟩ : BufTy).Contents (Elt Ideal)) (ncol : (⟨S850000x1, .f32⟩ : BufTy).Contents (Elt Ideal)) (nR : (⟨S850000, .f32⟩ : BufTy).Contents (Elt Ideal))
    (hn : ∀ e : Fin 850000, ncol (ix2 e (0 : Fin 1)) = nR (ix1 e)) :
    Cert.KernelIdeal.Edge1.G x ncol = Cert.ReferenceIdeal.RefStages.res_v52 (F := Ideal) x nR := by
  funext i
  obtain ⟨e, q, rfl⟩ : ∃ (e : Fin 850000) (q : Fin 100), i = ix2 e q := ⟨⟨(i 0).val, idx2_lt0 i⟩, ⟨(i 1).val, idx2_lt1 i⟩, eq_ix2 i⟩
  show Cert.KernelIdeal.Edge1.recipClip (ncol (ix2 e (0 : Fin 1))) (x (ix2 e q))
    = FloatOps.hostPowf (FloatOps.minimumf (Ideal.ofBits .f32 0x42C80000#32) (FloatOps.maximumf (Ideal.ofBits .f32 0x24E69595#32)
        (FloatOps.mulf (broadcastInDim S850000x100 ![0, 1] _
          (broadcastInDim S850000x1 ![0] _ nR) (ix2 e q)) (x (ix2 e q))))) (Ideal.ofBits .f32 0xBF800000#32)
  rw [Cert.Lib.Keepdims.broadcastInDim_a1_ab_apply, Cert.Lib.Keepdims.broadcastInDim_a_a1_apply, hn e]
  exact (Cert.LibRecipClip.hostPowf_clip_eq_divf _).symm

theorem edge4_eq (x : (⟨S850000x100, .f32⟩ : BufTy).Contents (Elt Ideal)) (ncol : (⟨S850000x1, .f32⟩ : BufTy).Contents (Elt Ideal)) (nR : (⟨S850000, .f32⟩ : BufTy).Contents (Elt Ideal))
    (hn : ∀ e : Fin 850000, ncol (ix2 e (0 : Fin 1)) = nR (ix1 e)) :
    Cert.KernelIdeal.Edge4.G x ncol = Cert.ReferenceIdeal.RefStages.res_v79 (F := Ideal) x nR := edge1_eq x ncol nR hn

/-! ## Node updates -/

/-- The first node update (with the rectifier) is the reference's, when the count column holds the reference's counts. -/
theorem fin2_eq (a : (⟨S50000x100, .f32⟩ : BufTy).Contents (Elt Ideal)) (ccol : (⟨S50000x1, .f32⟩ : BufTy).Contents (Elt Ideal)) (cR : (⟨S50000, .f32⟩ : BufTy).Contents (Elt Ideal)) (b : (⟨S100, .f32⟩ : BufTy).Contents (Elt Ideal))
    (hc : ∀ n : Fin 50000, ccol (ix2 n (0 : Fin 1)) = cR (ix1 n)) :
    Cert.KernelIdeal.Fin2.G a ccol (biasRow b) = Cert.ReferenceIdeal.RefStages.res_v65 (F := Ideal) a cR b := by
  funext i
  obtain ⟨n, q, rfl⟩ : ∃ (n : Fin 50000) (q : Fin 100), i = ix2 n q := ⟨⟨(i 0).val, idx2_lt0 i⟩, ⟨(i 1).val, idx2_lt1 i⟩, eq_ix2 i⟩
  show Cert.KernelIdeal.Fin2.upd (a (ix2 n q)) (ccol (ix2 n (0 : Fin 1))) (biasRow b (ix2 (0 : Fin 1) q))
    = FloatOps.maximumf (FloatOps.addf (FloatOps.hostPowf (FloatOps.minimumf (Ideal.ofBits .f32 0x42C80000#32) (FloatOps.maximumf (Ideal.ofBits .f32 0x24E69595#32)
        (FloatOps.hostDivf (a (ix2 n q)) (broadcastInDim S50000x100 ![0, 1] _
          (broadcastInDim S50000x1 ![0] _ cR) (ix2 n q))))) (Ideal.ofBits .f32 0xBF800000#32))
        (broadcastInDim S50000x100 ![0, 1] _ (broadcastInDim S1x100 ![1] _ b) (ix2 n q)))
      (Ideal.ofBits .f32 0x00000000#32)
  unfold biasRow
  rw [Cert.Lib.Keepdims.broadcastInDim_a1_ab_apply, Cert.Lib.Keepdims.broadcastInDim_a_a1_apply, Cert.LibLreluRows.biasRows_apply,
    Cert.LibLreluRows.rowCast_apply, hc n]
  exact congrArg (fun z => FloatOps.maximumf (FloatOps.addf z (b (ix1 q))) (Ideal.ofBits .f32 0x00000000#32))
    (Cert.LibRecipClip.hostPowf_clip_eq_divf _).symm

/-- The second node update (no rectifier). -/
theorem fin5_eq (a : (⟨S50000x100, .f32⟩ : BufTy).Contents (Elt Ideal)) (ccol : (⟨S50000x1, .f32⟩ : BufTy).Contents (Elt Ideal)) (cR : (⟨S50000, .f32⟩ : BufTy).Contents (Elt Ideal)) (b : (⟨S100, .f32⟩ : BufTy).Contents (Elt Ideal))
    (hc : ∀ n : Fin 50000, ccol (ix2 n (0 : Fin 1)) = cR (ix1 n)) :
    Cert.KernelIdeal.Fin5.G a ccol (biasRow b) = Cert.ReferenceIdeal.RefStages.res_v91 (F := Ideal) a cR b := by
  funext i
  obtain ⟨n, q, rfl⟩ : ∃ (n : Fin 50000) (q : Fin 100), i = ix2 n q := ⟨⟨(i 0).val, idx2_lt0 i⟩, ⟨(i 1).val, idx2_lt1 i⟩, eq_ix2 i⟩
  show Cert.KernelIdeal.Fin5.upd (a (ix2 n q)) (ccol (ix2 n (0 : Fin 1))) (biasRow b (ix2 (0 : Fin 1) q))
    = FloatOps.addf (FloatOps.hostPowf (FloatOps.minimumf (Ideal.ofBits .f32 0x42C80000#32) (FloatOps.maximumf (Ideal.ofBits .f32 0x24E69595#32)
        (FloatOps.hostDivf (a (ix2 n q)) (broadcastInDim S50000x100 ![0, 1] _
          (broadcastInDim S50000x1 ![0] _ cR) (ix2 n q))))) (Ideal.ofBits .f32 0xBF800000#32))
        (broadcastInDim S50000x100 ![0, 1] _ (broadcastInDim S1x100 ![1] _ b) (ix2 n q))
  unfold biasRow
  rw [Cert.Lib.Keepdims.broadcastInDim_a1_ab_apply, Cert.Lib.Keepdims.broadcastInDim_a_a1_apply, Cert.LibLreluRows.biasRows_apply,
    Cert.LibLreluRows.rowCast_apply, hc n]
  exact congrArg (fun z => FloatOps.addf z (b (ix1 q))) (Cert.LibRecipClip.hostPowf_clip_eq_divf _).symm

/-! ## Columns -/

/-- A vector reshaped to a column reads the vector. -/
theorem col50000_apply (v : (⟨S50000, .f32⟩ : BufTy).Contents (Elt Ideal)) (n : Fin 50000) : col50000 v (ix2 n (0 : Fin 1)) = v (ix1 n) := by
  unfold col50000; exact Cert.LibColumn.shapeCast_a_a1_apply v _ n 0
theorem col850000_apply (v : (⟨S850000, .f32⟩ : BufTy).Contents (Elt Ideal)) (e : Fin 850000) : col850000 v (ix2 e (0 : Fin 1)) = v (ix1 e) := by
  unfold col850000; exact Cert.LibColumn.shapeCast_a_a1_apply v _ e 0

/-- The reference multiplies the first inverse square root by one before the second: the same edge weight. -/
theorem normK_apply (dinv : (⟨S50000, .f32⟩ : BufTy).Contents (Elt Ideal)) (row col : (⟨S850000, .i32⟩ : BufTy).Contents (Elt Ideal)) (e : Fin 850000) :
    normK dinv row col (ix1 e) = Cert.ReferenceIdeal.RefStages.res_v36 (F := Ideal) dinv row col (ix1 e) := by
  show FloatOps.mulf _ _ = FloatOps.mulf (FloatOps.mulf _ (Ideal.ofBits .f32 0x3F800000#32)) _
  rw [Cert.LibRecipClip.mulf_one]
  rfl

/-! ## The per-graph mean -/

/-- Raising the node count to at least one before or after it is laid out as a column gives the same column. -/
theorem countCol_eq {F : FTy → Type} [FloatOps F] (g : (⟨S2000, .f32⟩ : BufTy).Contents (Elt F)) (hb : S2000.BroadcastsInDim S2000x1 (![0] : Fin 1 → Fin S2000x1.rank)) :
    (maximumf (shapeCast S2000x1 g shapeCasts_S2000_S2000x1)
        (broadcastInDim S2000x1 ![] bcast_S_S2000x1 (constant S_ .f32 0x3F800000#32)) : (⟨S2000x1, .f32⟩ : BufTy).Contents (Elt F))
      = broadcastInDim S2000x1 ![0] hb
          (maximumf g (broadcastInDim S2000 ![] bcast_S_S2000 (constant S_ .f32 0x3F800000#32))) := by
  funext i
  obtain ⟨p, u, rfl⟩ : ∃ (p : Fin 2000) (u : Fin 1), i = ix2 p u := ⟨⟨(i 0).val, idx2_lt0 i⟩, ⟨(i 1).val, idx2_lt1 i⟩, eq_ix2 i⟩
  rw [Cert.Lib.Keepdims.broadcastInDim_a_a1_apply]
  show FloatOps.maximumf (shapeCast S2000x1 g shapeCasts_S2000_S2000x1 (ix2 p u)) _ = _
  rw [Cert.LibColumn.shapeCast_a_a1_apply]
  rfl

/-- The per-graph mean is the reference's. -/
theorem pool_eq (h : (⟨S50000x100, .f32⟩ : BufTy).Contents (Elt Ideal)) (b : (⟨S50000, .i32⟩ : BufTy).Contents (Elt Ideal)) :
    Stages.pool h b = Cert.ReferenceIdeal.RefStages.res_v103 (F := Ideal) h b := by
  unfold Stages.pool
  rw [countCol_eq (F := Ideal) _ Cert.ReferenceIdeal.Facts₀.bcast_S2000_S2000x1_0]
  rfl

end Cert.StageLaws

end
-- ==== Proof.KernelResult.lean ====
/-
  The idealized kernel's result is the reference's term of the argument arrays. Walking back from the result buffer
  through the eighteen segments gives the kernel's composition of stages; each stage is the reference's stage
  (the stage laws), so the whole is the reference's composed term.
-/
import proofs.«119466_j60455959658662_1_alg».proof.Proof.KernelStages
import proofs.«119466_j60455959658662_1_alg».proof.Proof.KernelPrefix
import proofs.«119466_j60455959658662_1_alg».proof.Proof.StageLaws

set_option maxRecDepth 16384
set_option maxHeartbeats 4000000

noncomputable section

namespace Cert.KernelIdeal.Result

open Cert.KernelIdeal Cert.KernelIdeal.Gen Cert.KernelIdeal.Keeps Cert.KernelIdeal.Stages Cert.KernelIdeal.Prefix Cert.StageLaws
open Idealize.ShloMosaic Idealize.ShloMosaic.TcCoe Idealize.ShloMosaic.ValueIdx Idealize.SL.Sem

variable (m : (ℓ : Loc nD τ sig) → Buf (Elt Ideal) ℓ) (ρ : Dev nD → PrngReg) (c : Dev nD)

/-- A launch-time argument read through the first valuation is the launch memory's array. -/
theorem w0 (b : Ref sig .tc) : W0 m ρ c (Proc.devRef .tc b) = m ((c : Thread nD τ).loc b) := rfl

/-- The kernel's weight column holds the reference's edge weights. -/
theorem hn (e : Fin 850000) :
    col850000 (normK (Cert.ReferenceIdeal.RefStages.res_v20 (F := Ideal) (Cert.ReferenceIdeal.RefStages.res_v15 (Cert.ReferenceIdeal.RefStages.res_v11 (m ((c : Thread nD τ).loc main_arg1))))) (Cert.ReferenceIdeal.RefStages.res_v8 (m ((c : Thread nD τ).loc main_arg1))) (Cert.ReferenceIdeal.RefStages.res_v11 (m ((c : Thread nD τ).loc main_arg1)))) (ix2 e (0 : Fin 1))
      = Cert.ReferenceIdeal.RefStages.xNorm (F := Ideal) (m ((c : Thread nD τ).loc main_arg1)) (ix1 e) :=
  (col850000_apply _ e).trans (normK_apply _ _ _ e)

/-- The kernel's count column holds the reference's counts. -/
theorem hc (n : Fin 50000) :
    col50000 (Cert.ReferenceIdeal.RefStages.res_v38 (F := Ideal) (Cert.ReferenceIdeal.RefStages.res_v15 (Cert.ReferenceIdeal.RefStages.res_v11 (m ((c : Thread nD τ).loc main_arg1))))) (ix2 n (0 : Fin 1)) = Cert.ReferenceIdeal.RefStages.xCnt (F := Ideal) (m ((c : Thread nD τ).loc main_arg1)) (ix1 n) :=
  col50000_apply _ n

/-- The first layer's output. -/
theorem layer1 : W10 m ρ c (Proc.devRef .tc main_v55) = Cert.ReferenceIdeal.RefStages.xAct1 (F := Ideal) (m ((c : Thread nD τ).loc main_arg0)) (m ((c : Thread nD τ).loc main_arg1)) (m ((c : Thread nD τ).loc main_arg3)) (m ((c : Thread nD τ).loc main_arg4)) (m ((c : Thread nD τ).loc main_arg5)) := by
  rw [r2, h2a, h2b, keep_v39_9, keep_arg5_8, keep_v11_8, r1, h1, keep_v36_7, keep_v8_6, r0, p_v41, keep_arg4_5, p_v4, p_v8, p_v11,
    p_v36, p_v39, w0, w0, mm0_eq, edge1_eq _ _ _ (hn m c), fin2_eq _ _ _ _ (hc m c)]

/-- The second layer's output. -/
theorem layer2 : W16 m ρ c (Proc.devRef .tc main_v71)
    = Cert.ReferenceIdeal.RefStages.xAct2 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) := by
  rw [r5, h5a, h5b, keep_v39_15, keep_arg7_14, keep_v11_14, r4, h4, keep_v36_13, keep_v8_12, r3, h3, keep_arg6_11, keep_v55_11,
    layer1, p_v8, p_v11, p_v36, p_v39, w0, w0, mm3_eq, edge4_eq _ _ _ (hn m c), fin5_eq _ _ _ _ (hc m c)]

/-- The result buffer after the run holds the reference's composed term of the argument arrays. -/
theorem result_eq : W18 m ρ c (Proc.devRef .tc main_v85)
    = Cert.ReferenceIdeal.RefStages.result (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) := by
  rw [r6, h6a, h6b, keep_arg8_17, keep_arg2_16, keep_arg9_16, layer2, w0, w0, w0, pool_eq, mm6_eq]

end Cert.KernelIdeal.Result

end
-- ==== Proof.RefRun.lean ====
/- The reference program's run: @main as ONE list of
   its 188 host operations (each call's body standing in the call's place, over that call's buffer record), cut into
   consecutive segments; `main = seq ops`; and what each buffer holds once the line has run, read back stage by stage
   as named terms `res_‹buffer›` of the contents of the buffers the stage reads. -/
import proofs.«119466_j60455959658662_1_alg».proof.Proof.Gen.ReferenceIdeal
import proofs.«119466_j60455959658662_1_alg».proof.Proof.RefStages
import Idealize.ShloMosaic.Lib.StableHlo.Run
import Idealize.ShloMosaic.Lib.Pipeline.Regions

noncomputable section

namespace Cert.ReferenceIdeal.RefRun

open Cert.ReferenceIdeal Cert.ReferenceIdeal.Gen Idealize.ShloMosaic Idealize.ShloMosaic.TcCoe Idealize.SL.Sem Idealize.ShloMosaic.StableHlo
open Cert.ReferenceIdeal.RefStages

/-! ## Lists of lines -/

section Lists

variable {nD' : Nat} {τ' : Topo} {sig' : RefSig} {Val : EltTy → Type} {Λ : Labels}

/-- The fold of two lines in a row is the second's over the first's. -/
theorem after_app : ∀ (l₁ l₂ : List (HloOp τ' sig' Val)) (V : Valuation τ' sig' Val), after (l₁ ++ l₂) V = after l₂ (after l₁ V)
  | [], _, _ => rfl
  | op :: l₁, l₂, V => by rw [List.cons_append, after_cons, after_cons, after_app l₁ l₂]

/-- The fold of a concatenation of lines is the lines' folds, in order. -/
theorem after_flatten : ∀ (L : List (List (HloOp τ' sig' Val))) (V : Valuation τ' sig' Val),
    after L.flatten V = L.foldl (fun W l => after l W) V
  | [], _ => rfl
  | l :: L, V => by rw [List.flatten_cons, after_app, List.foldl_cons, after_flatten L]

/-- Lines run one after the other are their concatenation run as one. -/
theorem chain_map_seq : ∀ (L : List (List (HloOp τ' sig' Val))),
    Pipeline.chain (L.map fun l => (seq l : Prog (TpuEff nD' τ' sig' Val Λ .tc) PUnit)) = seq L.flatten
  | [] => rfl
  | l :: L => by rw [List.map_cons, Pipeline.chain_cons, chain_map_seq L, List.flatten_cons, seq_append]

/-- A property of every operation of every line holds of every operation of their concatenation. -/
theorem forall_flatten {p : HloOp τ' sig' Val → Prop} (L : List (List (HloOp τ' sig' Val)))
    (h : ∀ l ∈ L, l.Forall p) : L.flatten.Forall p :=
  List.forall_iff_forall_mem.mpr fun op hop => by
    obtain ⟨l, hl, hopl⟩ := List.mem_flatten.mp hop
    exact List.forall_iff_forall_mem.mp (h l hl) op hopl

end Lists

variable {F : FTy → Type} [FloatOps F]

/-! ## @main's operations, in order, by segments -/
/-- 4 operations (@main's own), writing main_c … main_v2. -/
abbrev seg0 : List (HloOp τ sig (Elt F)) :=
  [ StableHlo.nullary main_c (fun i => lit0 (S9.rowMajor i)),
    StableHlo.unary main_c main_v0 (broadcastInDim S1x9 ![1] bcast_S9_S1x9_1 : (⟨S9, .i32⟩ : BufTy).Contents (Elt F) → (⟨S1x9, .i32⟩ : BufTy).Contents (Elt F)),
    StableHlo.unary main_v0 main_v1 (broadcastInDim S50000x9 ![0, 1] bcast_S1x9_S50000x9_0_1 : (⟨S1x9, .i32⟩ : BufTy).Contents (Elt F) → (⟨S50000x9, .i32⟩ : BufTy).Contents (Elt F)),
    StableHlo.binary main_arg0 main_v1 main_v2 (addi : (⟨S50000x9, .i32⟩ : BufTy).Contents (Elt F) → (⟨S50000x9, .i32⟩ : BufTy).Contents (Elt F) → (⟨S50000x9, .i32⟩ : BufTy).Contents (Elt F)) ]
theorem seg0_sub : (seg0 : List (HloOp τ sig (Elt F))).Forall fun op => op.bufs ⊆ tcRefs τ sig :=
  ⟨nullary_bufs_sub .., unary_bufs_sub .., unary_bufs_sub .., binary_bufs_sub ..⟩

/-- 23 operations (the call's body over record `main_call0`), writing main_call0_c … main_v3. -/
abbrev seg1 : List (HloOp τ sig (Elt F)) :=
  [ StableHlo.TRef.nullary (.of main_call0_c : StableHlo.TRef sig ⟨S_, .i32⟩) (constantI S_ 32 0#32),
    StableHlo.TRef.unary (.of main_call0_c : StableHlo.TRef sig ⟨S_, .i32⟩) (.of main_call0_v0 : StableHlo.TRef sig ⟨S50000x9, .i32⟩) (broadcastInDim S50000x9 ![] bcast_S_S50000x9),
    StableHlo.TRef.binary (.of main_v2 : StableHlo.TRef sig ⟨S50000x9, .i32⟩) (.of main_call0_v0 : StableHlo.TRef sig ⟨S50000x9, .i32⟩) (.of main_call0_v1 : StableHlo.TRef sig ⟨S50000x9, .i1⟩) (cmpi .slt),
    StableHlo.TRef.nullary (.of main_call0_c_0 : StableHlo.TRef sig ⟨S_, .i32⟩) (constantI S_ 32 174#32),
    StableHlo.TRef.unary (.of main_call0_c_0 : StableHlo.TRef sig ⟨S_, .i32⟩) (.of main_call0_v2 : StableHlo.TRef sig ⟨S50000x9, .i32⟩) (broadcastInDim S50000x9 ![] bcast_S_S50000x9),
    StableHlo.TRef.binary (.of main_v2 : StableHlo.TRef sig ⟨S50000x9, .i32⟩) (.of main_call0_v2 : StableHlo.TRef sig ⟨S50000x9, .i32⟩) (.of main_call0_v3 : StableHlo.TRef sig ⟨S50000x9, .i32⟩) addi,
    StableHlo.TRef.ternary (.of main_call0_v1 : StableHlo.TRef sig ⟨S50000x9, .i1⟩) (.of main_call0_v3 : StableHlo.TRef sig ⟨S50000x9, .i32⟩) (.of main_v2 : StableHlo.TRef sig ⟨S50000x9, .i32⟩) (.of main_call0_v4 : StableHlo.TRef sig ⟨S50000x9, .i32⟩) select,
    StableHlo.TRef.unary (.of main_call0_v4 : StableHlo.TRef sig ⟨S50000x9, .i32⟩) (.of main_call0_v5 : StableHlo.TRef sig ⟨S50000x9x1, .i32⟩) (broadcastInDim S50000x9x1 ![0, 1] bcast_S50000x9_S50000x9x1_0_1),
    StableHlo.TRef.nullary (.of main_call0_c_1 : StableHlo.TRef sig ⟨S1, .i32⟩) (constantI S1 32 173#32),
    StableHlo.TRef.nullary (.of main_call0_c_2 : StableHlo.TRef sig ⟨S_, .i32⟩) (constantI S_ 32 0#32),
    StableHlo.TRef.unary (.of main_call0_c_2 : StableHlo.TRef sig ⟨S_, .i32⟩) (.of main_call0_v6 : StableHlo.TRef sig ⟨S50000x9x1, .i32⟩) (broadcastInDim S50000x9x1 ![] bcast_S_S50000x9x1),
    StableHlo.TRef.binary (.of main_call0_v5 : StableHlo.TRef sig ⟨S50000x9x1, .i32⟩) (.of main_call0_v6 : StableHlo.TRef sig ⟨S50000x9x1, .i32⟩) (.of main_call0_v7 : StableHlo.TRef sig ⟨S50000x9x1, .i1⟩) (cmpi .sge),
    StableHlo.TRef.unary (.of main_call0_c_1 : StableHlo.TRef sig ⟨S1, .i32⟩) (.of main_call0_v8 : StableHlo.TRef sig ⟨S1x1x1, .i32⟩) (broadcastInDim S1x1x1 ![2] bcast_S1_S1x1x1_2),
    StableHlo.TRef.unary (.of main_call0_v8 : StableHlo.TRef sig ⟨S1x1x1, .i32⟩) (.of main_call0_v9 : StableHlo.TRef sig ⟨S50000x9x1, .i32⟩) (broadcastInDim S50000x9x1 ![0, 1, 2] bcast_S1x1x1_S50000x9x1_0_1_2),
    StableHlo.TRef.binary (.of main_call0_v5 : StableHlo.TRef sig ⟨S50000x9x1, .i32⟩) (.of main_call0_v9 : StableHlo.TRef sig ⟨S50000x9x1, .i32⟩) (.of main_call0_v10 : StableHlo.TRef sig ⟨S50000x9x1, .i1⟩) (cmpi .sle),
    StableHlo.TRef.binary (.of main_call0_v7 : StableHlo.TRef sig ⟨S50000x9x1, .i1⟩) (.of main_call0_v10 : StableHlo.TRef sig ⟨S50000x9x1, .i1⟩) (.of main_call0_v11 : StableHlo.TRef sig ⟨S50000x9x1, .i1⟩) andi,
    StableHlo.TRef.nullary (.of main_call0_c_3 : StableHlo.TRef sig ⟨S_, .i1⟩) (constantI S_ 1 1#1),
    StableHlo.TRef.binary (.of main_call0_v11 : StableHlo.TRef sig ⟨S50000x9x1, .i1⟩) (.of main_call0_c_3 : StableHlo.TRef sig ⟨S_, .i1⟩) (.of main_call0_v12 : StableHlo.TRef sig ⟨S50000x9, .i1⟩) (fun x v => Host.reduce IntOp.andi x v reducesTo_S50000x9x1_S50000x9_d2 h_S_),
    StableHlo.TRef.binary (.of main_arg3 : StableHlo.TRef sig ⟨S174x100, .f32⟩) (.of main_call0_v5 : StableHlo.TRef sig ⟨S50000x9x1, .i32⟩) (.of main_call0_v13 : StableHlo.TRef sig ⟨S50000x9x100, .f32⟩) (fun x i => Host.gather gather_S174x100_S50000x9x1_S50000x9x100_2_0_n_n_0_2_1100 x i),
    StableHlo.TRef.unary (.of main_call0_v12 : StableHlo.TRef sig ⟨S50000x9, .i1⟩) (.of main_call0_v14 : StableHlo.TRef sig ⟨S50000x9x100, .i1⟩) (broadcastInDim S50000x9x100 ![0, 1] bcast_S50000x9_S50000x9x100_0_1),
    StableHlo.TRef.nullary (.of main_call0_cst : StableHlo.TRef sig ⟨S_, .f32⟩) (constant S_ .f32 0x7FC00000#32),
    StableHlo.TRef.unary (.of main_call0_cst : StableHlo.TRef sig ⟨S_, .f32⟩) (.of main_call0_v15 : StableHlo.TRef sig ⟨S50000x9x100, .f32⟩) (broadcastInDim S50000x9x100 ![] bcast_S_S50000x9x100),
    StableHlo.TRef.ternary (.of main_call0_v14 : StableHlo.TRef sig ⟨S50000x9x100, .i1⟩) (.of main_call0_v13 : StableHlo.TRef sig ⟨S50000x9x100, .f32⟩) (.of main_call0_v15 : StableHlo.TRef sig ⟨S50000x9x100, .f32⟩) (.of main_v3 : StableHlo.TRef sig ⟨S50000x9x100, .f32⟩) select ]
theorem seg1_sub : (seg1 : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., nullary_bufs_sub .., nullary_bufs_sub .., unary_bufs_sub .., binary_bufs_sub .., unary_bufs_sub .., unary_bufs_sub .., binary_bufs_sub .., binary_bufs_sub .., nullary_bufs_sub .., binary_bufs_sub .., binary_bufs_sub .., unary_bufs_sub .., nullary_bufs_sub .., unary_bufs_sub .., ternary_bufs_sub ..⟩

/-- 2 operations (@main's own), writing main_cst … main_v4. -/
abbrev seg2 : List (HloOp τ sig (Elt F)) :=
  [ StableHlo.nullary main_cst (constant S_ .f32 0x00000000#32),
    StableHlo.binary main_v3 main_cst main_v4 ((fun x v => Host.reduceAdd x v reducesTo_S50000x9x100_S50000x100_d1 h_S_) : (⟨S50000x9x100, .f32⟩ : BufTy).Contents (Elt F) → (⟨S_, .f32⟩ : BufTy).Contents (Elt F) → (⟨S50000x100, .f32⟩ : BufTy).Contents (Elt F)) ]
theorem seg2_sub : (seg2 : List (HloOp τ sig (Elt F))).Forall fun op => op.bufs ⊆ tcRefs τ sig :=
  ⟨nullary_bufs_sub .., binary_bufs_sub ..⟩

/-- 4 operations (@main's own), writing main_v5 … main_v8. -/
abbrev seg3 : List (HloOp τ sig (Elt F)) :=
  [ StableHlo.nullary main_v5 (iotaInDim S50000 32 0),
    StableHlo.unary main_arg1 main_v6 ((extractStridedSlice S1x800000 ![0, 0] · slices_S2x800000_S1x800000_0_0) : (⟨S2x800000, .i32⟩ : BufTy).Contents (Elt F) → (⟨S1x800000, .i32⟩ : BufTy).Contents (Elt F)),
    StableHlo.reshape main_v6 main_v7 rfl shapeCasts_S1x800000_S800000,
    StableHlo.binary main_v7 main_v5 main_v8 ((fun a b => concatenate S850000 0 [⟨S800000, a⟩, ⟨S50000, b⟩] concatenates_S800000_S50000_S850000_d0) : (⟨S800000, .i32⟩ : BufTy).Contents (Elt F) → (⟨S50000, .i32⟩ : BufTy).Contents (Elt F) → (⟨S850000, .i32⟩ : BufTy).Contents (Elt F)) ]
theorem seg3_sub : (seg3 : List (HloOp τ sig (Elt F))).Forall fun op => op.bufs ⊆ tcRefs τ sig :=
  ⟨nullary_bufs_sub .., unary_bufs_sub .., reshape_bufs_sub .., binary_bufs_sub ..⟩

/-- 3 operations (@main's own), writing main_v9 … main_v11. -/
abbrev seg4 : List (HloOp τ sig (Elt F)) :=
  [ StableHlo.unary main_arg1 main_v9 ((extractStridedSlice S1x800000 ![1, 0] · slices_S2x800000_S1x800000_1_0) : (⟨S2x800000, .i32⟩ : BufTy).Contents (Elt F) → (⟨S1x800000, .i32⟩ : BufTy).Contents (Elt F)),
    StableHlo.reshape main_v9 main_v10 rfl shapeCasts_S1x800000_S800000,
    StableHlo.binary main_v10 main_v5 main_v11 ((fun a b => concatenate S850000 0 [⟨S800000, a⟩, ⟨S50000, b⟩] concatenates_S800000_S50000_S850000_d0) : (⟨S800000, .i32⟩ : BufTy).Contents (Elt F) → (⟨S50000, .i32⟩ : BufTy).Contents (Elt F) → (⟨S850000, .i32⟩ : BufTy).Contents (Elt F)) ]
theorem seg4_sub : (seg4 : List (HloOp τ sig (Elt F))).Forall fun op => op.bufs ⊆ tcRefs τ sig :=
  ⟨unary_bufs_sub .., reshape_bufs_sub .., binary_bufs_sub ..⟩

/-- 6 operations (@main's own), writing main_cst_0 … main_v15. -/
abbrev seg5 : List (HloOp τ sig (Elt F)) :=
  [ StableHlo.nullary main_cst_0 (constant S_ .f32 0x3F800000#32),
    StableHlo.unary main_cst_0 main_v12 (broadcastInDim S850000 ![] bcast_S_S850000 : (⟨S_, .f32⟩ : BufTy).Contents (Elt F) → (⟨S850000, .f32⟩ : BufTy).Contents (Elt F)),
    StableHlo.nullary main_cst_1 (constant S_ .f32 0x00000000#32),
    StableHlo.unary main_cst_1 main_v13 (broadcastInDim S50000 ![] bcast_S_S50000 : (⟨S_, .f32⟩ : BufTy).Contents (Elt F) → (⟨S50000, .f32⟩ : BufTy).Contents (Elt F)),
    StableHlo.unary main_v11 main_v14 (broadcastInDim S850000x1 ![0] bcast_S850000_S850000x1_0 : (⟨S850000, .i32⟩ : BufTy).Contents (Elt F) → (⟨S850000x1, .i32⟩ : BufTy).Contents (Elt F)),
    StableHlo.ternary main_v13 main_v14 main_v12 main_v15 ((fun x i u => Host.scatterAdd scatter_S50000_S850000x1_S850000_n_0_0_1 x i u) : (⟨S50000, .f32⟩ : BufTy).Contents (Elt F) → (⟨S850000x1, .i32⟩ : BufTy).Contents (Elt F) → (⟨S850000, .f32⟩ : BufTy).Contents (Elt F) → (⟨S50000, .f32⟩ : BufTy).Contents (Elt F)) ]
theorem seg5_sub : (seg5 : List (HloOp τ sig (Elt F))).Forall fun op => op.bufs ⊆ tcRefs τ sig :=
  ⟨nullary_bufs_sub .., unary_bufs_sub .., nullary_bufs_sub .., unary_bufs_sub .., unary_bufs_sub .., ternary_bufs_sub ..⟩

/-- 7 operations (@main's own), writing main_cst_2 … main_cst_4. -/
abbrev seg6 : List (HloOp τ sig (Elt F)) :=
  [ StableHlo.nullary main_cst_2 (constant S_ .f32 0x00000000#32),
    StableHlo.unary main_cst_2 main_v16 (broadcastInDim S50000 ![] bcast_S_S50000 : (⟨S_, .f32⟩ : BufTy).Contents (Elt F) → (⟨S50000, .f32⟩ : BufTy).Contents (Elt F)),
    StableHlo.binary main_v15 main_v16 main_v17 (cmpf .ogt : (⟨S50000, .f32⟩ : BufTy).Contents (Elt F) → (⟨S50000, .f32⟩ : BufTy).Contents (Elt F) → (⟨S50000, .i1⟩ : BufTy).Contents (Elt F)),
    StableHlo.nullary main_cst_3 (constant S_ .f32 0xBF000000#32),
    StableHlo.unary main_cst_3 main_v18 (broadcastInDim S50000 ![] bcast_S_S50000 : (⟨S_, .f32⟩ : BufTy).Contents (Elt F) → (⟨S50000, .f32⟩ : BufTy).Contents (Elt F)),
    StableHlo.binary main_v15 main_v18 main_v19 (Host.powf : (⟨S50000, .f32⟩ : BufTy).Contents (Elt F) → (⟨S50000, .f32⟩ : BufTy).Contents (Elt F) → (⟨S50000, .f32⟩ : BufTy).Contents (Elt F)),
    StableHlo.nullary main_cst_4 (constant S_ .f32 0x00000000#32) ]
theorem seg6_sub : (seg6 : List (HloOp τ sig (Elt F))).Forall fun op => op.bufs ⊆ tcRefs τ sig :=
  ⟨nullary_bufs_sub .., unary_bufs_sub .., binary_bufs_sub .., nullary_bufs_sub .., unary_bufs_sub .., binary_bufs_sub .., nullary_bufs_sub ..⟩

/-- 3 operations (the call's body over record `main_call1`), writing main_call1_v0 … main_v20. -/
abbrev seg7 : List (HloOp τ sig (Elt F)) :=
  [ StableHlo.TRef.unary (.of main_cst_4 : StableHlo.TRef sig ⟨S_, .f32⟩) (.of main_call1_v0 : StableHlo.TRef sig ⟨S_, .f32⟩) id,
    StableHlo.TRef.unary (.of main_call1_v0 : StableHlo.TRef sig ⟨S_, .f32⟩) (.of main_call1_v1 : StableHlo.TRef sig ⟨S50000, .f32⟩) (broadcastInDim S50000 ![] bcast_S_S50000),
    StableHlo.TRef.ternary (.of main_v17 : StableHlo.TRef sig ⟨S50000, .i1⟩) (.of main_v19 : StableHlo.TRef sig ⟨S50000, .f32⟩) (.of main_call1_v1 : StableHlo.TRef sig ⟨S50000, .f32⟩) (.of main_v20 : StableHlo.TRef sig ⟨S50000, .f32⟩) select ]
theorem seg7_sub : (seg7 : List (HloOp τ sig (Elt F))).Forall fun op => op.bufs ⊆ tcRefs τ sig :=
  ⟨unary_bufs_sub .., unary_bufs_sub .., ternary_bufs_sub ..⟩

/-- 20 operations (@main's own), writing main_c_5 … main_v36. -/
abbrev seg8 : List (HloOp τ sig (Elt F)) :=
  [ StableHlo.nullary main_c_5 (constantI S_ 32 0#32),
    StableHlo.unary main_c_5 main_v21 (broadcastInDim S850000 ![] bcast_S_S850000 : (⟨S_, .i32⟩ : BufTy).Contents (Elt F) → (⟨S850000, .i32⟩ : BufTy).Contents (Elt F)),
    StableHlo.binary main_v8 main_v21 main_v22 (cmpi .slt : (⟨S850000, .i32⟩ : BufTy).Contents (Elt F) → (⟨S850000, .i32⟩ : BufTy).Contents (Elt F) → (⟨S850000, .i1⟩ : BufTy).Contents (Elt F)),
    StableHlo.nullary main_c_6 (constantI S_ 32 50000#32),
    StableHlo.unary main_c_6 main_v23 (broadcastInDim S850000 ![] bcast_S_S850000 : (⟨S_, .i32⟩ : BufTy).Contents (Elt F) → (⟨S850000, .i32⟩ : BufTy).Contents (Elt F)),
    StableHlo.binary main_v8 main_v23 main_v24 (addi : (⟨S850000, .i32⟩ : BufTy).Contents (Elt F) → (⟨S850000, .i32⟩ : BufTy).Contents (Elt F) → (⟨S850000, .i32⟩ : BufTy).Contents (Elt F)),
    StableHlo.ternary main_v22 main_v24 main_v8 main_v25 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    StableHlo.unary main_v25 main_v26 (broadcastInDim S850000x1 ![0] bcast_S850000_S850000x1_0 : (⟨S850000, .i32⟩ : BufTy).Contents (Elt F) → (⟨S850000x1, .i32⟩ : BufTy).Contents (Elt F)),
    StableHlo.binary main_v20 main_v26 main_v27 ((fun x i => Host.gather gather_S50000_S850000x1_S850000_n_0_n_n_0_1_1 x i) : (⟨S50000, .f32⟩ : BufTy).Contents (Elt F) → (⟨S850000x1, .i32⟩ : BufTy).Contents (Elt F) → (⟨S850000, .f32⟩ : BufTy).Contents (Elt F)),
    StableHlo.binary main_v27 main_v12 main_v28 (mulf : (⟨S850000, .f32⟩ : BufTy).Contents (Elt F) → (⟨S850000, .f32⟩ : BufTy).Contents (Elt F) → (⟨S850000, .f32⟩ : BufTy).Contents (Elt F)),
    StableHlo.nullary main_c_7 (constantI S_ 32 0#32),
    StableHlo.unary main_c_7 main_v29 (broadcastInDim S850000 ![] bcast_S_S850000 : (⟨S_, .i32⟩ : BufTy).Contents (Elt F) → (⟨S850000, .i32⟩ : BufTy).Contents (Elt F)),
    StableHlo.binary main_v11 main_v29 main_v30 (cmpi .slt : (⟨S850000, .i32⟩ : BufTy).Contents (Elt F) → (⟨S850000, .i32⟩ : BufTy).Contents (Elt F) → (⟨S850000, .i1⟩ : BufTy).Contents (Elt F)),
    StableHlo.nullary main_c_8 (constantI S_ 32 50000#32),
    StableHlo.unary main_c_8 main_v31 (broadcastInDim S850000 ![] bcast_S_S850000 : (⟨S_, .i32⟩ : BufTy).Contents (Elt F) → (⟨S850000, .i32⟩ : BufTy).Contents (Elt F)),
    StableHlo.binary main_v11 main_v31 main_v32 (addi : (⟨S850000, .i32⟩ : BufTy).Contents (Elt F) → (⟨S850000, .i32⟩ : BufTy).Contents (Elt F) → (⟨S850000, .i32⟩ : BufTy).Contents (Elt F)),
    StableHlo.ternary main_v30 main_v32 main_v11 main_v33 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    StableHlo.unary main_v33 main_v34 (broadcastInDim S850000x1 ![0] bcast_S850000_S850000x1_0 : (⟨S850000, .i32⟩ : BufTy).Contents (Elt F) → (⟨S850000x1, .i32⟩ : BufTy).Contents (Elt F)),
    StableHlo.binary main_v20 main_v34 main_v35 ((fun x i => Host.gather gather_S50000_S850000x1_S850000_n_0_n_n_0_1_1 x i) : (⟨S50000, .f32⟩ : BufTy).Contents (Elt F) → (⟨S850000x1, .i32⟩ : BufTy).Contents (Elt F) → (⟨S850000, .f32⟩ : BufTy).Contents (Elt F)),
    StableHlo.binary main_v28 main_v35 main_v36 (mulf : (⟨S850000, .f32⟩ : BufTy).Contents (Elt F) → (⟨S850000, .f32⟩ : BufTy).Contents (Elt F) → (⟨S850000, .f32⟩ : BufTy).Contents (Elt F)) ]
theorem seg8_sub : (seg8 : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., binary_bufs_sub .., binary_bufs_sub .., nullary_bufs_sub .., unary_bufs_sub .., binary_bufs_sub .., nullary_bufs_sub .., unary_bufs_sub .., binary_bufs_sub .., ternary_bufs_sub .., unary_bufs_sub .., binary_bufs_sub .., binary_bufs_sub ..⟩

/-- 3 operations (@main's own), writing main_cst_9 … main_v38. -/
abbrev seg9 : List (HloOp τ sig (Elt F)) :=
  [ StableHlo.nullary main_cst_9 (constant S_ .f32 0x3F800000#32),
    StableHlo.unary main_cst_9 main_v37 (broadcastInDim S50000 ![] bcast_S_S50000 : (⟨S_, .f32⟩ : BufTy).Contents (Elt F) → (⟨S50000, .f32⟩ : BufTy).Contents (Elt F)),
    StableHlo.binary main_v15 main_v37 main_v38 (maximumf : (⟨S50000, .f32⟩ : BufTy).Contents (Elt F) → (⟨S50000, .f32⟩ : BufTy).Contents (Elt F) → (⟨S50000, .f32⟩ : BufTy).Contents (Elt F)) ]
theorem seg9_sub : (seg9 : List (HloOp τ sig (Elt F))).Forall fun op => op.bufs ⊆ tcRefs τ sig :=
  ⟨nullary_bufs_sub .., unary_bufs_sub .., binary_bufs_sub ..⟩

/-- 2 operations (@main's own), writing main_v39 … main_v40. -/
abbrev seg10 : List (HloOp τ sig (Elt F)) :=
  [ StableHlo.unary main_v36 main_v39 (broadcastInDim S850000x1 ![0] bcast_S850000_S850000x1_0 : (⟨S850000, .f32⟩ : BufTy).Contents (Elt F) → (⟨S850000x1, .f32⟩ : BufTy).Contents (Elt F)),
    StableHlo.binary main_v4 main_arg4 main_v40 ((fun l r => Host.dotGeneral dot_S50000x100_S100x100_S50000x100_1_0_0_1_n_n none l r) : (⟨S50000x100, .f32⟩ : BufTy).Contents (Elt F) → (⟨S100x100, .f32⟩ : BufTy).Contents (Elt F) → (⟨S50000x100, .f32⟩ : BufTy).Contents (Elt F)) ]
theorem seg10_sub : (seg10 : List (HloOp τ sig (Elt F))).Forall fun op => op.bufs ⊆ tcRefs τ sig :=
  ⟨unary_bufs_sub .., binary_bufs_sub ..⟩

/-- 7 operations (@main's own), writing main_c_10 … main_v45. -/
abbrev seg11 : List (HloOp τ sig (Elt F)) :=
  [ StableHlo.nullary main_c_10 (constantI S_ 32 0#32),
    StableHlo.unary main_c_10 main_v41 (broadcastInDim S850000 ![] bcast_S_S850000 : (⟨S_, .i32⟩ : BufTy).Contents (Elt F) → (⟨S850000, .i32⟩ : BufTy).Contents (Elt F)),
    StableHlo.binary main_v8 main_v41 main_v42 (cmpi .slt : (⟨S850000, .i32⟩ : BufTy).Contents (Elt F) → (⟨S850000, .i32⟩ : BufTy).Contents (Elt F) → (⟨S850000, .i1⟩ : BufTy).Contents (Elt F)),
    StableHlo.nullary main_c_11 (constantI S_ 32 50000#32),
    StableHlo.unary main_c_11 main_v43 (broadcastInDim S850000 ![] bcast_S_S850000 : (⟨S_, .i32⟩ : BufTy).Contents (Elt F) → (⟨S850000, .i32⟩ : BufTy).Contents (Elt F)),
    StableHlo.binary main_v8 main_v43 main_v44 (addi : (⟨S850000, .i32⟩ : BufTy).Contents (Elt F) → (⟨S850000, .i32⟩ : BufTy).Contents (Elt F) → (⟨S850000, .i32⟩ : BufTy).Contents (Elt F)),
    StableHlo.ternary main_v42 main_v44 main_v8 main_v45 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)) ]
theorem seg11_sub : (seg11 : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub ..⟩

/-- 2 operations (@main's own), writing main_v46 … main_v47. -/
abbrev seg12 : List (HloOp τ sig (Elt F)) :=
  [ StableHlo.unary main_v45 main_v46 (broadcastInDim S850000x1 ![0] bcast_S850000_S850000x1_0 : (⟨S850000, .i32⟩ : BufTy).Contents (Elt F) → (⟨S850000x1, .i32⟩ : BufTy).Contents (Elt F)),
    StableHlo.binary main_v40 main_v46 main_v47 ((fun x i => Host.gather gather_S50000x100_S850000x1_S850000x100_1_0_n_n_0_1_1100 x i) : (⟨S50000x100, .f32⟩ : BufTy).Contents (Elt F) → (⟨S850000x1, .i32⟩ : BufTy).Contents (Elt F) → (⟨S850000x100, .f32⟩ : BufTy).Contents (Elt F)) ]
theorem seg12_sub : (seg12 : List (HloOp τ sig (Elt F))).Forall fun op => op.bufs ⊆ tcRefs τ sig :=
  ⟨unary_bufs_sub .., binary_bufs_sub ..⟩

/-- 4 operations (@main's own), writing main_v48 … main_cst_13. -/
abbrev seg13 : List (HloOp τ sig (Elt F)) :=
  [ StableHlo.unary main_v39 main_v48 (broadcastInDim S850000x100 ![0, 1] bcast_S850000x1_S850000x100_0_1 : (⟨S850000x1, .f32⟩ : BufTy).Contents (Elt F) → (⟨S850000x100, .f32⟩ : BufTy).Contents (Elt F)),
    StableHlo.binary main_v48 main_v47 main_v49 (mulf : (⟨S850000x100, .f32⟩ : BufTy).Contents (Elt F) → (⟨S850000x100, .f32⟩ : BufTy).Contents (Elt F) → (⟨S850000x100, .f32⟩ : BufTy).Contents (Elt F)),
    StableHlo.nullary main_cst_12 (constant S_ .f32 0x24E69595#32),
    StableHlo.nullary main_cst_13 (constant S_ .f32 0x42C80000#32) ]
theorem seg13_sub : (seg13 : List (HloOp τ sig (Elt F))).Forall fun op => op.bufs ⊆ tcRefs τ sig :=
  ⟨unary_bufs_sub .., binary_bufs_sub .., nullary_bufs_sub .., nullary_bufs_sub ..⟩

/-- 6 operations (the call's body over record `main_call2`), writing main_call2_v0 … main_v50. -/
abbrev seg14 : List (HloOp τ sig (Elt F)) :=
  [ StableHlo.TRef.unary (.of main_cst_12 : StableHlo.TRef sig ⟨S_, .f32⟩) (.of main_call2_v0 : StableHlo.TRef sig ⟨S_, .f32⟩) id,
    StableHlo.TRef.unary (.of main_call2_v0 : StableHlo.TRef sig ⟨S_, .f32⟩) (.of main_call2_v1 : StableHlo.TRef sig ⟨S850000x100, .f32⟩) (broadcastInDim S850000x100 ![] bcast_S_S850000x100),
    StableHlo.TRef.binary (.of main_call2_v1 : StableHlo.TRef sig ⟨S850000x100, .f32⟩) (.of main_v49 : StableHlo.TRef sig ⟨S850000x100, .f32⟩) (.of main_call2_v2 : StableHlo.TRef sig ⟨S850000x100, .f32⟩) maximumf,
    StableHlo.TRef.unary (.of main_cst_13 : StableHlo.TRef sig ⟨S_, .f32⟩) (.of main_call2_v3 : StableHlo.TRef sig ⟨S_, .f32⟩) id,
    StableHlo.TRef.unary (.of main_call2_v3 : StableHlo.TRef sig ⟨S_, .f32⟩) (.of main_call2_v4 : StableHlo.TRef sig ⟨S850000x100, .f32⟩) (broadcastInDim S850000x100 ![] bcast_S_S850000x100),
    StableHlo.TRef.binary (.of main_call2_v4 : StableHlo.TRef sig ⟨S850000x100, .f32⟩) (.of main_call2_v2 : StableHlo.TRef sig ⟨S850000x100, .f32⟩) (.of main_v50 : StableHlo.TRef sig ⟨S850000x100, .f32⟩) minimumf ]
theorem seg14_sub : (seg14 : List (HloOp τ sig (Elt F))).Forall fun op => op.bufs ⊆ tcRefs τ sig :=
  ⟨unary_bufs_sub .., unary_bufs_sub .., binary_bufs_sub .., unary_bufs_sub .., unary_bufs_sub .., binary_bufs_sub ..⟩

/-- 3 operations (@main's own), writing main_cst_14 … main_v52. -/
abbrev seg15 : List (HloOp τ sig (Elt F)) :=
  [ StableHlo.nullary main_cst_14 (constant S_ .f32 0xBF800000#32),
    StableHlo.unary main_cst_14 main_v51 (broadcastInDim S850000x100 ![] bcast_S_S850000x100 : (⟨S_, .f32⟩ : BufTy).Contents (Elt F) → (⟨S850000x100, .f32⟩ : BufTy).Contents (Elt F)),
    StableHlo.binary main_v50 main_v51 main_v52 (Host.powf : (⟨S850000x100, .f32⟩ : BufTy).Contents (Elt F) → (⟨S850000x100, .f32⟩ : BufTy).Contents (Elt F) → (⟨S850000x100, .f32⟩ : BufTy).Contents (Elt F)) ]
theorem seg15_sub : (seg15 : List (HloOp τ sig (Elt F))).Forall fun op => op.bufs ⊆ tcRefs τ sig :=
  ⟨nullary_bufs_sub .., unary_bufs_sub .., binary_bufs_sub ..⟩

/-- 4 operations (@main's own), writing main_cst_15 … main_v55. -/
abbrev seg16 : List (HloOp τ sig (Elt F)) :=
  [ StableHlo.nullary main_cst_15 (constant S_ .f32 0x00000000#32),
    StableHlo.unary main_cst_15 main_v53 (broadcastInDim S50000x100 ![] bcast_S_S50000x100 : (⟨S_, .f32⟩ : BufTy).Contents (Elt F) → (⟨S50000x100, .f32⟩ : BufTy).Contents (Elt F)),
    StableHlo.unary main_v11 main_v54 (broadcastInDim S850000x1 ![0] bcast_S850000_S850000x1_0 : (⟨S850000, .i32⟩ : BufTy).Contents (Elt F) → (⟨S850000x1, .i32⟩ : BufTy).Contents (Elt F)),
    StableHlo.ternary main_v53 main_v54 main_v52 main_v55 ((fun x i u => Host.scatterAdd scatter_S50000x100_S850000x1_S850000x100_1_0_0_1 x i u) : (⟨S50000x100, .f32⟩ : BufTy).Contents (Elt F) → (⟨S850000x1, .i32⟩ : BufTy).Contents (Elt F) → (⟨S850000x100, .f32⟩ : BufTy).Contents (Elt F) → (⟨S50000x100, .f32⟩ : BufTy).Contents (Elt F)) ]
theorem seg16_sub : (seg16 : List (HloOp τ sig (Elt F))).Forall fun op => op.bufs ⊆ tcRefs τ sig :=
  ⟨nullary_bufs_sub .., unary_bufs_sub .., unary_bufs_sub .., ternary_bufs_sub ..⟩

/-- 5 operations (@main's own), writing main_v56 … main_cst_17. -/
abbrev seg17 : List (HloOp τ sig (Elt F)) :=
  [ StableHlo.unary main_v38 main_v56 (broadcastInDim S50000x1 ![0] bcast_S50000_S50000x1_0 : (⟨S50000, .f32⟩ : BufTy).Contents (Elt F) → (⟨S50000x1, .f32⟩ : BufTy).Contents (Elt F)),
    StableHlo.unary main_v56 main_v57 (broadcastInDim S50000x100 ![0, 1] bcast_S50000x1_S50000x100_0_1 : (⟨S50000x1, .f32⟩ : BufTy).Contents (Elt F) → (⟨S50000x100, .f32⟩ : BufTy).Contents (Elt F)),
    StableHlo.binary main_v55 main_v57 main_v58 (Host.divf : (⟨S50000x100, .f32⟩ : BufTy).Contents (Elt F) → (⟨S50000x100, .f32⟩ : BufTy).Contents (Elt F) → (⟨S50000x100, .f32⟩ : BufTy).Contents (Elt F)),
    StableHlo.nullary main_cst_16 (constant S_ .f32 0x24E69595#32),
    StableHlo.nullary main_cst_17 (constant S_ .f32 0x42C80000#32) ]
theorem seg17_sub : (seg17 : List (HloOp τ sig (Elt F))).Forall fun op => op.bufs ⊆ tcRefs τ sig :=
  ⟨unary_bufs_sub .., unary_bufs_sub .., binary_bufs_sub .., nullary_bufs_sub .., nullary_bufs_sub ..⟩

/-- 6 operations (the call's body over record `main_call3`), writing main_call3_v0 … main_v59. -/
abbrev seg18 : List (HloOp τ sig (Elt F)) :=
  [ StableHlo.TRef.unary (.of main_cst_16 : StableHlo.TRef sig ⟨S_, .f32⟩) (.of main_call3_v0 : StableHlo.TRef sig ⟨S_, .f32⟩) id,
    StableHlo.TRef.unary (.of main_call3_v0 : StableHlo.TRef sig ⟨S_, .f32⟩) (.of main_call3_v1 : StableHlo.TRef sig ⟨S50000x100, .f32⟩) (broadcastInDim S50000x100 ![] bcast_S_S50000x100),
    StableHlo.TRef.binary (.of main_call3_v1 : StableHlo.TRef sig ⟨S50000x100, .f32⟩) (.of main_v58 : StableHlo.TRef sig ⟨S50000x100, .f32⟩) (.of main_call3_v2 : StableHlo.TRef sig ⟨S50000x100, .f32⟩) maximumf,
    StableHlo.TRef.unary (.of main_cst_17 : StableHlo.TRef sig ⟨S_, .f32⟩) (.of main_call3_v3 : StableHlo.TRef sig ⟨S_, .f32⟩) id,
    StableHlo.TRef.unary (.of main_call3_v3 : StableHlo.TRef sig ⟨S_, .f32⟩) (.of main_call3_v4 : StableHlo.TRef sig ⟨S50000x100, .f32⟩) (broadcastInDim S50000x100 ![] bcast_S_S50000x100),
    StableHlo.TRef.binary (.of main_call3_v4 : StableHlo.TRef sig ⟨S50000x100, .f32⟩) (.of main_call3_v2 : StableHlo.TRef sig ⟨S50000x100, .f32⟩) (.of main_v59 : StableHlo.TRef sig ⟨S50000x100, .f32⟩) minimumf ]
theorem seg18_sub : (seg18 : List (HloOp τ sig (Elt F))).Forall fun op => op.bufs ⊆ tcRefs τ sig :=
  ⟨unary_bufs_sub .., unary_bufs_sub .., binary_bufs_sub .., unary_bufs_sub .., unary_bufs_sub .., binary_bufs_sub ..⟩

/-- 6 operations (@main's own), writing main_cst_18 … main_v64. -/
abbrev seg19 : List (HloOp τ sig (Elt F)) :=
  [ StableHlo.nullary main_cst_18 (constant S_ .f32 0xBF800000#32),
    StableHlo.unary main_cst_18 main_v60 (broadcastInDim S50000x100 ![] bcast_S_S50000x100 : (⟨S_, .f32⟩ : BufTy).Contents (Elt F) → (⟨S50000x100, .f32⟩ : BufTy).Contents (Elt F)),
    StableHlo.binary main_v59 main_v60 main_v61 (Host.powf : (⟨S50000x100, .f32⟩ : BufTy).Contents (Elt F) → (⟨S50000x100, .f32⟩ : BufTy).Contents (Elt F) → (⟨S50000x100, .f32⟩ : BufTy).Contents (Elt F)),
    StableHlo.unary main_arg5 main_v62 (broadcastInDim S1x100 ![1] bcast_S100_S1x100_1 : (⟨S100, .f32⟩ : BufTy).Contents (Elt F) → (⟨S1x100, .f32⟩ : BufTy).Contents (Elt F)),
    StableHlo.unary main_v62 main_v63 (broadcastInDim S50000x100 ![0, 1] bcast_S1x100_S50000x100_0_1 : (⟨S1x100, .f32⟩ : BufTy).Contents (Elt F) → (⟨S50000x100, .f32⟩ : BufTy).Contents (Elt F)),
    StableHlo.binary main_v61 main_v63 main_v64 (addf : (⟨S50000x100, .f32⟩ : BufTy).Contents (Elt F) → (⟨S50000x100, .f32⟩ : BufTy).Contents (Elt F) → (⟨S50000x100, .f32⟩ : BufTy).Contents (Elt F)) ]
theorem seg19_sub : (seg19 : List (HloOp τ sig (Elt F))).Forall fun op => op.bufs ⊆ tcRefs τ sig :=
  ⟨nullary_bufs_sub .., unary_bufs_sub .., binary_bufs_sub .., unary_bufs_sub .., unary_bufs_sub .., binary_bufs_sub ..⟩

/-- 3 operations (the call's body over record `main_call4`), writing main_call4_cst … main_v65. -/
abbrev seg20 : List (HloOp τ sig (Elt F)) :=
  [ StableHlo.TRef.nullary (.of main_call4_cst : StableHlo.TRef sig ⟨S_, .f32⟩) (constant S_ .f32 0x00000000#32),
    StableHlo.TRef.unary (.of main_call4_cst : StableHlo.TRef sig ⟨S_, .f32⟩) (.of main_call4_v0 : StableHlo.TRef sig ⟨S50000x100, .f32⟩) (broadcastInDim S50000x100 ![] bcast_S_S50000x100),
    StableHlo.TRef.binary (.of main_v64 : StableHlo.TRef sig ⟨S50000x100, .f32⟩) (.of main_call4_v0 : StableHlo.TRef sig ⟨S50000x100, .f32⟩) (.of main_v65 : StableHlo.TRef sig ⟨S50000x100, .f32⟩) maximumf ]
theorem seg20_sub : (seg20 : List (HloOp τ sig (Elt F))).Forall fun op => op.bufs ⊆ tcRefs τ sig :=
  ⟨nullary_bufs_sub .., unary_bufs_sub .., binary_bufs_sub ..⟩

/-- 2 operations (@main's own), writing main_v66 … main_v67. -/
abbrev seg21 : List (HloOp τ sig (Elt F)) :=
  [ StableHlo.unary main_v36 main_v66 (broadcastInDim S850000x1 ![0] bcast_S850000_S850000x1_0 : (⟨S850000, .f32⟩ : BufTy).Contents (Elt F) → (⟨S850000x1, .f32⟩ : BufTy).Contents (Elt F)),
    StableHlo.binary main_v65 main_arg6 main_v67 ((fun l r => Host.dotGeneral dot_S50000x100_S100x100_S50000x100_1_0_0_1_n_n none l r) : (⟨S50000x100, .f32⟩ : BufTy).Contents (Elt F) → (⟨S100x100, .f32⟩ : BufTy).Contents (Elt F) → (⟨S50000x100, .f32⟩ : BufTy).Contents (Elt F)) ]
theorem seg21_sub : (seg21 : List (HloOp τ sig (Elt F))).Forall fun op => op.bufs ⊆ tcRefs τ sig :=
  ⟨unary_bufs_sub .., binary_bufs_sub ..⟩

/-- 9 operations (@main's own), writing main_c_19 … main_v74. -/
abbrev seg22 : List (HloOp τ sig (Elt F)) :=
  [ StableHlo.nullary main_c_19 (constantI S_ 32 0#32),
    StableHlo.unary main_c_19 main_v68 (broadcastInDim S850000 ![] bcast_S_S850000 : (⟨S_, .i32⟩ : BufTy).Contents (Elt F) → (⟨S850000, .i32⟩ : BufTy).Contents (Elt F)),
    StableHlo.binary main_v8 main_v68 main_v69 (cmpi .slt : (⟨S850000, .i32⟩ : BufTy).Contents (Elt F) → (⟨S850000, .i32⟩ : BufTy).Contents (Elt F) → (⟨S850000, .i1⟩ : BufTy).Contents (Elt F)),
    StableHlo.nullary main_c_20 (constantI S_ 32 50000#32),
    StableHlo.unary main_c_20 main_v70 (broadcastInDim S850000 ![] bcast_S_S850000 : (⟨S_, .i32⟩ : BufTy).Contents (Elt F) → (⟨S850000, .i32⟩ : BufTy).Contents (Elt F)),
    StableHlo.binary main_v8 main_v70 main_v71 (addi : (⟨S850000, .i32⟩ : BufTy).Contents (Elt F) → (⟨S850000, .i32⟩ : BufTy).Contents (Elt F) → (⟨S850000, .i32⟩ : BufTy).Contents (Elt F)),
    StableHlo.ternary main_v69 main_v71 main_v8 main_v72 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    StableHlo.unary main_v72 main_v73 (broadcastInDim S850000x1 ![0] bcast_S850000_S850000x1_0 : (⟨S850000, .i32⟩ : BufTy).Contents (Elt F) → (⟨S850000x1, .i32⟩ : BufTy).Contents (Elt F)),
    StableHlo.binary main_v67 main_v73 main_v74 ((fun x i => Host.gather gather_S50000x100_S850000x1_S850000x100_1_0_n_n_0_1_1100 x i) : (⟨S50000x100, .f32⟩ : BufTy).Contents (Elt F) → (⟨S850000x1, .i32⟩ : BufTy).Contents (Elt F) → (⟨S850000x100, .f32⟩ : BufTy).Contents (Elt F)) ]
theorem seg22_sub : (seg22 : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., binary_bufs_sub ..⟩

/-- 4 operations (@main's own), writing main_v75 … main_cst_22. -/
abbrev seg23 : List (HloOp τ sig (Elt F)) :=
  [ StableHlo.unary main_v66 main_v75 (broadcastInDim S850000x100 ![0, 1] bcast_S850000x1_S850000x100_0_1 : (⟨S850000x1, .f32⟩ : BufTy).Contents (Elt F) → (⟨S850000x100, .f32⟩ : BufTy).Contents (Elt F)),
    StableHlo.binary main_v75 main_v74 main_v76 (mulf : (⟨S850000x100, .f32⟩ : BufTy).Contents (Elt F) → (⟨S850000x100, .f32⟩ : BufTy).Contents (Elt F) → (⟨S850000x100, .f32⟩ : BufTy).Contents (Elt F)),
    StableHlo.nullary main_cst_21 (constant S_ .f32 0x24E69595#32),
    StableHlo.nullary main_cst_22 (constant S_ .f32 0x42C80000#32) ]
theorem seg23_sub : (seg23 : List (HloOp τ sig (Elt F))).Forall fun op => op.bufs ⊆ tcRefs τ sig :=
  ⟨unary_bufs_sub .., binary_bufs_sub .., nullary_bufs_sub .., nullary_bufs_sub ..⟩

/-- 6 operations (the call's body over record `main_call5`), writing main_call5_v0 … main_v77. -/
abbrev seg24 : List (HloOp τ sig (Elt F)) :=
  [ StableHlo.TRef.unary (.of main_cst_21 : StableHlo.TRef sig ⟨S_, .f32⟩) (.of main_call5_v0 : StableHlo.TRef sig ⟨S_, .f32⟩) id,
    StableHlo.TRef.unary (.of main_call5_v0 : StableHlo.TRef sig ⟨S_, .f32⟩) (.of main_call5_v1 : StableHlo.TRef sig ⟨S850000x100, .f32⟩) (broadcastInDim S850000x100 ![] bcast_S_S850000x100),
    StableHlo.TRef.binary (.of main_call5_v1 : StableHlo.TRef sig ⟨S850000x100, .f32⟩) (.of main_v76 : StableHlo.TRef sig ⟨S850000x100, .f32⟩) (.of main_call5_v2 : StableHlo.TRef sig ⟨S850000x100, .f32⟩) maximumf,
    StableHlo.TRef.unary (.of main_cst_22 : StableHlo.TRef sig ⟨S_, .f32⟩) (.of main_call5_v3 : StableHlo.TRef sig ⟨S_, .f32⟩) id,
    StableHlo.TRef.unary (.of main_call5_v3 : StableHlo.TRef sig ⟨S_, .f32⟩) (.of main_call5_v4 : StableHlo.TRef sig ⟨S850000x100, .f32⟩) (broadcastInDim S850000x100 ![] bcast_S_S850000x100),
    StableHlo.TRef.binary (.of main_call5_v4 : StableHlo.TRef sig ⟨S850000x100, .f32⟩) (.of main_call5_v2 : StableHlo.TRef sig ⟨S850000x100, .f32⟩) (.of main_v77 : StableHlo.TRef sig ⟨S850000x100, .f32⟩) minimumf ]
theorem seg24_sub : (seg24 : List (HloOp τ sig (Elt F))).Forall fun op => op.bufs ⊆ tcRefs τ sig :=
  ⟨unary_bufs_sub .., unary_bufs_sub .., binary_bufs_sub .., unary_bufs_sub .., unary_bufs_sub .., binary_bufs_sub ..⟩

/-- 3 operations (@main's own), writing main_cst_23 … main_v79. -/
abbrev seg25 : List (HloOp τ sig (Elt F)) :=
  [ StableHlo.nullary main_cst_23 (constant S_ .f32 0xBF800000#32),
    StableHlo.unary main_cst_23 main_v78 (broadcastInDim S850000x100 ![] bcast_S_S850000x100 : (⟨S_, .f32⟩ : BufTy).Contents (Elt F) → (⟨S850000x100, .f32⟩ : BufTy).Contents (Elt F)),
    StableHlo.binary main_v77 main_v78 main_v79 (Host.powf : (⟨S850000x100, .f32⟩ : BufTy).Contents (Elt F) → (⟨S850000x100, .f32⟩ : BufTy).Contents (Elt F) → (⟨S850000x100, .f32⟩ : BufTy).Contents (Elt F)) ]
theorem seg25_sub : (seg25 : List (HloOp τ sig (Elt F))).Forall fun op => op.bufs ⊆ tcRefs τ sig :=
  ⟨nullary_bufs_sub .., unary_bufs_sub .., binary_bufs_sub ..⟩

/-- 4 operations (@main's own), writing main_cst_24 … main_v82. -/
abbrev seg26 : List (HloOp τ sig (Elt F)) :=
  [ StableHlo.nullary main_cst_24 (constant S_ .f32 0x00000000#32),
    StableHlo.unary main_cst_24 main_v80 (broadcastInDim S50000x100 ![] bcast_S_S50000x100 : (⟨S_, .f32⟩ : BufTy).Contents (Elt F) → (⟨S50000x100, .f32⟩ : BufTy).Contents (Elt F)),
    StableHlo.unary main_v11 main_v81 (broadcastInDim S850000x1 ![0] bcast_S850000_S850000x1_0 : (⟨S850000, .i32⟩ : BufTy).Contents (Elt F) → (⟨S850000x1, .i32⟩ : BufTy).Contents (Elt F)),
    StableHlo.ternary main_v80 main_v81 main_v79 main_v82 ((fun x i u => Host.scatterAdd scatter_S50000x100_S850000x1_S850000x100_1_0_0_1 x i u) : (⟨S50000x100, .f32⟩ : BufTy).Contents (Elt F) → (⟨S850000x1, .i32⟩ : BufTy).Contents (Elt F) → (⟨S850000x100, .f32⟩ : BufTy).Contents (Elt F) → (⟨S50000x100, .f32⟩ : BufTy).Contents (Elt F)) ]
theorem seg26_sub : (seg26 : List (HloOp τ sig (Elt F))).Forall fun op => op.bufs ⊆ tcRefs τ sig :=
  ⟨nullary_bufs_sub .., unary_bufs_sub .., unary_bufs_sub .., ternary_bufs_sub ..⟩

/-- 5 operations (@main's own), writing main_v83 … main_cst_26. -/
abbrev seg27 : List (HloOp τ sig (Elt F)) :=
  [ StableHlo.unary main_v38 main_v83 (broadcastInDim S50000x1 ![0] bcast_S50000_S50000x1_0 : (⟨S50000, .f32⟩ : BufTy).Contents (Elt F) → (⟨S50000x1, .f32⟩ : BufTy).Contents (Elt F)),
    StableHlo.unary main_v83 main_v84 (broadcastInDim S50000x100 ![0, 1] bcast_S50000x1_S50000x100_0_1 : (⟨S50000x1, .f32⟩ : BufTy).Contents (Elt F) → (⟨S50000x100, .f32⟩ : BufTy).Contents (Elt F)),
    StableHlo.binary main_v82 main_v84 main_v85 (Host.divf : (⟨S50000x100, .f32⟩ : BufTy).Contents (Elt F) → (⟨S50000x100, .f32⟩ : BufTy).Contents (Elt F) → (⟨S50000x100, .f32⟩ : BufTy).Contents (Elt F)),
    StableHlo.nullary main_cst_25 (constant S_ .f32 0x24E69595#32),
    StableHlo.nullary main_cst_26 (constant S_ .f32 0x42C80000#32) ]
theorem seg27_sub : (seg27 : List (HloOp τ sig (Elt F))).Forall fun op => op.bufs ⊆ tcRefs τ sig :=
  ⟨unary_bufs_sub .., unary_bufs_sub .., binary_bufs_sub .., nullary_bufs_sub .., nullary_bufs_sub ..⟩

/-- 6 operations (the call's body over record `main_call6`), writing main_call6_v0 … main_v86. -/
abbrev seg28 : List (HloOp τ sig (Elt F)) :=
  [ StableHlo.TRef.unary (.of main_cst_25 : StableHlo.TRef sig ⟨S_, .f32⟩) (.of main_call6_v0 : StableHlo.TRef sig ⟨S_, .f32⟩) id,
    StableHlo.TRef.unary (.of main_call6_v0 : StableHlo.TRef sig ⟨S_, .f32⟩) (.of main_call6_v1 : StableHlo.TRef sig ⟨S50000x100, .f32⟩) (broadcastInDim S50000x100 ![] bcast_S_S50000x100),
    StableHlo.TRef.binary (.of main_call6_v1 : StableHlo.TRef sig ⟨S50000x100, .f32⟩) (.of main_v85 : StableHlo.TRef sig ⟨S50000x100, .f32⟩) (.of main_call6_v2 : StableHlo.TRef sig ⟨S50000x100, .f32⟩) maximumf,
    StableHlo.TRef.unary (.of main_cst_26 : StableHlo.TRef sig ⟨S_, .f32⟩) (.of main_call6_v3 : StableHlo.TRef sig ⟨S_, .f32⟩) id,
    StableHlo.TRef.unary (.of main_call6_v3 : StableHlo.TRef sig ⟨S_, .f32⟩) (.of main_call6_v4 : StableHlo.TRef sig ⟨S50000x100, .f32⟩) (broadcastInDim S50000x100 ![] bcast_S_S50000x100),
    StableHlo.TRef.binary (.of main_call6_v4 : StableHlo.TRef sig ⟨S50000x100, .f32⟩) (.of main_call6_v2 : StableHlo.TRef sig ⟨S50000x100, .f32⟩) (.of main_v86 : StableHlo.TRef sig ⟨S50000x100, .f32⟩) minimumf ]
theorem seg28_sub : (seg28 : List (HloOp τ sig (Elt F))).Forall fun op => op.bufs ⊆ tcRefs τ sig :=
  ⟨unary_bufs_sub .., unary_bufs_sub .., binary_bufs_sub .., unary_bufs_sub .., unary_bufs_sub .., binary_bufs_sub ..⟩

/-- 4 operations (@main's own), writing main_cst_27 … main_v89. -/
abbrev seg29 : List (HloOp τ sig (Elt F)) :=
  [ StableHlo.nullary main_cst_27 (constant S_ .f32 0xBF800000#32),
    StableHlo.unary main_cst_27 main_v87 (broadcastInDim S50000x100 ![] bcast_S_S50000x100 : (⟨S_, .f32⟩ : BufTy).Contents (Elt F) → (⟨S50000x100, .f32⟩ : BufTy).Contents (Elt F)),
    StableHlo.binary main_v86 main_v87 main_v88 (Host.powf : (⟨S50000x100, .f32⟩ : BufTy).Contents (Elt F) → (⟨S50000x100, .f32⟩ : BufTy).Contents (Elt F) → (⟨S50000x100, .f32⟩ : BufTy).Contents (Elt F)),
    StableHlo.unary main_arg7 main_v89 (broadcastInDim S1x100 ![1] bcast_S100_S1x100_1 : (⟨S100, .f32⟩ : BufTy).Contents (Elt F) → (⟨S1x100, .f32⟩ : BufTy).Contents (Elt F)) ]
theorem seg29_sub : (seg29 : List (HloOp τ sig (Elt F))).Forall fun op => op.bufs ⊆ tcRefs τ sig :=
  ⟨nullary_bufs_sub .., unary_bufs_sub .., binary_bufs_sub .., unary_bufs_sub ..⟩

/-- 2 operations (@main's own), writing main_v90 … main_v91. -/
abbrev seg30 : List (HloOp τ sig (Elt F)) :=
  [ StableHlo.unary main_v89 main_v90 (broadcastInDim S50000x100 ![0, 1] bcast_S1x100_S50000x100_0_1 : (⟨S1x100, .f32⟩ : BufTy).Contents (Elt F) → (⟨S50000x100, .f32⟩ : BufTy).Contents (Elt F)),
    StableHlo.binary main_v88 main_v90 main_v91 (addf : (⟨S50000x100, .f32⟩ : BufTy).Contents (Elt F) → (⟨S50000x100, .f32⟩ : BufTy).Contents (Elt F) → (⟨S50000x100, .f32⟩ : BufTy).Contents (Elt F)) ]
theorem seg30_sub : (seg30 : List (HloOp τ sig (Elt F))).Forall fun op => op.bufs ⊆ tcRefs τ sig :=
  ⟨unary_bufs_sub .., binary_bufs_sub ..⟩

/-- 16 operations (@main's own), writing main_cst_28 … main_v103. -/
abbrev seg31 : List (HloOp τ sig (Elt F)) :=
  [ StableHlo.nullary main_cst_28 (constant S_ .f32 0x3F800000#32),
    StableHlo.unary main_cst_28 main_v92 (broadcastInDim S50000 ![] bcast_S_S50000 : (⟨S_, .f32⟩ : BufTy).Contents (Elt F) → (⟨S50000, .f32⟩ : BufTy).Contents (Elt F)),
    StableHlo.nullary main_cst_29 (constant S_ .f32 0x00000000#32),
    StableHlo.unary main_cst_29 main_v93 (broadcastInDim S2000 ![] bcast_S_S2000 : (⟨S_, .f32⟩ : BufTy).Contents (Elt F) → (⟨S2000, .f32⟩ : BufTy).Contents (Elt F)),
    StableHlo.unary main_arg2 main_v94 (broadcastInDim S50000x1 ![0] bcast_S50000_S50000x1_0 : (⟨S50000, .i32⟩ : BufTy).Contents (Elt F) → (⟨S50000x1, .i32⟩ : BufTy).Contents (Elt F)),
    StableHlo.ternary main_v93 main_v94 main_v92 main_v95 ((fun x i u => Host.scatterAdd scatter_S2000_S50000x1_S50000_n_0_0_1 x i u) : (⟨S2000, .f32⟩ : BufTy).Contents (Elt F) → (⟨S50000x1, .i32⟩ : BufTy).Contents (Elt F) → (⟨S50000, .f32⟩ : BufTy).Contents (Elt F) → (⟨S2000, .f32⟩ : BufTy).Contents (Elt F)),
    StableHlo.nullary main_cst_30 (constant S_ .f32 0x00000000#32),
    StableHlo.unary main_cst_30 main_v96 (broadcastInDim S2000x100 ![] bcast_S_S2000x100 : (⟨S_, .f32⟩ : BufTy).Contents (Elt F) → (⟨S2000x100, .f32⟩ : BufTy).Contents (Elt F)),
    StableHlo.unary main_arg2 main_v97 (broadcastInDim S50000x1 ![0] bcast_S50000_S50000x1_0 : (⟨S50000, .i32⟩ : BufTy).Contents (Elt F) → (⟨S50000x1, .i32⟩ : BufTy).Contents (Elt F)),
    StableHlo.ternary main_v96 main_v97 main_v91 main_v98 ((fun x i u => Host.scatterAdd scatter_S2000x100_S50000x1_S50000x100_1_0_0_1 x i u) : (⟨S2000x100, .f32⟩ : BufTy).Contents (Elt F) → (⟨S50000x1, .i32⟩ : BufTy).Contents (Elt F) → (⟨S50000x100, .f32⟩ : BufTy).Contents (Elt F) → (⟨S2000x100, .f32⟩ : BufTy).Contents (Elt F)),
    StableHlo.nullary main_cst_31 (constant S_ .f32 0x3F800000#32),
    StableHlo.unary main_cst_31 main_v99 (broadcastInDim S2000 ![] bcast_S_S2000 : (⟨S_, .f32⟩ : BufTy).Contents (Elt F) → (⟨S2000, .f32⟩ : BufTy).Contents (Elt F)),
    StableHlo.binary main_v95 main_v99 main_v100 (maximumf : (⟨S2000, .f32⟩ : BufTy).Contents (Elt F) → (⟨S2000, .f32⟩ : BufTy).Contents (Elt F) → (⟨S2000, .f32⟩ : BufTy).Contents (Elt F)),
    StableHlo.unary main_v100 main_v101 (broadcastInDim S2000x1 ![0] bcast_S2000_S2000x1_0 : (⟨S2000, .f32⟩ : BufTy).Contents (Elt F) → (⟨S2000x1, .f32⟩ : BufTy).Contents (Elt F)),
    StableHlo.unary main_v101 main_v102 (broadcastInDim S2000x100 ![0, 1] bcast_S2000x1_S2000x100_0_1 : (⟨S2000x1, .f32⟩ : BufTy).Contents (Elt F) → (⟨S2000x100, .f32⟩ : BufTy).Contents (Elt F)),
    StableHlo.binary main_v98 main_v102 main_v103 (Host.divf : (⟨S2000x100, .f32⟩ : BufTy).Contents (Elt F) → (⟨S2000x100, .f32⟩ : BufTy).Contents (Elt F) → (⟨S2000x100, .f32⟩ : BufTy).Contents (Elt F)) ]
theorem seg31_sub : (seg31 : List (HloOp τ sig (Elt F))).Forall fun op => op.bufs ⊆ tcRefs τ sig :=
  ⟨nullary_bufs_sub .., unary_bufs_sub .., nullary_bufs_sub .., unary_bufs_sub .., unary_bufs_sub .., ternary_bufs_sub .., nullary_bufs_sub .., unary_bufs_sub .., unary_bufs_sub .., ternary_bufs_sub .., nullary_bufs_sub .., unary_bufs_sub .., binary_bufs_sub .., unary_bufs_sub .., unary_bufs_sub .., binary_bufs_sub ..⟩

/-- 4 operations (@main's own), writing main_v104 … main_v107. -/
abbrev seg32 : List (HloOp τ sig (Elt F)) :=
  [ StableHlo.binary main_v103 main_arg8 main_v104 ((fun l r => Host.dotGeneral dot_S2000x100_S100x128_S2000x128_1_0_0_1_n_n none l r) : (⟨S2000x100, .f32⟩ : BufTy).Contents (Elt F) → (⟨S100x128, .f32⟩ : BufTy).Contents (Elt F) → (⟨S2000x128, .f32⟩ : BufTy).Contents (Elt F)),
    StableHlo.unary main_arg9 main_v105 (broadcastInDim S1x128 ![1] bcast_S128_S1x128_1 : (⟨S128, .f32⟩ : BufTy).Contents (Elt F) → (⟨S1x128, .f32⟩ : BufTy).Contents (Elt F)),
    StableHlo.unary main_v105 main_v106 (broadcastInDim S2000x128 ![0, 1] bcast_S1x128_S2000x128_0_1 : (⟨S1x128, .f32⟩ : BufTy).Contents (Elt F) → (⟨S2000x128, .f32⟩ : BufTy).Contents (Elt F)),
    StableHlo.binary main_v104 main_v106 main_v107 (addf : (⟨S2000x128, .f32⟩ : BufTy).Contents (Elt F) → (⟨S2000x128, .f32⟩ : BufTy).Contents (Elt F) → (⟨S2000x128, .f32⟩ : BufTy).Contents (Elt F)) ]
theorem seg32_sub : (seg32 : List (HloOp τ sig (Elt F))).Forall fun op => op.bufs ⊆ tcRefs τ sig :=
  ⟨binary_bufs_sub .., unary_bufs_sub .., unary_bufs_sub .., binary_bufs_sub ..⟩

/-- The segments, in order. -/
abbrev segs : List (List (HloOp τ sig (Elt F))) :=
  [seg0, seg1, seg2, seg3, seg4, seg5, seg6, seg7, seg8, seg9, seg10, seg11, seg12, seg13, seg14, seg15, seg16, seg17, seg18, seg19, seg20, seg21, seg22, seg23, seg24, seg25, seg26, seg27, seg28, seg29, seg30, seg31, seg32]

/-- @main's 188 operations, in order: a called function's operations stand in its call's place (spelt `TRef.…`). -/
abbrev ops : List (HloOp τ sig (Elt F)) := (segs (F := F)).flatten

/-- Window `main_part0` is its segments run in order (its last statement in tail position). -/
theorem main_part0_chain (c : Dev nD) : main_part0 (F := F) c = (Pipeline.chainK
  [ StableHlo.seq seg0,
    StableHlo.seq seg1,
    StableHlo.seq seg2,
    StableHlo.seq seg3,
    StableHlo.seq seg4,
    StableHlo.seq seg5,
    StableHlo.seq seg6,
    StableHlo.seq seg7,
    StableHlo.seq seg8,
    StableHlo.seq seg9,
    StableHlo.seq seg10 ]
  (StableHlo.seq seg11) : Prog (TpuEff nD τ sig (Elt F) (Pipeline.Sig Λ₀ (Fin 0) fun p => (pcfgs (F := F) p).Adm) .tc) PUnit) := by
  chain_rfl

/-- Window `main_part1` is its segments run in order (its last statement in tail position). -/
theorem main_part1_chain (c : Dev nD) : main_part1 (F := F) c = (Pipeline.chainK
  [ StableHlo.seq seg12,
    StableHlo.seq seg13,
    StableHlo.seq seg14,
    StableHlo.seq seg15,
    StableHlo.seq seg16,
    StableHlo.seq seg17,
    StableHlo.seq seg18,
    StableHlo.seq seg19,
    StableHlo.seq seg20,
    StableHlo.seq seg21,
    StableHlo.seq seg22,
    StableHlo.seq seg23,
    StableHlo.seq seg24,
    StableHlo.seq seg25,
    StableHlo.seq seg26,
    StableHlo.seq seg27,
    StableHlo.seq seg28 ]
  (StableHlo.seq seg29) : Prog (TpuEff nD τ sig (Elt F) (Pipeline.Sig Λ₀ (Fin 0) fun p => (pcfgs (F := F) p).Adm) .tc) PUnit) := by
  chain_rfl

/-- Window `main_part2` is its segments run in order. -/
theorem main_part2_chain (c : Dev nD) : main_part2 (F := F) c = (Pipeline.chain
  [ StableHlo.seq seg30,
    StableHlo.seq seg31,
    StableHlo.seq seg32 ] : Prog (TpuEff nD τ sig (Elt F) (Pipeline.Sig Λ₀ (Fin 0) fun p => (pcfgs (F := F) p).Adm) .tc) PUnit) := by
  chain_rfl

/-- @main is that straight line: its three windows' segments in a row. -/
theorem main_eq (c : Dev nD) : main (F := F) c = seq ops := by
  show (main_part0 (F := F) c >>= fun _ => (main_part1 (F := F) c >>= fun _ => main_part2 (F := F) c)) = _
  rewrite [main_part2_chain, main_part1_chain, Pipeline.chainK_bind_chain, main_part0_chain, Pipeline.chainK_bind_chain]
  exact chain_map_seq (segs (F := F))

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  forall_flatten _ (by
    intro l hl
    simp only [segs, List.mem_cons, List.mem_nil_iff, or_false] at hl
    rcases hl with rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl
    exacts [seg0_sub, seg1_sub, seg2_sub, seg3_sub, seg4_sub, seg5_sub, seg6_sub, seg7_sub, seg8_sub, seg9_sub, seg10_sub, seg11_sub, seg12_sub, seg13_sub, seg14_sub, seg15_sub, seg16_sub, seg17_sub, seg18_sub, seg19_sub, seg20_sub, seg21_sub, seg22_sub, seg23_sub, seg24_sub, seg25_sub, seg26_sub, seg27_sub, seg28_sub, seg29_sub, seg30_sub, seg31_sub, seg32_sub])

/-! ## The stages' terms

The stages' terms `res_‹buffer›` (the buffer a stage ends in, as the operations' composed term of the contents of the buffers the
stage reads) and their composites over the arguments' contents (`xH0`, `xRow`, … `xPooled`, `result`) are those of
`Cert.ReferenceIdeal.RefStages`. -/

/-! ## The fold, stage by stage

`val0 V0` is the contents `V0`; `valK V0` the contents once the first `K` stages have run from `V0`. For each buffer written by
then and read later (or an argument, or the result), `valK_‹buffer›` gives it its term of the arguments' contents in `V0`. -/

/-- An operation whose one written buffer is among the references `W` writes inside `W`. -/
theorem writes_sub {W : List (Ref sig .tc)} (op : HloOp τ sig (Elt F)) (y : Ref sig .tc) (hw : op.writes = {Proc.devRef .tc y})
    (hy : y ∈ W) : op.writes ⊆ (W.map (Proc.devRef (τ := τ) .tc)).toFinset := by
  rw [hw, Finset.singleton_subset_iff, List.mem_toFinset]
  exact List.mem_map_of_mem hy

/-- The device's buffer contents before the first stage. -/
def val0 (V0 : Valuation τ sig (Elt F)) : Valuation τ sig (Elt F) := V0
theorem val0_main_arg0 (V0 : Valuation τ sig (Elt F)) : val0 V0 (no_index (Proc.devRef .tc main_arg0)) = (V0 (Proc.devRef .tc main_arg0)) := rfl
theorem val0_main_arg1 (V0 : Valuation τ sig (Elt F)) : val0 V0 (no_index (Proc.devRef .tc main_arg1)) = (V0 (Proc.devRef .tc main_arg1)) := rfl
theorem val0_main_arg2 (V0 : Valuation τ sig (Elt F)) : val0 V0 (no_index (Proc.devRef .tc main_arg2)) = (V0 (Proc.devRef .tc main_arg2)) := rfl
theorem val0_main_arg3 (V0 : Valuation τ sig (Elt F)) : val0 V0 (no_index (Proc.devRef .tc main_arg3)) = (V0 (Proc.devRef .tc main_arg3)) := rfl
theorem val0_main_arg4 (V0 : Valuation τ sig (Elt F)) : val0 V0 (no_index (Proc.devRef .tc main_arg4)) = (V0 (Proc.devRef .tc main_arg4)) := rfl
theorem val0_main_arg5 (V0 : Valuation τ sig (Elt F)) : val0 V0 (no_index (Proc.devRef .tc main_arg5)) = (V0 (Proc.devRef .tc main_arg5)) := rfl
theorem val0_main_arg6 (V0 : Valuation τ sig (Elt F)) : val0 V0 (no_index (Proc.devRef .tc main_arg6)) = (V0 (Proc.devRef .tc main_arg6)) := rfl
theorem val0_main_arg7 (V0 : Valuation τ sig (Elt F)) : val0 V0 (no_index (Proc.devRef .tc main_arg7)) = (V0 (Proc.devRef .tc main_arg7)) := rfl
theorem val0_main_arg8 (V0 : Valuation τ sig (Elt F)) : val0 V0 (no_index (Proc.devRef .tc main_arg8)) = (V0 (Proc.devRef .tc main_arg8)) := rfl
theorem val0_main_arg9 (V0 : Valuation τ sig (Elt F)) : val0 V0 (no_index (Proc.devRef .tc main_arg9)) = (V0 (Proc.devRef .tc main_arg9)) := rfl

/-- The device's buffer contents after the first 1 stage (the last ends in `main_v4`). -/
def val1 (V0 : Valuation τ sig (Elt F)) : Valuation τ sig (Elt F) := after seg2 (after seg1 (after seg0 (val0 V0)))
/-- The buffers stage 1 writes. -/
abbrev win1_W : List (Ref sig .tc) := [main_c, main_v0, main_v1, main_v2, main_call0_c, main_call0_v0, main_call0_v1, main_call0_c_0, main_call0_v2, main_call0_v3, main_call0_v4, main_call0_v5, main_call0_c_1, main_call0_c_2, main_call0_v6, main_call0_v7, main_call0_v8, main_call0_v9, main_call0_v10, main_call0_v11, main_call0_c_3, main_call0_v12, main_call0_v13, main_call0_v14, main_call0_cst, main_call0_v15, main_v3, main_cst, main_v4]
theorem seg0_writes : (seg0 : List (HloOp τ sig (Elt F))).Forall fun op => op.writes ⊆ (win1_W.map (Proc.devRef (τ := τ) .tc)).toFinset :=
  ⟨writes_sub _ main_c rfl (by decide),
   writes_sub _ main_v0 rfl (by decide),
   writes_sub _ main_v1 rfl (by decide),
   writes_sub _ main_v2 rfl (by decide)⟩
theorem seg1_writes : (seg1 : List (HloOp τ sig (Elt F))).Forall fun op => op.writes ⊆ (win1_W.map (Proc.devRef (τ := τ) .tc)).toFinset :=
  ⟨writes_sub _ main_call0_c rfl (by decide),
   writes_sub _ main_call0_v0 rfl (by decide),
   writes_sub _ main_call0_v1 rfl (by decide),
   writes_sub _ main_call0_c_0 rfl (by decide),
   writes_sub _ main_call0_v2 rfl (by decide),
   writes_sub _ main_call0_v3 rfl (by decide),
   writes_sub _ main_call0_v4 rfl (by decide),
   writes_sub _ main_call0_v5 rfl (by decide),
   writes_sub _ main_call0_c_1 rfl (by decide),
   writes_sub _ main_call0_c_2 rfl (by decide),
   writes_sub _ main_call0_v6 rfl (by decide),
   writes_sub _ main_call0_v7 rfl (by decide),
   writes_sub _ main_call0_v8 rfl (by decide),
   writes_sub _ main_call0_v9 rfl (by decide),
   writes_sub _ main_call0_v10 rfl (by decide),
   writes_sub _ main_call0_v11 rfl (by decide),
   writes_sub _ main_call0_c_3 rfl (by decide),
   writes_sub _ main_call0_v12 rfl (by decide),
   writes_sub _ main_call0_v13 rfl (by decide),
   writes_sub _ main_call0_v14 rfl (by decide),
   writes_sub _ main_call0_cst rfl (by decide),
   writes_sub _ main_call0_v15 rfl (by decide),
   writes_sub _ main_v3 rfl (by decide)⟩
theorem seg2_writes : (seg2 : List (HloOp τ sig (Elt F))).Forall fun op => op.writes ⊆ (win1_W.map (Proc.devRef (τ := τ) .tc)).toFinset :=
  ⟨writes_sub _ main_cst rfl (by decide),
   writes_sub _ main_v4 rfl (by decide)⟩
/-- A buffer that stage 1 does not write keeps its contents through it. -/
theorem val1_keep (V0 : Valuation τ sig (Elt F)) (r : Ref sig .tc) (h : r ∉ win1_W) :
    val1 V0 (Proc.devRef .tc r) = val0 V0 (Proc.devRef .tc r) :=
  ((after_of_writes_sub seg2 _ seg2_writes h).trans (after_of_writes_sub seg1 _ seg1_writes h)).trans (after_of_writes_sub seg0 _ seg0_writes h)
theorem val1_main_arg0 (V0 : Valuation τ sig (Elt F)) : val1 V0 (no_index (Proc.devRef .tc main_arg0)) = (V0 (Proc.devRef .tc main_arg0)) :=
  (val1_keep V0 main_arg0 (by decide)).trans (val0_main_arg0 V0)
theorem val1_main_arg1 (V0 : Valuation τ sig (Elt F)) : val1 V0 (no_index (Proc.devRef .tc main_arg1)) = (V0 (Proc.devRef .tc main_arg1)) :=
  (val1_keep V0 main_arg1 (by decide)).trans (val0_main_arg1 V0)
theorem val1_main_arg2 (V0 : Valuation τ sig (Elt F)) : val1 V0 (no_index (Proc.devRef .tc main_arg2)) = (V0 (Proc.devRef .tc main_arg2)) :=
  (val1_keep V0 main_arg2 (by decide)).trans (val0_main_arg2 V0)
theorem val1_main_arg3 (V0 : Valuation τ sig (Elt F)) : val1 V0 (no_index (Proc.devRef .tc main_arg3)) = (V0 (Proc.devRef .tc main_arg3)) :=
  (val1_keep V0 main_arg3 (by decide)).trans (val0_main_arg3 V0)
theorem val1_main_arg4 (V0 : Valuation τ sig (Elt F)) : val1 V0 (no_index (Proc.devRef .tc main_arg4)) = (V0 (Proc.devRef .tc main_arg4)) :=
  (val1_keep V0 main_arg4 (by decide)).trans (val0_main_arg4 V0)
theorem val1_main_arg5 (V0 : Valuation τ sig (Elt F)) : val1 V0 (no_index (Proc.devRef .tc main_arg5)) = (V0 (Proc.devRef .tc main_arg5)) :=
  (val1_keep V0 main_arg5 (by decide)).trans (val0_main_arg5 V0)
theorem val1_main_arg6 (V0 : Valuation τ sig (Elt F)) : val1 V0 (no_index (Proc.devRef .tc main_arg6)) = (V0 (Proc.devRef .tc main_arg6)) :=
  (val1_keep V0 main_arg6 (by decide)).trans (val0_main_arg6 V0)
theorem val1_main_arg7 (V0 : Valuation τ sig (Elt F)) : val1 V0 (no_index (Proc.devRef .tc main_arg7)) = (V0 (Proc.devRef .tc main_arg7)) :=
  (val1_keep V0 main_arg7 (by decide)).trans (val0_main_arg7 V0)
theorem val1_main_arg8 (V0 : Valuation τ sig (Elt F)) : val1 V0 (no_index (Proc.devRef .tc main_arg8)) = (V0 (Proc.devRef .tc main_arg8)) :=
  (val1_keep V0 main_arg8 (by decide)).trans (val0_main_arg8 V0)
theorem val1_main_arg9 (V0 : Valuation τ sig (Elt F)) : val1 V0 (no_index (Proc.devRef .tc main_arg9)) = (V0 (Proc.devRef .tc main_arg9)) :=
  (val1_keep V0 main_arg9 (by decide)).trans (val0_main_arg9 V0)
set_option maxRecDepth 8192 in
set_option maxHeartbeats 2900000 in
theorem val1_main_v4 (V0 : Valuation τ sig (Elt F)) : val1 V0 (no_index (Proc.devRef .tc main_v4)) = (xH0 (V0 (Proc.devRef .tc main_arg0)) (V0 (Proc.devRef .tc main_arg3))) := by
  unfold val1
  simp only [seg0, seg1, seg2]
  after_results_simp
  try simp only [val0_main_arg0, val0_main_arg3, TRef.toBuf, TRef.ofBuf, cast_cast, cast_eq]
  all_goals rfl

/-- The device's buffer contents after the first 2 stages (the last ends in `main_v8`). -/
def val2 (V0 : Valuation τ sig (Elt F)) : Valuation τ sig (Elt F) := after seg3 (val1 V0)
/-- The buffers stage 2 writes. -/
abbrev win2_W : List (Ref sig .tc) := [main_v5, main_v6, main_v7, main_v8]
theorem seg3_writes : (seg3 : List (HloOp τ sig (Elt F))).Forall fun op => op.writes ⊆ (win2_W.map (Proc.devRef (τ := τ) .tc)).toFinset :=
  ⟨writes_sub _ main_v5 rfl (by decide),
   writes_sub _ main_v6 rfl (by decide),
   writes_sub _ main_v7 rfl (by decide),
   writes_sub _ main_v8 rfl (by decide)⟩
/-- A buffer that stage 2 does not write keeps its contents through it. -/
theorem val2_keep (V0 : Valuation τ sig (Elt F)) (r : Ref sig .tc) (h : r ∉ win2_W) :
    val2 V0 (Proc.devRef .tc r) = val1 V0 (Proc.devRef .tc r) :=
  after_of_writes_sub seg3 _ seg3_writes h
theorem val2_main_arg0 (V0 : Valuation τ sig (Elt F)) : val2 V0 (no_index (Proc.devRef .tc main_arg0)) = (V0 (Proc.devRef .tc main_arg0)) :=
  (val2_keep V0 main_arg0 (by decide)).trans (val1_main_arg0 V0)
theorem val2_main_arg1 (V0 : Valuation τ sig (Elt F)) : val2 V0 (no_index (Proc.devRef .tc main_arg1)) = (V0 (Proc.devRef .tc main_arg1)) :=
  (val2_keep V0 main_arg1 (by decide)).trans (val1_main_arg1 V0)
theorem val2_main_arg2 (V0 : Valuation τ sig (Elt F)) : val2 V0 (no_index (Proc.devRef .tc main_arg2)) = (V0 (Proc.devRef .tc main_arg2)) :=
  (val2_keep V0 main_arg2 (by decide)).trans (val1_main_arg2 V0)
theorem val2_main_arg3 (V0 : Valuation τ sig (Elt F)) : val2 V0 (no_index (Proc.devRef .tc main_arg3)) = (V0 (Proc.devRef .tc main_arg3)) :=
  (val2_keep V0 main_arg3 (by decide)).trans (val1_main_arg3 V0)
theorem val2_main_arg4 (V0 : Valuation τ sig (Elt F)) : val2 V0 (no_index (Proc.devRef .tc main_arg4)) = (V0 (Proc.devRef .tc main_arg4)) :=
  (val2_keep V0 main_arg4 (by decide)).trans (val1_main_arg4 V0)
theorem val2_main_arg5 (V0 : Valuation τ sig (Elt F)) : val2 V0 (no_index (Proc.devRef .tc main_arg5)) = (V0 (Proc.devRef .tc main_arg5)) :=
  (val2_keep V0 main_arg5 (by decide)).trans (val1_main_arg5 V0)
theorem val2_main_arg6 (V0 : Valuation τ sig (Elt F)) : val2 V0 (no_index (Proc.devRef .tc main_arg6)) = (V0 (Proc.devRef .tc main_arg6)) :=
  (val2_keep V0 main_arg6 (by decide)).trans (val1_main_arg6 V0)
theorem val2_main_arg7 (V0 : Valuation τ sig (Elt F)) : val2 V0 (no_index (Proc.devRef .tc main_arg7)) = (V0 (Proc.devRef .tc main_arg7)) :=
  (val2_keep V0 main_arg7 (by decide)).trans (val1_main_arg7 V0)
theorem val2_main_arg8 (V0 : Valuation τ sig (Elt F)) : val2 V0 (no_index (Proc.devRef .tc main_arg8)) = (V0 (Proc.devRef .tc main_arg8)) :=
  (val2_keep V0 main_arg8 (by decide)).trans (val1_main_arg8 V0)
theorem val2_main_arg9 (V0 : Valuation τ sig (Elt F)) : val2 V0 (no_index (Proc.devRef .tc main_arg9)) = (V0 (Proc.devRef .tc main_arg9)) :=
  (val2_keep V0 main_arg9 (by decide)).trans (val1_main_arg9 V0)
theorem val2_main_v4 (V0 : Valuation τ sig (Elt F)) : val2 V0 (no_index (Proc.devRef .tc main_v4)) = (xH0 (V0 (Proc.devRef .tc main_arg0)) (V0 (Proc.devRef .tc main_arg3))) :=
  (val2_keep V0 main_v4 (by decide)).trans (val1_main_v4 V0)
set_option maxRecDepth 8192 in
set_option maxHeartbeats 400000 in
theorem val2_main_v5 (V0 : Valuation τ sig (Elt F)) : val2 V0 (no_index (Proc.devRef .tc main_v5)) = ((iotaInDim S50000 32 0) : (⟨S50000, .i32⟩ : BufTy).Contents (Elt F)) := by
  unfold val2
  simp only [seg3]
  after_results_simp
  try simp only [TRef.toBuf, TRef.ofBuf, cast_cast, cast_eq]
  all_goals rfl
set_option maxRecDepth 8192 in
set_option maxHeartbeats 400000 in
theorem val2_main_v8 (V0 : Valuation τ sig (Elt F)) : val2 V0 (no_index (Proc.devRef .tc main_v8)) = (xRow (V0 (Proc.devRef .tc main_arg1))) := by
  unfold val2
  simp only [seg3]
  after_results_simp
  try simp only [val1_main_arg1, TRef.toBuf, TRef.ofBuf, cast_cast, cast_eq]
  all_goals rfl

/-- The device's buffer contents after the first 3 stages (the last ends in `main_v11`). -/
def val3 (V0 : Valuation τ sig (Elt F)) : Valuation τ sig (Elt F) := after seg4 (val2 V0)
/-- The buffers stage 3 writes. -/
abbrev win3_W : List (Ref sig .tc) := [main_v9, main_v10, main_v11]
theorem seg4_writes : (seg4 : List (HloOp τ sig (Elt F))).Forall fun op => op.writes ⊆ (win3_W.map (Proc.devRef (τ := τ) .tc)).toFinset :=
  ⟨writes_sub _ main_v9 rfl (by decide),
   writes_sub _ main_v10 rfl (by decide),
   writes_sub _ main_v11 rfl (by decide)⟩
/-- A buffer that stage 3 does not write keeps its contents through it. -/
theorem val3_keep (V0 : Valuation τ sig (Elt F)) (r : Ref sig .tc) (h : r ∉ win3_W) :
    val3 V0 (Proc.devRef .tc r) = val2 V0 (Proc.devRef .tc r) :=
  after_of_writes_sub seg4 _ seg4_writes h
theorem val3_main_arg0 (V0 : Valuation τ sig (Elt F)) : val3 V0 (no_index (Proc.devRef .tc main_arg0)) = (V0 (Proc.devRef .tc main_arg0)) :=
  (val3_keep V0 main_arg0 (by decide)).trans (val2_main_arg0 V0)
theorem val3_main_arg1 (V0 : Valuation τ sig (Elt F)) : val3 V0 (no_index (Proc.devRef .tc main_arg1)) = (V0 (Proc.devRef .tc main_arg1)) :=
  (val3_keep V0 main_arg1 (by decide)).trans (val2_main_arg1 V0)
theorem val3_main_arg2 (V0 : Valuation τ sig (Elt F)) : val3 V0 (no_index (Proc.devRef .tc main_arg2)) = (V0 (Proc.devRef .tc main_arg2)) :=
  (val3_keep V0 main_arg2 (by decide)).trans (val2_main_arg2 V0)
theorem val3_main_arg3 (V0 : Valuation τ sig (Elt F)) : val3 V0 (no_index (Proc.devRef .tc main_arg3)) = (V0 (Proc.devRef .tc main_arg3)) :=
  (val3_keep V0 main_arg3 (by decide)).trans (val2_main_arg3 V0)
theorem val3_main_arg4 (V0 : Valuation τ sig (Elt F)) : val3 V0 (no_index (Proc.devRef .tc main_arg4)) = (V0 (Proc.devRef .tc main_arg4)) :=
  (val3_keep V0 main_arg4 (by decide)).trans (val2_main_arg4 V0)
theorem val3_main_arg5 (V0 : Valuation τ sig (Elt F)) : val3 V0 (no_index (Proc.devRef .tc main_arg5)) = (V0 (Proc.devRef .tc main_arg5)) :=
  (val3_keep V0 main_arg5 (by decide)).trans (val2_main_arg5 V0)
theorem val3_main_arg6 (V0 : Valuation τ sig (Elt F)) : val3 V0 (no_index (Proc.devRef .tc main_arg6)) = (V0 (Proc.devRef .tc main_arg6)) :=
  (val3_keep V0 main_arg6 (by decide)).trans (val2_main_arg6 V0)
theorem val3_main_arg7 (V0 : Valuation τ sig (Elt F)) : val3 V0 (no_index (Proc.devRef .tc main_arg7)) = (V0 (Proc.devRef .tc main_arg7)) :=
  (val3_keep V0 main_arg7 (by decide)).trans (val2_main_arg7 V0)
theorem val3_main_arg8 (V0 : Valuation τ sig (Elt F)) : val3 V0 (no_index (Proc.devRef .tc main_arg8)) = (V0 (Proc.devRef .tc main_arg8)) :=
  (val3_keep V0 main_arg8 (by decide)).trans (val2_main_arg8 V0)
theorem val3_main_arg9 (V0 : Valuation τ sig (Elt F)) : val3 V0 (no_index (Proc.devRef .tc main_arg9)) = (V0 (Proc.devRef .tc main_arg9)) :=
  (val3_keep V0 main_arg9 (by decide)).trans (val2_main_arg9 V0)
theorem val3_main_v4 (V0 : Valuation τ sig (Elt F)) : val3 V0 (no_index (Proc.devRef .tc main_v4)) = (xH0 (V0 (Proc.devRef .tc main_arg0)) (V0 (Proc.devRef .tc main_arg3))) :=
  (val3_keep V0 main_v4 (by decide)).trans (val2_main_v4 V0)
theorem val3_main_v8 (V0 : Valuation τ sig (Elt F)) : val3 V0 (no_index (Proc.devRef .tc main_v8)) = (xRow (V0 (Proc.devRef .tc main_arg1))) :=
  (val3_keep V0 main_v8 (by decide)).trans (val2_main_v8 V0)
set_option maxRecDepth 8192 in
set_option maxHeartbeats 400000 in
theorem val3_main_v11 (V0 : Valuation τ sig (Elt F)) : val3 V0 (no_index (Proc.devRef .tc main_v11)) = (xCol (V0 (Proc.devRef .tc main_arg1))) := by
  unfold val3
  simp only [seg4]
  after_results_simp
  try simp only [val2_main_v5, val2_main_arg1, TRef.toBuf, TRef.ofBuf, cast_cast, cast_eq]
  all_goals rfl

/-- The device's buffer contents after the first 4 stages (the last ends in `main_v15`). -/
def val4 (V0 : Valuation τ sig (Elt F)) : Valuation τ sig (Elt F) := after seg5 (val3 V0)
/-- The buffers stage 4 writes. -/
abbrev win4_W : List (Ref sig .tc) := [main_cst_0, main_v12, main_cst_1, main_v13, main_v14, main_v15]
theorem seg5_writes : (seg5 : List (HloOp τ sig (Elt F))).Forall fun op => op.writes ⊆ (win4_W.map (Proc.devRef (τ := τ) .tc)).toFinset :=
  ⟨writes_sub _ main_cst_0 rfl (by decide),
   writes_sub _ main_v12 rfl (by decide),
   writes_sub _ main_cst_1 rfl (by decide),
   writes_sub _ main_v13 rfl (by decide),
   writes_sub _ main_v14 rfl (by decide),
   writes_sub _ main_v15 rfl (by decide)⟩
/-- A buffer that stage 4 does not write keeps its contents through it. -/
theorem val4_keep (V0 : Valuation τ sig (Elt F)) (r : Ref sig .tc) (h : r ∉ win4_W) :
    val4 V0 (Proc.devRef .tc r) = val3 V0 (Proc.devRef .tc r) :=
  after_of_writes_sub seg5 _ seg5_writes h
theorem val4_main_arg0 (V0 : Valuation τ sig (Elt F)) : val4 V0 (no_index (Proc.devRef .tc main_arg0)) = (V0 (Proc.devRef .tc main_arg0)) :=
  (val4_keep V0 main_arg0 (by decide)).trans (val3_main_arg0 V0)
theorem val4_main_arg1 (V0 : Valuation τ sig (Elt F)) : val4 V0 (no_index (Proc.devRef .tc main_arg1)) = (V0 (Proc.devRef .tc main_arg1)) :=
  (val4_keep V0 main_arg1 (by decide)).trans (val3_main_arg1 V0)
theorem val4_main_arg2 (V0 : Valuation τ sig (Elt F)) : val4 V0 (no_index (Proc.devRef .tc main_arg2)) = (V0 (Proc.devRef .tc main_arg2)) :=
  (val4_keep V0 main_arg2 (by decide)).trans (val3_main_arg2 V0)
theorem val4_main_arg3 (V0 : Valuation τ sig (Elt F)) : val4 V0 (no_index (Proc.devRef .tc main_arg3)) = (V0 (Proc.devRef .tc main_arg3)) :=
  (val4_keep V0 main_arg3 (by decide)).trans (val3_main_arg3 V0)
theorem val4_main_arg4 (V0 : Valuation τ sig (Elt F)) : val4 V0 (no_index (Proc.devRef .tc main_arg4)) = (V0 (Proc.devRef .tc main_arg4)) :=
  (val4_keep V0 main_arg4 (by decide)).trans (val3_main_arg4 V0)
theorem val4_main_arg5 (V0 : Valuation τ sig (Elt F)) : val4 V0 (no_index (Proc.devRef .tc main_arg5)) = (V0 (Proc.devRef .tc main_arg5)) :=
  (val4_keep V0 main_arg5 (by decide)).trans (val3_main_arg5 V0)
theorem val4_main_arg6 (V0 : Valuation τ sig (Elt F)) : val4 V0 (no_index (Proc.devRef .tc main_arg6)) = (V0 (Proc.devRef .tc main_arg6)) :=
  (val4_keep V0 main_arg6 (by decide)).trans (val3_main_arg6 V0)
theorem val4_main_arg7 (V0 : Valuation τ sig (Elt F)) : val4 V0 (no_index (Proc.devRef .tc main_arg7)) = (V0 (Proc.devRef .tc main_arg7)) :=
  (val4_keep V0 main_arg7 (by decide)).trans (val3_main_arg7 V0)
theorem val4_main_arg8 (V0 : Valuation τ sig (Elt F)) : val4 V0 (no_index (Proc.devRef .tc main_arg8)) = (V0 (Proc.devRef .tc main_arg8)) :=
  (val4_keep V0 main_arg8 (by decide)).trans (val3_main_arg8 V0)
theorem val4_main_arg9 (V0 : Valuation τ sig (Elt F)) : val4 V0 (no_index (Proc.devRef .tc main_arg9)) = (V0 (Proc.devRef .tc main_arg9)) :=
  (val4_keep V0 main_arg9 (by decide)).trans (val3_main_arg9 V0)
theorem val4_main_v4 (V0 : Valuation τ sig (Elt F)) : val4 V0 (no_index (Proc.devRef .tc main_v4)) = (xH0 (V0 (Proc.devRef .tc main_arg0)) (V0 (Proc.devRef .tc main_arg3))) :=
  (val4_keep V0 main_v4 (by decide)).trans (val3_main_v4 V0)
theorem val4_main_v8 (V0 : Valuation τ sig (Elt F)) : val4 V0 (no_index (Proc.devRef .tc main_v8)) = (xRow (V0 (Proc.devRef .tc main_arg1))) :=
  (val4_keep V0 main_v8 (by decide)).trans (val3_main_v8 V0)
theorem val4_main_v11 (V0 : Valuation τ sig (Elt F)) : val4 V0 (no_index (Proc.devRef .tc main_v11)) = (xCol (V0 (Proc.devRef .tc main_arg1))) :=
  (val4_keep V0 main_v11 (by decide)).trans (val3_main_v11 V0)
set_option maxRecDepth 8192 in
set_option maxHeartbeats 600000 in
theorem val4_main_v12 (V0 : Valuation τ sig (Elt F)) : val4 V0 (no_index (Proc.devRef .tc main_v12)) = ((broadcastInDim S850000 ![] bcast_S_S850000 : (⟨S_, .f32⟩ : BufTy).Contents (Elt F) → (⟨S850000, .f32⟩ : BufTy).Contents (Elt F)) ((constant S_ .f32 0x3F800000#32) : (⟨S_, .f32⟩ : BufTy).Contents (Elt F))) := by
  unfold val4
  simp only [seg5]
  after_results_simp
  try simp only [TRef.toBuf, TRef.ofBuf, cast_cast, cast_eq]
  all_goals rfl
set_option maxRecDepth 8192 in
set_option maxHeartbeats 600000 in
theorem val4_main_v15 (V0 : Valuation τ sig (Elt F)) : val4 V0 (no_index (Proc.devRef .tc main_v15)) = (xDeg (V0 (Proc.devRef .tc main_arg1))) := by
  unfold val4
  simp only [seg5]
  after_results_simp
  try simp only [val3_main_v11, TRef.toBuf, TRef.ofBuf, cast_cast, cast_eq]
  all_goals rfl

/-- The device's buffer contents after the first 5 stages (the last ends in `main_v20`). -/
def val5 (V0 : Valuation τ sig (Elt F)) : Valuation τ sig (Elt F) := after seg7 (after seg6 (val4 V0))
/-- The buffers stage 5 writes. -/
abbrev win5_W : List (Ref sig .tc) := [main_cst_2, main_v16, main_v17, main_cst_3, main_v18, main_v19, main_cst_4, main_call1_v0, main_call1_v1, main_v20]
theorem seg6_writes : (seg6 : List (HloOp τ sig (Elt F))).Forall fun op => op.writes ⊆ (win5_W.map (Proc.devRef (τ := τ) .tc)).toFinset :=
  ⟨writes_sub _ main_cst_2 rfl (by decide),
   writes_sub _ main_v16 rfl (by decide),
   writes_sub _ main_v17 rfl (by decide),
   writes_sub _ main_cst_3 rfl (by decide),
   writes_sub _ main_v18 rfl (by decide),
   writes_sub _ main_v19 rfl (by decide),
   writes_sub _ main_cst_4 rfl (by decide)⟩
theorem seg7_writes : (seg7 : List (HloOp τ sig (Elt F))).Forall fun op => op.writes ⊆ (win5_W.map (Proc.devRef (τ := τ) .tc)).toFinset :=
  ⟨writes_sub _ main_call1_v0 rfl (by decide),
   writes_sub _ main_call1_v1 rfl (by decide),
   writes_sub _ main_v20 rfl (by decide)⟩
/-- A buffer that stage 5 does not write keeps its contents through it. -/
theorem val5_keep (V0 : Valuation τ sig (Elt F)) (r : Ref sig .tc) (h : r ∉ win5_W) :
    val5 V0 (Proc.devRef .tc r) = val4 V0 (Proc.devRef .tc r) :=
  (after_of_writes_sub seg7 _ seg7_writes h).trans (after_of_writes_sub seg6 _ seg6_writes h)
theorem val5_main_arg0 (V0 : Valuation τ sig (Elt F)) : val5 V0 (no_index (Proc.devRef .tc main_arg0)) = (V0 (Proc.devRef .tc main_arg0)) :=
  (val5_keep V0 main_arg0 (by decide)).trans (val4_main_arg0 V0)
theorem val5_main_arg1 (V0 : Valuation τ sig (Elt F)) : val5 V0 (no_index (Proc.devRef .tc main_arg1)) = (V0 (Proc.devRef .tc main_arg1)) :=
  (val5_keep V0 main_arg1 (by decide)).trans (val4_main_arg1 V0)
theorem val5_main_arg2 (V0 : Valuation τ sig (Elt F)) : val5 V0 (no_index (Proc.devRef .tc main_arg2)) = (V0 (Proc.devRef .tc main_arg2)) :=
  (val5_keep V0 main_arg2 (by decide)).trans (val4_main_arg2 V0)
theorem val5_main_arg3 (V0 : Valuation τ sig (Elt F)) : val5 V0 (no_index (Proc.devRef .tc main_arg3)) = (V0 (Proc.devRef .tc main_arg3)) :=
  (val5_keep V0 main_arg3 (by decide)).trans (val4_main_arg3 V0)
theorem val5_main_arg4 (V0 : Valuation τ sig (Elt F)) : val5 V0 (no_index (Proc.devRef .tc main_arg4)) = (V0 (Proc.devRef .tc main_arg4)) :=
  (val5_keep V0 main_arg4 (by decide)).trans (val4_main_arg4 V0)
theorem val5_main_arg5 (V0 : Valuation τ sig (Elt F)) : val5 V0 (no_index (Proc.devRef .tc main_arg5)) = (V0 (Proc.devRef .tc main_arg5)) :=
  (val5_keep V0 main_arg5 (by decide)).trans (val4_main_arg5 V0)
theorem val5_main_arg6 (V0 : Valuation τ sig (Elt F)) : val5 V0 (no_index (Proc.devRef .tc main_arg6)) = (V0 (Proc.devRef .tc main_arg6)) :=
  (val5_keep V0 main_arg6 (by decide)).trans (val4_main_arg6 V0)
theorem val5_main_arg7 (V0 : Valuation τ sig (Elt F)) : val5 V0 (no_index (Proc.devRef .tc main_arg7)) = (V0 (Proc.devRef .tc main_arg7)) :=
  (val5_keep V0 main_arg7 (by decide)).trans (val4_main_arg7 V0)
theorem val5_main_arg8 (V0 : Valuation τ sig (Elt F)) : val5 V0 (no_index (Proc.devRef .tc main_arg8)) = (V0 (Proc.devRef .tc main_arg8)) :=
  (val5_keep V0 main_arg8 (by decide)).trans (val4_main_arg8 V0)
theorem val5_main_arg9 (V0 : Valuation τ sig (Elt F)) : val5 V0 (no_index (Proc.devRef .tc main_arg9)) = (V0 (Proc.devRef .tc main_arg9)) :=
  (val5_keep V0 main_arg9 (by decide)).trans (val4_main_arg9 V0)
theorem val5_main_v4 (V0 : Valuation τ sig (Elt F)) : val5 V0 (no_index (Proc.devRef .tc main_v4)) = (xH0 (V0 (Proc.devRef .tc main_arg0)) (V0 (Proc.devRef .tc main_arg3))) :=
  (val5_keep V0 main_v4 (by decide)).trans (val4_main_v4 V0)
theorem val5_main_v8 (V0 : Valuation τ sig (Elt F)) : val5 V0 (no_index (Proc.devRef .tc main_v8)) = (xRow (V0 (Proc.devRef .tc main_arg1))) :=
  (val5_keep V0 main_v8 (by decide)).trans (val4_main_v8 V0)
theorem val5_main_v11 (V0 : Valuation τ sig (Elt F)) : val5 V0 (no_index (Proc.devRef .tc main_v11)) = (xCol (V0 (Proc.devRef .tc main_arg1))) :=
  (val5_keep V0 main_v11 (by decide)).trans (val4_main_v11 V0)
theorem val5_main_v12 (V0 : Valuation τ sig (Elt F)) : val5 V0 (no_index (Proc.devRef .tc main_v12)) = ((broadcastInDim S850000 ![] bcast_S_S850000 : (⟨S_, .f32⟩ : BufTy).Contents (Elt F) → (⟨S850000, .f32⟩ : BufTy).Contents (Elt F)) ((constant S_ .f32 0x3F800000#32) : (⟨S_, .f32⟩ : BufTy).Contents (Elt F))) :=
  (val5_keep V0 main_v12 (by decide)).trans (val4_main_v12 V0)
theorem val5_main_v15 (V0 : Valuation τ sig (Elt F)) : val5 V0 (no_index (Proc.devRef .tc main_v15)) = (xDeg (V0 (Proc.devRef .tc main_arg1))) :=
  (val5_keep V0 main_v15 (by decide)).trans (val4_main_v15 V0)
set_option maxRecDepth 8192 in
set_option maxHeartbeats 1000000 in
theorem val5_main_v20 (V0 : Valuation τ sig (Elt F)) : val5 V0 (no_index (Proc.devRef .tc main_v20)) = (xDinv (V0 (Proc.devRef .tc main_arg1))) := by
  unfold val5
  simp only [seg6, seg7]
  after_results_simp
  try simp only [val4_main_v15, TRef.toBuf, TRef.ofBuf, cast_cast, cast_eq]
  all_goals rfl

/-- The device's buffer contents after the first 6 stages (the last ends in `main_v36`). -/
def val6 (V0 : Valuation τ sig (Elt F)) : Valuation τ sig (Elt F) := after seg8 (val5 V0)
/-- The buffers stage 6 writes. -/
abbrev win6_W : List (Ref sig .tc) := [main_c_5, main_v21, main_v22, main_c_6, main_v23, main_v24, main_v25, main_v26, main_v27, main_v28, main_c_7, main_v29, main_v30, main_c_8, main_v31, main_v32, main_v33, main_v34, main_v35, main_v36]
theorem seg8_writes : (seg8 : List (HloOp τ sig (Elt F))).Forall fun op => op.writes ⊆ (win6_W.map (Proc.devRef (τ := τ) .tc)).toFinset :=
  ⟨writes_sub _ main_c_5 rfl (by decide),
   writes_sub _ main_v21 rfl (by decide),
   writes_sub _ main_v22 rfl (by decide),
   writes_sub _ main_c_6 rfl (by decide),
   writes_sub _ main_v23 rfl (by decide),
   writes_sub _ main_v24 rfl (by decide),
   writes_sub _ main_v25 rfl (by decide),
   writes_sub _ main_v26 rfl (by decide),
   writes_sub _ main_v27 rfl (by decide),
   writes_sub _ main_v28 rfl (by decide),
   writes_sub _ main_c_7 rfl (by decide),
   writes_sub _ main_v29 rfl (by decide),
   writes_sub _ main_v30 rfl (by decide),
   writes_sub _ main_c_8 rfl (by decide),
   writes_sub _ main_v31 rfl (by decide),
   writes_sub _ main_v32 rfl (by decide),
   writes_sub _ main_v33 rfl (by decide),
   writes_sub _ main_v34 rfl (by decide),
   writes_sub _ main_v35 rfl (by decide),
   writes_sub _ main_v36 rfl (by decide)⟩
/-- A buffer that stage 6 does not write keeps its contents through it. -/
theorem val6_keep (V0 : Valuation τ sig (Elt F)) (r : Ref sig .tc) (h : r ∉ win6_W) :
    val6 V0 (Proc.devRef .tc r) = val5 V0 (Proc.devRef .tc r) :=
  after_of_writes_sub seg8 _ seg8_writes h
theorem val6_main_arg0 (V0 : Valuation τ sig (Elt F)) : val6 V0 (no_index (Proc.devRef .tc main_arg0)) = (V0 (Proc.devRef .tc main_arg0)) :=
  (val6_keep V0 main_arg0 (by decide)).trans (val5_main_arg0 V0)
theorem val6_main_arg1 (V0 : Valuation τ sig (Elt F)) : val6 V0 (no_index (Proc.devRef .tc main_arg1)) = (V0 (Proc.devRef .tc main_arg1)) :=
  (val6_keep V0 main_arg1 (by decide)).trans (val5_main_arg1 V0)
theorem val6_main_arg2 (V0 : Valuation τ sig (Elt F)) : val6 V0 (no_index (Proc.devRef .tc main_arg2)) = (V0 (Proc.devRef .tc main_arg2)) :=
  (val6_keep V0 main_arg2 (by decide)).trans (val5_main_arg2 V0)
theorem val6_main_arg3 (V0 : Valuation τ sig (Elt F)) : val6 V0 (no_index (Proc.devRef .tc main_arg3)) = (V0 (Proc.devRef .tc main_arg3)) :=
  (val6_keep V0 main_arg3 (by decide)).trans (val5_main_arg3 V0)
theorem val6_main_arg4 (V0 : Valuation τ sig (Elt F)) : val6 V0 (no_index (Proc.devRef .tc main_arg4)) = (V0 (Proc.devRef .tc main_arg4)) :=
  (val6_keep V0 main_arg4 (by decide)).trans (val5_main_arg4 V0)
theorem val6_main_arg5 (V0 : Valuation τ sig (Elt F)) : val6 V0 (no_index (Proc.devRef .tc main_arg5)) = (V0 (Proc.devRef .tc main_arg5)) :=
  (val6_keep V0 main_arg5 (by decide)).trans (val5_main_arg5 V0)
theorem val6_main_arg6 (V0 : Valuation τ sig (Elt F)) : val6 V0 (no_index (Proc.devRef .tc main_arg6)) = (V0 (Proc.devRef .tc main_arg6)) :=
  (val6_keep V0 main_arg6 (by decide)).trans (val5_main_arg6 V0)
theorem val6_main_arg7 (V0 : Valuation τ sig (Elt F)) : val6 V0 (no_index (Proc.devRef .tc main_arg7)) = (V0 (Proc.devRef .tc main_arg7)) :=
  (val6_keep V0 main_arg7 (by decide)).trans (val5_main_arg7 V0)
theorem val6_main_arg8 (V0 : Valuation τ sig (Elt F)) : val6 V0 (no_index (Proc.devRef .tc main_arg8)) = (V0 (Proc.devRef .tc main_arg8)) :=
  (val6_keep V0 main_arg8 (by decide)).trans (val5_main_arg8 V0)
theorem val6_main_arg9 (V0 : Valuation τ sig (Elt F)) : val6 V0 (no_index (Proc.devRef .tc main_arg9)) = (V0 (Proc.devRef .tc main_arg9)) :=
  (val6_keep V0 main_arg9 (by decide)).trans (val5_main_arg9 V0)
theorem val6_main_v4 (V0 : Valuation τ sig (Elt F)) : val6 V0 (no_index (Proc.devRef .tc main_v4)) = (xH0 (V0 (Proc.devRef .tc main_arg0)) (V0 (Proc.devRef .tc main_arg3))) :=
  (val6_keep V0 main_v4 (by decide)).trans (val5_main_v4 V0)
theorem val6_main_v8 (V0 : Valuation τ sig (Elt F)) : val6 V0 (no_index (Proc.devRef .tc main_v8)) = (xRow (V0 (Proc.devRef .tc main_arg1))) :=
  (val6_keep V0 main_v8 (by decide)).trans (val5_main_v8 V0)
theorem val6_main_v11 (V0 : Valuation τ sig (Elt F)) : val6 V0 (no_index (Proc.devRef .tc main_v11)) = (xCol (V0 (Proc.devRef .tc main_arg1))) :=
  (val6_keep V0 main_v11 (by decide)).trans (val5_main_v11 V0)
theorem val6_main_v15 (V0 : Valuation τ sig (Elt F)) : val6 V0 (no_index (Proc.devRef .tc main_v15)) = (xDeg (V0 (Proc.devRef .tc main_arg1))) :=
  (val6_keep V0 main_v15 (by decide)).trans (val5_main_v15 V0)
set_option maxRecDepth 8192 in
set_option maxHeartbeats 2000000 in
theorem val6_main_v36 (V0 : Valuation τ sig (Elt F)) : val6 V0 (no_index (Proc.devRef .tc main_v36)) = (xNorm (V0 (Proc.devRef .tc main_arg1))) := by
  unfold val6
  simp only [seg8]
  after_results_simp
  try simp only [val5_main_v11, val5_main_v20, val5_main_v12, val5_main_v8, TRef.toBuf, TRef.ofBuf, cast_cast, cast_eq]
  all_goals rfl

/-- The device's buffer contents after the first 7 stages (the last ends in `main_v38`). -/
def val7 (V0 : Valuation τ sig (Elt F)) : Valuation τ sig (Elt F) := after seg9 (val6 V0)
/-- The buffers stage 7 writes. -/
abbrev win7_W : List (Ref sig .tc) := [main_cst_9, main_v37, main_v38]
theorem seg9_writes : (seg9 : List (HloOp τ sig (Elt F))).Forall fun op => op.writes ⊆ (win7_W.map (Proc.devRef (τ := τ) .tc)).toFinset :=
  ⟨writes_sub _ main_cst_9 rfl (by decide),
   writes_sub _ main_v37 rfl (by decide),
   writes_sub _ main_v38 rfl (by decide)⟩
/-- A buffer that stage 7 does not write keeps its contents through it. -/
theorem val7_keep (V0 : Valuation τ sig (Elt F)) (r : Ref sig .tc) (h : r ∉ win7_W) :
    val7 V0 (Proc.devRef .tc r) = val6 V0 (Proc.devRef .tc r) :=
  after_of_writes_sub seg9 _ seg9_writes h
theorem val7_main_arg0 (V0 : Valuation τ sig (Elt F)) : val7 V0 (no_index (Proc.devRef .tc main_arg0)) = (V0 (Proc.devRef .tc main_arg0)) :=
  (val7_keep V0 main_arg0 (by decide)).trans (val6_main_arg0 V0)
theorem val7_main_arg1 (V0 : Valuation τ sig (Elt F)) : val7 V0 (no_index (Proc.devRef .tc main_arg1)) = (V0 (Proc.devRef .tc main_arg1)) :=
  (val7_keep V0 main_arg1 (by decide)).trans (val6_main_arg1 V0)
theorem val7_main_arg2 (V0 : Valuation τ sig (Elt F)) : val7 V0 (no_index (Proc.devRef .tc main_arg2)) = (V0 (Proc.devRef .tc main_arg2)) :=
  (val7_keep V0 main_arg2 (by decide)).trans (val6_main_arg2 V0)
theorem val7_main_arg3 (V0 : Valuation τ sig (Elt F)) : val7 V0 (no_index (Proc.devRef .tc main_arg3)) = (V0 (Proc.devRef .tc main_arg3)) :=
  (val7_keep V0 main_arg3 (by decide)).trans (val6_main_arg3 V0)
theorem val7_main_arg4 (V0 : Valuation τ sig (Elt F)) : val7 V0 (no_index (Proc.devRef .tc main_arg4)) = (V0 (Proc.devRef .tc main_arg4)) :=
  (val7_keep V0 main_arg4 (by decide)).trans (val6_main_arg4 V0)
theorem val7_main_arg5 (V0 : Valuation τ sig (Elt F)) : val7 V0 (no_index (Proc.devRef .tc main_arg5)) = (V0 (Proc.devRef .tc main_arg5)) :=
  (val7_keep V0 main_arg5 (by decide)).trans (val6_main_arg5 V0)
theorem val7_main_arg6 (V0 : Valuation τ sig (Elt F)) : val7 V0 (no_index (Proc.devRef .tc main_arg6)) = (V0 (Proc.devRef .tc main_arg6)) :=
  (val7_keep V0 main_arg6 (by decide)).trans (val6_main_arg6 V0)
theorem val7_main_arg7 (V0 : Valuation τ sig (Elt F)) : val7 V0 (no_index (Proc.devRef .tc main_arg7)) = (V0 (Proc.devRef .tc main_arg7)) :=
  (val7_keep V0 main_arg7 (by decide)).trans (val6_main_arg7 V0)
theorem val7_main_arg8 (V0 : Valuation τ sig (Elt F)) : val7 V0 (no_index (Proc.devRef .tc main_arg8)) = (V0 (Proc.devRef .tc main_arg8)) :=
  (val7_keep V0 main_arg8 (by decide)).trans (val6_main_arg8 V0)
theorem val7_main_arg9 (V0 : Valuation τ sig (Elt F)) : val7 V0 (no_index (Proc.devRef .tc main_arg9)) = (V0 (Proc.devRef .tc main_arg9)) :=
  (val7_keep V0 main_arg9 (by decide)).trans (val6_main_arg9 V0)
theorem val7_main_v4 (V0 : Valuation τ sig (Elt F)) : val7 V0 (no_index (Proc.devRef .tc main_v4)) = (xH0 (V0 (Proc.devRef .tc main_arg0)) (V0 (Proc.devRef .tc main_arg3))) :=
  (val7_keep V0 main_v4 (by decide)).trans (val6_main_v4 V0)
theorem val7_main_v8 (V0 : Valuation τ sig (Elt F)) : val7 V0 (no_index (Proc.devRef .tc main_v8)) = (xRow (V0 (Proc.devRef .tc main_arg1))) :=
  (val7_keep V0 main_v8 (by decide)).trans (val6_main_v8 V0)
theorem val7_main_v11 (V0 : Valuation τ sig (Elt F)) : val7 V0 (no_index (Proc.devRef .tc main_v11)) = (xCol (V0 (Proc.devRef .tc main_arg1))) :=
  (val7_keep V0 main_v11 (by decide)).trans (val6_main_v11 V0)
theorem val7_main_v36 (V0 : Valuation τ sig (Elt F)) : val7 V0 (no_index (Proc.devRef .tc main_v36)) = (xNorm (V0 (Proc.devRef .tc main_arg1))) :=
  (val7_keep V0 main_v36 (by decide)).trans (val6_main_v36 V0)
set_option maxRecDepth 8192 in
set_option maxHeartbeats 400000 in
theorem val7_main_v38 (V0 : Valuation τ sig (Elt F)) : val7 V0 (no_index (Proc.devRef .tc main_v38)) = (xCnt (V0 (Proc.devRef .tc main_arg1))) := by
  unfold val7
  simp only [seg9]
  after_results_simp
  try simp only [val6_main_v15, TRef.toBuf, TRef.ofBuf, cast_cast, cast_eq]
  all_goals rfl

/-- The device's buffer contents after the first 8 stages (the last ends in `main_v40`). -/
def val8 (V0 : Valuation τ sig (Elt F)) : Valuation τ sig (Elt F) := after seg10 (val7 V0)
/-- The buffers stage 8 writes. -/
abbrev win8_W : List (Ref sig .tc) := [main_v39, main_v40]
theorem seg10_writes : (seg10 : List (HloOp τ sig (Elt F))).Forall fun op => op.writes ⊆ (win8_W.map (Proc.devRef (τ := τ) .tc)).toFinset :=
  ⟨writes_sub _ main_v39 rfl (by decide),
   writes_sub _ main_v40 rfl (by decide)⟩
/-- A buffer that stage 8 does not write keeps its contents through it. -/
theorem val8_keep (V0 : Valuation τ sig (Elt F)) (r : Ref sig .tc) (h : r ∉ win8_W) :
    val8 V0 (Proc.devRef .tc r) = val7 V0 (Proc.devRef .tc r) :=
  after_of_writes_sub seg10 _ seg10_writes h
theorem val8_main_arg0 (V0 : Valuation τ sig (Elt F)) : val8 V0 (no_index (Proc.devRef .tc main_arg0)) = (V0 (Proc.devRef .tc main_arg0)) :=
  (val8_keep V0 main_arg0 (by decide)).trans (val7_main_arg0 V0)
theorem val8_main_arg1 (V0 : Valuation τ sig (Elt F)) : val8 V0 (no_index (Proc.devRef .tc main_arg1)) = (V0 (Proc.devRef .tc main_arg1)) :=
  (val8_keep V0 main_arg1 (by decide)).trans (val7_main_arg1 V0)
theorem val8_main_arg2 (V0 : Valuation τ sig (Elt F)) : val8 V0 (no_index (Proc.devRef .tc main_arg2)) = (V0 (Proc.devRef .tc main_arg2)) :=
  (val8_keep V0 main_arg2 (by decide)).trans (val7_main_arg2 V0)
theorem val8_main_arg3 (V0 : Valuation τ sig (Elt F)) : val8 V0 (no_index (Proc.devRef .tc main_arg3)) = (V0 (Proc.devRef .tc main_arg3)) :=
  (val8_keep V0 main_arg3 (by decide)).trans (val7_main_arg3 V0)
theorem val8_main_arg4 (V0 : Valuation τ sig (Elt F)) : val8 V0 (no_index (Proc.devRef .tc main_arg4)) = (V0 (Proc.devRef .tc main_arg4)) :=
  (val8_keep V0 main_arg4 (by decide)).trans (val7_main_arg4 V0)
theorem val8_main_arg5 (V0 : Valuation τ sig (Elt F)) : val8 V0 (no_index (Proc.devRef .tc main_arg5)) = (V0 (Proc.devRef .tc main_arg5)) :=
  (val8_keep V0 main_arg5 (by decide)).trans (val7_main_arg5 V0)
theorem val8_main_arg6 (V0 : Valuation τ sig (Elt F)) : val8 V0 (no_index (Proc.devRef .tc main_arg6)) = (V0 (Proc.devRef .tc main_arg6)) :=
  (val8_keep V0 main_arg6 (by decide)).trans (val7_main_arg6 V0)
theorem val8_main_arg7 (V0 : Valuation τ sig (Elt F)) : val8 V0 (no_index (Proc.devRef .tc main_arg7)) = (V0 (Proc.devRef .tc main_arg7)) :=
  (val8_keep V0 main_arg7 (by decide)).trans (val7_main_arg7 V0)
theorem val8_main_arg8 (V0 : Valuation τ sig (Elt F)) : val8 V0 (no_index (Proc.devRef .tc main_arg8)) = (V0 (Proc.devRef .tc main_arg8)) :=
  (val8_keep V0 main_arg8 (by decide)).trans (val7_main_arg8 V0)
theorem val8_main_arg9 (V0 : Valuation τ sig (Elt F)) : val8 V0 (no_index (Proc.devRef .tc main_arg9)) = (V0 (Proc.devRef .tc main_arg9)) :=
  (val8_keep V0 main_arg9 (by decide)).trans (val7_main_arg9 V0)
theorem val8_main_v8 (V0 : Valuation τ sig (Elt F)) : val8 V0 (no_index (Proc.devRef .tc main_v8)) = (xRow (V0 (Proc.devRef .tc main_arg1))) :=
  (val8_keep V0 main_v8 (by decide)).trans (val7_main_v8 V0)
theorem val8_main_v11 (V0 : Valuation τ sig (Elt F)) : val8 V0 (no_index (Proc.devRef .tc main_v11)) = (xCol (V0 (Proc.devRef .tc main_arg1))) :=
  (val8_keep V0 main_v11 (by decide)).trans (val7_main_v11 V0)
theorem val8_main_v36 (V0 : Valuation τ sig (Elt F)) : val8 V0 (no_index (Proc.devRef .tc main_v36)) = (xNorm (V0 (Proc.devRef .tc main_arg1))) :=
  (val8_keep V0 main_v36 (by decide)).trans (val7_main_v36 V0)
theorem val8_main_v38 (V0 : Valuation τ sig (Elt F)) : val8 V0 (no_index (Proc.devRef .tc main_v38)) = (xCnt (V0 (Proc.devRef .tc main_arg1))) :=
  (val8_keep V0 main_v38 (by decide)).trans (val7_main_v38 V0)
set_option maxRecDepth 8192 in
set_option maxHeartbeats 400000 in
theorem val8_main_v39 (V0 : Valuation τ sig (Elt F)) : val8 V0 (no_index (Proc.devRef .tc main_v39)) = ((broadcastInDim S850000x1 ![0] bcast_S850000_S850000x1_0 : (⟨S850000, .f32⟩ : BufTy).Contents (Elt F) → (⟨S850000x1, .f32⟩ : BufTy).Contents (Elt F)) (xNorm (V0 (Proc.devRef .tc main_arg1)))) := by
  unfold val8
  simp only [seg10]
  after_results_simp
  try simp only [val7_main_v36, TRef.toBuf, TRef.ofBuf, cast_cast, cast_eq]
  all_goals rfl
set_option maxRecDepth 8192 in
set_option maxHeartbeats 400000 in
theorem val8_main_v40 (V0 : Valuation τ sig (Elt F)) : val8 V0 (no_index (Proc.devRef .tc main_v40)) = (xHW1 (V0 (Proc.devRef .tc main_arg0)) (V0 (Proc.devRef .tc main_arg3)) (V0 (Proc.devRef .tc main_arg4))) := by
  unfold val8
  simp only [seg10]
  after_results_simp
  try simp only [val7_main_arg4, val7_main_v4, TRef.toBuf, TRef.ofBuf, cast_cast, cast_eq]
  all_goals rfl

/-- The device's buffer contents after the first 9 stages (the last ends in `main_v47`). -/
def val9 (V0 : Valuation τ sig (Elt F)) : Valuation τ sig (Elt F) := after seg12 (after seg11 (val8 V0))
/-- The buffers stage 9 writes. -/
abbrev win9_W : List (Ref sig .tc) := [main_c_10, main_v41, main_v42, main_c_11, main_v43, main_v44, main_v45, main_v46, main_v47]
theorem seg11_writes : (seg11 : List (HloOp τ sig (Elt F))).Forall fun op => op.writes ⊆ (win9_W.map (Proc.devRef (τ := τ) .tc)).toFinset :=
  ⟨writes_sub _ main_c_10 rfl (by decide),
   writes_sub _ main_v41 rfl (by decide),
   writes_sub _ main_v42 rfl (by decide),
   writes_sub _ main_c_11 rfl (by decide),
   writes_sub _ main_v43 rfl (by decide),
   writes_sub _ main_v44 rfl (by decide),
   writes_sub _ main_v45 rfl (by decide)⟩
theorem seg12_writes : (seg12 : List (HloOp τ sig (Elt F))).Forall fun op => op.writes ⊆ (win9_W.map (Proc.devRef (τ := τ) .tc)).toFinset :=
  ⟨writes_sub _ main_v46 rfl (by decide),
   writes_sub _ main_v47 rfl (by decide)⟩
/-- A buffer that stage 9 does not write keeps its contents through it. -/
theorem val9_keep (V0 : Valuation τ sig (Elt F)) (r : Ref sig .tc) (h : r ∉ win9_W) :
    val9 V0 (Proc.devRef .tc r) = val8 V0 (Proc.devRef .tc r) :=
  (after_of_writes_sub seg12 _ seg12_writes h).trans (after_of_writes_sub seg11 _ seg11_writes h)
theorem val9_main_arg0 (V0 : Valuation τ sig (Elt F)) : val9 V0 (no_index (Proc.devRef .tc main_arg0)) = (V0 (Proc.devRef .tc main_arg0)) :=
  (val9_keep V0 main_arg0 (by decide)).trans (val8_main_arg0 V0)
theorem val9_main_arg1 (V0 : Valuation τ sig (Elt F)) : val9 V0 (no_index (Proc.devRef .tc main_arg1)) = (V0 (Proc.devRef .tc main_arg1)) :=
  (val9_keep V0 main_arg1 (by decide)).trans (val8_main_arg1 V0)
theorem val9_main_arg2 (V0 : Valuation τ sig (Elt F)) : val9 V0 (no_index (Proc.devRef .tc main_arg2)) = (V0 (Proc.devRef .tc main_arg2)) :=
  (val9_keep V0 main_arg2 (by decide)).trans (val8_main_arg2 V0)
theorem val9_main_arg3 (V0 : Valuation τ sig (Elt F)) : val9 V0 (no_index (Proc.devRef .tc main_arg3)) = (V0 (Proc.devRef .tc main_arg3)) :=
  (val9_keep V0 main_arg3 (by decide)).trans (val8_main_arg3 V0)
theorem val9_main_arg4 (V0 : Valuation τ sig (Elt F)) : val9 V0 (no_index (Proc.devRef .tc main_arg4)) = (V0 (Proc.devRef .tc main_arg4)) :=
  (val9_keep V0 main_arg4 (by decide)).trans (val8_main_arg4 V0)
theorem val9_main_arg5 (V0 : Valuation τ sig (Elt F)) : val9 V0 (no_index (Proc.devRef .tc main_arg5)) = (V0 (Proc.devRef .tc main_arg5)) :=
  (val9_keep V0 main_arg5 (by decide)).trans (val8_main_arg5 V0)
theorem val9_main_arg6 (V0 : Valuation τ sig (Elt F)) : val9 V0 (no_index (Proc.devRef .tc main_arg6)) = (V0 (Proc.devRef .tc main_arg6)) :=
  (val9_keep V0 main_arg6 (by decide)).trans (val8_main_arg6 V0)
theorem val9_main_arg7 (V0 : Valuation τ sig (Elt F)) : val9 V0 (no_index (Proc.devRef .tc main_arg7)) = (V0 (Proc.devRef .tc main_arg7)) :=
  (val9_keep V0 main_arg7 (by decide)).trans (val8_main_arg7 V0)
theorem val9_main_arg8 (V0 : Valuation τ sig (Elt F)) : val9 V0 (no_index (Proc.devRef .tc main_arg8)) = (V0 (Proc.devRef .tc main_arg8)) :=
  (val9_keep V0 main_arg8 (by decide)).trans (val8_main_arg8 V0)
theorem val9_main_arg9 (V0 : Valuation τ sig (Elt F)) : val9 V0 (no_index (Proc.devRef .tc main_arg9)) = (V0 (Proc.devRef .tc main_arg9)) :=
  (val9_keep V0 main_arg9 (by decide)).trans (val8_main_arg9 V0)
theorem val9_main_v8 (V0 : Valuation τ sig (Elt F)) : val9 V0 (no_index (Proc.devRef .tc main_v8)) = (xRow (V0 (Proc.devRef .tc main_arg1))) :=
  (val9_keep V0 main_v8 (by decide)).trans (val8_main_v8 V0)
theorem val9_main_v11 (V0 : Valuation τ sig (Elt F)) : val9 V0 (no_index (Proc.devRef .tc main_v11)) = (xCol (V0 (Proc.devRef .tc main_arg1))) :=
  (val9_keep V0 main_v11 (by decide)).trans (val8_main_v11 V0)
theorem val9_main_v36 (V0 : Valuation τ sig (Elt F)) : val9 V0 (no_index (Proc.devRef .tc main_v36)) = (xNorm (V0 (Proc.devRef .tc main_arg1))) :=
  (val9_keep V0 main_v36 (by decide)).trans (val8_main_v36 V0)
theorem val9_main_v38 (V0 : Valuation τ sig (Elt F)) : val9 V0 (no_index (Proc.devRef .tc main_v38)) = (xCnt (V0 (Proc.devRef .tc main_arg1))) :=
  (val9_keep V0 main_v38 (by decide)).trans (val8_main_v38 V0)
theorem val9_main_v39 (V0 : Valuation τ sig (Elt F)) : val9 V0 (no_index (Proc.devRef .tc main_v39)) = ((broadcastInDim S850000x1 ![0] bcast_S850000_S850000x1_0 : (⟨S850000, .f32⟩ : BufTy).Contents (Elt F) → (⟨S850000x1, .f32⟩ : BufTy).Contents (Elt F)) (xNorm (V0 (Proc.devRef .tc main_arg1)))) :=
  (val9_keep V0 main_v39 (by decide)).trans (val8_main_v39 V0)
set_option maxRecDepth 8192 in
set_option maxHeartbeats 900000 in
theorem val9_main_v47 (V0 : Valuation τ sig (Elt F)) : val9 V0 (no_index (Proc.devRef .tc main_v47)) = (xGat1 (V0 (Proc.devRef .tc main_arg0)) (V0 (Proc.devRef .tc main_arg1)) (V0 (Proc.devRef .tc main_arg3)) (V0 (Proc.devRef .tc main_arg4))) := by
  unfold val9
  simp only [seg11, seg12]
  after_results_simp
  try simp only [val8_main_v8, val8_main_v40, TRef.toBuf, TRef.ofBuf, cast_cast, cast_eq]
  all_goals rfl

/-- The device's buffer contents after the first 10 stages (the last ends in `main_v52`). -/
def val10 (V0 : Valuation τ sig (Elt F)) : Valuation τ sig (Elt F) := after seg15 (after seg14 (after seg13 (val9 V0)))
/-- The buffers stage 10 writes. -/
abbrev win10_W : List (Ref sig .tc) := [main_v48, main_v49, main_cst_12, main_cst_13, main_call2_v0, main_call2_v1, main_call2_v2, main_call2_v3, main_call2_v4, main_v50, main_cst_14, main_v51, main_v52]
theorem seg13_writes : (seg13 : List (HloOp τ sig (Elt F))).Forall fun op => op.writes ⊆ (win10_W.map (Proc.devRef (τ := τ) .tc)).toFinset :=
  ⟨writes_sub _ main_v48 rfl (by decide),
   writes_sub _ main_v49 rfl (by decide),
   writes_sub _ main_cst_12 rfl (by decide),
   writes_sub _ main_cst_13 rfl (by decide)⟩
theorem seg14_writes : (seg14 : List (HloOp τ sig (Elt F))).Forall fun op => op.writes ⊆ (win10_W.map (Proc.devRef (τ := τ) .tc)).toFinset :=
  ⟨writes_sub _ main_call2_v0 rfl (by decide),
   writes_sub _ main_call2_v1 rfl (by decide),
   writes_sub _ main_call2_v2 rfl (by decide),
   writes_sub _ main_call2_v3 rfl (by decide),
   writes_sub _ main_call2_v4 rfl (by decide),
   writes_sub _ main_v50 rfl (by decide)⟩
theorem seg15_writes : (seg15 : List (HloOp τ sig (Elt F))).Forall fun op => op.writes ⊆ (win10_W.map (Proc.devRef (τ := τ) .tc)).toFinset :=
  ⟨writes_sub _ main_cst_14 rfl (by decide),
   writes_sub _ main_v51 rfl (by decide),
   writes_sub _ main_v52 rfl (by decide)⟩
/-- A buffer that stage 10 does not write keeps its contents through it. -/
theorem val10_keep (V0 : Valuation τ sig (Elt F)) (r : Ref sig .tc) (h : r ∉ win10_W) :
    val10 V0 (Proc.devRef .tc r) = val9 V0 (Proc.devRef .tc r) :=
  ((after_of_writes_sub seg15 _ seg15_writes h).trans (after_of_writes_sub seg14 _ seg14_writes h)).trans (after_of_writes_sub seg13 _ seg13_writes h)
theorem val10_main_arg0 (V0 : Valuation τ sig (Elt F)) : val10 V0 (no_index (Proc.devRef .tc main_arg0)) = (V0 (Proc.devRef .tc main_arg0)) :=
  (val10_keep V0 main_arg0 (by decide)).trans (val9_main_arg0 V0)
theorem val10_main_arg1 (V0 : Valuation τ sig (Elt F)) : val10 V0 (no_index (Proc.devRef .tc main_arg1)) = (V0 (Proc.devRef .tc main_arg1)) :=
  (val10_keep V0 main_arg1 (by decide)).trans (val9_main_arg1 V0)
theorem val10_main_arg2 (V0 : Valuation τ sig (Elt F)) : val10 V0 (no_index (Proc.devRef .tc main_arg2)) = (V0 (Proc.devRef .tc main_arg2)) :=
  (val10_keep V0 main_arg2 (by decide)).trans (val9_main_arg2 V0)
theorem val10_main_arg3 (V0 : Valuation τ sig (Elt F)) : val10 V0 (no_index (Proc.devRef .tc main_arg3)) = (V0 (Proc.devRef .tc main_arg3)) :=
  (val10_keep V0 main_arg3 (by decide)).trans (val9_main_arg3 V0)
theorem val10_main_arg4 (V0 : Valuation τ sig (Elt F)) : val10 V0 (no_index (Proc.devRef .tc main_arg4)) = (V0 (Proc.devRef .tc main_arg4)) :=
  (val10_keep V0 main_arg4 (by decide)).trans (val9_main_arg4 V0)
theorem val10_main_arg5 (V0 : Valuation τ sig (Elt F)) : val10 V0 (no_index (Proc.devRef .tc main_arg5)) = (V0 (Proc.devRef .tc main_arg5)) :=
  (val10_keep V0 main_arg5 (by decide)).trans (val9_main_arg5 V0)
theorem val10_main_arg6 (V0 : Valuation τ sig (Elt F)) : val10 V0 (no_index (Proc.devRef .tc main_arg6)) = (V0 (Proc.devRef .tc main_arg6)) :=
  (val10_keep V0 main_arg6 (by decide)).trans (val9_main_arg6 V0)
theorem val10_main_arg7 (V0 : Valuation τ sig (Elt F)) : val10 V0 (no_index (Proc.devRef .tc main_arg7)) = (V0 (Proc.devRef .tc main_arg7)) :=
  (val10_keep V0 main_arg7 (by decide)).trans (val9_main_arg7 V0)
theorem val10_main_arg8 (V0 : Valuation τ sig (Elt F)) : val10 V0 (no_index (Proc.devRef .tc main_arg8)) = (V0 (Proc.devRef .tc main_arg8)) :=
  (val10_keep V0 main_arg8 (by decide)).trans (val9_main_arg8 V0)
theorem val10_main_arg9 (V0 : Valuation τ sig (Elt F)) : val10 V0 (no_index (Proc.devRef .tc main_arg9)) = (V0 (Proc.devRef .tc main_arg9)) :=
  (val10_keep V0 main_arg9 (by decide)).trans (val9_main_arg9 V0)
theorem val10_main_v8 (V0 : Valuation τ sig (Elt F)) : val10 V0 (no_index (Proc.devRef .tc main_v8)) = (xRow (V0 (Proc.devRef .tc main_arg1))) :=
  (val10_keep V0 main_v8 (by decide)).trans (val9_main_v8 V0)
theorem val10_main_v11 (V0 : Valuation τ sig (Elt F)) : val10 V0 (no_index (Proc.devRef .tc main_v11)) = (xCol (V0 (Proc.devRef .tc main_arg1))) :=
  (val10_keep V0 main_v11 (by decide)).trans (val9_main_v11 V0)
theorem val10_main_v36 (V0 : Valuation τ sig (Elt F)) : val10 V0 (no_index (Proc.devRef .tc main_v36)) = (xNorm (V0 (Proc.devRef .tc main_arg1))) :=
  (val10_keep V0 main_v36 (by decide)).trans (val9_main_v36 V0)
theorem val10_main_v38 (V0 : Valuation τ sig (Elt F)) : val10 V0 (no_index (Proc.devRef .tc main_v38)) = (xCnt (V0 (Proc.devRef .tc main_arg1))) :=
  (val10_keep V0 main_v38 (by decide)).trans (val9_main_v38 V0)
set_option maxRecDepth 8192 in
set_option maxHeartbeats 1300000 in
theorem val10_main_v52 (V0 : Valuation τ sig (Elt F)) : val10 V0 (no_index (Proc.devRef .tc main_v52)) = (xMsg1 (V0 (Proc.devRef .tc main_arg0)) (V0 (Proc.devRef .tc main_arg1)) (V0 (Proc.devRef .tc main_arg3)) (V0 (Proc.devRef .tc main_arg4))) := by
  unfold val10
  simp only [seg13, seg14, seg15]
  after_results_simp
  try simp only [val9_main_v47, val9_main_v39, TRef.toBuf, TRef.ofBuf, cast_cast, cast_eq]
  all_goals rfl

/-- The device's buffer contents after the first 11 stages (the last ends in `main_v55`). -/
def val11 (V0 : Valuation τ sig (Elt F)) : Valuation τ sig (Elt F) := after seg16 (val10 V0)
/-- The buffers stage 11 writes. -/
abbrev win11_W : List (Ref sig .tc) := [main_cst_15, main_v53, main_v54, main_v55]
theorem seg16_writes : (seg16 : List (HloOp τ sig (Elt F))).Forall fun op => op.writes ⊆ (win11_W.map (Proc.devRef (τ := τ) .tc)).toFinset :=
  ⟨writes_sub _ main_cst_15 rfl (by decide),
   writes_sub _ main_v53 rfl (by decide),
   writes_sub _ main_v54 rfl (by decide),
   writes_sub _ main_v55 rfl (by decide)⟩
/-- A buffer that stage 11 does not write keeps its contents through it. -/
theorem val11_keep (V0 : Valuation τ sig (Elt F)) (r : Ref sig .tc) (h : r ∉ win11_W) :
    val11 V0 (Proc.devRef .tc r) = val10 V0 (Proc.devRef .tc r) :=
  after_of_writes_sub seg16 _ seg16_writes h
theorem val11_main_arg0 (V0 : Valuation τ sig (Elt F)) : val11 V0 (no_index (Proc.devRef .tc main_arg0)) = (V0 (Proc.devRef .tc main_arg0)) :=
  (val11_keep V0 main_arg0 (by decide)).trans (val10_main_arg0 V0)
theorem val11_main_arg1 (V0 : Valuation τ sig (Elt F)) : val11 V0 (no_index (Proc.devRef .tc main_arg1)) = (V0 (Proc.devRef .tc main_arg1)) :=
  (val11_keep V0 main_arg1 (by decide)).trans (val10_main_arg1 V0)
theorem val11_main_arg2 (V0 : Valuation τ sig (Elt F)) : val11 V0 (no_index (Proc.devRef .tc main_arg2)) = (V0 (Proc.devRef .tc main_arg2)) :=
  (val11_keep V0 main_arg2 (by decide)).trans (val10_main_arg2 V0)
theorem val11_main_arg3 (V0 : Valuation τ sig (Elt F)) : val11 V0 (no_index (Proc.devRef .tc main_arg3)) = (V0 (Proc.devRef .tc main_arg3)) :=
  (val11_keep V0 main_arg3 (by decide)).trans (val10_main_arg3 V0)
theorem val11_main_arg4 (V0 : Valuation τ sig (Elt F)) : val11 V0 (no_index (Proc.devRef .tc main_arg4)) = (V0 (Proc.devRef .tc main_arg4)) :=
  (val11_keep V0 main_arg4 (by decide)).trans (val10_main_arg4 V0)
theorem val11_main_arg5 (V0 : Valuation τ sig (Elt F)) : val11 V0 (no_index (Proc.devRef .tc main_arg5)) = (V0 (Proc.devRef .tc main_arg5)) :=
  (val11_keep V0 main_arg5 (by decide)).trans (val10_main_arg5 V0)
theorem val11_main_arg6 (V0 : Valuation τ sig (Elt F)) : val11 V0 (no_index (Proc.devRef .tc main_arg6)) = (V0 (Proc.devRef .tc main_arg6)) :=
  (val11_keep V0 main_arg6 (by decide)).trans (val10_main_arg6 V0)
theorem val11_main_arg7 (V0 : Valuation τ sig (Elt F)) : val11 V0 (no_index (Proc.devRef .tc main_arg7)) = (V0 (Proc.devRef .tc main_arg7)) :=
  (val11_keep V0 main_arg7 (by decide)).trans (val10_main_arg7 V0)
theorem val11_main_arg8 (V0 : Valuation τ sig (Elt F)) : val11 V0 (no_index (Proc.devRef .tc main_arg8)) = (V0 (Proc.devRef .tc main_arg8)) :=
  (val11_keep V0 main_arg8 (by decide)).trans (val10_main_arg8 V0)
theorem val11_main_arg9 (V0 : Valuation τ sig (Elt F)) : val11 V0 (no_index (Proc.devRef .tc main_arg9)) = (V0 (Proc.devRef .tc main_arg9)) :=
  (val11_keep V0 main_arg9 (by decide)).trans (val10_main_arg9 V0)
theorem val11_main_v8 (V0 : Valuation τ sig (Elt F)) : val11 V0 (no_index (Proc.devRef .tc main_v8)) = (xRow (V0 (Proc.devRef .tc main_arg1))) :=
  (val11_keep V0 main_v8 (by decide)).trans (val10_main_v8 V0)
theorem val11_main_v11 (V0 : Valuation τ sig (Elt F)) : val11 V0 (no_index (Proc.devRef .tc main_v11)) = (xCol (V0 (Proc.devRef .tc main_arg1))) :=
  (val11_keep V0 main_v11 (by decide)).trans (val10_main_v11 V0)
theorem val11_main_v36 (V0 : Valuation τ sig (Elt F)) : val11 V0 (no_index (Proc.devRef .tc main_v36)) = (xNorm (V0 (Proc.devRef .tc main_arg1))) :=
  (val11_keep V0 main_v36 (by decide)).trans (val10_main_v36 V0)
theorem val11_main_v38 (V0 : Valuation τ sig (Elt F)) : val11 V0 (no_index (Proc.devRef .tc main_v38)) = (xCnt (V0 (Proc.devRef .tc main_arg1))) :=
  (val11_keep V0 main_v38 (by decide)).trans (val10_main_v38 V0)
set_option maxRecDepth 8192 in
set_option maxHeartbeats 400000 in
theorem val11_main_v55 (V0 : Valuation τ sig (Elt F)) : val11 V0 (no_index (Proc.devRef .tc main_v55)) = (xAgg1 (V0 (Proc.devRef .tc main_arg0)) (V0 (Proc.devRef .tc main_arg1)) (V0 (Proc.devRef .tc main_arg3)) (V0 (Proc.devRef .tc main_arg4))) := by
  unfold val11
  simp only [seg16]
  after_results_simp
  try simp only [val10_main_v52, val10_main_v11, TRef.toBuf, TRef.ofBuf, cast_cast, cast_eq]
  all_goals rfl

/-- The device's buffer contents after the first 12 stages (the last ends in `main_v65`). -/
def val12 (V0 : Valuation τ sig (Elt F)) : Valuation τ sig (Elt F) := after seg20 (after seg19 (after seg18 (after seg17 (val11 V0))))
/-- The buffers stage 12 writes. -/
abbrev win12_W : List (Ref sig .tc) := [main_v56, main_v57, main_v58, main_cst_16, main_cst_17, main_call3_v0, main_call3_v1, main_call3_v2, main_call3_v3, main_call3_v4, main_v59, main_cst_18, main_v60, main_v61, main_v62, main_v63, main_v64, main_call4_cst, main_call4_v0, main_v65]
theorem seg17_writes : (seg17 : List (HloOp τ sig (Elt F))).Forall fun op => op.writes ⊆ (win12_W.map (Proc.devRef (τ := τ) .tc)).toFinset :=
  ⟨writes_sub _ main_v56 rfl (by decide),
   writes_sub _ main_v57 rfl (by decide),
   writes_sub _ main_v58 rfl (by decide),
   writes_sub _ main_cst_16 rfl (by decide),
   writes_sub _ main_cst_17 rfl (by decide)⟩
theorem seg18_writes : (seg18 : List (HloOp τ sig (Elt F))).Forall fun op => op.writes ⊆ (win12_W.map (Proc.devRef (τ := τ) .tc)).toFinset :=
  ⟨writes_sub _ main_call3_v0 rfl (by decide),
   writes_sub _ main_call3_v1 rfl (by decide),
   writes_sub _ main_call3_v2 rfl (by decide),
   writes_sub _ main_call3_v3 rfl (by decide),
   writes_sub _ main_call3_v4 rfl (by decide),
   writes_sub _ main_v59 rfl (by decide)⟩
theorem seg19_writes : (seg19 : List (HloOp τ sig (Elt F))).Forall fun op => op.writes ⊆ (win12_W.map (Proc.devRef (τ := τ) .tc)).toFinset :=
  ⟨writes_sub _ main_cst_18 rfl (by decide),
   writes_sub _ main_v60 rfl (by decide),
   writes_sub _ main_v61 rfl (by decide),
   writes_sub _ main_v62 rfl (by decide),
   writes_sub _ main_v63 rfl (by decide),
   writes_sub _ main_v64 rfl (by decide)⟩
theorem seg20_writes : (seg20 : List (HloOp τ sig (Elt F))).Forall fun op => op.writes ⊆ (win12_W.map (Proc.devRef (τ := τ) .tc)).toFinset :=
  ⟨writes_sub _ main_call4_cst rfl (by decide),
   writes_sub _ main_call4_v0 rfl (by decide),
   writes_sub _ main_v65 rfl (by decide)⟩
/-- A buffer that stage 12 does not write keeps its contents through it. -/
theorem val12_keep (V0 : Valuation τ sig (Elt F)) (r : Ref sig .tc) (h : r ∉ win12_W) :
    val12 V0 (Proc.devRef .tc r) = val11 V0 (Proc.devRef .tc r) :=
  (((after_of_writes_sub seg20 _ seg20_writes h).trans (after_of_writes_sub seg19 _ seg19_writes h)).trans (after_of_writes_sub seg18 _ seg18_writes h)).trans (after_of_writes_sub seg17 _ seg17_writes h)
theorem val12_main_arg0 (V0 : Valuation τ sig (Elt F)) : val12 V0 (no_index (Proc.devRef .tc main_arg0)) = (V0 (Proc.devRef .tc main_arg0)) :=
  (val12_keep V0 main_arg0 (by decide)).trans (val11_main_arg0 V0)
theorem val12_main_arg1 (V0 : Valuation τ sig (Elt F)) : val12 V0 (no_index (Proc.devRef .tc main_arg1)) = (V0 (Proc.devRef .tc main_arg1)) :=
  (val12_keep V0 main_arg1 (by decide)).trans (val11_main_arg1 V0)
theorem val12_main_arg2 (V0 : Valuation τ sig (Elt F)) : val12 V0 (no_index (Proc.devRef .tc main_arg2)) = (V0 (Proc.devRef .tc main_arg2)) :=
  (val12_keep V0 main_arg2 (by decide)).trans (val11_main_arg2 V0)
theorem val12_main_arg3 (V0 : Valuation τ sig (Elt F)) : val12 V0 (no_index (Proc.devRef .tc main_arg3)) = (V0 (Proc.devRef .tc main_arg3)) :=
  (val12_keep V0 main_arg3 (by decide)).trans (val11_main_arg3 V0)
theorem val12_main_arg4 (V0 : Valuation τ sig (Elt F)) : val12 V0 (no_index (Proc.devRef .tc main_arg4)) = (V0 (Proc.devRef .tc main_arg4)) :=
  (val12_keep V0 main_arg4 (by decide)).trans (val11_main_arg4 V0)
theorem val12_main_arg5 (V0 : Valuation τ sig (Elt F)) : val12 V0 (no_index (Proc.devRef .tc main_arg5)) = (V0 (Proc.devRef .tc main_arg5)) :=
  (val12_keep V0 main_arg5 (by decide)).trans (val11_main_arg5 V0)
theorem val12_main_arg6 (V0 : Valuation τ sig (Elt F)) : val12 V0 (no_index (Proc.devRef .tc main_arg6)) = (V0 (Proc.devRef .tc main_arg6)) :=
  (val12_keep V0 main_arg6 (by decide)).trans (val11_main_arg6 V0)
theorem val12_main_arg7 (V0 : Valuation τ sig (Elt F)) : val12 V0 (no_index (Proc.devRef .tc main_arg7)) = (V0 (Proc.devRef .tc main_arg7)) :=
  (val12_keep V0 main_arg7 (by decide)).trans (val11_main_arg7 V0)
theorem val12_main_arg8 (V0 : Valuation τ sig (Elt F)) : val12 V0 (no_index (Proc.devRef .tc main_arg8)) = (V0 (Proc.devRef .tc main_arg8)) :=
  (val12_keep V0 main_arg8 (by decide)).trans (val11_main_arg8 V0)
theorem val12_main_arg9 (V0 : Valuation τ sig (Elt F)) : val12 V0 (no_index (Proc.devRef .tc main_arg9)) = (V0 (Proc.devRef .tc main_arg9)) :=
  (val12_keep V0 main_arg9 (by decide)).trans (val11_main_arg9 V0)
theorem val12_main_v8 (V0 : Valuation τ sig (Elt F)) : val12 V0 (no_index (Proc.devRef .tc main_v8)) = (xRow (V0 (Proc.devRef .tc main_arg1))) :=
  (val12_keep V0 main_v8 (by decide)).trans (val11_main_v8 V0)
theorem val12_main_v11 (V0 : Valuation τ sig (Elt F)) : val12 V0 (no_index (Proc.devRef .tc main_v11)) = (xCol (V0 (Proc.devRef .tc main_arg1))) :=
  (val12_keep V0 main_v11 (by decide)).trans (val11_main_v11 V0)
theorem val12_main_v36 (V0 : Valuation τ sig (Elt F)) : val12 V0 (no_index (Proc.devRef .tc main_v36)) = (xNorm (V0 (Proc.devRef .tc main_arg1))) :=
  (val12_keep V0 main_v36 (by decide)).trans (val11_main_v36 V0)
theorem val12_main_v38 (V0 : Valuation τ sig (Elt F)) : val12 V0 (no_index (Proc.devRef .tc main_v38)) = (xCnt (V0 (Proc.devRef .tc main_arg1))) :=
  (val12_keep V0 main_v38 (by decide)).trans (val11_main_v38 V0)
set_option maxRecDepth 8192 in
set_option maxHeartbeats 2000000 in
theorem val12_main_v65 (V0 : Valuation τ sig (Elt F)) : val12 V0 (no_index (Proc.devRef .tc main_v65)) = (xAct1 (V0 (Proc.devRef .tc main_arg0)) (V0 (Proc.devRef .tc main_arg1)) (V0 (Proc.devRef .tc main_arg3)) (V0 (Proc.devRef .tc main_arg4)) (V0 (Proc.devRef .tc main_arg5))) := by
  unfold val12
  simp only [seg17, seg18, seg19, seg20]
  after_results_simp
  try simp only [val11_main_arg5, val11_main_v38, val11_main_v55, TRef.toBuf, TRef.ofBuf, cast_cast, cast_eq]
  all_goals rfl

/-- The device's buffer contents after the first 13 stages (the last ends in `main_v67`). -/
def val13 (V0 : Valuation τ sig (Elt F)) : Valuation τ sig (Elt F) := after seg21 (val12 V0)
/-- The buffers stage 13 writes. -/
abbrev win13_W : List (Ref sig .tc) := [main_v66, main_v67]
theorem seg21_writes : (seg21 : List (HloOp τ sig (Elt F))).Forall fun op => op.writes ⊆ (win13_W.map (Proc.devRef (τ := τ) .tc)).toFinset :=
  ⟨writes_sub _ main_v66 rfl (by decide),
   writes_sub _ main_v67 rfl (by decide)⟩
/-- A buffer that stage 13 does not write keeps its contents through it. -/
theorem val13_keep (V0 : Valuation τ sig (Elt F)) (r : Ref sig .tc) (h : r ∉ win13_W) :
    val13 V0 (Proc.devRef .tc r) = val12 V0 (Proc.devRef .tc r) :=
  after_of_writes_sub seg21 _ seg21_writes h
theorem val13_main_arg0 (V0 : Valuation τ sig (Elt F)) : val13 V0 (no_index (Proc.devRef .tc main_arg0)) = (V0 (Proc.devRef .tc main_arg0)) :=
  (val13_keep V0 main_arg0 (by decide)).trans (val12_main_arg0 V0)
theorem val13_main_arg1 (V0 : Valuation τ sig (Elt F)) : val13 V0 (no_index (Proc.devRef .tc main_arg1)) = (V0 (Proc.devRef .tc main_arg1)) :=
  (val13_keep V0 main_arg1 (by decide)).trans (val12_main_arg1 V0)
theorem val13_main_arg2 (V0 : Valuation τ sig (Elt F)) : val13 V0 (no_index (Proc.devRef .tc main_arg2)) = (V0 (Proc.devRef .tc main_arg2)) :=
  (val13_keep V0 main_arg2 (by decide)).trans (val12_main_arg2 V0)
theorem val13_main_arg3 (V0 : Valuation τ sig (Elt F)) : val13 V0 (no_index (Proc.devRef .tc main_arg3)) = (V0 (Proc.devRef .tc main_arg3)) :=
  (val13_keep V0 main_arg3 (by decide)).trans (val12_main_arg3 V0)
theorem val13_main_arg4 (V0 : Valuation τ sig (Elt F)) : val13 V0 (no_index (Proc.devRef .tc main_arg4)) = (V0 (Proc.devRef .tc main_arg4)) :=
  (val13_keep V0 main_arg4 (by decide)).trans (val12_main_arg4 V0)
theorem val13_main_arg5 (V0 : Valuation τ sig (Elt F)) : val13 V0 (no_index (Proc.devRef .tc main_arg5)) = (V0 (Proc.devRef .tc main_arg5)) :=
  (val13_keep V0 main_arg5 (by decide)).trans (val12_main_arg5 V0)
theorem val13_main_arg6 (V0 : Valuation τ sig (Elt F)) : val13 V0 (no_index (Proc.devRef .tc main_arg6)) = (V0 (Proc.devRef .tc main_arg6)) :=
  (val13_keep V0 main_arg6 (by decide)).trans (val12_main_arg6 V0)
theorem val13_main_arg7 (V0 : Valuation τ sig (Elt F)) : val13 V0 (no_index (Proc.devRef .tc main_arg7)) = (V0 (Proc.devRef .tc main_arg7)) :=
  (val13_keep V0 main_arg7 (by decide)).trans (val12_main_arg7 V0)
theorem val13_main_arg8 (V0 : Valuation τ sig (Elt F)) : val13 V0 (no_index (Proc.devRef .tc main_arg8)) = (V0 (Proc.devRef .tc main_arg8)) :=
  (val13_keep V0 main_arg8 (by decide)).trans (val12_main_arg8 V0)
theorem val13_main_arg9 (V0 : Valuation τ sig (Elt F)) : val13 V0 (no_index (Proc.devRef .tc main_arg9)) = (V0 (Proc.devRef .tc main_arg9)) :=
  (val13_keep V0 main_arg9 (by decide)).trans (val12_main_arg9 V0)
theorem val13_main_v8 (V0 : Valuation τ sig (Elt F)) : val13 V0 (no_index (Proc.devRef .tc main_v8)) = (xRow (V0 (Proc.devRef .tc main_arg1))) :=
  (val13_keep V0 main_v8 (by decide)).trans (val12_main_v8 V0)
theorem val13_main_v11 (V0 : Valuation τ sig (Elt F)) : val13 V0 (no_index (Proc.devRef .tc main_v11)) = (xCol (V0 (Proc.devRef .tc main_arg1))) :=
  (val13_keep V0 main_v11 (by decide)).trans (val12_main_v11 V0)
theorem val13_main_v38 (V0 : Valuation τ sig (Elt F)) : val13 V0 (no_index (Proc.devRef .tc main_v38)) = (xCnt (V0 (Proc.devRef .tc main_arg1))) :=
  (val13_keep V0 main_v38 (by decide)).trans (val12_main_v38 V0)
set_option maxRecDepth 8192 in
set_option maxHeartbeats 400000 in
theorem val13_main_v66 (V0 : Valuation τ sig (Elt F)) : val13 V0 (no_index (Proc.devRef .tc main_v66)) = ((broadcastInDim S850000x1 ![0] bcast_S850000_S850000x1_0 : (⟨S850000, .f32⟩ : BufTy).Contents (Elt F) → (⟨S850000x1, .f32⟩ : BufTy).Contents (Elt F)) (xNorm (V0 (Proc.devRef .tc main_arg1)))) := by
  unfold val13
  simp only [seg21]
  after_results_simp
  try simp only [val12_main_v36, TRef.toBuf, TRef.ofBuf, cast_cast, cast_eq]
  all_goals rfl
set_option maxRecDepth 8192 in
set_option maxHeartbeats 400000 in
theorem val13_main_v67 (V0 : Valuation τ sig (Elt F)) : val13 V0 (no_index (Proc.devRef .tc main_v67)) = (xHW2 (V0 (Proc.devRef .tc main_arg0)) (V0 (Proc.devRef .tc main_arg1)) (V0 (Proc.devRef .tc main_arg3)) (V0 (Proc.devRef .tc main_arg4)) (V0 (Proc.devRef .tc main_arg5)) (V0 (Proc.devRef .tc main_arg6))) := by
  unfold val13
  simp only [seg21]
  after_results_simp
  try simp only [val12_main_arg6, val12_main_v65, TRef.toBuf, TRef.ofBuf, cast_cast, cast_eq]
  all_goals rfl

/-- The device's buffer contents after the first 14 stages (the last ends in `main_v74`). -/
def val14 (V0 : Valuation τ sig (Elt F)) : Valuation τ sig (Elt F) := after seg22 (val13 V0)
/-- The buffers stage 14 writes. -/
abbrev win14_W : List (Ref sig .tc) := [main_c_19, main_v68, main_v69, main_c_20, main_v70, main_v71, main_v72, main_v73, main_v74]
theorem seg22_writes : (seg22 : List (HloOp τ sig (Elt F))).Forall fun op => op.writes ⊆ (win14_W.map (Proc.devRef (τ := τ) .tc)).toFinset :=
  ⟨writes_sub _ main_c_19 rfl (by decide),
   writes_sub _ main_v68 rfl (by decide),
   writes_sub _ main_v69 rfl (by decide),
   writes_sub _ main_c_20 rfl (by decide),
   writes_sub _ main_v70 rfl (by decide),
   writes_sub _ main_v71 rfl (by decide),
   writes_sub _ main_v72 rfl (by decide),
   writes_sub _ main_v73 rfl (by decide),
   writes_sub _ main_v74 rfl (by decide)⟩
/-- A buffer that stage 14 does not write keeps its contents through it. -/
theorem val14_keep (V0 : Valuation τ sig (Elt F)) (r : Ref sig .tc) (h : r ∉ win14_W) :
    val14 V0 (Proc.devRef .tc r) = val13 V0 (Proc.devRef .tc r) :=
  after_of_writes_sub seg22 _ seg22_writes h
theorem val14_main_arg0 (V0 : Valuation τ sig (Elt F)) : val14 V0 (no_index (Proc.devRef .tc main_arg0)) = (V0 (Proc.devRef .tc main_arg0)) :=
  (val14_keep V0 main_arg0 (by decide)).trans (val13_main_arg0 V0)
theorem val14_main_arg1 (V0 : Valuation τ sig (Elt F)) : val14 V0 (no_index (Proc.devRef .tc main_arg1)) = (V0 (Proc.devRef .tc main_arg1)) :=
  (val14_keep V0 main_arg1 (by decide)).trans (val13_main_arg1 V0)
theorem val14_main_arg2 (V0 : Valuation τ sig (Elt F)) : val14 V0 (no_index (Proc.devRef .tc main_arg2)) = (V0 (Proc.devRef .tc main_arg2)) :=
  (val14_keep V0 main_arg2 (by decide)).trans (val13_main_arg2 V0)
theorem val14_main_arg3 (V0 : Valuation τ sig (Elt F)) : val14 V0 (no_index (Proc.devRef .tc main_arg3)) = (V0 (Proc.devRef .tc main_arg3)) :=
  (val14_keep V0 main_arg3 (by decide)).trans (val13_main_arg3 V0)
theorem val14_main_arg4 (V0 : Valuation τ sig (Elt F)) : val14 V0 (no_index (Proc.devRef .tc main_arg4)) = (V0 (Proc.devRef .tc main_arg4)) :=
  (val14_keep V0 main_arg4 (by decide)).trans (val13_main_arg4 V0)
theorem val14_main_arg5 (V0 : Valuation τ sig (Elt F)) : val14 V0 (no_index (Proc.devRef .tc main_arg5)) = (V0 (Proc.devRef .tc main_arg5)) :=
  (val14_keep V0 main_arg5 (by decide)).trans (val13_main_arg5 V0)
theorem val14_main_arg6 (V0 : Valuation τ sig (Elt F)) : val14 V0 (no_index (Proc.devRef .tc main_arg6)) = (V0 (Proc.devRef .tc main_arg6)) :=
  (val14_keep V0 main_arg6 (by decide)).trans (val13_main_arg6 V0)
theorem val14_main_arg7 (V0 : Valuation τ sig (Elt F)) : val14 V0 (no_index (Proc.devRef .tc main_arg7)) = (V0 (Proc.devRef .tc main_arg7)) :=
  (val14_keep V0 main_arg7 (by decide)).trans (val13_main_arg7 V0)
theorem val14_main_arg8 (V0 : Valuation τ sig (Elt F)) : val14 V0 (no_index (Proc.devRef .tc main_arg8)) = (V0 (Proc.devRef .tc main_arg8)) :=
  (val14_keep V0 main_arg8 (by decide)).trans (val13_main_arg8 V0)
theorem val14_main_arg9 (V0 : Valuation τ sig (Elt F)) : val14 V0 (no_index (Proc.devRef .tc main_arg9)) = (V0 (Proc.devRef .tc main_arg9)) :=
  (val14_keep V0 main_arg9 (by decide)).trans (val13_main_arg9 V0)
theorem val14_main_v11 (V0 : Valuation τ sig (Elt F)) : val14 V0 (no_index (Proc.devRef .tc main_v11)) = (xCol (V0 (Proc.devRef .tc main_arg1))) :=
  (val14_keep V0 main_v11 (by decide)).trans (val13_main_v11 V0)
theorem val14_main_v38 (V0 : Valuation τ sig (Elt F)) : val14 V0 (no_index (Proc.devRef .tc main_v38)) = (xCnt (V0 (Proc.devRef .tc main_arg1))) :=
  (val14_keep V0 main_v38 (by decide)).trans (val13_main_v38 V0)
theorem val14_main_v66 (V0 : Valuation τ sig (Elt F)) : val14 V0 (no_index (Proc.devRef .tc main_v66)) = ((broadcastInDim S850000x1 ![0] bcast_S850000_S850000x1_0 : (⟨S850000, .f32⟩ : BufTy).Contents (Elt F) → (⟨S850000x1, .f32⟩ : BufTy).Contents (Elt F)) (xNorm (V0 (Proc.devRef .tc main_arg1)))) :=
  (val14_keep V0 main_v66 (by decide)).trans (val13_main_v66 V0)
set_option maxRecDepth 8192 in
set_option maxHeartbeats 900000 in
theorem val14_main_v74 (V0 : Valuation τ sig (Elt F)) : val14 V0 (no_index (Proc.devRef .tc main_v74)) = (xGat2 (V0 (Proc.devRef .tc main_arg0)) (V0 (Proc.devRef .tc main_arg1)) (V0 (Proc.devRef .tc main_arg3)) (V0 (Proc.devRef .tc main_arg4)) (V0 (Proc.devRef .tc main_arg5)) (V0 (Proc.devRef .tc main_arg6))) := by
  unfold val14
  simp only [seg22]
  after_results_simp
  try simp only [val13_main_v8, val13_main_v67, TRef.toBuf, TRef.ofBuf, cast_cast, cast_eq]
  all_goals rfl

/-- The device's buffer contents after the first 15 stages (the last ends in `main_v79`). -/
def val15 (V0 : Valuation τ sig (Elt F)) : Valuation τ sig (Elt F) := after seg25 (after seg24 (after seg23 (val14 V0)))
/-- The buffers stage 15 writes. -/
abbrev win15_W : List (Ref sig .tc) := [main_v75, main_v76, main_cst_21, main_cst_22, main_call5_v0, main_call5_v1, main_call5_v2, main_call5_v3, main_call5_v4, main_v77, main_cst_23, main_v78, main_v79]
theorem seg23_writes : (seg23 : List (HloOp τ sig (Elt F))).Forall fun op => op.writes ⊆ (win15_W.map (Proc.devRef (τ := τ) .tc)).toFinset :=
  ⟨writes_sub _ main_v75 rfl (by decide),
   writes_sub _ main_v76 rfl (by decide),
   writes_sub _ main_cst_21 rfl (by decide),
   writes_sub _ main_cst_22 rfl (by decide)⟩
theorem seg24_writes : (seg24 : List (HloOp τ sig (Elt F))).Forall fun op => op.writes ⊆ (win15_W.map (Proc.devRef (τ := τ) .tc)).toFinset :=
  ⟨writes_sub _ main_call5_v0 rfl (by decide),
   writes_sub _ main_call5_v1 rfl (by decide),
   writes_sub _ main_call5_v2 rfl (by decide),
   writes_sub _ main_call5_v3 rfl (by decide),
   writes_sub _ main_call5_v4 rfl (by decide),
   writes_sub _ main_v77 rfl (by decide)⟩
theorem seg25_writes : (seg25 : List (HloOp τ sig (Elt F))).Forall fun op => op.writes ⊆ (win15_W.map (Proc.devRef (τ := τ) .tc)).toFinset :=
  ⟨writes_sub _ main_cst_23 rfl (by decide),
   writes_sub _ main_v78 rfl (by decide),
   writes_sub _ main_v79 rfl (by decide)⟩
/-- A buffer that stage 15 does not write keeps its contents through it. -/
theorem val15_keep (V0 : Valuation τ sig (Elt F)) (r : Ref sig .tc) (h : r ∉ win15_W) :
    val15 V0 (Proc.devRef .tc r) = val14 V0 (Proc.devRef .tc r) :=
  ((after_of_writes_sub seg25 _ seg25_writes h).trans (after_of_writes_sub seg24 _ seg24_writes h)).trans (after_of_writes_sub seg23 _ seg23_writes h)
theorem val15_main_arg0 (V0 : Valuation τ sig (Elt F)) : val15 V0 (no_index (Proc.devRef .tc main_arg0)) = (V0 (Proc.devRef .tc main_arg0)) :=
  (val15_keep V0 main_arg0 (by decide)).trans (val14_main_arg0 V0)
theorem val15_main_arg1 (V0 : Valuation τ sig (Elt F)) : val15 V0 (no_index (Proc.devRef .tc main_arg1)) = (V0 (Proc.devRef .tc main_arg1)) :=
  (val15_keep V0 main_arg1 (by decide)).trans (val14_main_arg1 V0)
theorem val15_main_arg2 (V0 : Valuation τ sig (Elt F)) : val15 V0 (no_index (Proc.devRef .tc main_arg2)) = (V0 (Proc.devRef .tc main_arg2)) :=
  (val15_keep V0 main_arg2 (by decide)).trans (val14_main_arg2 V0)
theorem val15_main_arg3 (V0 : Valuation τ sig (Elt F)) : val15 V0 (no_index (Proc.devRef .tc main_arg3)) = (V0 (Proc.devRef .tc main_arg3)) :=
  (val15_keep V0 main_arg3 (by decide)).trans (val14_main_arg3 V0)
theorem val15_main_arg4 (V0 : Valuation τ sig (Elt F)) : val15 V0 (no_index (Proc.devRef .tc main_arg4)) = (V0 (Proc.devRef .tc main_arg4)) :=
  (val15_keep V0 main_arg4 (by decide)).trans (val14_main_arg4 V0)
theorem val15_main_arg5 (V0 : Valuation τ sig (Elt F)) : val15 V0 (no_index (Proc.devRef .tc main_arg5)) = (V0 (Proc.devRef .tc main_arg5)) :=
  (val15_keep V0 main_arg5 (by decide)).trans (val14_main_arg5 V0)
theorem val15_main_arg6 (V0 : Valuation τ sig (Elt F)) : val15 V0 (no_index (Proc.devRef .tc main_arg6)) = (V0 (Proc.devRef .tc main_arg6)) :=
  (val15_keep V0 main_arg6 (by decide)).trans (val14_main_arg6 V0)
theorem val15_main_arg7 (V0 : Valuation τ sig (Elt F)) : val15 V0 (no_index (Proc.devRef .tc main_arg7)) = (V0 (Proc.devRef .tc main_arg7)) :=
  (val15_keep V0 main_arg7 (by decide)).trans (val14_main_arg7 V0)
theorem val15_main_arg8 (V0 : Valuation τ sig (Elt F)) : val15 V0 (no_index (Proc.devRef .tc main_arg8)) = (V0 (Proc.devRef .tc main_arg8)) :=
  (val15_keep V0 main_arg8 (by decide)).trans (val14_main_arg8 V0)
theorem val15_main_arg9 (V0 : Valuation τ sig (Elt F)) : val15 V0 (no_index (Proc.devRef .tc main_arg9)) = (V0 (Proc.devRef .tc main_arg9)) :=
  (val15_keep V0 main_arg9 (by decide)).trans (val14_main_arg9 V0)
theorem val15_main_v11 (V0 : Valuation τ sig (Elt F)) : val15 V0 (no_index (Proc.devRef .tc main_v11)) = (xCol (V0 (Proc.devRef .tc main_arg1))) :=
  (val15_keep V0 main_v11 (by decide)).trans (val14_main_v11 V0)
theorem val15_main_v38 (V0 : Valuation τ sig (Elt F)) : val15 V0 (no_index (Proc.devRef .tc main_v38)) = (xCnt (V0 (Proc.devRef .tc main_arg1))) :=
  (val15_keep V0 main_v38 (by decide)).trans (val14_main_v38 V0)
set_option maxRecDepth 8192 in
set_option maxHeartbeats 1300000 in
theorem val15_main_v79 (V0 : Valuation τ sig (Elt F)) : val15 V0 (no_index (Proc.devRef .tc main_v79)) = (xMsg2 (V0 (Proc.devRef .tc main_arg0)) (V0 (Proc.devRef .tc main_arg1)) (V0 (Proc.devRef .tc main_arg3)) (V0 (Proc.devRef .tc main_arg4)) (V0 (Proc.devRef .tc main_arg5)) (V0 (Proc.devRef .tc main_arg6))) := by
  unfold val15
  simp only [seg23, seg24, seg25]
  after_results_simp
  try simp only [val14_main_v74, val14_main_v66, TRef.toBuf, TRef.ofBuf, cast_cast, cast_eq]
  all_goals rfl

/-- The device's buffer contents after the first 16 stages (the last ends in `main_v82`). -/
def val16 (V0 : Valuation τ sig (Elt F)) : Valuation τ sig (Elt F) := after seg26 (val15 V0)
/-- The buffers stage 16 writes. -/
abbrev win16_W : List (Ref sig .tc) := [main_cst_24, main_v80, main_v81, main_v82]
theorem seg26_writes : (seg26 : List (HloOp τ sig (Elt F))).Forall fun op => op.writes ⊆ (win16_W.map (Proc.devRef (τ := τ) .tc)).toFinset :=
  ⟨writes_sub _ main_cst_24 rfl (by decide),
   writes_sub _ main_v80 rfl (by decide),
   writes_sub _ main_v81 rfl (by decide),
   writes_sub _ main_v82 rfl (by decide)⟩
/-- A buffer that stage 16 does not write keeps its contents through it. -/
theorem val16_keep (V0 : Valuation τ sig (Elt F)) (r : Ref sig .tc) (h : r ∉ win16_W) :
    val16 V0 (Proc.devRef .tc r) = val15 V0 (Proc.devRef .tc r) :=
  after_of_writes_sub seg26 _ seg26_writes h
theorem val16_main_arg0 (V0 : Valuation τ sig (Elt F)) : val16 V0 (no_index (Proc.devRef .tc main_arg0)) = (V0 (Proc.devRef .tc main_arg0)) :=
  (val16_keep V0 main_arg0 (by decide)).trans (val15_main_arg0 V0)
theorem val16_main_arg1 (V0 : Valuation τ sig (Elt F)) : val16 V0 (no_index (Proc.devRef .tc main_arg1)) = (V0 (Proc.devRef .tc main_arg1)) :=
  (val16_keep V0 main_arg1 (by decide)).trans (val15_main_arg1 V0)
theorem val16_main_arg2 (V0 : Valuation τ sig (Elt F)) : val16 V0 (no_index (Proc.devRef .tc main_arg2)) = (V0 (Proc.devRef .tc main_arg2)) :=
  (val16_keep V0 main_arg2 (by decide)).trans (val15_main_arg2 V0)
theorem val16_main_arg3 (V0 : Valuation τ sig (Elt F)) : val16 V0 (no_index (Proc.devRef .tc main_arg3)) = (V0 (Proc.devRef .tc main_arg3)) :=
  (val16_keep V0 main_arg3 (by decide)).trans (val15_main_arg3 V0)
theorem val16_main_arg4 (V0 : Valuation τ sig (Elt F)) : val16 V0 (no_index (Proc.devRef .tc main_arg4)) = (V0 (Proc.devRef .tc main_arg4)) :=
  (val16_keep V0 main_arg4 (by decide)).trans (val15_main_arg4 V0)
theorem val16_main_arg5 (V0 : Valuation τ sig (Elt F)) : val16 V0 (no_index (Proc.devRef .tc main_arg5)) = (V0 (Proc.devRef .tc main_arg5)) :=
  (val16_keep V0 main_arg5 (by decide)).trans (val15_main_arg5 V0)
theorem val16_main_arg6 (V0 : Valuation τ sig (Elt F)) : val16 V0 (no_index (Proc.devRef .tc main_arg6)) = (V0 (Proc.devRef .tc main_arg6)) :=
  (val16_keep V0 main_arg6 (by decide)).trans (val15_main_arg6 V0)
theorem val16_main_arg7 (V0 : Valuation τ sig (Elt F)) : val16 V0 (no_index (Proc.devRef .tc main_arg7)) = (V0 (Proc.devRef .tc main_arg7)) :=
  (val16_keep V0 main_arg7 (by decide)).trans (val15_main_arg7 V0)
theorem val16_main_arg8 (V0 : Valuation τ sig (Elt F)) : val16 V0 (no_index (Proc.devRef .tc main_arg8)) = (V0 (Proc.devRef .tc main_arg8)) :=
  (val16_keep V0 main_arg8 (by decide)).trans (val15_main_arg8 V0)
theorem val16_main_arg9 (V0 : Valuation τ sig (Elt F)) : val16 V0 (no_index (Proc.devRef .tc main_arg9)) = (V0 (Proc.devRef .tc main_arg9)) :=
  (val16_keep V0 main_arg9 (by decide)).trans (val15_main_arg9 V0)
theorem val16_main_v38 (V0 : Valuation τ sig (Elt F)) : val16 V0 (no_index (Proc.devRef .tc main_v38)) = (xCnt (V0 (Proc.devRef .tc main_arg1))) :=
  (val16_keep V0 main_v38 (by decide)).trans (val15_main_v38 V0)
set_option maxRecDepth 8192 in
set_option maxHeartbeats 400000 in
theorem val16_main_v82 (V0 : Valuation τ sig (Elt F)) : val16 V0 (no_index (Proc.devRef .tc main_v82)) = (xAgg2 (V0 (Proc.devRef .tc main_arg0)) (V0 (Proc.devRef .tc main_arg1)) (V0 (Proc.devRef .tc main_arg3)) (V0 (Proc.devRef .tc main_arg4)) (V0 (Proc.devRef .tc main_arg5)) (V0 (Proc.devRef .tc main_arg6))) := by
  unfold val16
  simp only [seg26]
  after_results_simp
  try simp only [val15_main_v79, val15_main_v11, TRef.toBuf, TRef.ofBuf, cast_cast, cast_eq]
  all_goals rfl

/-- The device's buffer contents after the first 17 stages (the last ends in `main_v91`). -/
def val17 (V0 : Valuation τ sig (Elt F)) : Valuation τ sig (Elt F) := after seg30 (after seg29 (after seg28 (after seg27 (val16 V0))))
/-- The buffers stage 17 writes. -/
abbrev win17_W : List (Ref sig .tc) := [main_v83, main_v84, main_v85, main_cst_25, main_cst_26, main_call6_v0, main_call6_v1, main_call6_v2, main_call6_v3, main_call6_v4, main_v86, main_cst_27, main_v87, main_v88, main_v89, main_v90, main_v91]
theorem seg27_writes : (seg27 : List (HloOp τ sig (Elt F))).Forall fun op => op.writes ⊆ (win17_W.map (Proc.devRef (τ := τ) .tc)).toFinset :=
  ⟨writes_sub _ main_v83 rfl (by decide),
   writes_sub _ main_v84 rfl (by decide),
   writes_sub _ main_v85 rfl (by decide),
   writes_sub _ main_cst_25 rfl (by decide),
   writes_sub _ main_cst_26 rfl (by decide)⟩
theorem seg28_writes : (seg28 : List (HloOp τ sig (Elt F))).Forall fun op => op.writes ⊆ (win17_W.map (Proc.devRef (τ := τ) .tc)).toFinset :=
  ⟨writes_sub _ main_call6_v0 rfl (by decide),
   writes_sub _ main_call6_v1 rfl (by decide),
   writes_sub _ main_call6_v2 rfl (by decide),
   writes_sub _ main_call6_v3 rfl (by decide),
   writes_sub _ main_call6_v4 rfl (by decide),
   writes_sub _ main_v86 rfl (by decide)⟩
theorem seg29_writes : (seg29 : List (HloOp τ sig (Elt F))).Forall fun op => op.writes ⊆ (win17_W.map (Proc.devRef (τ := τ) .tc)).toFinset :=
  ⟨writes_sub _ main_cst_27 rfl (by decide),
   writes_sub _ main_v87 rfl (by decide),
   writes_sub _ main_v88 rfl (by decide),
   writes_sub _ main_v89 rfl (by decide)⟩
theorem seg30_writes : (seg30 : List (HloOp τ sig (Elt F))).Forall fun op => op.writes ⊆ (win17_W.map (Proc.devRef (τ := τ) .tc)).toFinset :=
  ⟨writes_sub _ main_v90 rfl (by decide),
   writes_sub _ main_v91 rfl (by decide)⟩
/-- A buffer that stage 17 does not write keeps its contents through it. -/
theorem val17_keep (V0 : Valuation τ sig (Elt F)) (r : Ref sig .tc) (h : r ∉ win17_W) :
    val17 V0 (Proc.devRef .tc r) = val16 V0 (Proc.devRef .tc r) :=
  (((after_of_writes_sub seg30 _ seg30_writes h).trans (after_of_writes_sub seg29 _ seg29_writes h)).trans (after_of_writes_sub seg28 _ seg28_writes h)).trans (after_of_writes_sub seg27 _ seg27_writes h)
theorem val17_main_arg0 (V0 : Valuation τ sig (Elt F)) : val17 V0 (no_index (Proc.devRef .tc main_arg0)) = (V0 (Proc.devRef .tc main_arg0)) :=
  (val17_keep V0 main_arg0 (by decide)).trans (val16_main_arg0 V0)
theorem val17_main_arg1 (V0 : Valuation τ sig (Elt F)) : val17 V0 (no_index (Proc.devRef .tc main_arg1)) = (V0 (Proc.devRef .tc main_arg1)) :=
  (val17_keep V0 main_arg1 (by decide)).trans (val16_main_arg1 V0)
theorem val17_main_arg2 (V0 : Valuation τ sig (Elt F)) : val17 V0 (no_index (Proc.devRef .tc main_arg2)) = (V0 (Proc.devRef .tc main_arg2)) :=
  (val17_keep V0 main_arg2 (by decide)).trans (val16_main_arg2 V0)
theorem val17_main_arg3 (V0 : Valuation τ sig (Elt F)) : val17 V0 (no_index (Proc.devRef .tc main_arg3)) = (V0 (Proc.devRef .tc main_arg3)) :=
  (val17_keep V0 main_arg3 (by decide)).trans (val16_main_arg3 V0)
theorem val17_main_arg4 (V0 : Valuation τ sig (Elt F)) : val17 V0 (no_index (Proc.devRef .tc main_arg4)) = (V0 (Proc.devRef .tc main_arg4)) :=
  (val17_keep V0 main_arg4 (by decide)).trans (val16_main_arg4 V0)
theorem val17_main_arg5 (V0 : Valuation τ sig (Elt F)) : val17 V0 (no_index (Proc.devRef .tc main_arg5)) = (V0 (Proc.devRef .tc main_arg5)) :=
  (val17_keep V0 main_arg5 (by decide)).trans (val16_main_arg5 V0)
theorem val17_main_arg6 (V0 : Valuation τ sig (Elt F)) : val17 V0 (no_index (Proc.devRef .tc main_arg6)) = (V0 (Proc.devRef .tc main_arg6)) :=
  (val17_keep V0 main_arg6 (by decide)).trans (val16_main_arg6 V0)
theorem val17_main_arg7 (V0 : Valuation τ sig (Elt F)) : val17 V0 (no_index (Proc.devRef .tc main_arg7)) = (V0 (Proc.devRef .tc main_arg7)) :=
  (val17_keep V0 main_arg7 (by decide)).trans (val16_main_arg7 V0)
theorem val17_main_arg8 (V0 : Valuation τ sig (Elt F)) : val17 V0 (no_index (Proc.devRef .tc main_arg8)) = (V0 (Proc.devRef .tc main_arg8)) :=
  (val17_keep V0 main_arg8 (by decide)).trans (val16_main_arg8 V0)
theorem val17_main_arg9 (V0 : Valuation τ sig (Elt F)) : val17 V0 (no_index (Proc.devRef .tc main_arg9)) = (V0 (Proc.devRef .tc main_arg9)) :=
  (val17_keep V0 main_arg9 (by decide)).trans (val16_main_arg9 V0)
set_option maxRecDepth 8192 in
set_option maxHeartbeats 1700000 in
theorem val17_main_v91 (V0 : Valuation τ sig (Elt F)) : val17 V0 (no_index (Proc.devRef .tc main_v91)) = (xAct2 (V0 (Proc.devRef .tc main_arg0)) (V0 (Proc.devRef .tc main_arg1)) (V0 (Proc.devRef .tc main_arg3)) (V0 (Proc.devRef .tc main_arg4)) (V0 (Proc.devRef .tc main_arg5)) (V0 (Proc.devRef .tc main_arg6)) (V0 (Proc.devRef .tc main_arg7))) := by
  unfold val17
  simp only [seg27, seg28, seg29, seg30]
  after_results_simp
  try simp only [val16_main_arg7, val16_main_v38, val16_main_v82, TRef.toBuf, TRef.ofBuf, cast_cast, cast_eq]
  all_goals rfl

/-- The device's buffer contents after the first 18 stages (the last ends in `main_v103`). -/
def val18 (V0 : Valuation τ sig (Elt F)) : Valuation τ sig (Elt F) := after seg31 (val17 V0)
/-- The buffers stage 18 writes. -/
abbrev win18_W : List (Ref sig .tc) := [main_cst_28, main_v92, main_cst_29, main_v93, main_v94, main_v95, main_cst_30, main_v96, main_v97, main_v98, main_cst_31, main_v99, main_v100, main_v101, main_v102, main_v103]
theorem seg31_writes : (seg31 : List (HloOp τ sig (Elt F))).Forall fun op => op.writes ⊆ (win18_W.map (Proc.devRef (τ := τ) .tc)).toFinset :=
  ⟨writes_sub _ main_cst_28 rfl (by decide),
   writes_sub _ main_v92 rfl (by decide),
   writes_sub _ main_cst_29 rfl (by decide),
   writes_sub _ main_v93 rfl (by decide),
   writes_sub _ main_v94 rfl (by decide),
   writes_sub _ main_v95 rfl (by decide),
   writes_sub _ main_cst_30 rfl (by decide),
   writes_sub _ main_v96 rfl (by decide),
   writes_sub _ main_v97 rfl (by decide),
   writes_sub _ main_v98 rfl (by decide),
   writes_sub _ main_cst_31 rfl (by decide),
   writes_sub _ main_v99 rfl (by decide),
   writes_sub _ main_v100 rfl (by decide),
   writes_sub _ main_v101 rfl (by decide),
   writes_sub _ main_v102 rfl (by decide),
   writes_sub _ main_v103 rfl (by decide)⟩
/-- A buffer that stage 18 does not write keeps its contents through it. -/
theorem val18_keep (V0 : Valuation τ sig (Elt F)) (r : Ref sig .tc) (h : r ∉ win18_W) :
    val18 V0 (Proc.devRef .tc r) = val17 V0 (Proc.devRef .tc r) :=
  after_of_writes_sub seg31 _ seg31_writes h
theorem val18_main_arg0 (V0 : Valuation τ sig (Elt F)) : val18 V0 (no_index (Proc.devRef .tc main_arg0)) = (V0 (Proc.devRef .tc main_arg0)) :=
  (val18_keep V0 main_arg0 (by decide)).trans (val17_main_arg0 V0)
theorem val18_main_arg1 (V0 : Valuation τ sig (Elt F)) : val18 V0 (no_index (Proc.devRef .tc main_arg1)) = (V0 (Proc.devRef .tc main_arg1)) :=
  (val18_keep V0 main_arg1 (by decide)).trans (val17_main_arg1 V0)
theorem val18_main_arg2 (V0 : Valuation τ sig (Elt F)) : val18 V0 (no_index (Proc.devRef .tc main_arg2)) = (V0 (Proc.devRef .tc main_arg2)) :=
  (val18_keep V0 main_arg2 (by decide)).trans (val17_main_arg2 V0)
theorem val18_main_arg3 (V0 : Valuation τ sig (Elt F)) : val18 V0 (no_index (Proc.devRef .tc main_arg3)) = (V0 (Proc.devRef .tc main_arg3)) :=
  (val18_keep V0 main_arg3 (by decide)).trans (val17_main_arg3 V0)
theorem val18_main_arg4 (V0 : Valuation τ sig (Elt F)) : val18 V0 (no_index (Proc.devRef .tc main_arg4)) = (V0 (Proc.devRef .tc main_arg4)) :=
  (val18_keep V0 main_arg4 (by decide)).trans (val17_main_arg4 V0)
theorem val18_main_arg5 (V0 : Valuation τ sig (Elt F)) : val18 V0 (no_index (Proc.devRef .tc main_arg5)) = (V0 (Proc.devRef .tc main_arg5)) :=
  (val18_keep V0 main_arg5 (by decide)).trans (val17_main_arg5 V0)
theorem val18_main_arg6 (V0 : Valuation τ sig (Elt F)) : val18 V0 (no_index (Proc.devRef .tc main_arg6)) = (V0 (Proc.devRef .tc main_arg6)) :=
  (val18_keep V0 main_arg6 (by decide)).trans (val17_main_arg6 V0)
theorem val18_main_arg7 (V0 : Valuation τ sig (Elt F)) : val18 V0 (no_index (Proc.devRef .tc main_arg7)) = (V0 (Proc.devRef .tc main_arg7)) :=
  (val18_keep V0 main_arg7 (by decide)).trans (val17_main_arg7 V0)
theorem val18_main_arg8 (V0 : Valuation τ sig (Elt F)) : val18 V0 (no_index (Proc.devRef .tc main_arg8)) = (V0 (Proc.devRef .tc main_arg8)) :=
  (val18_keep V0 main_arg8 (by decide)).trans (val17_main_arg8 V0)
theorem val18_main_arg9 (V0 : Valuation τ sig (Elt F)) : val18 V0 (no_index (Proc.devRef .tc main_arg9)) = (V0 (Proc.devRef .tc main_arg9)) :=
  (val18_keep V0 main_arg9 (by decide)).trans (val17_main_arg9 V0)
set_option maxRecDepth 8192 in
set_option maxHeartbeats 1600000 in
theorem val18_main_v103 (V0 : Valuation τ sig (Elt F)) : val18 V0 (no_index (Proc.devRef .tc main_v103)) = (xPooled (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg5)) (V0 (Proc.devRef .tc main_arg6)) (V0 (Proc.devRef .tc main_arg7))) := by
  unfold val18
  simp only [seg31]
  after_results_simp
  try simp only [val17_main_arg2, val17_main_v91, TRef.toBuf, TRef.ofBuf, cast_cast, cast_eq]
  all_goals rfl

/-- The device's buffer contents after the first 19 stages (the last ends in `main_v107`). -/
def val19 (V0 : Valuation τ sig (Elt F)) : Valuation τ sig (Elt F) := after seg32 (val18 V0)
/-- The buffers stage 19 writes. -/
abbrev win19_W : List (Ref sig .tc) := [main_v104, main_v105, main_v106, main_v107]
theorem seg32_writes : (seg32 : List (HloOp τ sig (Elt F))).Forall fun op => op.writes ⊆ (win19_W.map (Proc.devRef (τ := τ) .tc)).toFinset :=
  ⟨writes_sub _ main_v104 rfl (by decide),
   writes_sub _ main_v105 rfl (by decide),
   writes_sub _ main_v106 rfl (by decide),
   writes_sub _ main_v107 rfl (by decide)⟩
/-- A buffer that stage 19 does not write keeps its contents through it. -/
theorem val19_keep (V0 : Valuation τ sig (Elt F)) (r : Ref sig .tc) (h : r ∉ win19_W) :
    val19 V0 (Proc.devRef .tc r) = val18 V0 (Proc.devRef .tc r) :=
  after_of_writes_sub seg32 _ seg32_writes h
theorem val19_main_arg0 (V0 : Valuation τ sig (Elt F)) : val19 V0 (no_index (Proc.devRef .tc main_arg0)) = (V0 (Proc.devRef .tc main_arg0)) :=
  (val19_keep V0 main_arg0 (by decide)).trans (val18_main_arg0 V0)
theorem val19_main_arg1 (V0 : Valuation τ sig (Elt F)) : val19 V0 (no_index (Proc.devRef .tc main_arg1)) = (V0 (Proc.devRef .tc main_arg1)) :=
  (val19_keep V0 main_arg1 (by decide)).trans (val18_main_arg1 V0)
theorem val19_main_arg2 (V0 : Valuation τ sig (Elt F)) : val19 V0 (no_index (Proc.devRef .tc main_arg2)) = (V0 (Proc.devRef .tc main_arg2)) :=
  (val19_keep V0 main_arg2 (by decide)).trans (val18_main_arg2 V0)
theorem val19_main_arg3 (V0 : Valuation τ sig (Elt F)) : val19 V0 (no_index (Proc.devRef .tc main_arg3)) = (V0 (Proc.devRef .tc main_arg3)) :=
  (val19_keep V0 main_arg3 (by decide)).trans (val18_main_arg3 V0)
theorem val19_main_arg4 (V0 : Valuation τ sig (Elt F)) : val19 V0 (no_index (Proc.devRef .tc main_arg4)) = (V0 (Proc.devRef .tc main_arg4)) :=
  (val19_keep V0 main_arg4 (by decide)).trans (val18_main_arg4 V0)
theorem val19_main_arg5 (V0 : Valuation τ sig (Elt F)) : val19 V0 (no_index (Proc.devRef .tc main_arg5)) = (V0 (Proc.devRef .tc main_arg5)) :=
  (val19_keep V0 main_arg5 (by decide)).trans (val18_main_arg5 V0)
theorem val19_main_arg6 (V0 : Valuation τ sig (Elt F)) : val19 V0 (no_index (Proc.devRef .tc main_arg6)) = (V0 (Proc.devRef .tc main_arg6)) :=
  (val19_keep V0 main_arg6 (by decide)).trans (val18_main_arg6 V0)
theorem val19_main_arg7 (V0 : Valuation τ sig (Elt F)) : val19 V0 (no_index (Proc.devRef .tc main_arg7)) = (V0 (Proc.devRef .tc main_arg7)) :=
  (val19_keep V0 main_arg7 (by decide)).trans (val18_main_arg7 V0)
theorem val19_main_arg8 (V0 : Valuation τ sig (Elt F)) : val19 V0 (no_index (Proc.devRef .tc main_arg8)) = (V0 (Proc.devRef .tc main_arg8)) :=
  (val19_keep V0 main_arg8 (by decide)).trans (val18_main_arg8 V0)
theorem val19_main_arg9 (V0 : Valuation τ sig (Elt F)) : val19 V0 (no_index (Proc.devRef .tc main_arg9)) = (V0 (Proc.devRef .tc main_arg9)) :=
  (val19_keep V0 main_arg9 (by decide)).trans (val18_main_arg9 V0)
set_option maxRecDepth 8192 in
set_option maxHeartbeats 400000 in
theorem val19_main_v107 (V0 : Valuation τ sig (Elt F)) : val19 V0 (no_index (Proc.devRef .tc main_v107)) = (result (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg5)) (V0 (Proc.devRef .tc main_arg6)) (V0 (Proc.devRef .tc main_arg7)) (V0 (Proc.devRef .tc main_arg8)) (V0 (Proc.devRef .tc main_arg9))) := by
  unfold val19
  simp only [seg32]
  after_results_simp
  try simp only [val18_main_arg9, val18_main_arg8, val18_main_v103, TRef.toBuf, TRef.ofBuf, cast_cast, cast_eq]
  all_goals rfl

/-! ## The run -/

/-- The whole line's fold is the contents after the last stage. -/
theorem after_ops (V0 : Valuation τ sig (Elt F)) : after ops V0 = val19 V0 := by
  show after (segs (F := F)).flatten V0 = _
  rw [after_flatten]
  rfl

set_option maxRecDepth 8192 in
/-- On every device, for any float values, from any memory with zero counters: every weakly fair execution of @main
    terminates with the result buffer at the stages' composed term of the arguments' launch contents, and the arguments
    unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v107) = result (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9) :=
  (θ_run defs _ _).mono (fun _ h c => ⟨(h c main_v107).trans (by rw [after_ops]; exact val19_main_v107 (launchContents m c)),
      (h c main_arg0).trans (by rw [after_ops]; exact val19_main_arg0 (launchContents m c)),
      (h c main_arg1).trans (by rw [after_ops]; exact val19_main_arg1 (launchContents m c)),
      (h c main_arg2).trans (by rw [after_ops]; exact val19_main_arg2 (launchContents m c)),
      (h c main_arg3).trans (by rw [after_ops]; exact val19_main_arg3 (launchContents m c)),
      (h c main_arg4).trans (by rw [after_ops]; exact val19_main_arg4 (launchContents m c)),
      (h c main_arg5).trans (by rw [after_ops]; exact val19_main_arg5 (launchContents m c)),
      (h c main_arg6).trans (by rw [after_ops]; exact val19_main_arg6 (launchContents m c)),
      (h c main_arg7).trans (by rw [after_ops]; exact val19_main_arg7 (launchContents m c)),
      (h c main_arg8).trans (by rw [after_ops]; exact val19_main_arg8 (launchContents m c)),
      (h c main_arg9).trans (by rw [after_ops]; exact val19_main_arg9 (launchContents m c))⟩)
    (run_seq scopedRefs_eq scopedSems_eq defs main (fun _ => ops) main_eq (fun _ => ops_sub) m ρ)

end Cert.ReferenceIdeal.RefRun

end
-- ==== Proof.lean ====
/-
  Two rounds of a graph convolution with reciprocal-power mean aggregation, a per-graph mean and a linear readout:
  the tiled TPU program against its plain reference, at exact (extended real) values.

  The kernel runs seven pipelined regions among stretches of host operations: per round a dense layer (a block of
  rows times the weight matrix on the matrix unit, plus a zero bias), then — after the host gathers the rows at each
  edge's source — the message transform 1 / clip(w[e] · x[e, q], 1e-16, 100), then — after the host sums the messages at
  each edge's target — the node update 1 / clip(a[n, q] / cnt[n], 1e-16, 100) + b[q] (rectified in the first round);
  finally the host averages per graph and a last dense layer adds the readout bias. The reference computes the same
  stages with host operations only, writing each reciprocal as a power −1 and each column by a broadcast.

  Frames: the two kernel programs' are the generated frame certificates; the reference's is its run with the value
  dropped. The idealization rewrote nothing, so the preservation claim is trivial. The algebraic claim: the kernel's result
  buffer ends at the reference's composed term of the argument arrays (the regions' blocks tile their arrays, and each
  stage is the reference's stage on the extended reals), and the reference's run ends at that same term; the arguments
  agree. No step uses finiteness of the inputs: the quotient-against-power law is applied at a clipped, positive real.
-/
import proofs.«119466_j60455959658662_1_alg».proof.Defs
import proofs.«119466_j60455959658662_1_alg».proof.Proof.Gen.Kernel
import proofs.«119466_j60455959658662_1_alg».proof.Proof.Gen.Kernel.Frame
import proofs.«119466_j60455959658662_1_alg».proof.Proof.Gen.KernelIdeal
import proofs.«119466_j60455959658662_1_alg».proof.Proof.Gen.KernelIdeal.Frame
import proofs.«119466_j60455959658662_1_alg».proof.Proof.Gen.ReferenceIdeal
import proofs.«119466_j60455959658662_1_alg».proof.Proof.Gen.Pre_finite_inputs
import proofs.«119466_j60455959658662_1_alg».proof.Proof.KernelRun
import proofs.«119466_j60455959658662_1_alg».proof.Proof.KernelResult
import proofs.«119466_j60455959658662_1_alg».proof.Proof.RefRun
import Idealize.ShloMosaic.Adequacy
import Idealize.ShloMosaic.Init

set_option maxRecDepth 16384

noncomputable section

namespace Cert.Proof

open Idealize.ShloMosaic Idealize.ShloMosaic.TcCoe Idealize.SL.Sem

theorem frame_k : Cert.frame_Kernel (hKernel := Cert.Kernel.Gen.facts) (hPre_finite_inputs := Cert.Pre_finite_inputs.Gen.facts) :=
  fun m ρ _ => Cert.Kernel.Gen.frame m ρ

theorem frame_ki : Cert.frame_KernelIdeal (hKernelIdeal := Cert.KernelIdeal.Gen.facts) (hPre_finite_inputs := Cert.Pre_finite_inputs.Gen.facts) :=
  fun m ρ _ => Cert.KernelIdeal.Gen.frame m ρ

/-- The reference's frame: its run, the value dropped. -/
theorem frame_ri : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.RefRun.run (F := Ideal) m ρ)

/-- Both programs end with the reference's composed term of the (agreeing) argument arrays in their result buffers. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' _ hagree
  refine ⟨fun c => Cert.ReferenceIdeal.RefStages.result (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)), ?_, ?_⟩
  · exact (θ_run Cert.KernelIdeal.defs _ _).mono
      (fun r h c => ⟨(h c).1.trans (Cert.KernelIdeal.Result.result_eq m ρ c), (h c).2⟩)
      (Cert.KernelIdeal.Named.run_named (F := Ideal) m ρ)
  · refine (θ_run Cert.ReferenceIdeal.defs _ _).mono (fun r h c => ⟨(h c).1.trans ?_, (h c).2⟩)
      (Cert.ReferenceIdeal.RefRun.run (F := Ideal) m' ρ')
    obtain ⟨e0, e1, e2, e3, e4, e5, e6, e7, e8, e9⟩ := hagree c
    rw [e0, e1, e2, e3, e4, e5, e6, e7, e8, e9]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
